-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v407)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v407) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v432) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x160x160x160 : Shape := ⟨4, ![2, 160, 160, 160]⟩
abbrev S_ : Shape := ⟨0, ![]⟩

class Facts : Prop where
  bcast_S_S2x160x160x160 : S_.BroadcastsInDim S2x160x160x160 (![] : Fin 0 → Fin S2x160x160x160.rank)
  reducesTo_S2x160x160x160_S_d0_1_2_3 : S2x160x160x160.ReducesTo [0, 1, 2, 3] S_
  h_S_ : 0 < S_.numel

variable [Facts]

def fn_part2 {F : FTy → Type} [FloatOps F] (main_arg7 : FVec F S2x160x160x160 .f32) (main_arg8 : FVec F S2x160x160x160 .f32) (main_arg9 : FVec F S2x160x160x160 .f32) (main_v33 : IVec S_ 1) : IVec S_ 1 :=
  let main_v34 : FVec F S2x160x160x160 .f32 := Host.absf main_arg7
  let main_cst_12 : FVec F S_ .f32 := constant S_ .f32 0x7F800000#32
  let main_v35 : FVec F S2x160x160x160 .f32 := broadcastInDim S2x160x160x160 ![] bcast_S_S2x160x160x160 main_cst_12
  let main_v36 : IVec S2x160x160x160 1 := cmpf .olt main_v34 main_v35
  let main_c_13 : IVec S_ 1 := constantI S_ 1 1#1
  let main_v37 : IVec S_ 1 := (fun x v => Host.reduce IntOp.andi x v reducesTo_S2x160x160x160_S_d0_1_2_3 h_S_) main_v36 main_c_13
  let main_v38 : IVec S_ 1 := andi main_v33 main_v37
  let main_v39 : FVec F S2x160x160x160 .f32 := Host.absf main_arg8
  let main_cst_14 : FVec F S_ .f32 := constant S_ .f32 0x7F800000#32
  let main_v40 : FVec F S2x160x160x160 .f32 := broadcastInDim S2x160x160x160 ![] bcast_S_S2x160x160x160 main_cst_14
  let main_v41 : IVec S2x160x160x160 1 := cmpf .olt main_v39 main_v40
  let main_c_15 : IVec S_ 1 := constantI S_ 1 1#1
  let main_v42 : IVec S_ 1 := (fun x v => Host.reduce IntOp.andi x v reducesTo_S2x160x160x160_S_d0_1_2_3 h_S_) main_v41 main_c_15
  let main_v43 : IVec S_ 1 := andi main_v38 main_v42
  let main_v44 : FVec F S2x160x160x160 .f32 := Host.absf main_arg9
  let main_cst_16 : FVec F S_ .f32 := constant S_ .f32 0x7F800000#32
  let main_v45 : FVec F S2x160x160x160 .f32 := broadcastInDim S2x160x160x160 ![] bcast_S_S2x160x160x160 main_cst_16
  let main_v46 : IVec S2x160x160x160 1 := cmpf .olt main_v44 main_v45
  let main_c_17 : IVec S_ 1 := constantI S_ 1 1#1
  let main_v47 : IVec S_ 1 := (fun x v => Host.reduce IntOp.andi x v reducesTo_S2x160x160x160_S_d0_1_2_3 h_S_) main_v46 main_c_17
  let main_v48 : IVec S_ 1 := andi main_v43 main_v47
  main_v48

def fn_part1 {F : FTy → Type} [FloatOps F] (main_arg4 : FVec F S2x160x160x160 .f32) (main_arg5 : FVec F S2x160x160x160 .f32) (main_arg6 : FVec F S2x160x160x160 .f32) (main_arg7 : FVec F S2x160x160x160 .f32) (main_arg8 : FVec F S2x160x160x160 .f32) (main_arg9 : FVec F S2x160x160x160 .f32) (main_v13 : IVec S_ 1) (main_v16 : IVec S2x160x160x160 1) : IVec S_ 1 :=
  let main_c_5 : IVec S_ 1 := constantI S_ 1 1#1
  let main_v17 : IVec S_ 1 := (fun x v => Host.reduce IntOp.andi x v reducesTo_S2x160x160x160_S_d0_1_2_3 h_S_) main_v16 main_c_5
  let main_v18 : IVec S_ 1 := andi main_v13 main_v17
  let main_v19 : FVec F S2x160x160x160 .f32 := Host.absf main_arg4
  let main_cst_6 : FVec F S_ .f32 := constant S_ .f32 0x7F800000#32
  let main_v20 : FVec F S2x160x160x160 .f32 := broadcastInDim S2x160x160x160 ![] bcast_S_S2x160x160x160 main_cst_6
  let main_v21 : IVec S2x160x160x160 1 := cmpf .olt main_v19 main_v20
  let main_c_7 : IVec S_ 1 := constantI S_ 1 1#1
  let main_v22 : IVec S_ 1 := (fun x v => Host.reduce IntOp.andi x v reducesTo_S2x160x160x160_S_d0_1_2_3 h_S_) main_v21 main_c_7
  let main_v23 : IVec S_ 1 := andi main_v18 main_v22
  let main_v24 : FVec F S2x160x160x160 .f32 := Host.absf main_arg5
  let main_cst_8 : FVec F S_ .f32 := constant S_ .f32 0x7F800000#32
  let main_v25 : FVec F S2x160x160x160 .f32 := broadcastInDim S2x160x160x160 ![] bcast_S_S2x160x160x160 main_cst_8
  let main_v26 : IVec S2x160x160x160 1 := cmpf .olt main_v24 main_v25
  let main_c_9 : IVec S_ 1 := constantI S_ 1 1#1
  let main_v27 : IVec S_ 1 := (fun x v => Host.reduce IntOp.andi x v reducesTo_S2x160x160x160_S_d0_1_2_3 h_S_) main_v26 main_c_9
  let main_v28 : IVec S_ 1 := andi main_v23 main_v27
  let main_v29 : FVec F S2x160x160x160 .f32 := Host.absf main_arg6
  let main_cst_10 : FVec F S_ .f32 := constant S_ .f32 0x7F800000#32
  let main_v30 : FVec F S2x160x160x160 .f32 := broadcastInDim S2x160x160x160 ![] bcast_S_S2x160x160x160 main_cst_10
  let main_v31 : IVec S2x160x160x160 1 := cmpf .olt main_v29 main_v30
  let main_c_11 : IVec S_ 1 := constantI S_ 1 1#1
  let main_v32 : IVec S_ 1 := (fun x v => Host.reduce IntOp.andi x v reducesTo_S2x160x160x160_S_d0_1_2_3 h_S_) main_v31 main_c_11
  let main_v33 : IVec S_ 1 := andi main_v28 main_v32
  fn_part2 (F := F) main_arg7 main_arg8 main_arg9 main_v33

def fn {F : FTy → Type} [FloatOps F] (main_arg0 : FVec F S2x160x160x160 .f32) (main_arg1 : FVec F S2x160x160x160 .f32) (main_arg2 : FVec F S2x160x160x160 .f32) (main_arg3 : FVec F S2x160x160x160 .f32) (main_arg4 : FVec F S2x160x160x160 .f32) (main_arg5 : FVec F S2x160x160x160 .f32) (main_arg6 : FVec F S2x160x160x160 .f32) (main_arg7 : FVec F S2x160x160x160 .f32) (main_arg8 : FVec F S2x160x160x160 .f32) (main_arg9 : FVec F S2x160x160x160 .f32) : IVec S_ 1 :=
  let main_v0 : FVec F S2x160x160x160 .f32 := Host.absf main_arg0
  let main_cst : FVec F S_ .f32 := constant S_ .f32 0x7F800000#32
  let main_v1 : FVec F S2x160x160x160 .f32 := broadcastInDim S2x160x160x160 ![] bcast_S_S2x160x160x160 main_cst
  let main_v2 : IVec S2x160x160x160 1 := cmpf .olt main_v0 main_v1
  let main_c : IVec S_ 1 := constantI S_ 1 1#1
  let main_v3 : IVec S_ 1 := (fun x v => Host.reduce IntOp.andi x v reducesTo_S2x160x160x160_S_d0_1_2_3 h_S_) main_v2 main_c
  let main_v4 : FVec F S2x160x160x160 .f32 := Host.absf main_arg1
  let main_cst_0 : FVec F S_ .f32 := constant S_ .f32 0x7F800000#32
  let main_v5 : FVec F S2x160x160x160 .f32 := broadcastInDim S2x160x160x160 ![] bcast_S_S2x160x160x160 main_cst_0
  let main_v6 : IVec S2x160x160x160 1 := cmpf .olt main_v4 main_v5
  let main_c_1 : IVec S_ 1 := constantI S_ 1 1#1
  let main_v7 : IVec S_ 1 := (fun x v => Host.reduce IntOp.andi x v reducesTo_S2x160x160x160_S_d0_1_2_3 h_S_) main_v6 main_c_1
  let main_v8 : IVec S_ 1 := andi main_v3 main_v7
  let main_v9 : FVec F S2x160x160x160 .f32 := Host.absf main_arg2
  let main_cst_2 : FVec F S_ .f32 := constant S_ .f32 0x7F800000#32
  let main_v10 : FVec F S2x160x160x160 .f32 := broadcastInDim S2x160x160x160 ![] bcast_S_S2x160x160x160 main_cst_2
  let main_v11 : IVec S2x160x160x160 1 := cmpf .olt main_v9 main_v10
  let main_c_3 : IVec S_ 1 := constantI S_ 1 1#1
  let main_v12 : IVec S_ 1 := (fun x v => Host.reduce IntOp.andi x v reducesTo_S2x160x160x160_S_d0_1_2_3 h_S_) main_v11 main_c_3
  let main_v13 : IVec S_ 1 := andi main_v8 main_v12
  let main_v14 : FVec F S2x160x160x160 .f32 := Host.absf main_arg3
  let main_cst_4 : FVec F S_ .f32 := constant S_ .f32 0x7F800000#32
  let main_v15 : FVec F S2x160x160x160 .f32 := broadcastInDim S2x160x160x160 ![] bcast_S_S2x160x160x160 main_cst_4
  let main_v16 : IVec S2x160x160x160 1 := cmpf .olt main_v14 main_v15
  fn_part1 (F := F) main_arg4 main_arg5 main_arg6 main_arg7 main_arg8 main_arg9 main_v13 main_v16
-- ==== Kernel.lean ====
abbrev S2x160x160x160 : Shape := ⟨4, ![2, 160, 160, 160]⟩
abbrev S160x2x160x160 : Shape := ⟨4, ![160, 2, 160, 160]⟩
abbrev S159x2x160x160 : Shape := ⟨4, ![159, 2, 160, 160]⟩
abbrev S_ : Shape := ⟨0, ![]⟩
abbrev S1x2x160x160 : Shape := ⟨4, ![1, 2, 160, 160]⟩
abbrev S158x2x160x160 : Shape := ⟨4, ![158, 2, 160, 160]⟩
abbrev S320x25600 : Shape := ⟨2, ![320, 25600]⟩
abbrev S320x256 : Shape := ⟨2, ![320, 256]⟩

abbrev nBuf : Space → Nat
  | .hbm => 466
  | .vmem => 54
  | .smem => 0
  | _ => 0

abbrev hbmTy0_0 (i : Nat) : BufTy := match i % 128 with
  | 0 => ⟨S2x160x160x160, .f32⟩
  | 1 => ⟨S2x160x160x160, .f32⟩
  | 2 => ⟨S2x160x160x160, .f32⟩
  | 3 => ⟨S2x160x160x160, .f32⟩
  | 4 => ⟨S2x160x160x160, .f32⟩
  | 5 => ⟨S2x160x160x160, .f32⟩
  | 6 => ⟨S2x160x160x160, .f32⟩
  | 7 => ⟨S2x160x160x160, .f32⟩
  | 8 => ⟨S2x160x160x160, .f32⟩
  | 9 => ⟨S2x160x160x160, .f32⟩
  | 10 => ⟨S160x2x160x160, .f32⟩
  | 11 => ⟨S159x2x160x160, .f32⟩
  | 12 => ⟨S159x2x160x160, .f32⟩
  | 13 => ⟨S159x2x160x160, .f32⟩
  | 14 => ⟨S_, .f32⟩
  | 15 => ⟨S159x2x160x160, .f32⟩
  | 16 => ⟨S159x2x160x160, .f32⟩
  | 17 => ⟨S1x2x160x160, .f32⟩
  | 18 => ⟨S158x2x160x160, .f32⟩
  | 19 => ⟨S158x2x160x160, .f32⟩
  | 20 => ⟨S158x2x160x160, .f32⟩
  | 21 => ⟨S_, .f32⟩
  | 22 => ⟨S158x2x160x160, .f32⟩
  | 23 => ⟨S158x2x160x160, .f32⟩
  | 24 => ⟨S1x2x160x160, .f32⟩
  | 25 => ⟨S160x2x160x160, .f32⟩
  | 26 => ⟨S2x160x160x160, .f32⟩
  | 27 => ⟨S160x2x160x160, .f32⟩
  | 28 => ⟨S159x2x160x160, .f32⟩
  | 29 => ⟨S159x2x160x160, .f32⟩
  | 30 => ⟨S159x2x160x160, .f32⟩
  | 31 => ⟨S_, .f32⟩
  | 32 => ⟨S159x2x160x160, .f32⟩
  | 33 => ⟨S159x2x160x160, .f32⟩
  | 34 => ⟨S1x2x160x160, .f32⟩
  | 35 => ⟨S158x2x160x160, .f32⟩
  | 36 => ⟨S158x2x160x160, .f32⟩
  | 37 => ⟨S158x2x160x160, .f32⟩
  | 38 => ⟨S_, .f32⟩
  | 39 => ⟨S158x2x160x160, .f32⟩
  | 40 => ⟨S158x2x160x160, .f32⟩
  | 41 => ⟨S1x2x160x160, .f32⟩
  | 42 => ⟨S160x2x160x160, .f32⟩
  | 43 => ⟨S2x160x160x160, .f32⟩
  | 44 => ⟨S160x2x160x160, .f32⟩
  | 45 => ⟨S159x2x160x160, .f32⟩
  | 46 => ⟨S159x2x160x160, .f32⟩
  | 47 => ⟨S159x2x160x160, .f32⟩
  | 48 => ⟨S_, .f32⟩
  | 49 => ⟨S159x2x160x160, .f32⟩
  | 50 => ⟨S159x2x160x160, .f32⟩
  | 51 => ⟨S1x2x160x160, .f32⟩
  | 52 => ⟨S158x2x160x160, .f32⟩
  | 53 => ⟨S158x2x160x160, .f32⟩
  | 54 => ⟨S158x2x160x160, .f32⟩
  | 55 => ⟨S_, .f32⟩
  | 56 => ⟨S158x2x160x160, .f32⟩
  | 57 => ⟨S158x2x160x160, .f32⟩
  | 58 => ⟨S1x2x160x160, .f32⟩
  | 59 => ⟨S160x2x160x160, .f32⟩
  | 60 => ⟨S2x160x160x160, .f32⟩
  | 61 => ⟨S160x2x160x160, .f32⟩
  | 62 => ⟨S159x2x160x160, .f32⟩
  | 63 => ⟨S159x2x160x160, .f32⟩
  | 64 => ⟨S159x2x160x160, .f32⟩
  | 65 => ⟨S_, .f32⟩
  | 66 => ⟨S159x2x160x160, .f32⟩
  | 67 => ⟨S159x2x160x160, .f32⟩
  | 68 => ⟨S1x2x160x160, .f32⟩
  | 69 => ⟨S160x2x160x160, .f32⟩
  | 70 => ⟨S2x160x160x160, .f32⟩
  | 71 => ⟨S160x2x160x160, .f32⟩
  | 72 => ⟨S159x2x160x160, .f32⟩
  | 73 => ⟨S159x2x160x160, .f32⟩
  | 74 => ⟨S159x2x160x160, .f32⟩
  | 75 => ⟨S_, .f32⟩
  | 76 => ⟨S159x2x160x160, .f32⟩
  | 77 => ⟨S159x2x160x160, .f32⟩
  | 78 => ⟨S1x2x160x160, .f32⟩
  | 79 => ⟨S160x2x160x160, .f32⟩
  | 80 => ⟨S2x160x160x160, .f32⟩
  | 81 => ⟨S160x2x160x160, .f32⟩
  | 82 => ⟨S159x2x160x160, .f32⟩
  | 83 => ⟨S159x2x160x160, .f32⟩
  | 84 => ⟨S159x2x160x160, .f32⟩
  | 85 => ⟨S_, .f32⟩
  | 86 => ⟨S159x2x160x160, .f32⟩
  | 87 => ⟨S159x2x160x160, .f32⟩
  | 88 => ⟨S1x2x160x160, .f32⟩
  | 89 => ⟨S160x2x160x160, .f32⟩
  | 90 => ⟨S2x160x160x160, .f32⟩
  | 91 => ⟨S160x2x160x160, .f32⟩
  | 92 => ⟨S159x2x160x160, .f32⟩
  | 93 => ⟨S159x2x160x160, .f32⟩
  | 94 => ⟨S159x2x160x160, .f32⟩
  | 95 => ⟨S_, .f32⟩
  | 96 => ⟨S159x2x160x160, .f32⟩
  | 97 => ⟨S159x2x160x160, .f32⟩
  | 98 => ⟨S1x2x160x160, .f32⟩
  | 99 => ⟨S160x2x160x160, .f32⟩
  | 100 => ⟨S2x160x160x160, .f32⟩
  | 101 => ⟨S160x2x160x160, .f32⟩
  | 102 => ⟨S159x2x160x160, .f32⟩
  | 103 => ⟨S159x2x160x160, .f32⟩
  | 104 => ⟨S159x2x160x160, .f32⟩
  | 105 => ⟨S_, .f32⟩
  | 106 => ⟨S159x2x160x160, .f32⟩
  | 107 => ⟨S159x2x160x160, .f32⟩
  | 108 => ⟨S1x2x160x160, .f32⟩
  | 109 => ⟨S160x2x160x160, .f32⟩
  | 110 => ⟨S2x160x160x160, .f32⟩
  | 111 => ⟨S160x2x160x160, .f32⟩
  | 112 => ⟨S159x2x160x160, .f32⟩
  | 113 => ⟨S159x2x160x160, .f32⟩
  | 114 => ⟨S159x2x160x160, .f32⟩
  | 115 => ⟨S_, .f32⟩
  | 116 => ⟨S159x2x160x160, .f32⟩
  | 117 => ⟨S159x2x160x160, .f32⟩
  | 118 => ⟨S1x2x160x160, .f32⟩
  | 119 => ⟨S160x2x160x160, .f32⟩
  | 120 => ⟨S2x160x160x160, .f32⟩
  | 121 => ⟨S160x2x160x160, .f32⟩
  | 122 => ⟨S159x2x160x160, .f32⟩
  | 123 => ⟨S159x2x160x160, .f32⟩
  | 124 => ⟨S159x2x160x160, .f32⟩
  | 125 => ⟨S_, .f32⟩
  | 126 => ⟨S159x2x160x160, .f32⟩
  | 127 => ⟨S159x2x160x160, .f32⟩
  | _ => ⟨S2x160x160x160, .f32⟩

abbrev hbmTy0_1 (i : Nat) : BufTy := match i % 128 with
  | 0 => ⟨S1x2x160x160, .f32⟩
  | 1 => ⟨S158x2x160x160, .f32⟩
  | 2 => ⟨S158x2x160x160, .f32⟩
  | 3 => ⟨S158x2x160x160, .f32⟩
  | 4 => ⟨S_, .f32⟩
  | 5 => ⟨S158x2x160x160, .f32⟩
  | 6 => ⟨S158x2x160x160, .f32⟩
  | 7 => ⟨S1x2x160x160, .f32⟩
  | 8 => ⟨S160x2x160x160, .f32⟩
  | 9 => ⟨S2x160x160x160, .f32⟩
  | 10 => ⟨S160x2x160x160, .f32⟩
  | 11 => ⟨S159x2x160x160, .f32⟩
  | 12 => ⟨S159x2x160x160, .f32⟩
  | 13 => ⟨S159x2x160x160, .f32⟩
  | 14 => ⟨S_, .f32⟩
  | 15 => ⟨S159x2x160x160, .f32⟩
  | 16 => ⟨S159x2x160x160, .f32⟩
  | 17 => ⟨S1x2x160x160, .f32⟩
  | 18 => ⟨S158x2x160x160, .f32⟩
  | 19 => ⟨S158x2x160x160, .f32⟩
  | 20 => ⟨S158x2x160x160, .f32⟩
  | 21 => ⟨S_, .f32⟩
  | 22 => ⟨S158x2x160x160, .f32⟩
  | 23 => ⟨S158x2x160x160, .f32⟩
  | 24 => ⟨S1x2x160x160, .f32⟩
  | 25 => ⟨S160x2x160x160, .f32⟩
  | 26 => ⟨S2x160x160x160, .f32⟩
  | 27 => ⟨S2x160x160x160, .f32⟩
  | 28 => ⟨S160x2x160x160, .f32⟩
  | 29 => ⟨S159x2x160x160, .f32⟩
  | 30 => ⟨S159x2x160x160, .f32⟩
  | 31 => ⟨S159x2x160x160, .f32⟩
  | 32 => ⟨S_, .f32⟩
  | 33 => ⟨S159x2x160x160, .f32⟩
  | 34 => ⟨S159x2x160x160, .f32⟩
  | 35 => ⟨S1x2x160x160, .f32⟩
  | 36 => ⟨S158x2x160x160, .f32⟩
  | 37 => ⟨S158x2x160x160, .f32⟩
  | 38 => ⟨S158x2x160x160, .f32⟩
  | 39 => ⟨S_, .f32⟩
  | 40 => ⟨S158x2x160x160, .f32⟩
  | 41 => ⟨S158x2x160x160, .f32⟩
  | 42 => ⟨S1x2x160x160, .f32⟩
  | 43 => ⟨S160x2x160x160, .f32⟩
  | 44 => ⟨S2x160x160x160, .f32⟩
  | 45 => ⟨S2x160x160x160, .f32⟩
  | 46 => ⟨S160x2x160x160, .f32⟩
  | 47 => ⟨S159x2x160x160, .f32⟩
  | 48 => ⟨S159x2x160x160, .f32⟩
  | 49 => ⟨S159x2x160x160, .f32⟩
  | 50 => ⟨S_, .f32⟩
  | 51 => ⟨S159x2x160x160, .f32⟩
  | 52 => ⟨S159x2x160x160, .f32⟩
  | 53 => ⟨S1x2x160x160, .f32⟩
  | 54 => ⟨S158x2x160x160, .f32⟩
  | 55 => ⟨S158x2x160x160, .f32⟩
  | 56 => ⟨S158x2x160x160, .f32⟩
  | 57 => ⟨S_, .f32⟩
  | 58 => ⟨S158x2x160x160, .f32⟩
  | 59 => ⟨S158x2x160x160, .f32⟩
  | 60 => ⟨S1x2x160x160, .f32⟩
  | 61 => ⟨S160x2x160x160, .f32⟩
  | 62 => ⟨S2x160x160x160, .f32⟩
  | 63 => ⟨S160x2x160x160, .f32⟩
  | 64 => ⟨S159x2x160x160, .f32⟩
  | 65 => ⟨S159x2x160x160, .f32⟩
  | 66 => ⟨S159x2x160x160, .f32⟩
  | 67 => ⟨S_, .f32⟩
  | 68 => ⟨S159x2x160x160, .f32⟩
  | 69 => ⟨S159x2x160x160, .f32⟩
  | 70 => ⟨S1x2x160x160, .f32⟩
  | 71 => ⟨S158x2x160x160, .f32⟩
  | 72 => ⟨S158x2x160x160, .f32⟩
  | 73 => ⟨S158x2x160x160, .f32⟩
  | 74 => ⟨S_, .f32⟩
  | 75 => ⟨S158x2x160x160, .f32⟩
  | 76 => ⟨S158x2x160x160, .f32⟩
  | 77 => ⟨S1x2x160x160, .f32⟩
  | 78 => ⟨S160x2x160x160, .f32⟩
  | 79 => ⟨S2x160x160x160, .f32⟩
  | 80 => ⟨S2x160x160x160, .f32⟩
  | 81 => ⟨S160x2x160x160, .f32⟩
  | 82 => ⟨S159x2x160x160, .f32⟩
  | 83 => ⟨S159x2x160x160, .f32⟩
  | 84 => ⟨S159x2x160x160, .f32⟩
  | 85 => ⟨S_, .f32⟩
  | 86 => ⟨S159x2x160x160, .f32⟩
  | 87 => ⟨S159x2x160x160, .f32⟩
  | 88 => ⟨S1x2x160x160, .f32⟩
  | 89 => ⟨S158x2x160x160, .f32⟩
  | 90 => ⟨S158x2x160x160, .f32⟩
  | 91 => ⟨S158x2x160x160, .f32⟩
  | 92 => ⟨S_, .f32⟩
  | 93 => ⟨S158x2x160x160, .f32⟩
  | 94 => ⟨S158x2x160x160, .f32⟩
  | 95 => ⟨S1x2x160x160, .f32⟩
  | 96 => ⟨S160x2x160x160, .f32⟩
  | 97 => ⟨S2x160x160x160, .f32⟩
  | 98 => ⟨S2x160x160x160, .f32⟩
  | 99 => ⟨S160x2x160x160, .f32⟩
  | 100 => ⟨S159x2x160x160, .f32⟩
  | 101 => ⟨S159x2x160x160, .f32⟩
  | 102 => ⟨S159x2x160x160, .f32⟩
  | 103 => ⟨S_, .f32⟩
  | 104 => ⟨S159x2x160x160, .f32⟩
  | 105 => ⟨S159x2x160x160, .f32⟩
  | 106 => ⟨S1x2x160x160, .f32⟩
  | 107 => ⟨S158x2x160x160, .f32⟩
  | 108 => ⟨S158x2x160x160, .f32⟩
  | 109 => ⟨S158x2x160x160, .f32⟩
  | 110 => ⟨S_, .f32⟩
  | 111 => ⟨S158x2x160x160, .f32⟩
  | 112 => ⟨S158x2x160x160, .f32⟩
  | 113 => ⟨S1x2x160x160, .f32⟩
  | 114 => ⟨S160x2x160x160, .f32⟩
  | 115 => ⟨S2x160x160x160, .f32⟩
  | 116 => ⟨S160x2x160x160, .f32⟩
  | 117 => ⟨S159x2x160x160, .f32⟩
  | 118 => ⟨S159x2x160x160, .f32⟩
  | 119 => ⟨S159x2x160x160, .f32⟩
  | 120 => ⟨S_, .f32⟩
  | 121 => ⟨S159x2x160x160, .f32⟩
  | 122 => ⟨S159x2x160x160, .f32⟩
  | 123 => ⟨S1x2x160x160, .f32⟩
  | 124 => ⟨S158x2x160x160, .f32⟩
  | 125 => ⟨S158x2x160x160, .f32⟩
  | 126 => ⟨S158x2x160x160, .f32⟩
  | 127 => ⟨S_, .f32⟩
  | _ => ⟨S2x160x160x160, .f32⟩

abbrev hbmTy0_2 (i : Nat) : BufTy := match i % 128 with
  | 0 => ⟨S158x2x160x160, .f32⟩
  | 1 => ⟨S158x2x160x160, .f32⟩
  | 2 => ⟨S1x2x160x160, .f32⟩
  | 3 => ⟨S160x2x160x160, .f32⟩
  | 4 => ⟨S2x160x160x160, .f32⟩
  | 5 => ⟨S2x160x160x160, .f32⟩
  | 6 => ⟨S160x2x160x160, .f32⟩
  | 7 => ⟨S159x2x160x160, .f32⟩
  | 8 => ⟨S159x2x160x160, .f32⟩
  | 9 => ⟨S159x2x160x160, .f32⟩
  | 10 => ⟨S_, .f32⟩
  | 11 => ⟨S159x2x160x160, .f32⟩
  | 12 => ⟨S159x2x160x160, .f32⟩
  | 13 => ⟨S1x2x160x160, .f32⟩
  | 14 => ⟨S158x2x160x160, .f32⟩
  | 15 => ⟨S158x2x160x160, .f32⟩
  | 16 => ⟨S158x2x160x160, .f32⟩
  | 17 => ⟨S_, .f32⟩
  | 18 => ⟨S158x2x160x160, .f32⟩
  | 19 => ⟨S158x2x160x160, .f32⟩
  | 20 => ⟨S1x2x160x160, .f32⟩
  | 21 => ⟨S160x2x160x160, .f32⟩
  | 22 => ⟨S2x160x160x160, .f32⟩
  | 23 => ⟨S2x160x160x160, .f32⟩
  | 24 => ⟨S160x2x160x160, .f32⟩
  | 25 => ⟨S159x2x160x160, .f32⟩
  | 26 => ⟨S159x2x160x160, .f32⟩
  | 27 => ⟨S159x2x160x160, .f32⟩
  | 28 => ⟨S_, .f32⟩
  | 29 => ⟨S159x2x160x160, .f32⟩
  | 30 => ⟨S159x2x160x160, .f32⟩
  | 31 => ⟨S1x2x160x160, .f32⟩
  | 32 => ⟨S160x2x160x160, .f32⟩
  | 33 => ⟨S2x160x160x160, .f32⟩
  | 34 => ⟨S160x2x160x160, .f32⟩
  | 35 => ⟨S159x2x160x160, .f32⟩
  | 36 => ⟨S159x2x160x160, .f32⟩
  | 37 => ⟨S159x2x160x160, .f32⟩
  | 38 => ⟨S_, .f32⟩
  | 39 => ⟨S159x2x160x160, .f32⟩
  | 40 => ⟨S159x2x160x160, .f32⟩
  | 41 => ⟨S1x2x160x160, .f32⟩
  | 42 => ⟨S160x2x160x160, .f32⟩
  | 43 => ⟨S2x160x160x160, .f32⟩
  | 44 => ⟨S160x2x160x160, .f32⟩
  | 45 => ⟨S159x2x160x160, .f32⟩
  | 46 => ⟨S159x2x160x160, .f32⟩
  | 47 => ⟨S159x2x160x160, .f32⟩
  | 48 => ⟨S_, .f32⟩
  | 49 => ⟨S159x2x160x160, .f32⟩
  | 50 => ⟨S159x2x160x160, .f32⟩
  | 51 => ⟨S1x2x160x160, .f32⟩
  | 52 => ⟨S160x2x160x160, .f32⟩
  | 53 => ⟨S2x160x160x160, .f32⟩
  | 54 => ⟨S160x2x160x160, .f32⟩
  | 55 => ⟨S159x2x160x160, .f32⟩
  | 56 => ⟨S159x2x160x160, .f32⟩
  | 57 => ⟨S159x2x160x160, .f32⟩
  | 58 => ⟨S_, .f32⟩
  | 59 => ⟨S159x2x160x160, .f32⟩
  | 60 => ⟨S159x2x160x160, .f32⟩
  | 61 => ⟨S1x2x160x160, .f32⟩
  | 62 => ⟨S160x2x160x160, .f32⟩
  | 63 => ⟨S2x160x160x160, .f32⟩
  | 64 => ⟨S160x2x160x160, .f32⟩
  | 65 => ⟨S159x2x160x160, .f32⟩
  | 66 => ⟨S159x2x160x160, .f32⟩
  | 67 => ⟨S159x2x160x160, .f32⟩
  | 68 => ⟨S_, .f32⟩
  | 69 => ⟨S159x2x160x160, .f32⟩
  | 70 => ⟨S159x2x160x160, .f32⟩
  | 71 => ⟨S1x2x160x160, .f32⟩
  | 72 => ⟨S160x2x160x160, .f32⟩
  | 73 => ⟨S2x160x160x160, .f32⟩
  | 74 => ⟨S2x160x160x160, .f32⟩
  | 75 => ⟨S160x2x160x160, .f32⟩
  | 76 => ⟨S159x2x160x160, .f32⟩
  | 77 => ⟨S159x2x160x160, .f32⟩
  | 78 => ⟨S159x2x160x160, .f32⟩
  | 79 => ⟨S_, .f32⟩
  | 80 => ⟨S159x2x160x160, .f32⟩
  | 81 => ⟨S159x2x160x160, .f32⟩
  | 82 => ⟨S1x2x160x160, .f32⟩
  | 83 => ⟨S160x2x160x160, .f32⟩
  | 84 => ⟨S2x160x160x160, .f32⟩
  | 85 => ⟨S160x2x160x160, .f32⟩
  | 86 => ⟨S159x2x160x160, .f32⟩
  | 87 => ⟨S159x2x160x160, .f32⟩
  | 88 => ⟨S159x2x160x160, .f32⟩
  | 89 => ⟨S_, .f32⟩
  | 90 => ⟨S159x2x160x160, .f32⟩
  | 91 => ⟨S159x2x160x160, .f32⟩
  | 92 => ⟨S1x2x160x160, .f32⟩
  | 93 => ⟨S160x2x160x160, .f32⟩
  | 94 => ⟨S2x160x160x160, .f32⟩
  | 95 => ⟨S2x160x160x160, .f32⟩
  | 96 => ⟨S160x2x160x160, .f32⟩
  | 97 => ⟨S159x2x160x160, .f32⟩
  | 98 => ⟨S159x2x160x160, .f32⟩
  | 99 => ⟨S159x2x160x160, .f32⟩
  | 100 => ⟨S_, .f32⟩
  | 101 => ⟨S159x2x160x160, .f32⟩
  | 102 => ⟨S159x2x160x160, .f32⟩
  | 103 => ⟨S1x2x160x160, .f32⟩
  | 104 => ⟨S160x2x160x160, .f32⟩
  | 105 => ⟨S2x160x160x160, .f32⟩
  | 106 => ⟨S160x2x160x160, .f32⟩
  | 107 => ⟨S159x2x160x160, .f32⟩
  | 108 => ⟨S159x2x160x160, .f32⟩
  | 109 => ⟨S159x2x160x160, .f32⟩
  | 110 => ⟨S_, .f32⟩
  | 111 => ⟨S159x2x160x160, .f32⟩
  | 112 => ⟨S159x2x160x160, .f32⟩
  | 113 => ⟨S1x2x160x160, .f32⟩
  | 114 => ⟨S160x2x160x160, .f32⟩
  | 115 => ⟨S2x160x160x160, .f32⟩
  | 116 => ⟨S2x160x160x160, .f32⟩
  | 117 => ⟨S_, .f32⟩
  | 118 => ⟨S2x160x160x160, .f32⟩
  | 119 => ⟨S2x160x160x160, .i1⟩
  | 120 => ⟨S2x160x160x160, .f32⟩
  | 121 => ⟨S_, .f32⟩
  | 122 => ⟨S2x160x160x160, .f32⟩
  | 123 => ⟨S2x160x160x160, .i1⟩
  | 124 => ⟨S2x160x160x160, .f32⟩
  | 125 => ⟨S_, .f32⟩
  | 126 => ⟨S2x160x160x160, .f32⟩
  | 127 => ⟨S2x160x160x160, .i1⟩
  | _ => ⟨S2x160x160x160, .f32⟩

abbrev hbmTy0_3 (i : Nat) : BufTy := match i % 128 with
  | 0 => ⟨S2x160x160x160, .f32⟩
  | 1 => ⟨S160x2x160x160, .f32⟩
  | 2 => ⟨S159x2x160x160, .f32⟩
  | 3 => ⟨S159x2x160x160, .f32⟩
  | 4 => ⟨S159x2x160x160, .f32⟩
  | 5 => ⟨S_, .f32⟩
  | 6 => ⟨S159x2x160x160, .f32⟩
  | 7 => ⟨S159x2x160x160, .f32⟩
  | 8 => ⟨S1x2x160x160, .f32⟩
  | 9 => ⟨S158x2x160x160, .f32⟩
  | 10 => ⟨S158x2x160x160, .f32⟩
  | 11 => ⟨S158x2x160x160, .f32⟩
  | 12 => ⟨S_, .f32⟩
  | 13 => ⟨S158x2x160x160, .f32⟩
  | 14 => ⟨S158x2x160x160, .f32⟩
  | 15 => ⟨S1x2x160x160, .f32⟩
  | 16 => ⟨S160x2x160x160, .f32⟩
  | 17 => ⟨S2x160x160x160, .f32⟩
  | 18 => ⟨S160x2x160x160, .f32⟩
  | 19 => ⟨S159x2x160x160, .f32⟩
  | 20 => ⟨S159x2x160x160, .f32⟩
  | 21 => ⟨S159x2x160x160, .f32⟩
  | 22 => ⟨S_, .f32⟩
  | 23 => ⟨S159x2x160x160, .f32⟩
  | 24 => ⟨S159x2x160x160, .f32⟩
  | 25 => ⟨S1x2x160x160, .f32⟩
  | 26 => ⟨S158x2x160x160, .f32⟩
  | 27 => ⟨S158x2x160x160, .f32⟩
  | 28 => ⟨S158x2x160x160, .f32⟩
  | 29 => ⟨S_, .f32⟩
  | 30 => ⟨S158x2x160x160, .f32⟩
  | 31 => ⟨S158x2x160x160, .f32⟩
  | 32 => ⟨S1x2x160x160, .f32⟩
  | 33 => ⟨S160x2x160x160, .f32⟩
  | 34 => ⟨S2x160x160x160, .f32⟩
  | 35 => ⟨S2x160x160x160, .f32⟩
  | 36 => ⟨S160x2x160x160, .f32⟩
  | 37 => ⟨S159x2x160x160, .f32⟩
  | 38 => ⟨S159x2x160x160, .f32⟩
  | 39 => ⟨S159x2x160x160, .f32⟩
  | 40 => ⟨S_, .f32⟩
  | 41 => ⟨S159x2x160x160, .f32⟩
  | 42 => ⟨S159x2x160x160, .f32⟩
  | 43 => ⟨S1x2x160x160, .f32⟩
  | 44 => ⟨S158x2x160x160, .f32⟩
  | 45 => ⟨S158x2x160x160, .f32⟩
  | 46 => ⟨S158x2x160x160, .f32⟩
  | 47 => ⟨S_, .f32⟩
  | 48 => ⟨S158x2x160x160, .f32⟩
  | 49 => ⟨S158x2x160x160, .f32⟩
  | 50 => ⟨S1x2x160x160, .f32⟩
  | 51 => ⟨S160x2x160x160, .f32⟩
  | 52 => ⟨S2x160x160x160, .f32⟩
  | 53 => ⟨S2x160x160x160, .f32⟩
  | 54 => ⟨S320x25600, .f32⟩
  | 55 => ⟨S320x25600, .f32⟩
  | 56 => ⟨S320x25600, .f32⟩
  | 57 => ⟨S320x25600, .f32⟩
  | 58 => ⟨S320x25600, .f32⟩
  | 59 => ⟨S320x25600, .f32⟩
  | 60 => ⟨S320x25600, .f32⟩
  | 61 => ⟨S320x25600, .f32⟩
  | 62 => ⟨S320x25600, .f32⟩
  | 63 => ⟨S320x25600, .f32⟩
  | 64 => ⟨S320x25600, .f32⟩
  | 65 => ⟨S320x25600, .f32⟩
  | 66 => ⟨S320x25600, .f32⟩
  | 67 => ⟨S320x25600, .f32⟩
  | 68 => ⟨S320x25600, .f32⟩
  | 69 => ⟨S320x25600, .f32⟩
  | 70 => ⟨S320x25600, .f32⟩
  | 71 => ⟨S320x25600, .f32⟩
  | 72 => ⟨S320x25600, .f32⟩
  | 73 => ⟨S320x25600, .f32⟩
  | 74 => ⟨S320x25600, .f32⟩
  | 75 => ⟨S320x25600, .f32⟩
  | 76 => ⟨S320x25600, .f32⟩
  | 77 => ⟨S320x25600, .f32⟩
  | 78 => ⟨S320x25600, .f32⟩
  | 79 => ⟨S320x25600, .f32⟩
  | 80 => ⟨S320x25600, .f32⟩
  | 81 => ⟨S2x160x160x160, .f32⟩
  | _ => ⟨S2x160x160x160, .f32⟩

abbrev hbmTy (i : Nat) : BufTy := match i / 128 with
  | 0 => hbmTy0_0 i
  | 1 => hbmTy0_1 i
  | 2 => hbmTy0_2 i
  | 3 => hbmTy0_3 i
  | _ => ⟨S2x160x160x160, .f32⟩

abbrev bufTy : (tb : Table) → Fin (tcTables nBuf tb) → BufTy
  | .hbm, ⟨i, _⟩ => hbmTy i
  | .local _ .vmem, ⟨0, _⟩ => ⟨S320x256, .f32⟩
  | .local _ .vmem, ⟨1, _⟩ => ⟨S320x256, .f32⟩
  | .local _ .vmem, ⟨2, _⟩ => ⟨S320x256, .f32⟩
  | .local _ .vmem, ⟨3, _⟩ => ⟨S320x256, .f32⟩
  | .local _ .vmem, ⟨4, _⟩ => ⟨S320x256, .f32⟩
  | .local _ .vmem, ⟨5, _⟩ => ⟨S320x256, .f32⟩
  | .local _ .vmem, ⟨6, _⟩ => ⟨S320x256, .f32⟩
  | .local _ .vmem, ⟨7, _⟩ => ⟨S320x256, .f32⟩
  | .local _ .vmem, ⟨8, _⟩ => ⟨S320x256, .f32⟩
  | .local _ .vmem, ⟨9, _⟩ => ⟨S320x256, .f32⟩
  | .local _ .vmem, ⟨10, _⟩ => ⟨S320x256, .f32⟩
  | .local _ .vmem, ⟨11, _⟩ => ⟨S320x256, .f32⟩
  | .local _ .vmem, ⟨12, _⟩ => ⟨S320x256, .f32⟩
  | .local _ .vmem, ⟨13, _⟩ => ⟨S320x256, .f32⟩
  | .local _ .vmem, ⟨14, _⟩ => ⟨S320x256, .f32⟩
  | .local _ .vmem, ⟨15, _⟩ => ⟨S320x256, .f32⟩
  | .local _ .vmem, ⟨16, _⟩ => ⟨S320x256, .f32⟩
  | .local _ .vmem, ⟨17, _⟩ => ⟨S320x256, .f32⟩
  | .local _ .vmem, ⟨18, _⟩ => ⟨S320x256, .f32⟩
  | .local _ .vmem, ⟨19, _⟩ => ⟨S320x256, .f32⟩
  | .local _ .vmem, ⟨20, _⟩ => ⟨S320x256, .f32⟩
  | .local _ .vmem, ⟨21, _⟩ => ⟨S320x256, .f32⟩
  | .local _ .vmem, ⟨22, _⟩ => ⟨S320x256, .f32⟩
  | .local _ .vmem, ⟨23, _⟩ => ⟨S320x256, .f32⟩
  | .local _ .vmem, ⟨24, _⟩ => ⟨S320x256, .f32⟩
  | .local _ .vmem, ⟨25, _⟩ => ⟨S320x256, .f32⟩
  | .local _ .vmem, ⟨26, _⟩ => ⟨S320x256, .f32⟩
  | .local _ .vmem, ⟨27, _⟩ => ⟨S320x256, .f32⟩
  | .local _ .vmem, ⟨28, _⟩ => ⟨S320x256, .f32⟩
  | .local _ .vmem, ⟨29, _⟩ => ⟨S320x256, .f32⟩
  | .local _ .vmem, ⟨30, _⟩ => ⟨S320x256, .f32⟩
  | .local _ .vmem, ⟨31, _⟩ => ⟨S320x256, .f32⟩
  | .local _ .vmem, ⟨32, _⟩ => ⟨S320x256, .f32⟩
  | .local _ .vmem, ⟨33, _⟩ => ⟨S320x256, .f32⟩
  | .local _ .vmem, ⟨34, _⟩ => ⟨S320x256, .f32⟩
  | .local _ .vmem, ⟨35, _⟩ => ⟨S320x256, .f32⟩
  | .local _ .vmem, ⟨36, _⟩ => ⟨S320x256, .f32⟩
  | .local _ .vmem, ⟨37, _⟩ => ⟨S320x256, .f32⟩
  | .local _ .vmem, ⟨38, _⟩ => ⟨S320x256, .f32⟩
  | .local _ .vmem, ⟨39, _⟩ => ⟨S320x256, .f32⟩
  | .local _ .vmem, ⟨40, _⟩ => ⟨S320x256, .f32⟩
  | .local _ .vmem, ⟨41, _⟩ => ⟨S320x256, .f32⟩
  | .local _ .vmem, ⟨42, _⟩ => ⟨S320x256, .f32⟩
  | .local _ .vmem, ⟨43, _⟩ => ⟨S320x256, .f32⟩
  | .local _ .vmem, ⟨44, _⟩ => ⟨S320x256, .f32⟩
  | .local _ .vmem, ⟨45, _⟩ => ⟨S320x256, .f32⟩
  | .local _ .vmem, ⟨46, _⟩ => ⟨S320x256, .f32⟩
  | .local _ .vmem, ⟨47, _⟩ => ⟨S320x256, .f32⟩
  | .local _ .vmem, ⟨48, _⟩ => ⟨S320x256, .f32⟩
  | .local _ .vmem, ⟨49, _⟩ => ⟨S320x256, .f32⟩
  | .local _ .vmem, ⟨50, _⟩ => ⟨S320x256, .f32⟩
  | .local _ .vmem, ⟨51, _⟩ => ⟨S320x256, .f32⟩
  | .local _ .vmem, ⟨52, _⟩ => ⟨S320x256, .f32⟩
  | .local _ .vmem, ⟨53, _⟩ => ⟨S320x256, .f32⟩
  | _, _ => ⟨S2x160x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_7 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_8 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_9 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_10 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_cst_11 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_cst_12 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_cst_13 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_cst_14 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_cst_15 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_cst_16 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_cst_17 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_cst_18 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_cst_19 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_cst_20 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_cst_21 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_cst_22 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_cst_23 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_cst_24 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_cst_25 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_cst_26 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_cst_27 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_v233 : Ref sig .tc := ⟨.hbm, 272, rfl⟩
abbrev main_cst_28 : Ref sig .tc := ⟨.hbm, 273, rfl⟩
abbrev main_v234 : Ref sig .tc := ⟨.hbm, 274, rfl⟩
abbrev main_v235 : Ref sig .tc := ⟨.hbm, 275, rfl⟩
abbrev main_v236 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_v240 : Ref sig .tc := ⟨.hbm, 280, rfl⟩
abbrev main_v241 : Ref sig .tc := ⟨.hbm, 281, rfl⟩
abbrev main_v242 : Ref sig .tc := ⟨.hbm, 282, rfl⟩
abbrev main_v243 : Ref sig .tc := ⟨.hbm, 283, rfl⟩
abbrev main_cst_29 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_cst_30 : Ref sig .tc := ⟨.hbm, 294, rfl⟩
abbrev main_v253 : Ref sig .tc := ⟨.hbm, 295, rfl⟩
abbrev main_v254 : Ref sig .tc := ⟨.hbm, 296, rfl⟩
abbrev main_v255 : Ref sig .tc := ⟨.hbm, 297, rfl⟩
abbrev main_v256 : Ref sig .tc := ⟨.hbm, 298, rfl⟩
abbrev main_v257 : Ref sig .tc := ⟨.hbm, 299, rfl⟩
abbrev main_v258 : Ref sig .tc := ⟨.hbm, 300, rfl⟩
abbrev main_v259 : Ref sig .tc := ⟨.hbm, 301, rfl⟩
abbrev main_v260 : Ref sig .tc := ⟨.hbm, 302, rfl⟩
abbrev main_v261 : Ref sig .tc := ⟨.hbm, 303, rfl⟩
abbrev main_cst_31 : Ref sig .tc := ⟨.hbm, 304, rfl⟩
abbrev main_v262 : Ref sig .tc := ⟨.hbm, 305, rfl⟩
abbrev main_v263 : Ref sig .tc := ⟨.hbm, 306, rfl⟩
abbrev main_v264 : Ref sig .tc := ⟨.hbm, 307, rfl⟩
abbrev main_v265 : Ref sig .tc := ⟨.hbm, 308, rfl⟩
abbrev main_v266 : Ref sig .tc := ⟨.hbm, 309, rfl⟩
abbrev main_v267 : Ref sig .tc := ⟨.hbm, 310, rfl⟩
abbrev main_v268 : Ref sig .tc := ⟨.hbm, 311, rfl⟩
abbrev main_v269 : Ref sig .tc := ⟨.hbm, 312, rfl⟩
abbrev main_v270 : Ref sig .tc := ⟨.hbm, 313, rfl⟩
abbrev main_cst_32 : Ref sig .tc := ⟨.hbm, 314, rfl⟩
abbrev main_v271 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_cst_33 : Ref sig .tc := ⟨.hbm, 324, rfl⟩
abbrev main_v280 : Ref sig .tc := ⟨.hbm, 325, rfl⟩
abbrev main_v281 : Ref sig .tc := ⟨.hbm, 326, rfl⟩
abbrev main_v282 : Ref sig .tc := ⟨.hbm, 327, rfl⟩
abbrev main_v283 : Ref sig .tc := ⟨.hbm, 328, rfl⟩
abbrev main_v284 : Ref sig .tc := ⟨.hbm, 329, rfl⟩
abbrev main_v285 : Ref sig .tc := ⟨.hbm, 330, rfl⟩
abbrev main_v286 : Ref sig .tc := ⟨.hbm, 331, rfl⟩
abbrev main_v287 : Ref sig .tc := ⟨.hbm, 332, rfl⟩
abbrev main_v288 : Ref sig .tc := ⟨.hbm, 333, rfl⟩
abbrev main_v289 : Ref sig .tc := ⟨.hbm, 334, rfl⟩
abbrev main_cst_34 : Ref sig .tc := ⟨.hbm, 335, rfl⟩
abbrev main_v290 : Ref sig .tc := ⟨.hbm, 336, rfl⟩
abbrev main_v291 : Ref sig .tc := ⟨.hbm, 337, rfl⟩
abbrev main_v292 : Ref sig .tc := ⟨.hbm, 338, rfl⟩
abbrev main_v293 : Ref sig .tc := ⟨.hbm, 339, rfl⟩
abbrev main_v294 : Ref sig .tc := ⟨.hbm, 340, rfl⟩
abbrev main_v295 : Ref sig .tc := ⟨.hbm, 341, rfl⟩
abbrev main_v296 : Ref sig .tc := ⟨.hbm, 342, rfl⟩
abbrev main_v297 : Ref sig .tc := ⟨.hbm, 343, rfl⟩
abbrev main_v298 : Ref sig .tc := ⟨.hbm, 344, rfl⟩
abbrev main_cst_35 : Ref sig .tc := ⟨.hbm, 345, rfl⟩
abbrev main_v299 : Ref sig .tc := ⟨.hbm, 346, rfl⟩
abbrev main_v300 : Ref sig .tc := ⟨.hbm, 347, rfl⟩
abbrev main_v301 : Ref sig .tc := ⟨.hbm, 348, rfl⟩
abbrev main_v302 : Ref sig .tc := ⟨.hbm, 349, rfl⟩
abbrev main_v303 : Ref sig .tc := ⟨.hbm, 350, rfl⟩
abbrev main_v304 : Ref sig .tc := ⟨.hbm, 351, rfl⟩
abbrev main_v305 : Ref sig .tc := ⟨.hbm, 352, rfl⟩
abbrev main_v306 : Ref sig .tc := ⟨.hbm, 353, rfl⟩
abbrev main_v307 : Ref sig .tc := ⟨.hbm, 354, rfl⟩
abbrev main_v308 : Ref sig .tc := ⟨.hbm, 355, rfl⟩
abbrev main_cst_36 : Ref sig .tc := ⟨.hbm, 356, rfl⟩
abbrev main_v309 : Ref sig .tc := ⟨.hbm, 357, rfl⟩
abbrev main_v310 : Ref sig .tc := ⟨.hbm, 358, rfl⟩
abbrev main_v311 : Ref sig .tc := ⟨.hbm, 359, rfl⟩
abbrev main_v312 : Ref sig .tc := ⟨.hbm, 360, rfl⟩
abbrev main_v313 : Ref sig .tc := ⟨.hbm, 361, rfl⟩
abbrev main_v314 : Ref sig .tc := ⟨.hbm, 362, rfl⟩
abbrev main_v315 : Ref sig .tc := ⟨.hbm, 363, rfl⟩
abbrev main_v316 : Ref sig .tc := ⟨.hbm, 364, rfl⟩
abbrev main_v317 : Ref sig .tc := ⟨.hbm, 365, rfl⟩
abbrev main_cst_37 : Ref sig .tc := ⟨.hbm, 366, rfl⟩
abbrev main_v318 : Ref sig .tc := ⟨.hbm, 367, rfl⟩
abbrev main_v319 : Ref sig .tc := ⟨.hbm, 368, rfl⟩
abbrev main_v320 : Ref sig .tc := ⟨.hbm, 369, rfl⟩
abbrev main_v321 : Ref sig .tc := ⟨.hbm, 370, rfl⟩
abbrev main_v322 : Ref sig .tc := ⟨.hbm, 371, rfl⟩
abbrev main_v323 : Ref sig .tc := ⟨.hbm, 372, rfl⟩
abbrev main_cst_38 : Ref sig .tc := ⟨.hbm, 373, rfl⟩
abbrev main_v324 : Ref sig .tc := ⟨.hbm, 374, rfl⟩
abbrev main_v325 : Ref sig .tc := ⟨.hbm, 375, rfl⟩
abbrev main_v326 : Ref sig .tc := ⟨.hbm, 376, rfl⟩
abbrev main_cst_39 : Ref sig .tc := ⟨.hbm, 377, rfl⟩
abbrev main_v327 : Ref sig .tc := ⟨.hbm, 378, rfl⟩
abbrev main_v328 : Ref sig .tc := ⟨.hbm, 379, rfl⟩
abbrev main_v329 : Ref sig .tc := ⟨.hbm, 380, rfl⟩
abbrev main_cst_40 : Ref sig .tc := ⟨.hbm, 381, rfl⟩
abbrev main_v330 : Ref sig .tc := ⟨.hbm, 382, rfl⟩
abbrev main_v331 : Ref sig .tc := ⟨.hbm, 383, rfl⟩
abbrev main_v332 : Ref sig .tc := ⟨.hbm, 384, rfl⟩
abbrev main_v333 : Ref sig .tc := ⟨.hbm, 385, rfl⟩
abbrev main_v334 : Ref sig .tc := ⟨.hbm, 386, rfl⟩
abbrev main_v335 : Ref sig .tc := ⟨.hbm, 387, rfl⟩
abbrev main_v336 : Ref sig .tc := ⟨.hbm, 388, rfl⟩
abbrev main_cst_41 : Ref sig .tc := ⟨.hbm, 389, rfl⟩
abbrev main_v337 : Ref sig .tc := ⟨.hbm, 390, rfl⟩
abbrev main_v338 : Ref sig .tc := ⟨.hbm, 391, rfl⟩
abbrev main_v339 : Ref sig .tc := ⟨.hbm, 392, rfl⟩
abbrev main_v340 : Ref sig .tc := ⟨.hbm, 393, rfl⟩
abbrev main_v341 : Ref sig .tc := ⟨.hbm, 394, rfl⟩
abbrev main_v342 : Ref sig .tc := ⟨.hbm, 395, rfl⟩
abbrev main_cst_42 : Ref sig .tc := ⟨.hbm, 396, rfl⟩
abbrev main_v343 : Ref sig .tc := ⟨.hbm, 397, rfl⟩
abbrev main_v344 : Ref sig .tc := ⟨.hbm, 398, rfl⟩
abbrev main_v345 : Ref sig .tc := ⟨.hbm, 399, rfl⟩
abbrev main_v346 : Ref sig .tc := ⟨.hbm, 400, rfl⟩
abbrev main_v347 : Ref sig .tc := ⟨.hbm, 401, rfl⟩
abbrev main_v348 : Ref sig .tc := ⟨.hbm, 402, rfl⟩
abbrev main_v349 : Ref sig .tc := ⟨.hbm, 403, rfl⟩
abbrev main_v350 : Ref sig .tc := ⟨.hbm, 404, rfl⟩
abbrev main_v351 : Ref sig .tc := ⟨.hbm, 405, rfl⟩
abbrev main_cst_43 : Ref sig .tc := ⟨.hbm, 406, rfl⟩
abbrev main_v352 : Ref sig .tc := ⟨.hbm, 407, rfl⟩
abbrev main_v353 : Ref sig .tc := ⟨.hbm, 408, rfl⟩
abbrev main_v354 : Ref sig .tc := ⟨.hbm, 409, rfl⟩
abbrev main_v355 : Ref sig .tc := ⟨.hbm, 410, rfl⟩
abbrev main_v356 : Ref sig .tc := ⟨.hbm, 411, rfl⟩
abbrev main_v357 : Ref sig .tc := ⟨.hbm, 412, rfl⟩
abbrev main_cst_44 : Ref sig .tc := ⟨.hbm, 413, rfl⟩
abbrev main_v358 : Ref sig .tc := ⟨.hbm, 414, rfl⟩
abbrev main_v359 : Ref sig .tc := ⟨.hbm, 415, rfl⟩
abbrev main_v360 : Ref sig .tc := ⟨.hbm, 416, rfl⟩
abbrev main_v361 : Ref sig .tc := ⟨.hbm, 417, rfl⟩
abbrev main_v362 : Ref sig .tc := ⟨.hbm, 418, rfl⟩
abbrev main_v363 : Ref sig .tc := ⟨.hbm, 419, rfl⟩
abbrev main_v364 : Ref sig .tc := ⟨.hbm, 420, rfl⟩
abbrev main_v365 : Ref sig .tc := ⟨.hbm, 421, rfl⟩
abbrev main_v366 : Ref sig .tc := ⟨.hbm, 422, rfl⟩
abbrev main_v367 : Ref sig .tc := ⟨.hbm, 423, rfl⟩
abbrev main_cst_45 : Ref sig .tc := ⟨.hbm, 424, rfl⟩
abbrev main_v368 : Ref sig .tc := ⟨.hbm, 425, rfl⟩
abbrev main_v369 : Ref sig .tc := ⟨.hbm, 426, rfl⟩
abbrev main_v370 : Ref sig .tc := ⟨.hbm, 427, rfl⟩
abbrev main_v371 : Ref sig .tc := ⟨.hbm, 428, rfl⟩
abbrev main_v372 : Ref sig .tc := ⟨.hbm, 429, rfl⟩
abbrev main_v373 : Ref sig .tc := ⟨.hbm, 430, rfl⟩
abbrev main_cst_46 : Ref sig .tc := ⟨.hbm, 431, rfl⟩
abbrev main_v374 : Ref sig .tc := ⟨.hbm, 432, rfl⟩
abbrev main_v375 : Ref sig .tc := ⟨.hbm, 433, rfl⟩
abbrev main_v376 : Ref sig .tc := ⟨.hbm, 434, rfl⟩
abbrev main_v377 : Ref sig .tc := ⟨.hbm, 435, rfl⟩
abbrev main_v378 : Ref sig .tc := ⟨.hbm, 436, rfl⟩
abbrev main_v379 : Ref sig .tc := ⟨.hbm, 437, rfl⟩
abbrev main_v380 : Ref sig .tc := ⟨.hbm, 438, rfl⟩
abbrev main_v381 : Ref sig .tc := ⟨.hbm, 439, rfl⟩
abbrev main_v382 : Ref sig .tc := ⟨.hbm, 440, rfl⟩
abbrev main_v383 : Ref sig .tc := ⟨.hbm, 441, rfl⟩
abbrev main_v384 : Ref sig .tc := ⟨.hbm, 442, rfl⟩
abbrev main_v385 : Ref sig .tc := ⟨.hbm, 443, rfl⟩
abbrev main_v386 : Ref sig .tc := ⟨.hbm, 444, rfl⟩
abbrev main_v387 : Ref sig .tc := ⟨.hbm, 445, rfl⟩
abbrev main_v388 : Ref sig .tc := ⟨.hbm, 446, rfl⟩
abbrev main_v389 : Ref sig .tc := ⟨.hbm, 447, rfl⟩
abbrev main_v390 : Ref sig .tc := ⟨.hbm, 448, rfl⟩
abbrev main_v391 : Ref sig .tc := ⟨.hbm, 449, rfl⟩
abbrev main_v392 : Ref sig .tc := ⟨.hbm, 450, rfl⟩
abbrev main_v393 : Ref sig .tc := ⟨.hbm, 451, rfl⟩
abbrev main_v394 : Ref sig .tc := ⟨.hbm, 452, rfl⟩
abbrev main_v395 : Ref sig .tc := ⟨.hbm, 453, rfl⟩
abbrev main_v396 : Ref sig .tc := ⟨.hbm, 454, rfl⟩
abbrev main_v397 : Ref sig .tc := ⟨.hbm, 455, rfl⟩
abbrev main_v398 : Ref sig .tc := ⟨.hbm, 456, rfl⟩
abbrev main_v399 : Ref sig .tc := ⟨.hbm, 457, rfl⟩
abbrev main_v400 : Ref sig .tc := ⟨.hbm, 458, rfl⟩
abbrev main_v401 : Ref sig .tc := ⟨.hbm, 459, rfl⟩
abbrev main_v402 : Ref sig .tc := ⟨.hbm, 460, rfl⟩
abbrev main_v403 : Ref sig .tc := ⟨.hbm, 461, rfl⟩
abbrev main_v404 : Ref sig .tc := ⟨.hbm, 462, rfl⟩
abbrev main_v405 : Ref sig .tc := ⟨.hbm, 463, rfl⟩
abbrev main_v406 : Ref sig .tc := ⟨.hbm, 464, rfl⟩
abbrev main_v407 : Ref sig .tc := ⟨.hbm, 465, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S320x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S320x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S320x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S320x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S320x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S320x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S320x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S320x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S320x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S320x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S320x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S320x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S320x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S320x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S320x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S320x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S320x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S320x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S320x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S320x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S320x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  transposes_S2x160x160x160_S160x2x160x160_1_0_2_3 : S2x160x160x160.Transposes [1, 0, 2, 3] S160x2x160x160
  slices_S160x2x160x160_S159x2x160x160_1_0_0_0 : S160x2x160x160.Slices ![1, 0, 0, 0] S159x2x160x160
  slices_S160x2x160x160_S159x2x160x160_0_0_0_0 : S160x2x160x160.Slices ![0, 0, 0, 0] S159x2x160x160
  bcast_S_S159x2x160x160 : S_.BroadcastsInDim S159x2x160x160 (![] : Fin 0 → Fin S159x2x160x160.rank)
  slices_S159x2x160x160_S1x2x160x160_0_0_0_0 : S159x2x160x160.Slices ![0, 0, 0, 0] S1x2x160x160
  slices_S160x2x160x160_S158x2x160x160_2_0_0_0 : S160x2x160x160.Slices ![2, 0, 0, 0] S158x2x160x160
  slices_S160x2x160x160_S158x2x160x160_0_0_0_0 : S160x2x160x160.Slices ![0, 0, 0, 0] S158x2x160x160
  bcast_S_S158x2x160x160 : S_.BroadcastsInDim S158x2x160x160 (![] : Fin 0 → Fin S158x2x160x160.rank)
  slices_S159x2x160x160_S1x2x160x160_158_0_0_0 : S159x2x160x160.Slices ![158, 0, 0, 0] S1x2x160x160
  concatenates_S1x2x160x160_S158x2x160x160_S1x2x160x160_S160x2x160x160_d0 : Shape.Concatenates [S1x2x160x160, S158x2x160x160, S1x2x160x160] S160x2x160x160 0
  transposes_S160x2x160x160_S2x160x160x160_1_0_2_3 : S160x2x160x160.Transposes [1, 0, 2, 3] S2x160x160x160
  transposes_S2x160x160x160_S160x2x160x160_2_0_1_3 : S2x160x160x160.Transposes [2, 0, 1, 3] S160x2x160x160
  transposes_S160x2x160x160_S2x160x160x160_1_2_0_3 : S160x2x160x160.Transposes [1, 2, 0, 3] S2x160x160x160
  transposes_S2x160x160x160_S160x2x160x160_3_0_1_2 : S2x160x160x160.Transposes [3, 0, 1, 2] S160x2x160x160
  transposes_S160x2x160x160_S2x160x160x160_1_2_3_0 : S160x2x160x160.Transposes [1, 2, 3, 0] S2x160x160x160
  concatenates_S159x2x160x160_S1x2x160x160_S160x2x160x160_d0 : Shape.Concatenates [S159x2x160x160, S1x2x160x160] S160x2x160x160 0
  concatenates_S1x2x160x160_S159x2x160x160_S160x2x160x160_d0 : Shape.Concatenates [S1x2x160x160, S159x2x160x160] S160x2x160x160 0
  bcast_S_S2x160x160x160 : S_.BroadcastsInDim S2x160x160x160 (![] : Fin 0 → Fin S2x160x160x160.rank)
  shapeCasts_S2x160x160x160_S320x25600 : S2x160x160x160.ShapeCasts S320x25600
  inb_S320x256_S320x256_0_0 : ∀ a, (![0, 0] : Fin 2 → Nat) a + S320x256.size a ≤ S320x256.size a
  h_S320x256 : 0 < S320x256.numel
  shapeCasts_S320x256_S320x256 : S320x256.ShapeCasts S320x256
  shapeCasts_S320x25600_S2x160x160x160 : S320x25600.ShapeCasts S2x160x160x160
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S320x256.size a ≤ S320x25600.size a
  hwx0_0 : ∀ i : grid0.Coords, EltTy.bits .f32 = 32 ∨ (Rect.block (s := S320x25600) S320x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S320x256.size a ≤ S320x25600.size a
  hwx0_1 : ∀ i : grid0.Coords, EltTy.bits .f32 = 32 ∨ (Rect.block (s := S320x25600) S320x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S320x256.size a ≤ S320x25600.size a
  hwx0_2 : ∀ i : grid0.Coords, EltTy.bits .f32 = 32 ∨ (Rect.block (s := S320x25600) S320x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S320x256.size a ≤ S320x25600.size a
  hwx0_3 : ∀ i : grid0.Coords, EltTy.bits .f32 = 32 ∨ (Rect.block (s := S320x25600) S320x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S320x256.size a ≤ S320x25600.size a
  hwx0_4 : ∀ i : grid0.Coords, EltTy.bits .f32 = 32 ∨ (Rect.block (s := S320x25600) S320x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S320x256.size a ≤ S320x25600.size a
  hwx0_5 : ∀ i : grid0.Coords, EltTy.bits .f32 = 32 ∨ (Rect.block (s := S320x25600) S320x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S320x256.size a ≤ S320x25600.size a
  hwx0_6 : ∀ i : grid0.Coords, EltTy.bits .f32 = 32 ∨ (Rect.block (s := S320x25600) S320x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S320x256.size a ≤ S320x25600.size a
  hwx0_7 : ∀ i : grid0.Coords, EltTy.bits .f32 = 32 ∨ (Rect.block (s := S320x25600) S320x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S320x256.size a ≤ S320x25600.size a
  hwx0_8 : ∀ i : grid0.Coords, EltTy.bits .f32 = 32 ∨ (Rect.block (s := S320x25600) S320x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S320x256.size a ≤ S320x25600.size a
  hwx0_9 : ∀ i : grid0.Coords, EltTy.bits .f32 = 32 ∨ (Rect.block (s := S320x25600) S320x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S320x256.size a ≤ S320x25600.size a
  hwx0_10 : ∀ i : grid0.Coords, EltTy.bits .f32 = 32 ∨ (Rect.block (s := S320x25600) S320x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S320x256.size a ≤ S320x25600.size a
  hwx0_11 : ∀ i : grid0.Coords, EltTy.bits .f32 = 32 ∨ (Rect.block (s := S320x25600) S320x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S320x256.size a ≤ S320x25600.size a
  hwx0_12 : ∀ i : grid0.Coords, EltTy.bits .f32 = 32 ∨ (Rect.block (s := S320x25600) S320x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S320x256.size a ≤ S320x25600.size a
  hwx0_13 : ∀ i : grid0.Coords, EltTy.bits .f32 = 32 ∨ (Rect.block (s := S320x25600) S320x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S320x256.size a ≤ S320x25600.size a
  hwx0_14 : ∀ i : grid0.Coords, EltTy.bits .f32 = 32 ∨ (Rect.block (s := S320x25600) S320x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S320x256.size a ≤ S320x25600.size a
  hwx0_15 : ∀ i : grid0.Coords, EltTy.bits .f32 = 32 ∨ (Rect.block (s := S320x25600) S320x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S320x256.size a ≤ S320x25600.size a
  hwx0_16 : ∀ i : grid0.Coords, EltTy.bits .f32 = 32 ∨ (Rect.block (s := S320x25600) S320x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S320x256.size a ≤ S320x25600.size a
  hwx0_17 : ∀ i : grid0.Coords, EltTy.bits .f32 = 32 ∨ (Rect.block (s := S320x25600) S320x256.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S320x256.size a ≤ S320x25600.size a
  hwx0_18 : ∀ i : grid0.Coords, EltTy.bits .f32 = 32 ∨ (Rect.block (s := S320x25600) S320x256.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S320x256.size a ≤ S320x25600.size a
  hwx0_19 : ∀ i : grid0.Coords, EltTy.bits .f32 = 32 ∨ (Rect.block (s := S320x25600) S320x256.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S320x256.size a ≤ S320x25600.size a
  hwx0_20 : ∀ i : grid0.Coords, EltTy.bits .f32 = 32 ∨ (Rect.block (s := S320x25600) S320x256.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S320x256.size a ≤ S320x25600.size a
  hwx0_21 : ∀ i : grid0.Coords, EltTy.bits .f32 = 32 ∨ (Rect.block (s := S320x25600) S320x256.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S320x256.size a ≤ S320x25600.size a
  hwx0_22 : ∀ i : grid0.Coords, EltTy.bits .f32 = 32 ∨ (Rect.block (s := S320x25600) S320x256.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S320x256.size a ≤ S320x25600.size a
  hwx0_23 : ∀ i : grid0.Coords, EltTy.bits .f32 = 32 ∨ (Rect.block (s := S320x25600) S320x256.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S320x256.size a ≤ S320x25600.size a
  hwx0_24 : ∀ i : grid0.Coords, EltTy.bits .f32 = 32 ∨ (Rect.block (s := S320x25600) S320x256.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S320x256.size a ≤ S320x25600.size a
  hwx0_25 : ∀ i : grid0.Coords, EltTy.bits .f32 = 32 ∨ (Rect.block (s := S320x25600) S320x256.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S320x256.size a ≤ S320x25600.size a
  hwx0_26 : ∀ i : grid0.Coords, EltTy.bits .f32 = 32 ∨ (Rect.block (s := S320x25600) S320x256.size (cc0_transform_26 i) (hinb0_26 i)).WholeWords (EltTy.packing .f32)

variable [Facts₀]

abbrev win0_0 : Pipeline.Window sig grid0 :=
  Pipeline.Window.ofSpec (Memref.whole main_v380) S320x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v381) S320x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v382) S320x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v383) S320x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v384) S320x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v385) S320x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v386) S320x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v387) S320x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v388) S320x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v389) S320x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v390) S320x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v391) S320x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v392) S320x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v393) S320x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v394) S320x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v395) S320x256.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v396) S320x256.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v397) S320x256.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_v398) S320x256.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v399) S320x256.size cc0_transform_19 reads0_19 false false 2 stage0_19 sem0_19
    hrank0 hreads0_19 hinb0_19 nbuf0_19 (Memref.isWhole_whole _) hwx0_19 hstage0_19

abbrev win0_20 : Pipeline.Window sig grid0 :=
  Pipeline.Window.ofSpec (Memref.whole main_v400) S320x256.size cc0_transform_20 reads0_20 false false 2 stage0_20 sem0_20
    hrank0 hreads0_20 hinb0_20 nbuf0_20 (Memref.isWhole_whole _) hwx0_20 hstage0_20

abbrev win0_21 : Pipeline.Window sig grid0 :=
  Pipeline.Window.ofSpec (Memref.whole main_v401) S320x256.size cc0_transform_21 reads0_21 false false 2 stage0_21 sem0_21
    hrank0 hreads0_21 hinb0_21 nbuf0_21 (Memref.isWhole_whole _) hwx0_21 hstage0_21

abbrev win0_22 : Pipeline.Window sig grid0 :=
  Pipeline.Window.ofSpec (Memref.whole main_v402) S320x256.size cc0_transform_22 reads0_22 false false 2 stage0_22 sem0_22
    hrank0 hreads0_22 hinb0_22 nbuf0_22 (Memref.isWhole_whole _) hwx0_22 hstage0_22

abbrev win0_23 : Pipeline.Window sig grid0 :=
  Pipeline.Window.ofSpec (Memref.whole main_v403) S320x256.size cc0_transform_23 reads0_23 false false 2 stage0_23 sem0_23
    hrank0 hreads0_23 hinb0_23 nbuf0_23 (Memref.isWhole_whole _) hwx0_23 hstage0_23

abbrev win0_24 : Pipeline.Window sig grid0 :=
  Pipeline.Window.ofSpec (Memref.whole main_v404) S320x256.size cc0_transform_24 reads0_24 false false 2 stage0_24 sem0_24
    hrank0 hreads0_24 hinb0_24 nbuf0_24 (Memref.isWhole_whole _) hwx0_24 hstage0_24

abbrev win0_25 : Pipeline.Window sig grid0 :=
  Pipeline.Window.ofSpec (Memref.whole main_v405) S320x256.size cc0_transform_25 reads0_25 false false 2 stage0_25 sem0_25
    hrank0 hreads0_25 hinb0_25 nbuf0_25 (Memref.isWhole_whole _) hwx0_25 hstage0_25

abbrev win0_26 : Pipeline.Window sig grid0 :=
  Pipeline.Window.ofSpec (Memref.whole main_v406) S320x256.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S2x160x160x160 : Shape := ⟨4, ![2, 160, 160, 160]⟩
abbrev S160x2x160x160 : Shape := ⟨4, ![160, 2, 160, 160]⟩
abbrev S159x2x160x160 : Shape := ⟨4, ![159, 2, 160, 160]⟩
abbrev S_ : Shape := ⟨0, ![]⟩
abbrev S1x2x160x160 : Shape := ⟨4, ![1, 2, 160, 160]⟩
abbrev S158x2x160x160 : Shape := ⟨4, ![158, 2, 160, 160]⟩

abbrev nBuf : Space → Nat
  | .hbm => 494
  | .vmem => 0
  | .smem => 0
  | _ => 0

abbrev hbmTy0_0 (i : Nat) : BufTy := match i % 128 with
  | 0 => ⟨S2x160x160x160, .f32⟩
  | 1 => ⟨S2x160x160x160, .f32⟩
  | 2 => ⟨S2x160x160x160, .f32⟩
  | 3 => ⟨S2x160x160x160, .f32⟩
  | 4 => ⟨S2x160x160x160, .f32⟩
  | 5 => ⟨S2x160x160x160, .f32⟩
  | 6 => ⟨S2x160x160x160, .f32⟩
  | 7 => ⟨S2x160x160x160, .f32⟩
  | 8 => ⟨S2x160x160x160, .f32⟩
  | 9 => ⟨S2x160x160x160, .f32⟩
  | 10 => ⟨S160x2x160x160, .f32⟩
  | 11 => ⟨S159x2x160x160, .f32⟩
  | 12 => ⟨S159x2x160x160, .f32⟩
  | 13 => ⟨S159x2x160x160, .f32⟩
  | 14 => ⟨S_, .f32⟩
  | 15 => ⟨S159x2x160x160, .f32⟩
  | 16 => ⟨S159x2x160x160, .f32⟩
  | 17 => ⟨S1x2x160x160, .f32⟩
  | 18 => ⟨S158x2x160x160, .f32⟩
  | 19 => ⟨S158x2x160x160, .f32⟩
  | 20 => ⟨S158x2x160x160, .f32⟩
  | 21 => ⟨S_, .f32⟩
  | 22 => ⟨S158x2x160x160, .f32⟩
  | 23 => ⟨S158x2x160x160, .f32⟩
  | 24 => ⟨S1x2x160x160, .f32⟩
  | 25 => ⟨S160x2x160x160, .f32⟩
  | 26 => ⟨S2x160x160x160, .f32⟩
  | 27 => ⟨S160x2x160x160, .f32⟩
  | 28 => ⟨S159x2x160x160, .f32⟩
  | 29 => ⟨S159x2x160x160, .f32⟩
  | 30 => ⟨S159x2x160x160, .f32⟩
  | 31 => ⟨S_, .f32⟩
  | 32 => ⟨S159x2x160x160, .f32⟩
  | 33 => ⟨S159x2x160x160, .f32⟩
  | 34 => ⟨S1x2x160x160, .f32⟩
  | 35 => ⟨S158x2x160x160, .f32⟩
  | 36 => ⟨S158x2x160x160, .f32⟩
  | 37 => ⟨S158x2x160x160, .f32⟩
  | 38 => ⟨S_, .f32⟩
  | 39 => ⟨S158x2x160x160, .f32⟩
  | 40 => ⟨S158x2x160x160, .f32⟩
  | 41 => ⟨S1x2x160x160, .f32⟩
  | 42 => ⟨S160x2x160x160, .f32⟩
  | 43 => ⟨S2x160x160x160, .f32⟩
  | 44 => ⟨S160x2x160x160, .f32⟩
  | 45 => ⟨S159x2x160x160, .f32⟩
  | 46 => ⟨S159x2x160x160, .f32⟩
  | 47 => ⟨S159x2x160x160, .f32⟩
  | 48 => ⟨S_, .f32⟩
  | 49 => ⟨S159x2x160x160, .f32⟩
  | 50 => ⟨S159x2x160x160, .f32⟩
  | 51 => ⟨S1x2x160x160, .f32⟩
  | 52 => ⟨S158x2x160x160, .f32⟩
  | 53 => ⟨S158x2x160x160, .f32⟩
  | 54 => ⟨S158x2x160x160, .f32⟩
  | 55 => ⟨S_, .f32⟩
  | 56 => ⟨S158x2x160x160, .f32⟩
  | 57 => ⟨S158x2x160x160, .f32⟩
  | 58 => ⟨S1x2x160x160, .f32⟩
  | 59 => ⟨S160x2x160x160, .f32⟩
  | 60 => ⟨S2x160x160x160, .f32⟩
  | 61 => ⟨S160x2x160x160, .f32⟩
  | 62 => ⟨S159x2x160x160, .f32⟩
  | 63 => ⟨S159x2x160x160, .f32⟩
  | 64 => ⟨S159x2x160x160, .f32⟩
  | 65 => ⟨S_, .f32⟩
  | 66 => ⟨S159x2x160x160, .f32⟩
  | 67 => ⟨S159x2x160x160, .f32⟩
  | 68 => ⟨S1x2x160x160, .f32⟩
  | 69 => ⟨S160x2x160x160, .f32⟩
  | 70 => ⟨S2x160x160x160, .f32⟩
  | 71 => ⟨S160x2x160x160, .f32⟩
  | 72 => ⟨S159x2x160x160, .f32⟩
  | 73 => ⟨S159x2x160x160, .f32⟩
  | 74 => ⟨S159x2x160x160, .f32⟩
  | 75 => ⟨S_, .f32⟩
  | 76 => ⟨S159x2x160x160, .f32⟩
  | 77 => ⟨S159x2x160x160, .f32⟩
  | 78 => ⟨S1x2x160x160, .f32⟩
  | 79 => ⟨S160x2x160x160, .f32⟩
  | 80 => ⟨S2x160x160x160, .f32⟩
  | 81 => ⟨S160x2x160x160, .f32⟩
  | 82 => ⟨S159x2x160x160, .f32⟩
  | 83 => ⟨S159x2x160x160, .f32⟩
  | 84 => ⟨S159x2x160x160, .f32⟩
  | 85 => ⟨S_, .f32⟩
  | 86 => ⟨S159x2x160x160, .f32⟩
  | 87 => ⟨S159x2x160x160, .f32⟩
  | 88 => ⟨S1x2x160x160, .f32⟩
  | 89 => ⟨S160x2x160x160, .f32⟩
  | 90 => ⟨S2x160x160x160, .f32⟩
  | 91 => ⟨S160x2x160x160, .f32⟩
  | 92 => ⟨S159x2x160x160, .f32⟩
  | 93 => ⟨S159x2x160x160, .f32⟩
  | 94 => ⟨S159x2x160x160, .f32⟩
  | 95 => ⟨S_, .f32⟩
  | 96 => ⟨S159x2x160x160, .f32⟩
  | 97 => ⟨S159x2x160x160, .f32⟩
  | 98 => ⟨S1x2x160x160, .f32⟩
  | 99 => ⟨S158x2x160x160, .f32⟩
  | 100 => ⟨S158x2x160x160, .f32⟩
  | 101 => ⟨S158x2x160x160, .f32⟩
  | 102 => ⟨S_, .f32⟩
  | 103 => ⟨S158x2x160x160, .f32⟩
  | 104 => ⟨S158x2x160x160, .f32⟩
  | 105 => ⟨S1x2x160x160, .f32⟩
  | 106 => ⟨S160x2x160x160, .f32⟩
  | 107 => ⟨S2x160x160x160, .f32⟩
  | 108 => ⟨S160x2x160x160, .f32⟩
  | 109 => ⟨S159x2x160x160, .f32⟩
  | 110 => ⟨S159x2x160x160, .f32⟩
  | 111 => ⟨S159x2x160x160, .f32⟩
  | 112 => ⟨S_, .f32⟩
  | 113 => ⟨S159x2x160x160, .f32⟩
  | 114 => ⟨S159x2x160x160, .f32⟩
  | 115 => ⟨S1x2x160x160, .f32⟩
  | 116 => ⟨S158x2x160x160, .f32⟩
  | 117 => ⟨S158x2x160x160, .f32⟩
  | 118 => ⟨S158x2x160x160, .f32⟩
  | 119 => ⟨S_, .f32⟩
  | 120 => ⟨S158x2x160x160, .f32⟩
  | 121 => ⟨S158x2x160x160, .f32⟩
  | 122 => ⟨S1x2x160x160, .f32⟩
  | 123 => ⟨S160x2x160x160, .f32⟩
  | 124 => ⟨S2x160x160x160, .f32⟩
  | 125 => ⟨S2x160x160x160, .f32⟩
  | 126 => ⟨S160x2x160x160, .f32⟩
  | 127 => ⟨S159x2x160x160, .f32⟩
  | _ => ⟨S2x160x160x160, .f32⟩

abbrev hbmTy0_1 (i : Nat) : BufTy := match i % 128 with
  | 0 => ⟨S159x2x160x160, .f32⟩
  | 1 => ⟨S159x2x160x160, .f32⟩
  | 2 => ⟨S_, .f32⟩
  | 3 => ⟨S159x2x160x160, .f32⟩
  | 4 => ⟨S159x2x160x160, .f32⟩
  | 5 => ⟨S1x2x160x160, .f32⟩
  | 6 => ⟨S158x2x160x160, .f32⟩
  | 7 => ⟨S158x2x160x160, .f32⟩
  | 8 => ⟨S158x2x160x160, .f32⟩
  | 9 => ⟨S_, .f32⟩
  | 10 => ⟨S158x2x160x160, .f32⟩
  | 11 => ⟨S158x2x160x160, .f32⟩
  | 12 => ⟨S1x2x160x160, .f32⟩
  | 13 => ⟨S160x2x160x160, .f32⟩
  | 14 => ⟨S2x160x160x160, .f32⟩
  | 15 => ⟨S2x160x160x160, .f32⟩
  | 16 => ⟨S2x160x160x160, .f32⟩
  | 17 => ⟨S160x2x160x160, .f32⟩
  | 18 => ⟨S159x2x160x160, .f32⟩
  | 19 => ⟨S159x2x160x160, .f32⟩
  | 20 => ⟨S159x2x160x160, .f32⟩
  | 21 => ⟨S_, .f32⟩
  | 22 => ⟨S159x2x160x160, .f32⟩
  | 23 => ⟨S159x2x160x160, .f32⟩
  | 24 => ⟨S1x2x160x160, .f32⟩
  | 25 => ⟨S158x2x160x160, .f32⟩
  | 26 => ⟨S158x2x160x160, .f32⟩
  | 27 => ⟨S158x2x160x160, .f32⟩
  | 28 => ⟨S_, .f32⟩
  | 29 => ⟨S158x2x160x160, .f32⟩
  | 30 => ⟨S158x2x160x160, .f32⟩
  | 31 => ⟨S1x2x160x160, .f32⟩
  | 32 => ⟨S160x2x160x160, .f32⟩
  | 33 => ⟨S2x160x160x160, .f32⟩
  | 34 => ⟨S160x2x160x160, .f32⟩
  | 35 => ⟨S159x2x160x160, .f32⟩
  | 36 => ⟨S159x2x160x160, .f32⟩
  | 37 => ⟨S159x2x160x160, .f32⟩
  | 38 => ⟨S_, .f32⟩
  | 39 => ⟨S159x2x160x160, .f32⟩
  | 40 => ⟨S159x2x160x160, .f32⟩
  | 41 => ⟨S1x2x160x160, .f32⟩
  | 42 => ⟨S158x2x160x160, .f32⟩
  | 43 => ⟨S158x2x160x160, .f32⟩
  | 44 => ⟨S158x2x160x160, .f32⟩
  | 45 => ⟨S_, .f32⟩
  | 46 => ⟨S158x2x160x160, .f32⟩
  | 47 => ⟨S158x2x160x160, .f32⟩
  | 48 => ⟨S1x2x160x160, .f32⟩
  | 49 => ⟨S160x2x160x160, .f32⟩
  | 50 => ⟨S2x160x160x160, .f32⟩
  | 51 => ⟨S2x160x160x160, .f32⟩
  | 52 => ⟨S160x2x160x160, .f32⟩
  | 53 => ⟨S159x2x160x160, .f32⟩
  | 54 => ⟨S159x2x160x160, .f32⟩
  | 55 => ⟨S159x2x160x160, .f32⟩
  | 56 => ⟨S_, .f32⟩
  | 57 => ⟨S159x2x160x160, .f32⟩
  | 58 => ⟨S159x2x160x160, .f32⟩
  | 59 => ⟨S1x2x160x160, .f32⟩
  | 60 => ⟨S158x2x160x160, .f32⟩
  | 61 => ⟨S158x2x160x160, .f32⟩
  | 62 => ⟨S158x2x160x160, .f32⟩
  | 63 => ⟨S_, .f32⟩
  | 64 => ⟨S158x2x160x160, .f32⟩
  | 65 => ⟨S158x2x160x160, .f32⟩
  | 66 => ⟨S1x2x160x160, .f32⟩
  | 67 => ⟨S160x2x160x160, .f32⟩
  | 68 => ⟨S2x160x160x160, .f32⟩
  | 69 => ⟨S2x160x160x160, .f32⟩
  | 70 => ⟨S2x160x160x160, .f32⟩
  | 71 => ⟨S2x160x160x160, .f32⟩
  | 72 => ⟨S160x2x160x160, .f32⟩
  | 73 => ⟨S159x2x160x160, .f32⟩
  | 74 => ⟨S159x2x160x160, .f32⟩
  | 75 => ⟨S159x2x160x160, .f32⟩
  | 76 => ⟨S_, .f32⟩
  | 77 => ⟨S159x2x160x160, .f32⟩
  | 78 => ⟨S159x2x160x160, .f32⟩
  | 79 => ⟨S1x2x160x160, .f32⟩
  | 80 => ⟨S158x2x160x160, .f32⟩
  | 81 => ⟨S158x2x160x160, .f32⟩
  | 82 => ⟨S158x2x160x160, .f32⟩
  | 83 => ⟨S_, .f32⟩
  | 84 => ⟨S158x2x160x160, .f32⟩
  | 85 => ⟨S158x2x160x160, .f32⟩
  | 86 => ⟨S1x2x160x160, .f32⟩
  | 87 => ⟨S160x2x160x160, .f32⟩
  | 88 => ⟨S2x160x160x160, .f32⟩
  | 89 => ⟨S160x2x160x160, .f32⟩
  | 90 => ⟨S159x2x160x160, .f32⟩
  | 91 => ⟨S159x2x160x160, .f32⟩
  | 92 => ⟨S159x2x160x160, .f32⟩
  | 93 => ⟨S_, .f32⟩
  | 94 => ⟨S159x2x160x160, .f32⟩
  | 95 => ⟨S159x2x160x160, .f32⟩
  | 96 => ⟨S1x2x160x160, .f32⟩
  | 97 => ⟨S158x2x160x160, .f32⟩
  | 98 => ⟨S158x2x160x160, .f32⟩
  | 99 => ⟨S158x2x160x160, .f32⟩
  | 100 => ⟨S_, .f32⟩
  | 101 => ⟨S158x2x160x160, .f32⟩
  | 102 => ⟨S158x2x160x160, .f32⟩
  | 103 => ⟨S1x2x160x160, .f32⟩
  | 104 => ⟨S160x2x160x160, .f32⟩
  | 105 => ⟨S2x160x160x160, .f32⟩
  | 106 => ⟨S2x160x160x160, .f32⟩
  | 107 => ⟨S160x2x160x160, .f32⟩
  | 108 => ⟨S159x2x160x160, .f32⟩
  | 109 => ⟨S159x2x160x160, .f32⟩
  | 110 => ⟨S159x2x160x160, .f32⟩
  | 111 => ⟨S_, .f32⟩
  | 112 => ⟨S159x2x160x160, .f32⟩
  | 113 => ⟨S159x2x160x160, .f32⟩
  | 114 => ⟨S1x2x160x160, .f32⟩
  | 115 => ⟨S158x2x160x160, .f32⟩
  | 116 => ⟨S158x2x160x160, .f32⟩
  | 117 => ⟨S158x2x160x160, .f32⟩
  | 118 => ⟨S_, .f32⟩
  | 119 => ⟨S158x2x160x160, .f32⟩
  | 120 => ⟨S158x2x160x160, .f32⟩
  | 121 => ⟨S1x2x160x160, .f32⟩
  | 122 => ⟨S160x2x160x160, .f32⟩
  | 123 => ⟨S2x160x160x160, .f32⟩
  | 124 => ⟨S2x160x160x160, .f32⟩
  | 125 => ⟨S2x160x160x160, .f32⟩
  | 126 => ⟨S2x160x160x160, .f32⟩
  | 127 => ⟨S160x2x160x160, .f32⟩
  | _ => ⟨S2x160x160x160, .f32⟩

abbrev hbmTy0_2 (i : Nat) : BufTy := match i % 128 with
  | 0 => ⟨S159x2x160x160, .f32⟩
  | 1 => ⟨S159x2x160x160, .f32⟩
  | 2 => ⟨S159x2x160x160, .f32⟩
  | 3 => ⟨S_, .f32⟩
  | 4 => ⟨S159x2x160x160, .f32⟩
  | 5 => ⟨S159x2x160x160, .f32⟩
  | 6 => ⟨S1x2x160x160, .f32⟩
  | 7 => ⟨S160x2x160x160, .f32⟩
  | 8 => ⟨S2x160x160x160, .f32⟩
  | 9 => ⟨S2x160x160x160, .f32⟩
  | 10 => ⟨S2x160x160x160, .f32⟩
  | 11 => ⟨S160x2x160x160, .f32⟩
  | 12 => ⟨S159x2x160x160, .f32⟩
  | 13 => ⟨S159x2x160x160, .f32⟩
  | 14 => ⟨S159x2x160x160, .f32⟩
  | 15 => ⟨S_, .f32⟩
  | 16 => ⟨S159x2x160x160, .f32⟩
  | 17 => ⟨S159x2x160x160, .f32⟩
  | 18 => ⟨S1x2x160x160, .f32⟩
  | 19 => ⟨S160x2x160x160, .f32⟩
  | 20 => ⟨S2x160x160x160, .f32⟩
  | 21 => ⟨S2x160x160x160, .f32⟩
  | 22 => ⟨S2x160x160x160, .f32⟩
  | 23 => ⟨S160x2x160x160, .f32⟩
  | 24 => ⟨S159x2x160x160, .f32⟩
  | 25 => ⟨S159x2x160x160, .f32⟩
  | 26 => ⟨S159x2x160x160, .f32⟩
  | 27 => ⟨S_, .f32⟩
  | 28 => ⟨S159x2x160x160, .f32⟩
  | 29 => ⟨S159x2x160x160, .f32⟩
  | 30 => ⟨S1x2x160x160, .f32⟩
  | 31 => ⟨S160x2x160x160, .f32⟩
  | 32 => ⟨S2x160x160x160, .f32⟩
  | 33 => ⟨S2x160x160x160, .f32⟩
  | 34 => ⟨S2x160x160x160, .f32⟩
  | 35 => ⟨S160x2x160x160, .f32⟩
  | 36 => ⟨S159x2x160x160, .f32⟩
  | 37 => ⟨S159x2x160x160, .f32⟩
  | 38 => ⟨S159x2x160x160, .f32⟩
  | 39 => ⟨S_, .f32⟩
  | 40 => ⟨S159x2x160x160, .f32⟩
  | 41 => ⟨S159x2x160x160, .f32⟩
  | 42 => ⟨S1x2x160x160, .f32⟩
  | 43 => ⟨S160x2x160x160, .f32⟩
  | 44 => ⟨S2x160x160x160, .f32⟩
  | 45 => ⟨S160x2x160x160, .f32⟩
  | 46 => ⟨S159x2x160x160, .f32⟩
  | 47 => ⟨S159x2x160x160, .f32⟩
  | 48 => ⟨S159x2x160x160, .f32⟩
  | 49 => ⟨S_, .f32⟩
  | 50 => ⟨S159x2x160x160, .f32⟩
  | 51 => ⟨S159x2x160x160, .f32⟩
  | 52 => ⟨S1x2x160x160, .f32⟩
  | 53 => ⟨S160x2x160x160, .f32⟩
  | 54 => ⟨S2x160x160x160, .f32⟩
  | 55 => ⟨S2x160x160x160, .f32⟩
  | 56 => ⟨S2x160x160x160, .f32⟩
  | 57 => ⟨S2x160x160x160, .f32⟩
  | 58 => ⟨S160x2x160x160, .f32⟩
  | 59 => ⟨S159x2x160x160, .f32⟩
  | 60 => ⟨S159x2x160x160, .f32⟩
  | 61 => ⟨S159x2x160x160, .f32⟩
  | 62 => ⟨S_, .f32⟩
  | 63 => ⟨S159x2x160x160, .f32⟩
  | 64 => ⟨S159x2x160x160, .f32⟩
  | 65 => ⟨S1x2x160x160, .f32⟩
  | 66 => ⟨S160x2x160x160, .f32⟩
  | 67 => ⟨S2x160x160x160, .f32⟩
  | 68 => ⟨S160x2x160x160, .f32⟩
  | 69 => ⟨S159x2x160x160, .f32⟩
  | 70 => ⟨S159x2x160x160, .f32⟩
  | 71 => ⟨S159x2x160x160, .f32⟩
  | 72 => ⟨S_, .f32⟩
  | 73 => ⟨S159x2x160x160, .f32⟩
  | 74 => ⟨S159x2x160x160, .f32⟩
  | 75 => ⟨S1x2x160x160, .f32⟩
  | 76 => ⟨S160x2x160x160, .f32⟩
  | 77 => ⟨S2x160x160x160, .f32⟩
  | 78 => ⟨S2x160x160x160, .f32⟩
  | 79 => ⟨S2x160x160x160, .f32⟩
  | 80 => ⟨S2x160x160x160, .f32⟩
  | 81 => ⟨S160x2x160x160, .f32⟩
  | 82 => ⟨S159x2x160x160, .f32⟩
  | 83 => ⟨S159x2x160x160, .f32⟩
  | 84 => ⟨S159x2x160x160, .f32⟩
  | 85 => ⟨S_, .f32⟩
  | 86 => ⟨S159x2x160x160, .f32⟩
  | 87 => ⟨S159x2x160x160, .f32⟩
  | 88 => ⟨S1x2x160x160, .f32⟩
  | 89 => ⟨S160x2x160x160, .f32⟩
  | 90 => ⟨S2x160x160x160, .f32⟩
  | 91 => ⟨S160x2x160x160, .f32⟩
  | 92 => ⟨S159x2x160x160, .f32⟩
  | 93 => ⟨S159x2x160x160, .f32⟩
  | 94 => ⟨S159x2x160x160, .f32⟩
  | 95 => ⟨S_, .f32⟩
  | 96 => ⟨S159x2x160x160, .f32⟩
  | 97 => ⟨S159x2x160x160, .f32⟩
  | 98 => ⟨S1x2x160x160, .f32⟩
  | 99 => ⟨S160x2x160x160, .f32⟩
  | 100 => ⟨S2x160x160x160, .f32⟩
  | 101 => ⟨S2x160x160x160, .f32⟩
  | 102 => ⟨S2x160x160x160, .f32⟩
  | 103 => ⟨S2x160x160x160, .f32⟩
  | 104 => ⟨S_, .f32⟩
  | 105 => ⟨S2x160x160x160, .f32⟩
  | 106 => ⟨S2x160x160x160, .i1⟩
  | 107 => ⟨S160x2x160x160, .f32⟩
  | 108 => ⟨S159x2x160x160, .f32⟩
  | 109 => ⟨S159x2x160x160, .f32⟩
  | 110 => ⟨S159x2x160x160, .f32⟩
  | 111 => ⟨S_, .f32⟩
  | 112 => ⟨S159x2x160x160, .f32⟩
  | 113 => ⟨S159x2x160x160, .f32⟩
  | 114 => ⟨S1x2x160x160, .f32⟩
  | 115 => ⟨S160x2x160x160, .f32⟩
  | 116 => ⟨S2x160x160x160, .f32⟩
  | 117 => ⟨S160x2x160x160, .f32⟩
  | 118 => ⟨S159x2x160x160, .f32⟩
  | 119 => ⟨S159x2x160x160, .f32⟩
  | 120 => ⟨S159x2x160x160, .f32⟩
  | 121 => ⟨S_, .f32⟩
  | 122 => ⟨S159x2x160x160, .f32⟩
  | 123 => ⟨S159x2x160x160, .f32⟩
  | 124 => ⟨S1x2x160x160, .f32⟩
  | 125 => ⟨S160x2x160x160, .f32⟩
  | 126 => ⟨S2x160x160x160, .f32⟩
  | 127 => ⟨S2x160x160x160, .f32⟩
  | _ => ⟨S2x160x160x160, .f32⟩

abbrev hbmTy0_3 (i : Nat) : BufTy := match i % 128 with
  | 0 => ⟨S_, .f32⟩
  | 1 => ⟨S2x160x160x160, .f32⟩
  | 2 => ⟨S2x160x160x160, .i1⟩
  | 3 => ⟨S160x2x160x160, .f32⟩
  | 4 => ⟨S159x2x160x160, .f32⟩
  | 5 => ⟨S159x2x160x160, .f32⟩
  | 6 => ⟨S159x2x160x160, .f32⟩
  | 7 => ⟨S_, .f32⟩
  | 8 => ⟨S159x2x160x160, .f32⟩
  | 9 => ⟨S159x2x160x160, .f32⟩
  | 10 => ⟨S1x2x160x160, .f32⟩
  | 11 => ⟨S160x2x160x160, .f32⟩
  | 12 => ⟨S2x160x160x160, .f32⟩
  | 13 => ⟨S160x2x160x160, .f32⟩
  | 14 => ⟨S159x2x160x160, .f32⟩
  | 15 => ⟨S159x2x160x160, .f32⟩
  | 16 => ⟨S159x2x160x160, .f32⟩
  | 17 => ⟨S_, .f32⟩
  | 18 => ⟨S159x2x160x160, .f32⟩
  | 19 => ⟨S159x2x160x160, .f32⟩
  | 20 => ⟨S1x2x160x160, .f32⟩
  | 21 => ⟨S160x2x160x160, .f32⟩
  | 22 => ⟨S2x160x160x160, .f32⟩
  | 23 => ⟨S2x160x160x160, .f32⟩
  | 24 => ⟨S_, .f32⟩
  | 25 => ⟨S2x160x160x160, .f32⟩
  | 26 => ⟨S2x160x160x160, .i1⟩
  | 27 => ⟨S160x2x160x160, .f32⟩
  | 28 => ⟨S159x2x160x160, .f32⟩
  | 29 => ⟨S159x2x160x160, .f32⟩
  | 30 => ⟨S159x2x160x160, .f32⟩
  | 31 => ⟨S_, .f32⟩
  | 32 => ⟨S159x2x160x160, .f32⟩
  | 33 => ⟨S159x2x160x160, .f32⟩
  | 34 => ⟨S1x2x160x160, .f32⟩
  | 35 => ⟨S160x2x160x160, .f32⟩
  | 36 => ⟨S2x160x160x160, .f32⟩
  | 37 => ⟨S160x2x160x160, .f32⟩
  | 38 => ⟨S159x2x160x160, .f32⟩
  | 39 => ⟨S159x2x160x160, .f32⟩
  | 40 => ⟨S159x2x160x160, .f32⟩
  | 41 => ⟨S_, .f32⟩
  | 42 => ⟨S159x2x160x160, .f32⟩
  | 43 => ⟨S159x2x160x160, .f32⟩
  | 44 => ⟨S1x2x160x160, .f32⟩
  | 45 => ⟨S160x2x160x160, .f32⟩
  | 46 => ⟨S2x160x160x160, .f32⟩
  | 47 => ⟨S2x160x160x160, .f32⟩
  | 48 => ⟨S2x160x160x160, .f32⟩
  | 49 => ⟨S2x160x160x160, .f32⟩
  | 50 => ⟨S2x160x160x160, .f32⟩
  | 51 => ⟨S2x160x160x160, .f32⟩
  | 52 => ⟨S2x160x160x160, .f32⟩
  | 53 => ⟨S2x160x160x160, .f32⟩
  | 54 => ⟨S160x2x160x160, .f32⟩
  | 55 => ⟨S159x2x160x160, .f32⟩
  | 56 => ⟨S159x2x160x160, .f32⟩
  | 57 => ⟨S159x2x160x160, .f32⟩
  | 58 => ⟨S_, .f32⟩
  | 59 => ⟨S159x2x160x160, .f32⟩
  | 60 => ⟨S159x2x160x160, .f32⟩
  | 61 => ⟨S1x2x160x160, .f32⟩
  | 62 => ⟨S158x2x160x160, .f32⟩
  | 63 => ⟨S158x2x160x160, .f32⟩
  | 64 => ⟨S158x2x160x160, .f32⟩
  | 65 => ⟨S_, .f32⟩
  | 66 => ⟨S158x2x160x160, .f32⟩
  | 67 => ⟨S158x2x160x160, .f32⟩
  | 68 => ⟨S1x2x160x160, .f32⟩
  | 69 => ⟨S160x2x160x160, .f32⟩
  | 70 => ⟨S2x160x160x160, .f32⟩
  | 71 => ⟨S160x2x160x160, .f32⟩
  | 72 => ⟨S159x2x160x160, .f32⟩
  | 73 => ⟨S159x2x160x160, .f32⟩
  | 74 => ⟨S159x2x160x160, .f32⟩
  | 75 => ⟨S_, .f32⟩
  | 76 => ⟨S159x2x160x160, .f32⟩
  | 77 => ⟨S159x2x160x160, .f32⟩
  | 78 => ⟨S1x2x160x160, .f32⟩
  | 79 => ⟨S158x2x160x160, .f32⟩
  | 80 => ⟨S158x2x160x160, .f32⟩
  | 81 => ⟨S158x2x160x160, .f32⟩
  | 82 => ⟨S_, .f32⟩
  | 83 => ⟨S158x2x160x160, .f32⟩
  | 84 => ⟨S158x2x160x160, .f32⟩
  | 85 => ⟨S1x2x160x160, .f32⟩
  | 86 => ⟨S160x2x160x160, .f32⟩
  | 87 => ⟨S2x160x160x160, .f32⟩
  | 88 => ⟨S2x160x160x160, .f32⟩
  | 89 => ⟨S160x2x160x160, .f32⟩
  | 90 => ⟨S159x2x160x160, .f32⟩
  | 91 => ⟨S159x2x160x160, .f32⟩
  | 92 => ⟨S159x2x160x160, .f32⟩
  | 93 => ⟨S_, .f32⟩
  | 94 => ⟨S159x2x160x160, .f32⟩
  | 95 => ⟨S159x2x160x160, .f32⟩
  | 96 => ⟨S1x2x160x160, .f32⟩
  | 97 => ⟨S158x2x160x160, .f32⟩
  | 98 => ⟨S158x2x160x160, .f32⟩
  | 99 => ⟨S158x2x160x160, .f32⟩
  | 100 => ⟨S_, .f32⟩
  | 101 => ⟨S158x2x160x160, .f32⟩
  | 102 => ⟨S158x2x160x160, .f32⟩
  | 103 => ⟨S1x2x160x160, .f32⟩
  | 104 => ⟨S160x2x160x160, .f32⟩
  | 105 => ⟨S2x160x160x160, .f32⟩
  | 106 => ⟨S2x160x160x160, .f32⟩
  | 107 => ⟨S2x160x160x160, .f32⟩
  | 108 => ⟨S2x160x160x160, .f32⟩
  | 109 => ⟨S2x160x160x160, .f32⟩
  | _ => ⟨S2x160x160x160, .f32⟩

abbrev hbmTy (i : Nat) : BufTy := match i / 128 with
  | 0 => hbmTy0_0 i
  | 1 => hbmTy0_1 i
  | 2 => hbmTy0_2 i
  | 3 => hbmTy0_3 i
  | _ => ⟨S2x160x160x160, .f32⟩

abbrev bufTy : (tb : Table) → Fin (tcTables nBuf tb) → BufTy
  | .hbm, ⟨i, _⟩ => hbmTy i
  | _, _ => ⟨S2x160x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_7 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_8 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_9 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_10 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_11 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_12 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_13 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_cst_14 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_cst_15 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_cst_16 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_cst_17 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_cst_18 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_cst_19 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_cst_20 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_cst_21 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_cst_22 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_cst_23 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_cst_24 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_cst_25 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_cst_26 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_cst_27 : Ref sig .tc := ⟨.hbm, 271, rfl⟩
abbrev main_v233 : Ref sig .tc := ⟨.hbm, 272, rfl⟩
abbrev main_v234 : Ref sig .tc := ⟨.hbm, 273, rfl⟩
abbrev main_v235 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_cst_28 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩
abbrev main_v250 : Ref sig .tc := ⟨.hbm, 290, rfl⟩
abbrev main_v251 : Ref sig .tc := ⟨.hbm, 291, rfl⟩
abbrev main_v252 : Ref sig .tc := ⟨.hbm, 292, rfl⟩
abbrev main_v253 : Ref sig .tc := ⟨.hbm, 293, rfl⟩
abbrev main_v254 : Ref sig .tc := ⟨.hbm, 294, rfl⟩
abbrev main_cst_29 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_cst_30 : Ref sig .tc := ⟨.hbm, 305, rfl⟩
abbrev main_v264 : Ref sig .tc := ⟨.hbm, 306, rfl⟩
abbrev main_v265 : Ref sig .tc := ⟨.hbm, 307, rfl⟩
abbrev main_v266 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_v270 : Ref sig .tc := ⟨.hbm, 312, rfl⟩
abbrev main_v271 : Ref sig .tc := ⟨.hbm, 313, rfl⟩
abbrev main_v272 : Ref sig .tc := ⟨.hbm, 314, rfl⟩
abbrev main_v273 : Ref sig .tc := ⟨.hbm, 315, rfl⟩
abbrev main_v274 : Ref sig .tc := ⟨.hbm, 316, rfl⟩
abbrev main_v275 : Ref sig .tc := ⟨.hbm, 317, rfl⟩
abbrev main_cst_31 : Ref sig .tc := ⟨.hbm, 318, rfl⟩
abbrev main_v276 : Ref sig .tc := ⟨.hbm, 319, rfl⟩
abbrev main_v277 : Ref sig .tc := ⟨.hbm, 320, rfl⟩
abbrev main_v278 : Ref sig .tc := ⟨.hbm, 321, rfl⟩
abbrev main_v279 : Ref sig .tc := ⟨.hbm, 322, rfl⟩
abbrev main_v280 : Ref sig .tc := ⟨.hbm, 323, rfl⟩
abbrev main_v281 : Ref sig .tc := ⟨.hbm, 324, rfl⟩
abbrev main_v282 : Ref sig .tc := ⟨.hbm, 325, rfl⟩
abbrev main_v283 : Ref sig .tc := ⟨.hbm, 326, rfl⟩
abbrev main_v284 : Ref sig .tc := ⟨.hbm, 327, rfl⟩
abbrev main_cst_32 : Ref sig .tc := ⟨.hbm, 328, rfl⟩
abbrev main_v285 : Ref sig .tc := ⟨.hbm, 329, rfl⟩
abbrev main_v286 : Ref sig .tc := ⟨.hbm, 330, rfl⟩
abbrev main_v287 : Ref sig .tc := ⟨.hbm, 331, rfl⟩
abbrev main_v288 : Ref sig .tc := ⟨.hbm, 332, rfl⟩
abbrev main_v289 : Ref sig .tc := ⟨.hbm, 333, rfl⟩
abbrev main_v290 : Ref sig .tc := ⟨.hbm, 334, rfl⟩
abbrev main_v291 : Ref sig .tc := ⟨.hbm, 335, rfl⟩
abbrev main_v292 : Ref sig .tc := ⟨.hbm, 336, rfl⟩
abbrev main_v293 : Ref sig .tc := ⟨.hbm, 337, rfl⟩
abbrev main_v294 : Ref sig .tc := ⟨.hbm, 338, rfl⟩
abbrev main_v295 : Ref sig .tc := ⟨.hbm, 339, rfl⟩
abbrev main_v296 : Ref sig .tc := ⟨.hbm, 340, rfl⟩
abbrev main_cst_33 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_v302 : Ref sig .tc := ⟨.hbm, 347, rfl⟩
abbrev main_v303 : Ref sig .tc := ⟨.hbm, 348, rfl⟩
abbrev main_v304 : Ref sig .tc := ⟨.hbm, 349, rfl⟩
abbrev main_v305 : Ref sig .tc := ⟨.hbm, 350, rfl⟩
abbrev main_cst_34 : Ref sig .tc := ⟨.hbm, 351, rfl⟩
abbrev main_v306 : Ref sig .tc := ⟨.hbm, 352, rfl⟩
abbrev main_v307 : Ref sig .tc := ⟨.hbm, 353, rfl⟩
abbrev main_v308 : Ref sig .tc := ⟨.hbm, 354, rfl⟩
abbrev main_v309 : Ref sig .tc := ⟨.hbm, 355, rfl⟩
abbrev main_v310 : Ref sig .tc := ⟨.hbm, 356, rfl⟩
abbrev main_v311 : Ref sig .tc := ⟨.hbm, 357, rfl⟩
abbrev main_v312 : Ref sig .tc := ⟨.hbm, 358, rfl⟩
abbrev main_v313 : Ref sig .tc := ⟨.hbm, 359, rfl⟩
abbrev main_cst_35 : Ref sig .tc := ⟨.hbm, 360, rfl⟩
abbrev main_v314 : Ref sig .tc := ⟨.hbm, 361, rfl⟩
abbrev main_v315 : Ref sig .tc := ⟨.hbm, 362, rfl⟩
abbrev main_v316 : Ref sig .tc := ⟨.hbm, 363, rfl⟩
abbrev main_v317 : Ref sig .tc := ⟨.hbm, 364, rfl⟩
abbrev main_v318 : Ref sig .tc := ⟨.hbm, 365, rfl⟩
abbrev main_v319 : Ref sig .tc := ⟨.hbm, 366, rfl⟩
abbrev main_cst_36 : Ref sig .tc := ⟨.hbm, 367, rfl⟩
abbrev main_v320 : Ref sig .tc := ⟨.hbm, 368, rfl⟩
abbrev main_v321 : Ref sig .tc := ⟨.hbm, 369, rfl⟩
abbrev main_v322 : Ref sig .tc := ⟨.hbm, 370, rfl⟩
abbrev main_v323 : Ref sig .tc := ⟨.hbm, 371, rfl⟩
abbrev main_v324 : Ref sig .tc := ⟨.hbm, 372, rfl⟩
abbrev main_v325 : Ref sig .tc := ⟨.hbm, 373, rfl⟩
abbrev main_v326 : Ref sig .tc := ⟨.hbm, 374, rfl⟩
abbrev main_v327 : Ref sig .tc := ⟨.hbm, 375, rfl⟩
abbrev main_v328 : Ref sig .tc := ⟨.hbm, 376, rfl⟩
abbrev main_cst_37 : Ref sig .tc := ⟨.hbm, 377, rfl⟩
abbrev main_v329 : Ref sig .tc := ⟨.hbm, 378, rfl⟩
abbrev main_v330 : Ref sig .tc := ⟨.hbm, 379, rfl⟩
abbrev main_v331 : Ref sig .tc := ⟨.hbm, 380, rfl⟩
abbrev main_v332 : Ref sig .tc := ⟨.hbm, 381, rfl⟩
abbrev main_v333 : Ref sig .tc := ⟨.hbm, 382, rfl⟩
abbrev main_v334 : Ref sig .tc := ⟨.hbm, 383, rfl⟩
abbrev main_cst_38 : Ref sig .tc := ⟨.hbm, 384, rfl⟩
abbrev main_v335 : Ref sig .tc := ⟨.hbm, 385, rfl⟩
abbrev main_v336 : Ref sig .tc := ⟨.hbm, 386, rfl⟩
abbrev main_v337 : Ref sig .tc := ⟨.hbm, 387, rfl⟩
abbrev main_v338 : Ref sig .tc := ⟨.hbm, 388, rfl⟩
abbrev main_v339 : Ref sig .tc := ⟨.hbm, 389, rfl⟩
abbrev main_v340 : Ref sig .tc := ⟨.hbm, 390, rfl⟩
abbrev main_cst_39 : Ref sig .tc := ⟨.hbm, 391, rfl⟩
abbrev main_v341 : Ref sig .tc := ⟨.hbm, 392, rfl⟩
abbrev main_v342 : Ref sig .tc := ⟨.hbm, 393, rfl⟩
abbrev main_v343 : Ref sig .tc := ⟨.hbm, 394, rfl⟩
abbrev main_v344 : Ref sig .tc := ⟨.hbm, 395, rfl⟩
abbrev main_v345 : Ref sig .tc := ⟨.hbm, 396, rfl⟩
abbrev main_v346 : Ref sig .tc := ⟨.hbm, 397, rfl⟩
abbrev main_v347 : Ref sig .tc := ⟨.hbm, 398, rfl⟩
abbrev main_v348 : Ref sig .tc := ⟨.hbm, 399, rfl⟩
abbrev main_v349 : Ref sig .tc := ⟨.hbm, 400, rfl⟩
abbrev main_cst_40 : Ref sig .tc := ⟨.hbm, 401, rfl⟩
abbrev main_v350 : Ref sig .tc := ⟨.hbm, 402, rfl⟩
abbrev main_v351 : Ref sig .tc := ⟨.hbm, 403, rfl⟩
abbrev main_v352 : Ref sig .tc := ⟨.hbm, 404, rfl⟩
abbrev main_v353 : Ref sig .tc := ⟨.hbm, 405, rfl⟩
abbrev main_v354 : Ref sig .tc := ⟨.hbm, 406, rfl⟩
abbrev main_v355 : Ref sig .tc := ⟨.hbm, 407, rfl⟩
abbrev main_cst_41 : Ref sig .tc := ⟨.hbm, 408, rfl⟩
abbrev main_v356 : Ref sig .tc := ⟨.hbm, 409, rfl⟩
abbrev main_v357 : Ref sig .tc := ⟨.hbm, 410, rfl⟩
abbrev main_v358 : Ref sig .tc := ⟨.hbm, 411, rfl⟩
abbrev main_v359 : Ref sig .tc := ⟨.hbm, 412, rfl⟩
abbrev main_v360 : Ref sig .tc := ⟨.hbm, 413, rfl⟩
abbrev main_v361 : Ref sig .tc := ⟨.hbm, 414, rfl⟩
abbrev main_cst_42 : Ref sig .tc := ⟨.hbm, 415, rfl⟩
abbrev main_v362 : Ref sig .tc := ⟨.hbm, 416, rfl⟩
abbrev main_v363 : Ref sig .tc := ⟨.hbm, 417, rfl⟩
abbrev main_v364 : Ref sig .tc := ⟨.hbm, 418, rfl⟩
abbrev main_v365 : Ref sig .tc := ⟨.hbm, 419, rfl⟩
abbrev main_v366 : Ref sig .tc := ⟨.hbm, 420, rfl⟩
abbrev main_v367 : Ref sig .tc := ⟨.hbm, 421, rfl⟩
abbrev main_v368 : Ref sig .tc := ⟨.hbm, 422, rfl⟩
abbrev main_v369 : Ref sig .tc := ⟨.hbm, 423, rfl⟩
abbrev main_v370 : Ref sig .tc := ⟨.hbm, 424, rfl⟩
abbrev main_cst_43 : Ref sig .tc := ⟨.hbm, 425, rfl⟩
abbrev main_v371 : Ref sig .tc := ⟨.hbm, 426, rfl⟩
abbrev main_v372 : Ref sig .tc := ⟨.hbm, 427, rfl⟩
abbrev main_v373 : Ref sig .tc := ⟨.hbm, 428, rfl⟩
abbrev main_v374 : Ref sig .tc := ⟨.hbm, 429, rfl⟩
abbrev main_v375 : Ref sig .tc := ⟨.hbm, 430, rfl⟩
abbrev main_v376 : Ref sig .tc := ⟨.hbm, 431, rfl⟩
abbrev main_v377 : Ref sig .tc := ⟨.hbm, 432, rfl⟩
abbrev main_v378 : Ref sig .tc := ⟨.hbm, 433, rfl⟩
abbrev main_v379 : Ref sig .tc := ⟨.hbm, 434, rfl⟩
abbrev main_v380 : Ref sig .tc := ⟨.hbm, 435, rfl⟩
abbrev main_v381 : Ref sig .tc := ⟨.hbm, 436, rfl⟩
abbrev main_v382 : Ref sig .tc := ⟨.hbm, 437, rfl⟩
abbrev main_v383 : Ref sig .tc := ⟨.hbm, 438, rfl⟩
abbrev main_v384 : Ref sig .tc := ⟨.hbm, 439, rfl⟩
abbrev main_v385 : Ref sig .tc := ⟨.hbm, 440, rfl⟩
abbrev main_v386 : Ref sig .tc := ⟨.hbm, 441, rfl⟩
abbrev main_cst_44 : Ref sig .tc := ⟨.hbm, 442, rfl⟩
abbrev main_v387 : Ref sig .tc := ⟨.hbm, 443, rfl⟩
abbrev main_v388 : Ref sig .tc := ⟨.hbm, 444, rfl⟩
abbrev main_v389 : Ref sig .tc := ⟨.hbm, 445, rfl⟩
abbrev main_v390 : Ref sig .tc := ⟨.hbm, 446, rfl⟩
abbrev main_v391 : Ref sig .tc := ⟨.hbm, 447, rfl⟩
abbrev main_v392 : Ref sig .tc := ⟨.hbm, 448, rfl⟩
abbrev main_cst_45 : Ref sig .tc := ⟨.hbm, 449, rfl⟩
abbrev main_v393 : Ref sig .tc := ⟨.hbm, 450, rfl⟩
abbrev main_v394 : Ref sig .tc := ⟨.hbm, 451, rfl⟩
abbrev main_v395 : Ref sig .tc := ⟨.hbm, 452, rfl⟩
abbrev main_v396 : Ref sig .tc := ⟨.hbm, 453, rfl⟩
abbrev main_v397 : Ref sig .tc := ⟨.hbm, 454, rfl⟩
abbrev main_v398 : Ref sig .tc := ⟨.hbm, 455, rfl⟩
abbrev main_v399 : Ref sig .tc := ⟨.hbm, 456, rfl⟩
abbrev main_v400 : Ref sig .tc := ⟨.hbm, 457, rfl⟩
abbrev main_v401 : Ref sig .tc := ⟨.hbm, 458, rfl⟩
abbrev main_cst_46 : Ref sig .tc := ⟨.hbm, 459, rfl⟩
abbrev main_v402 : Ref sig .tc := ⟨.hbm, 460, rfl⟩
abbrev main_v403 : Ref sig .tc := ⟨.hbm, 461, rfl⟩
abbrev main_v404 : Ref sig .tc := ⟨.hbm, 462, rfl⟩
abbrev main_v405 : Ref sig .tc := ⟨.hbm, 463, rfl⟩
abbrev main_v406 : Ref sig .tc := ⟨.hbm, 464, rfl⟩
abbrev main_v407 : Ref sig .tc := ⟨.hbm, 465, rfl⟩
abbrev main_cst_47 : Ref sig .tc := ⟨.hbm, 466, rfl⟩
abbrev main_v408 : Ref sig .tc := ⟨.hbm, 467, rfl⟩
abbrev main_v409 : Ref sig .tc := ⟨.hbm, 468, rfl⟩
abbrev main_v410 : Ref sig .tc := ⟨.hbm, 469, rfl⟩
abbrev main_v411 : Ref sig .tc := ⟨.hbm, 470, rfl⟩
abbrev main_v412 : Ref sig .tc := ⟨.hbm, 471, rfl⟩
abbrev main_v413 : Ref sig .tc := ⟨.hbm, 472, rfl⟩
abbrev main_v414 : Ref sig .tc := ⟨.hbm, 473, rfl⟩
abbrev main_v415 : Ref sig .tc := ⟨.hbm, 474, rfl⟩
abbrev main_v416 : Ref sig .tc := ⟨.hbm, 475, rfl⟩
abbrev main_v417 : Ref sig .tc := ⟨.hbm, 476, rfl⟩
abbrev main_cst_48 : Ref sig .tc := ⟨.hbm, 477, rfl⟩
abbrev main_v418 : Ref sig .tc := ⟨.hbm, 478, rfl⟩
abbrev main_v419 : Ref sig .tc := ⟨.hbm, 479, rfl⟩
abbrev main_v420 : Ref sig .tc := ⟨.hbm, 480, rfl⟩
abbrev main_v421 : Ref sig .tc := ⟨.hbm, 481, rfl⟩
abbrev main_v422 : Ref sig .tc := ⟨.hbm, 482, rfl⟩
abbrev main_v423 : Ref sig .tc := ⟨.hbm, 483, rfl⟩
abbrev main_cst_49 : Ref sig .tc := ⟨.hbm, 484, rfl⟩
abbrev main_v424 : Ref sig .tc := ⟨.hbm, 485, rfl⟩
abbrev main_v425 : Ref sig .tc := ⟨.hbm, 486, rfl⟩
abbrev main_v426 : Ref sig .tc := ⟨.hbm, 487, rfl⟩
abbrev main_v427 : Ref sig .tc := ⟨.hbm, 488, rfl⟩
abbrev main_v428 : Ref sig .tc := ⟨.hbm, 489, rfl⟩
abbrev main_v429 : Ref sig .tc := ⟨.hbm, 490, rfl⟩
abbrev main_v430 : Ref sig .tc := ⟨.hbm, 491, rfl⟩
abbrev main_v431 : Ref sig .tc := ⟨.hbm, 492, rfl⟩
abbrev main_v432 : Ref sig .tc := ⟨.hbm, 493, rfl⟩

abbrev nD : Nat := 1
abbrev τ : Topo := Topo.v7x

variable {F : FTy → Type} [FloatOps F]

class Facts₀ : Prop where
  transposes_S2x160x160x160_S160x2x160x160_1_0_2_3 : S2x160x160x160.Transposes [1, 0, 2, 3] S160x2x160x160
  slices_S160x2x160x160_S159x2x160x160_1_0_0_0 : S160x2x160x160.Slices ![1, 0, 0, 0] S159x2x160x160
  slices_S160x2x160x160_S159x2x160x160_0_0_0_0 : S160x2x160x160.Slices ![0, 0, 0, 0] S159x2x160x160
  bcast_S_S159x2x160x160 : S_.BroadcastsInDim S159x2x160x160 (![] : Fin 0 → Fin S159x2x160x160.rank)
  slices_S159x2x160x160_S1x2x160x160_0_0_0_0 : S159x2x160x160.Slices ![0, 0, 0, 0] S1x2x160x160
  slices_S160x2x160x160_S158x2x160x160_2_0_0_0 : S160x2x160x160.Slices ![2, 0, 0, 0] S158x2x160x160
  slices_S160x2x160x160_S158x2x160x160_0_0_0_0 : S160x2x160x160.Slices ![0, 0, 0, 0] S158x2x160x160
  bcast_S_S158x2x160x160 : S_.BroadcastsInDim S158x2x160x160 (![] : Fin 0 → Fin S158x2x160x160.rank)
  slices_S159x2x160x160_S1x2x160x160_158_0_0_0 : S159x2x160x160.Slices ![158, 0, 0, 0] S1x2x160x160
  concatenates_S1x2x160x160_S158x2x160x160_S1x2x160x160_S160x2x160x160_d0 : Shape.Concatenates [S1x2x160x160, S158x2x160x160, S1x2x160x160] S160x2x160x160 0
  transposes_S160x2x160x160_S2x160x160x160_1_0_2_3 : S160x2x160x160.Transposes [1, 0, 2, 3] S2x160x160x160
  transposes_S2x160x160x160_S160x2x160x160_2_0_1_3 : S2x160x160x160.Transposes [2, 0, 1, 3] S160x2x160x160
  transposes_S160x2x160x160_S2x160x160x160_1_2_0_3 : S160x2x160x160.Transposes [1, 2, 0, 3] S2x160x160x160
  transposes_S2x160x160x160_S160x2x160x160_3_0_1_2 : S2x160x160x160.Transposes [3, 0, 1, 2] S160x2x160x160
  transposes_S160x2x160x160_S2x160x160x160_1_2_3_0 : S160x2x160x160.Transposes [1, 2, 3, 0] S2x160x160x160
  concatenates_S159x2x160x160_S1x2x160x160_S160x2x160x160_d0 : Shape.Concatenates [S159x2x160x160, S1x2x160x160] S160x2x160x160 0
  concatenates_S1x2x160x160_S159x2x160x160_S160x2x160x160_d0 : Shape.Concatenates [S1x2x160x160, S159x2x160x160] S160x2x160x160 0
  bcast_S_S2x160x160x160 : S_.BroadcastsInDim S2x160x160x160 (![] : Fin 0 → Fin S2x160x160x160.rank)

variable [Facts₀]

class Facts : Prop extends Facts₀ where

variable [Facts]
-- ==== Proof.BitsAround.lean ====
/-
  @main around its one pallas_call: seven stretches of host operations (the finite-difference fields, the three
  upwind selections, the 26 reshapes to 320 x 25600), the call, and one reshape of its result back to the grid.
  Here: what each buffer holds when the call is entered (the fold of the host operations over the launch memory),
  that @main is those stretches, the call, the last reshape, that the last reshape touches no array of the call, and
  each input window's block at a grid point (columns 256 t .. 256 t + 255 of its array) found in its staging buffer.
-/
import proofs.«120775_j9655086481804_1_alg».proof.Proof.Gen.Kernel.Launch
import proofs.«120775_j9655086481804_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffer contents when the call is entered: the host operations before it, folded over the launch memory. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

/-! No host operation allocates a buffer. -/
set_option maxHeartbeats 4000000 in
theorem hostOps0_fresh : (hostOps0 : List (HloOp τ sig (Elt F))).Forall fun op => op.fresh = ∅ := by
  simp only [List.Forall]; repeat' constructor
set_option maxHeartbeats 4000000 in
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
set_option maxHeartbeats 4000000 in
theorem hostOps0_3_fresh : (hostOps0_3 : List (HloOp τ sig (Elt F))).Forall fun op => op.fresh = ∅ := by
  simp only [List.Forall]; repeat' constructor
set_option maxHeartbeats 4000000 in
theorem hostOps0_4_fresh : (hostOps0_4 : List (HloOp τ sig (Elt F))).Forall fun op => op.fresh = ∅ := by
  simp only [List.Forall]; repeat' constructor
set_option maxHeartbeats 4000000 in
theorem hostOps0_5_fresh : (hostOps0_5 : List (HloOp τ sig (Elt F))).Forall fun op => op.fresh = ∅ := by
  simp only [List.Forall]; repeat' constructor
set_option maxHeartbeats 4000000 in
theorem hostOps0_6_fresh : (hostOps0_6 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- @main is the stretches before the call, the call, the reshape after it: it reduces to the call continued by that reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The reshape after the call touches only arrays of the call and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The windows' blocks -/

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, for any proof data whose array is the
    entry contents and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem before_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
theorem before_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)

end Cert.Kernel.Fr

end
-- ==== Proof.BitsBody.lean ====
/-
  One grid point of the kernel: it loads the 26 input blocks whole (320 x 256 each), forms the nine products of the
  diffusion term and the three of the advection term, and stores
      diffusion + ((0 - advection) - C * divV)
  over the whole output block. So the output's staging buffer ends at that one function of the input blocks, whatever
  it held before (the body also loads it once, and uses nothing of what it read).
-/
import proofs.«120775_j9655086481804_1_alg».proof.Proof.Gen.Kernel.Launch
import proofs.«120775_j9655086481804_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 320 x 256 block. -/
abbrev r0 : Rect S320x256 := Rect.unit (s := S320x256) ![0, 0] S320x256.size inb_S320x256_S320x256_0_0

/-- The output block after the body, from the input blocks: its one store, over the whole block. Window numbers:
    0 C; 1-3 the central gradient of C; 4-6 the tensor rows' sums; 7-9 Dxx Dyy Dzz; 10-12 Dxy Dyz Dxz; 13-18 the second
    differences in the same order; 19-21 the velocity; 22-24 the upwind differences; 25 the velocity's divergence. -/
def out26 (x0 x1 x2 x3 x4 x5 x6 x7 x8 x9 x10 x11 x12 x13 x14 x15 x16 x17 x18 x19 x20 x21 x22 x23 x24 x25 : Vec F S320x256 .f32) : Vec F S320x256 .f32 :=
  View.canon [⟨r0, k0_pay1
    (k0_pay3 (k0_pay2 (View.ld x4 r0) (View.ld x1 r0) (View.ld x5 r0) (View.ld x2 r0) (View.ld x6 r0) (View.ld x3 r0) (View.ld x7 r0) (View.ld x13 r0) (View.ld x8 r0) (View.ld x14 r0) (View.ld x9 r0) (View.ld x15 r0))
      (View.ld x10 r0) (View.ld x16 r0) (View.ld x11 r0) (View.ld x17 r0) (View.ld x12 r0) (View.ld x18 r0))
    (k0_pay4 (View.ld x19 r0) (View.ld x22 r0) (View.ld x20 r0) (View.ld x23 r0) (View.ld x21 r0) (View.ld x24 r0))
    (Scalar.ofBits .f32 0x00000000#32) (View.ld x0 r0) (View.ld x25 r0)⟩]

/-- The one store covers the block. -/
theorem cover26 (p0 : Vec F S320x256 .f32) (y : S320x256.Idx) :
    ∃ pc ∈ ([⟨r0, p0⟩] : List (View.Piece (Elt F) S320x256 .f32)), y ∈ pc.1.set :=
  View.cover_of_tiled [⟨r0, p0⟩] S320x256.size (by rfl) y

set_option maxHeartbeats 4000000 in
/-- The body on whole staging buffers, the inputs' at contents x0 .. x25 and the output's at anything, runs to the
    continuation with the inputs' as they were and the output's at out26 of them. -/
theorem sound_kernel (c : Dev nD) (E : Set ℕ) (i : grid0.Coords) (arg1 : Memref sig .tc .vmem S320x256 .f32) (harg1 : arg1.IsWhole) (arg2 : Memref sig .tc .vmem S320x256 .f32) (harg2 : arg2.IsWhole) (arg3 : Memref sig .tc .vmem S320x256 .f32) (harg3 : arg3.IsWhole) (arg4 : Memref sig .tc .vmem S320x256 .f32) (harg4 : arg4.IsWhole) (arg5 : Memref sig .tc .vmem S320x256 .f32) (harg5 : arg5.IsWhole) (arg6 : Memref sig .tc .vmem S320x256 .f32) (harg6 : arg6.IsWhole) (arg7 : Memref sig .tc .vmem S320x256 .f32) (harg7 : arg7.IsWhole) (arg8 : Memref sig .tc .vmem S320x256 .f32) (harg8 : arg8.IsWhole) (arg9 : Memref sig .tc .vmem S320x256 .f32) (harg9 : arg9.IsWhole) (arg10 : Memref sig .tc .vmem S320x256 .f32) (harg10 : arg10.IsWhole) (arg11 : Memref sig .tc .vmem S320x256 .f32) (harg11 : arg11.IsWhole) (arg12 : Memref sig .tc .vmem S320x256 .f32) (harg12 : arg12.IsWhole) (arg13 : Memref sig .tc .vmem S320x256 .f32) (harg13 : arg13.IsWhole) (arg14 : Memref sig .tc .vmem S320x256 .f32) (harg14 : arg14.IsWhole) (arg15 : Memref sig .tc .vmem S320x256 .f32) (harg15 : arg15.IsWhole) (arg16 : Memref sig .tc .vmem S320x256 .f32) (harg16 : arg16.IsWhole) (arg17 : Memref sig .tc .vmem S320x256 .f32) (harg17 : arg17.IsWhole) (arg18 : Memref sig .tc .vmem S320x256 .f32) (harg18 : arg18.IsWhole) (arg19 : Memref sig .tc .vmem S320x256 .f32) (harg19 : arg19.IsWhole) (arg20 : Memref sig .tc .vmem S320x256 .f32) (harg20 : arg20.IsWhole) (arg21 : Memref sig .tc .vmem S320x256 .f32) (harg21 : arg21.IsWhole) (arg22 : Memref sig .tc .vmem S320x256 .f32) (harg22 : arg22.IsWhole) (arg23 : Memref sig .tc .vmem S320x256 .f32) (harg23 : arg23.IsWhole) (arg24 : Memref sig .tc .vmem S320x256 .f32) (harg24 : arg24.IsWhole) (arg25 : Memref sig .tc .vmem S320x256 .f32) (harg25 : arg25.IsWhole) (arg26 : Memref sig .tc .vmem S320x256 .f32) (harg26 : arg26.IsWhole) (arg27 : Memref sig .tc .vmem S320x256 .f32) (harg27 : arg27.IsWhole)
    (x0 x1 x2 x3 x4 x5 x6 x7 x8 x9 x10 x11 x12 x13 x14 x15 x16 x17 x18 x19 x20 x21 x22 x23 x24 x25 : Vec F S320x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare (out26 x0 x1 x2 x3 x4 x5 x6 x7 x8 x9 x10 x11 x12 x13 x14 x15 x16 x17 x18 x19 x20 x21 x22 x23 x24 x25)) -∗ K ⟨⟩))
      ⊢ wp frame (wpE (defs₀ (F := F)) Variants.none c none) E (cc0__combine_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__combine_kernel_eq_skeleton]; unfold cc0__combine_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, Hk⟩
  subst hf0 hf1 hf2 hf3 hf4 hf5 hf6 hf7 hf8 hf9 hf10 hf11 hf12 hf13 hf14 hf15 hf16 hf17 hf18 hf19 hf20 hf21 hf22 hf23 hf24 hf25
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  iexists _; isplitr
  swap; · iexact H26
  ipureintro
  try dsimp only
  exact View.read_writes_eq_canon _ _ _ (cover26 _)

end Cert.Kernel.Fr

end
-- ==== Proof.BitsFrame.lean ====
/-
  The run of @main: the pipeline's proof data (each array as the call finds it; after the body each input's buffer at
  its block and the output's at out26 of the input blocks), the body at every grid point, and the run to the call's
  post, in which the output array is what the library computes from the proof data and every other buffer is as the
  last reshape leaves it.
-/
import proofs.«120775_j9655086481804_1_alg».proof.Proof.BitsAround
import proofs.«120775_j9655086481804_1_alg».proof.Proof.BitsBody

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => out26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)
    | ⟨_ + 27, h⟩ => absurd h (Nat.not_lt.2 (Nat.le_add_left _ _))
  Φ _ := Pipeline.ΦA spec0 c
  q _ := fullShare
  owed _ := 0

/-- Its arrays are the entry contents (projected, never unfolded). -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = iblk m c 25 t := by dsimp only [dats]
theorem after_26 (c : Dev nD) (t : Fin cfg0.N) : (dats m 0 c).after 26 t = out26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d
theorem before_13 (c : Dev nD) (t : Fin cfg0.N) (d) : (dats m 0 c).before 13 t d = iblk m c 13 t :=
  before_13_of m (dats m 0 c) (A_eq m c 13) (after_13 m c) t d
theorem before_14 (c : Dev nD) (t : Fin cfg0.N) (d) : (dats m 0 c).before 14 t d = iblk m c 14 t :=
  before_14_of m (dats m 0 c) (A_eq m c 14) (after_14 m c) t d
theorem before_15 (c : Dev nD) (t : Fin cfg0.N) (d) : (dats m 0 c).before 15 t d = iblk m c 15 t :=
  before_15_of m (dats m 0 c) (A_eq m c 15) (after_15 m c) t d
theorem before_16 (c : Dev nD) (t : Fin cfg0.N) (d) : (dats m 0 c).before 16 t d = iblk m c 16 t :=
  before_16_of m (dats m 0 c) (A_eq m c 16) (after_16 m c) t d
theorem before_17 (c : Dev nD) (t : Fin cfg0.N) (d) : (dats m 0 c).before 17 t d = iblk m c 17 t :=
  before_17_of m (dats m 0 c) (A_eq m c 17) (after_17 m c) t d
theorem before_18 (c : Dev nD) (t : Fin cfg0.N) (d) : (dats m 0 c).before 18 t d = iblk m c 18 t :=
  before_18_of m (dats m 0 c) (A_eq m c 18) (after_18 m c) t d
theorem before_19 (c : Dev nD) (t : Fin cfg0.N) (d) : (dats m 0 c).before 19 t d = iblk m c 19 t :=
  before_19_of m (dats m 0 c) (A_eq m c 19) (after_19 m c) t d
theorem before_20 (c : Dev nD) (t : Fin cfg0.N) (d) : (dats m 0 c).before 20 t d = iblk m c 20 t :=
  before_20_of m (dats m 0 c) (A_eq m c 20) (after_20 m c) t d
theorem before_21 (c : Dev nD) (t : Fin cfg0.N) (d) : (dats m 0 c).before 21 t d = iblk m c 21 t :=
  before_21_of m (dats m 0 c) (A_eq m c 21) (after_21 m c) t d
theorem before_22 (c : Dev nD) (t : Fin cfg0.N) (d) : (dats m 0 c).before 22 t d = iblk m c 22 t :=
  before_22_of m (dats m 0 c) (A_eq m c 22) (after_22 m c) t d
theorem before_23 (c : Dev nD) (t : Fin cfg0.N) (d) : (dats m 0 c).before 23 t d = iblk m c 23 t :=
  before_23_of m (dats m 0 c) (A_eq m c 23) (after_23 m c) t d
theorem before_24 (c : Dev nD) (t : Fin cfg0.N) (d) : (dats m 0 c).before 24 t d = iblk m c 24 t :=
  before_24_of m (dats m 0 c) (A_eq m c 24) (after_24 m c) t d
theorem before_25 (c : Dev nD) (t : Fin cfg0.N) (d) : (dats m 0 c).before 25 t d = iblk m c 25 t :=
  before_25_of m (dats m 0 c) (A_eq m c 25) (after_25 m c) t d

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 4000000 in
/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24, before_25]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has the output array at what the library
    computes from the proof data and every other unscoped buffer as the last reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.Kernel.Fr

end
-- ==== Proof.BitsArgs.lean ====
/-
  The ten inputs are written by no host operation, before the call or after it, and staged by no window (the windows
  stage reshaped copies): each ends holding what it was launched with. Hence the frame claim's post from any run of
  @main that ends in the call's post.
-/
import proofs.«120775_j9655086481804_1_alg».proof.Proof.BitsAround

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- No host operation before the call writes input 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: input 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 40000000 in
/-- No host operation before the call writes input 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: input 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 40000000 in
/-- No host operation before the call writes input 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: input 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 40000000 in
/-- No host operation before the call writes input 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: input 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 40000000 in
/-- No host operation before the call writes input 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: input 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 40000000 in
/-- No host operation before the call writes input 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: input 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

set_option maxHeartbeats 40000000 in
/-- No host operation before the call writes input 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: input 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

set_option maxHeartbeats 40000000 in
/-- No host operation before the call writes input 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: input 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

set_option maxHeartbeats 40000000 in
/-- No host operation before the call writes input 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: input 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

set_option maxHeartbeats 40000000 in
/-- No host operation before the call writes input 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: input 9 ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg9 (by exact (by decide : ∀ w, Pipeline.arrRef spec0 w ≠ main_arg9))]
  exact V_main_arg9 m c

/-- The frame claim's post from a run that ends in the call's post read at the ten inputs. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c)⟩) h

end Cert.Kernel.Fr

end
-- ==== Proof.IdealAround.lean ====
/-
  @main around its one pallas_call: seven stretches of host operations (the finite-difference fields, the three
  upwind selections, the 26 reshapes to 320 x 25600), the call, and one reshape of its result back to the grid.
  Here: what each buffer holds when the call is entered (the fold of the host operations over the launch memory),
  that @main is those stretches, the call, the last reshape, that the last reshape touches no array of the call, and
  each input window's block at a grid point (columns 256 t .. 256 t + 255 of its array) found in its staging buffer.
-/
import proofs.«120775_j9655086481804_1_alg».proof.Proof.Gen.KernelIdeal.Launch
import proofs.«120775_j9655086481804_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffer contents when the call is entered: the host operations before it, folded over the launch memory. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

/-! No host operation allocates a buffer. -/
set_option maxHeartbeats 4000000 in
theorem hostOps0_fresh : (hostOps0 : List (HloOp τ sig (Elt F))).Forall fun op => op.fresh = ∅ := by
  simp only [List.Forall]; repeat' constructor
set_option maxHeartbeats 4000000 in
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
set_option maxHeartbeats 4000000 in
theorem hostOps0_3_fresh : (hostOps0_3 : List (HloOp τ sig (Elt F))).Forall fun op => op.fresh = ∅ := by
  simp only [List.Forall]; repeat' constructor
set_option maxHeartbeats 4000000 in
theorem hostOps0_4_fresh : (hostOps0_4 : List (HloOp τ sig (Elt F))).Forall fun op => op.fresh = ∅ := by
  simp only [List.Forall]; repeat' constructor
set_option maxHeartbeats 4000000 in
theorem hostOps0_5_fresh : (hostOps0_5 : List (HloOp τ sig (Elt F))).Forall fun op => op.fresh = ∅ := by
  simp only [List.Forall]; repeat' constructor
set_option maxHeartbeats 4000000 in
theorem hostOps0_6_fresh : (hostOps0_6 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- @main is the stretches before the call, the call, the reshape after it: it reduces to the call continued by that reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The reshape after the call touches only arrays of the call and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The windows' blocks -/

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, for any proof data whose array is the
    entry contents and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem before_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
theorem before_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Fr

end
-- ==== Proof.IdealBody.lean ====
/-
  One grid point of the kernel: it loads the 26 input blocks whole (320 x 256 each), forms the nine products of the
  diffusion term and the three of the advection term, and stores
      diffusion + ((0 - advection) - C * divV)
  over the whole output block. So the output's staging buffer ends at that one function of the input blocks, whatever
  it held before (the body also loads it once, and uses nothing of what it read).
-/
import proofs.«120775_j9655086481804_1_alg».proof.Proof.Gen.KernelIdeal.Launch
import proofs.«120775_j9655086481804_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 320 x 256 block. -/
abbrev r0 : Rect S320x256 := Rect.unit (s := S320x256) ![0, 0] S320x256.size inb_S320x256_S320x256_0_0

/-- The output block after the body, from the input blocks: its one store, over the whole block. Window numbers:
    0 C; 1-3 the central gradient of C; 4-6 the tensor rows' sums; 7-9 Dxx Dyy Dzz; 10-12 Dxy Dyz Dxz; 13-18 the second
    differences in the same order; 19-21 the velocity; 22-24 the upwind differences; 25 the velocity's divergence. -/
def out26 (x0 x1 x2 x3 x4 x5 x6 x7 x8 x9 x10 x11 x12 x13 x14 x15 x16 x17 x18 x19 x20 x21 x22 x23 x24 x25 : Vec F S320x256 .f32) : Vec F S320x256 .f32 :=
  View.canon [⟨r0, k0_pay1
    (k0_pay3 (k0_pay2 (View.ld x4 r0) (View.ld x1 r0) (View.ld x5 r0) (View.ld x2 r0) (View.ld x6 r0) (View.ld x3 r0) (View.ld x7 r0) (View.ld x13 r0) (View.ld x8 r0) (View.ld x14 r0) (View.ld x9 r0) (View.ld x15 r0))
      (View.ld x10 r0) (View.ld x16 r0) (View.ld x11 r0) (View.ld x17 r0) (View.ld x12 r0) (View.ld x18 r0))
    (k0_pay4 (View.ld x19 r0) (View.ld x22 r0) (View.ld x20 r0) (View.ld x23 r0) (View.ld x21 r0) (View.ld x24 r0))
    (Scalar.ofBits .f32 0x00000000#32) (View.ld x0 r0) (View.ld x25 r0)⟩]

/-- The one store covers the block. -/
theorem cover26 (p0 : Vec F S320x256 .f32) (y : S320x256.Idx) :
    ∃ pc ∈ ([⟨r0, p0⟩] : List (View.Piece (Elt F) S320x256 .f32)), y ∈ pc.1.set :=
  View.cover_of_tiled [⟨r0, p0⟩] S320x256.size (by rfl) y

set_option maxHeartbeats 4000000 in
/-- The body on whole staging buffers, the inputs' at contents x0 .. x25 and the output's at anything, runs to the
    continuation with the inputs' as they were and the output's at out26 of them. -/
theorem sound_kernel (c : Dev nD) (E : Set ℕ) (i : grid0.Coords) (arg1 : Memref sig .tc .vmem S320x256 .f32) (harg1 : arg1.IsWhole) (arg2 : Memref sig .tc .vmem S320x256 .f32) (harg2 : arg2.IsWhole) (arg3 : Memref sig .tc .vmem S320x256 .f32) (harg3 : arg3.IsWhole) (arg4 : Memref sig .tc .vmem S320x256 .f32) (harg4 : arg4.IsWhole) (arg5 : Memref sig .tc .vmem S320x256 .f32) (harg5 : arg5.IsWhole) (arg6 : Memref sig .tc .vmem S320x256 .f32) (harg6 : arg6.IsWhole) (arg7 : Memref sig .tc .vmem S320x256 .f32) (harg7 : arg7.IsWhole) (arg8 : Memref sig .tc .vmem S320x256 .f32) (harg8 : arg8.IsWhole) (arg9 : Memref sig .tc .vmem S320x256 .f32) (harg9 : arg9.IsWhole) (arg10 : Memref sig .tc .vmem S320x256 .f32) (harg10 : arg10.IsWhole) (arg11 : Memref sig .tc .vmem S320x256 .f32) (harg11 : arg11.IsWhole) (arg12 : Memref sig .tc .vmem S320x256 .f32) (harg12 : arg12.IsWhole) (arg13 : Memref sig .tc .vmem S320x256 .f32) (harg13 : arg13.IsWhole) (arg14 : Memref sig .tc .vmem S320x256 .f32) (harg14 : arg14.IsWhole) (arg15 : Memref sig .tc .vmem S320x256 .f32) (harg15 : arg15.IsWhole) (arg16 : Memref sig .tc .vmem S320x256 .f32) (harg16 : arg16.IsWhole) (arg17 : Memref sig .tc .vmem S320x256 .f32) (harg17 : arg17.IsWhole) (arg18 : Memref sig .tc .vmem S320x256 .f32) (harg18 : arg18.IsWhole) (arg19 : Memref sig .tc .vmem S320x256 .f32) (harg19 : arg19.IsWhole) (arg20 : Memref sig .tc .vmem S320x256 .f32) (harg20 : arg20.IsWhole) (arg21 : Memref sig .tc .vmem S320x256 .f32) (harg21 : arg21.IsWhole) (arg22 : Memref sig .tc .vmem S320x256 .f32) (harg22 : arg22.IsWhole) (arg23 : Memref sig .tc .vmem S320x256 .f32) (harg23 : arg23.IsWhole) (arg24 : Memref sig .tc .vmem S320x256 .f32) (harg24 : arg24.IsWhole) (arg25 : Memref sig .tc .vmem S320x256 .f32) (harg25 : arg25.IsWhole) (arg26 : Memref sig .tc .vmem S320x256 .f32) (harg26 : arg26.IsWhole) (arg27 : Memref sig .tc .vmem S320x256 .f32) (harg27 : arg27.IsWhole)
    (x0 x1 x2 x3 x4 x5 x6 x7 x8 x9 x10 x11 x12 x13 x14 x15 x16 x17 x18 x19 x20 x21 x22 x23 x24 x25 : Vec F S320x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare (out26 x0 x1 x2 x3 x4 x5 x6 x7 x8 x9 x10 x11 x12 x13 x14 x15 x16 x17 x18 x19 x20 x21 x22 x23 x24 x25)) -∗ K ⟨⟩))
      ⊢ wp frame (wpE (defs₀ (F := F)) Variants.none c none) E (cc0__combine_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__combine_kernel_eq_skeleton]; unfold cc0__combine_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, Hk⟩
  subst hf0 hf1 hf2 hf3 hf4 hf5 hf6 hf7 hf8 hf9 hf10 hf11 hf12 hf13 hf14 hf15 hf16 hf17 hf18 hf19 hf20 hf21 hf22 hf23 hf24 hf25
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  iexists _; isplitr
  swap; · iexact H26
  ipureintro
  try dsimp only
  exact View.read_writes_eq_canon _ _ _ (cover26 _)

end Cert.KernelIdeal.Fr

end
-- ==== Proof.IdealFrame.lean ====
/-
  The run of @main: the pipeline's proof data (each array as the call finds it; after the body each input's buffer at
  its block and the output's at out26 of the input blocks), the body at every grid point, and the run to the call's
  post, in which the output array is what the library computes from the proof data and every other buffer is as the
  last reshape leaves it.
-/
import proofs.«120775_j9655086481804_1_alg».proof.Proof.IdealAround
import proofs.«120775_j9655086481804_1_alg».proof.Proof.IdealBody

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => out26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)
    | ⟨_ + 27, h⟩ => absurd h (Nat.not_lt.2 (Nat.le_add_left _ _))
  Φ _ := Pipeline.ΦA spec0 c
  q _ := fullShare
  owed _ := 0

/-- Its arrays are the entry contents (projected, never unfolded). -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = iblk m c 25 t := by dsimp only [dats]
theorem after_26 (c : Dev nD) (t : Fin cfg0.N) : (dats m 0 c).after 26 t = out26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d
theorem before_13 (c : Dev nD) (t : Fin cfg0.N) (d) : (dats m 0 c).before 13 t d = iblk m c 13 t :=
  before_13_of m (dats m 0 c) (A_eq m c 13) (after_13 m c) t d
theorem before_14 (c : Dev nD) (t : Fin cfg0.N) (d) : (dats m 0 c).before 14 t d = iblk m c 14 t :=
  before_14_of m (dats m 0 c) (A_eq m c 14) (after_14 m c) t d
theorem before_15 (c : Dev nD) (t : Fin cfg0.N) (d) : (dats m 0 c).before 15 t d = iblk m c 15 t :=
  before_15_of m (dats m 0 c) (A_eq m c 15) (after_15 m c) t d
theorem before_16 (c : Dev nD) (t : Fin cfg0.N) (d) : (dats m 0 c).before 16 t d = iblk m c 16 t :=
  before_16_of m (dats m 0 c) (A_eq m c 16) (after_16 m c) t d
theorem before_17 (c : Dev nD) (t : Fin cfg0.N) (d) : (dats m 0 c).before 17 t d = iblk m c 17 t :=
  before_17_of m (dats m 0 c) (A_eq m c 17) (after_17 m c) t d
theorem before_18 (c : Dev nD) (t : Fin cfg0.N) (d) : (dats m 0 c).before 18 t d = iblk m c 18 t :=
  before_18_of m (dats m 0 c) (A_eq m c 18) (after_18 m c) t d
theorem before_19 (c : Dev nD) (t : Fin cfg0.N) (d) : (dats m 0 c).before 19 t d = iblk m c 19 t :=
  before_19_of m (dats m 0 c) (A_eq m c 19) (after_19 m c) t d
theorem before_20 (c : Dev nD) (t : Fin cfg0.N) (d) : (dats m 0 c).before 20 t d = iblk m c 20 t :=
  before_20_of m (dats m 0 c) (A_eq m c 20) (after_20 m c) t d
theorem before_21 (c : Dev nD) (t : Fin cfg0.N) (d) : (dats m 0 c).before 21 t d = iblk m c 21 t :=
  before_21_of m (dats m 0 c) (A_eq m c 21) (after_21 m c) t d
theorem before_22 (c : Dev nD) (t : Fin cfg0.N) (d) : (dats m 0 c).before 22 t d = iblk m c 22 t :=
  before_22_of m (dats m 0 c) (A_eq m c 22) (after_22 m c) t d
theorem before_23 (c : Dev nD) (t : Fin cfg0.N) (d) : (dats m 0 c).before 23 t d = iblk m c 23 t :=
  before_23_of m (dats m 0 c) (A_eq m c 23) (after_23 m c) t d
theorem before_24 (c : Dev nD) (t : Fin cfg0.N) (d) : (dats m 0 c).before 24 t d = iblk m c 24 t :=
  before_24_of m (dats m 0 c) (A_eq m c 24) (after_24 m c) t d
theorem before_25 (c : Dev nD) (t : Fin cfg0.N) (d) : (dats m 0 c).before 25 t d = iblk m c 25 t :=
  before_25_of m (dats m 0 c) (A_eq m c 25) (after_25 m c) t d

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 4000000 in
/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24, before_25]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has the output array at what the library
    computes from the proof data and every other unscoped buffer as the last reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Fr

end
-- ==== Proof.IdealArgs.lean ====
/-
  The ten inputs are written by no host operation, before the call or after it, and staged by no window (the windows
  stage reshaped copies): each ends holding what it was launched with. Hence the frame claim's post from any run of
  @main that ends in the call's post.
-/
import proofs.«120775_j9655086481804_1_alg».proof.Proof.IdealAround

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- No host operation before the call writes input 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: input 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 40000000 in
/-- No host operation before the call writes input 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: input 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 40000000 in
/-- No host operation before the call writes input 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: input 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 40000000 in
/-- No host operation before the call writes input 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: input 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 40000000 in
/-- No host operation before the call writes input 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: input 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 40000000 in
/-- No host operation before the call writes input 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: input 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

set_option maxHeartbeats 40000000 in
/-- No host operation before the call writes input 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: input 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

set_option maxHeartbeats 40000000 in
/-- No host operation before the call writes input 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: input 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

set_option maxHeartbeats 40000000 in
/-- No host operation before the call writes input 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: input 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

set_option maxHeartbeats 40000000 in
/-- No host operation before the call writes input 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: input 9 ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg9 (by exact (by decide : ∀ w, Pipeline.arrRef spec0 w ≠ main_arg9))]
  exact V_main_arg9 m c

/-- The frame claim's post from a run that ends in the call's post read at the ten inputs. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c)⟩) h

end Cert.KernelIdeal.Fr

end
-- ==== Proof.Spec.lean ====
/-
  What both programs compute, as whole-array functions of the ten input fields (each an array over the
  2 x 160 x 160 x 160 grid: a batch axis and three space axes), at any float instance.

  A finite-difference field of an array X along space axis a is built in three moves: bring axis a to the front;
  difference along the front axis; put the axes back. With T the array with axis a in front (160 rows),
    step T      row i+1 minus row i, over the unit spacing            (159 rows)
    twoStep T   row i+2 minus row i, over twice the unit spacing     (158 rows)
  and the three difference kinds differ only in how rows are stacked back to 160:
    central     first one-step row, the two-step rows, last one-step row
    forward     the one-step rows, then the last one-step row again
    backward    the first one-step row, then the one-step rows.
  From these: the central gradient of C, the divergence-like sums of the diffusion tensor's rows, the second
  differences (a backward difference of a forward one), the upwind first differences chosen by the sign of the
  velocity, and the central divergence of the velocity: 26 fields in all, combined point by point as
    diffusion  =  sum of nine products
    result     =  diffusion + ((0 - advection) - C * divV)          in the kernel's spelling,
    result     =  diffusion + ((- advection) - C * divV)            in the reference's,
  the two spellings equal on the extended reals because 0 - x = -x there for every x, infinite ones included.
-/
import proofs.«120775_j9655086481804_1_alg».proof.KernelIdeal
import Idealize.ShloMosaic.PureOps.Ideal
import Idealize.ShloMosaic.Lib.ValueIdx
import Idealize.ShloMosaic.Lib.Pipeline.Value

noncomputable section

namespace Cert.KernelIdeal.Spec

open Cert.KernelIdeal Idealize.ShloMosaic Idealize.ShloMosaic.TcCoe

variable {F : FTy → Type} [FloatOps F]

/-! ## The shape side conditions of the operations used below

Each is a decidable statement about literal shapes (a slice fits, a permutation matches, pieces stack to the whole,
two shapes have one element count); any two proofs of one of them are equal, so these stand in for the programs' own. -/

theorem hsl_S160x2x160x160_S159x2x160x160_1_0_0_0 : S160x2x160x160.Slices ![1, 0, 0, 0] S159x2x160x160 := by decide
theorem hsl_S160x2x160x160_S159x2x160x160_0_0_0_0 : S160x2x160x160.Slices ![0, 0, 0, 0] S159x2x160x160 := by decide
theorem hbc_S_S159x2x160x160 : S_.BroadcastsInDim S159x2x160x160 (![] : Fin 0 → Fin S159x2x160x160.rank) := by decide
theorem hsl_S160x2x160x160_S158x2x160x160_2_0_0_0 : S160x2x160x160.Slices ![2, 0, 0, 0] S158x2x160x160 := by decide
theorem hsl_S160x2x160x160_S158x2x160x160_0_0_0_0 : S160x2x160x160.Slices ![0, 0, 0, 0] S158x2x160x160 := by decide
theorem hbc_S_S158x2x160x160 : S_.BroadcastsInDim S158x2x160x160 (![] : Fin 0 → Fin S158x2x160x160.rank) := by decide
theorem hsl_S159x2x160x160_S1x2x160x160_0_0_0_0 : S159x2x160x160.Slices ![0, 0, 0, 0] S1x2x160x160 := by decide
theorem hsl_S159x2x160x160_S1x2x160x160_158_0_0_0 : S159x2x160x160.Slices ![158, 0, 0, 0] S1x2x160x160 := by decide
theorem hcat_S1x2x160x160_S158x2x160x160_S1x2x160x160_S160x2x160x160_d0 : Shape.Concatenates [S1x2x160x160, S158x2x160x160, S1x2x160x160] S160x2x160x160 0 := by decide
theorem hcat_S159x2x160x160_S1x2x160x160_S160x2x160x160_d0 : Shape.Concatenates [S159x2x160x160, S1x2x160x160] S160x2x160x160 0 := by decide
theorem hcat_S1x2x160x160_S159x2x160x160_S160x2x160x160_d0 : Shape.Concatenates [S1x2x160x160, S159x2x160x160] S160x2x160x160 0 := by decide
theorem htr_S2x160x160x160_S160x2x160x160_1_0_2_3 : S2x160x160x160.Transposes [1, 0, 2, 3] S160x2x160x160 := by decide
theorem htr_S2x160x160x160_S160x2x160x160_2_0_1_3 : S2x160x160x160.Transposes [2, 0, 1, 3] S160x2x160x160 := by decide
theorem htr_S2x160x160x160_S160x2x160x160_3_0_1_2 : S2x160x160x160.Transposes [3, 0, 1, 2] S160x2x160x160 := by decide
theorem htr_S160x2x160x160_S2x160x160x160_1_0_2_3 : S160x2x160x160.Transposes [1, 0, 2, 3] S2x160x160x160 := by decide
theorem htr_S160x2x160x160_S2x160x160x160_1_2_0_3 : S160x2x160x160.Transposes [1, 2, 0, 3] S2x160x160x160 := by decide
theorem htr_S160x2x160x160_S2x160x160x160_1_2_3_0 : S160x2x160x160.Transposes [1, 2, 3, 0] S2x160x160x160 := by decide
theorem hbc_S_S2x160x160x160 : S_.BroadcastsInDim S2x160x160x160 (![] : Fin 0 → Fin S2x160x160x160.rank) := by decide
theorem hrs_S2x160x160x160_S320x25600 : S2x160x160x160.ShapeCasts S320x25600 := by decide
theorem hrs_S320x25600_S2x160x160x160 : S320x25600.ShapeCasts S2x160x160x160 := by decide

/-! ## Differences along the front axis -/

/-- Row i+1 minus row i, over the unit spacing. -/
def step (T : (FVec F S160x2x160x160 .f32)) : FVec F S159x2x160x160 .f32 :=
  Host.divf (subf (extractStridedSlice S159x2x160x160 ![1, 0, 0, 0] T hsl_S160x2x160x160_S159x2x160x160_1_0_0_0)
      (extractStridedSlice S159x2x160x160 ![0, 0, 0, 0] T hsl_S160x2x160x160_S159x2x160x160_0_0_0_0))
    (broadcastInDim S159x2x160x160 ![] hbc_S_S159x2x160x160 (constant S_ .f32 0x3F800000#32))

/-- Row i+2 minus row i, over twice the unit spacing. -/
def twoStep (T : (FVec F S160x2x160x160 .f32)) : FVec F S158x2x160x160 .f32 :=
  Host.divf (subf (extractStridedSlice S158x2x160x160 ![2, 0, 0, 0] T hsl_S160x2x160x160_S158x2x160x160_2_0_0_0)
      (extractStridedSlice S158x2x160x160 ![0, 0, 0, 0] T hsl_S160x2x160x160_S158x2x160x160_0_0_0_0))
    (broadcastInDim S158x2x160x160 ![] hbc_S_S158x2x160x160 (constant S_ .f32 0x40000000#32))

/-- The first one-step row. -/
def firstStep (T : (FVec F S160x2x160x160 .f32)) : FVec F S1x2x160x160 .f32 :=
  extractStridedSlice S1x2x160x160 ![0, 0, 0, 0] (step T) hsl_S159x2x160x160_S1x2x160x160_0_0_0_0

/-- The last one-step row. -/
def lastStep (T : (FVec F S160x2x160x160 .f32)) : FVec F S1x2x160x160 .f32 :=
  extractStridedSlice S1x2x160x160 ![158, 0, 0, 0] (step T) hsl_S159x2x160x160_S1x2x160x160_158_0_0_0

/-- Central differences: one-sided at the two ends. -/
def central (T : (FVec F S160x2x160x160 .f32)) : (FVec F S160x2x160x160 .f32) :=
  concatenate S160x2x160x160 0 [⟨S1x2x160x160, firstStep T⟩, ⟨S158x2x160x160, twoStep T⟩, ⟨S1x2x160x160, lastStep T⟩]
    hcat_S1x2x160x160_S158x2x160x160_S1x2x160x160_S160x2x160x160_d0

/-- Forward differences: the last row repeats the one before it. -/
def forward (T : (FVec F S160x2x160x160 .f32)) : (FVec F S160x2x160x160 .f32) :=
  concatenate S160x2x160x160 0 [⟨S159x2x160x160, step T⟩, ⟨S1x2x160x160, lastStep T⟩]
    hcat_S159x2x160x160_S1x2x160x160_S160x2x160x160_d0

/-- Backward differences: the first row repeats the one after it. -/
def backward (T : (FVec F S160x2x160x160 .f32)) : (FVec F S160x2x160x160 .f32) :=
  concatenate S160x2x160x160 0 [⟨S1x2x160x160, firstStep T⟩, ⟨S159x2x160x160, step T⟩]
    hcat_S1x2x160x160_S159x2x160x160_S160x2x160x160_d0

/-! ## A space axis brought to the front, and put back -/

def front1 (X : (FVec F S2x160x160x160 .f32)) : (FVec F S160x2x160x160 .f32) := transpose S160x2x160x160 [1, 0, 2, 3] X htr_S2x160x160x160_S160x2x160x160_1_0_2_3
def front2 (X : (FVec F S2x160x160x160 .f32)) : (FVec F S160x2x160x160 .f32) := transpose S160x2x160x160 [2, 0, 1, 3] X htr_S2x160x160x160_S160x2x160x160_2_0_1_3
def front3 (X : (FVec F S2x160x160x160 .f32)) : (FVec F S160x2x160x160 .f32) := transpose S160x2x160x160 [3, 0, 1, 2] X htr_S2x160x160x160_S160x2x160x160_3_0_1_2
def back1 (R : (FVec F S160x2x160x160 .f32)) : (FVec F S2x160x160x160 .f32) := transpose S2x160x160x160 [1, 0, 2, 3] R htr_S160x2x160x160_S2x160x160x160_1_0_2_3
def back2 (R : (FVec F S160x2x160x160 .f32)) : (FVec F S2x160x160x160 .f32) := transpose S2x160x160x160 [1, 2, 0, 3] R htr_S160x2x160x160_S2x160x160x160_1_2_0_3
def back3 (R : (FVec F S160x2x160x160 .f32)) : (FVec F S2x160x160x160 .f32) := transpose S2x160x160x160 [1, 2, 3, 0] R htr_S160x2x160x160_S2x160x160x160_1_2_3_0

/-! ## The nine finite-difference fields of an array -/

def dc1 (X : (FVec F S2x160x160x160 .f32)) : (FVec F S2x160x160x160 .f32) := back1 (central (front1 X))
def dc2 (X : (FVec F S2x160x160x160 .f32)) : (FVec F S2x160x160x160 .f32) := back2 (central (front2 X))
def dc3 (X : (FVec F S2x160x160x160 .f32)) : (FVec F S2x160x160x160 .f32) := back3 (central (front3 X))
def df1 (X : (FVec F S2x160x160x160 .f32)) : (FVec F S2x160x160x160 .f32) := back1 (forward (front1 X))
def df2 (X : (FVec F S2x160x160x160 .f32)) : (FVec F S2x160x160x160 .f32) := back2 (forward (front2 X))
def df3 (X : (FVec F S2x160x160x160 .f32)) : (FVec F S2x160x160x160 .f32) := back3 (forward (front3 X))
def db1 (X : (FVec F S2x160x160x160 .f32)) : (FVec F S2x160x160x160 .f32) := back1 (backward (front1 X))
def db2 (X : (FVec F S2x160x160x160 .f32)) : (FVec F S2x160x160x160 .f32) := back2 (backward (front2 X))
def db3 (X : (FVec F S2x160x160x160 .f32)) : (FVec F S2x160x160x160 .f32) := back3 (backward (front3 X))

/-- The upwind choice: the backward difference where the velocity is positive, the forward one elsewhere. -/
def upwind (V B Fw : (FVec F S2x160x160x160 .f32)) : (FVec F S2x160x160x160 .f32) :=
  select (cmpf .ogt V (broadcastInDim S2x160x160x160 ![] hbc_S_S2x160x160x160 (constant S_ .f32 0x00000000#32))) B Fw

/-- The sum of three fields, left to right. -/
def sum3 (a b c : (FVec F S2x160x160x160 .f32)) : (FVec F S2x160x160x160 .f32) := addf (addf a b) c

/-! ## The point-by-point combination, at any shape -/

/-- The nine products of the diffusion term, summed left to right. -/
def diffusion {S : Shape} (sx cx sy cy sz cz dxx sxx dyy syy dzz szz dxy sxy dyz syz dxz sxz : FVec F S .f32) : FVec F S .f32 :=
  addf (addf (addf (addf (addf (addf (addf (addf (mulf sx cx) (mulf sy cy)) (mulf sz cz)) (mulf dxx sxx)) (mulf dyy syy))
    (mulf dzz szz)) (mulf dxy sxy)) (mulf dyz syz)) (mulf dxz sxz)

/-- The three products of the advection term. -/
def advection {S : Shape} (vx ux vy uy vz uz : FVec F S .f32) : FVec F S .f32 :=
  addf (addf (mulf vx ux) (mulf vy uy)) (mulf vz uz)

/-- The kernel's spelling of the result: the advection sum subtracted from a zero splat. -/
def combineK {S : Shape} (dif adv c dv : FVec F S .f32) : FVec F S .f32 :=
  addf dif (subf (subf (broadcast S (Scalar.ofBits .f32 0x00000000#32)) adv) (mulf c dv))

/-- The reference's spelling: the advection sum negated. -/
def combineR {S : Shape} (dif adv c dv : FVec F S .f32) : FVec F S .f32 :=
  addf dif (subf (Host.negf adv) (mulf c dv))

/-- The kernel's combination of 26 arrays of one shape, in the order the kernel takes them: 0 is C; 1-3 the central
    gradient of C; 4-6 the tensor rows' sums; 7-9 Dxx Dyy Dzz; 10-12 Dxy Dyz Dxz; 13-18 the second differences in that
    same order; 19-21 the velocity; 22-24 the upwind differences; 25 the velocity's divergence. -/
def pointwise {S : Shape} (x0 x1 x2 x3 x4 x5 x6 x7 x8 x9 x10 x11 x12 x13 x14 x15 x16 x17 x18 x19 x20 x21 x22 x23 x24 x25 : FVec F S .f32) : FVec F S .f32 :=
  combineK (diffusion x4 x1 x5 x2 x6 x3 x7 x13 x8 x14 x9 x15 x10 x16 x11 x17 x12 x18) (advection x19 x22 x20 x23 x21 x24) x0 x25

/-! ## The two results as functions of the ten inputs -/

section Results

variable (C Vx Vy Vz Dxx Dxy Dxz Dyy Dyz Dzz : FVec F S2x160x160x160 .f32)

/-- The diffusion term: the tensor rows' central-difference sums against the central gradient of C, then the tensor's
    entries against the second differences of C. -/
def diffusionOf : FVec F S2x160x160x160 .f32 :=
  diffusion (sum3 (dc1 Dxx) (dc2 Dxy) (dc3 Dxz)) (dc1 C) (sum3 (dc1 Dxy) (dc2 Dyy) (dc3 Dyz)) (dc2 C)
    (sum3 (dc1 Dxz) (dc2 Dyz) (dc3 Dzz)) (dc3 C)
    Dxx (db1 (df1 C)) Dyy (db2 (df2 C)) Dzz (db3 (df3 C))
    Dxy (addf (db1 (df2 C)) (db2 (df1 C))) Dyz (addf (db2 (df3 C)) (db3 (df2 C))) Dxz (addf (db3 (df1 C)) (db1 (df3 C)))

/-- The advection sum: each velocity component against the upwind first difference of C along its axis. -/
def advectionOf : FVec F S2x160x160x160 .f32 :=
  advection Vx (upwind Vx (db1 C) (df1 C)) Vy (upwind Vy (db2 C) (df2 C)) Vz (upwind Vz (db3 C) (df3 C))

/-- The central divergence of the velocity. -/
def divV : FVec F S2x160x160x160 .f32 := sum3 (dc1 Vx) (dc2 Vy) (dc3 Vz)

/-- What the reference returns. -/
def refOut : FVec F S2x160x160x160 .f32 :=
  combineR (diffusionOf C Dxx Dxy Dxz Dyy Dyz Dzz) (advectionOf C Vx Vy Vz) C (divV Vx Vy Vz)

/-- A field laid out as the 320 x 25600 matrix the kernel works on (same elements, row-major). -/
def flat (X : FVec F S2x160x160x160 .f32) : FVec F S320x25600 .f32 := shapeCast S320x25600 X hrs_S2x160x160x160_S320x25600

/-- What the kernel returns: the same combination, in the kernel's spelling, of the flattened fields, laid back out on the grid. -/
def kerOut : FVec F S2x160x160x160 .f32 :=
  shapeCast S2x160x160x160
    (pointwise (flat C) (flat (dc1 C)) (flat (dc2 C)) (flat (dc3 C))
      (flat (sum3 (dc1 Dxx) (dc2 Dxy) (dc3 Dxz))) (flat (sum3 (dc1 Dxy) (dc2 Dyy) (dc3 Dyz))) (flat (sum3 (dc1 Dxz) (dc2 Dyz) (dc3 Dzz)))
      (flat Dxx) (flat Dyy) (flat Dzz) (flat Dxy) (flat Dyz) (flat Dxz)
      (flat (db1 (df1 C))) (flat (db2 (df2 C))) (flat (db3 (df3 C)))
      (flat (addf (db1 (df2 C)) (db2 (df1 C)))) (flat (addf (db2 (df3 C)) (db3 (df2 C)))) (flat (addf (db3 (df1 C)) (db1 (df3 C))))
      (flat Vx) (flat Vy) (flat Vz)
      (flat (upwind Vx (db1 C) (df1 C))) (flat (upwind Vy (db2 C) (df2 C))) (flat (upwind Vz (db3 C) (df3 C)))
      (flat (divV Vx Vy Vz)))
    hrs_S320x25600_S2x160x160x160

end Results

end Cert.KernelIdeal.Spec

end
-- ==== Proof.IdealValue.lean ====
/-
  The kernel's result read off the run of @main. One grid point stores, over its whole 320 x 256 output block, the
  point-by-point combination (Spec.pointwise) of its 26 input blocks. Point t's block of every window, inputs and
  output alike, is block (0, t) of that window's 320 x 25600 array: rows 0 .. 319, columns 256 t .. 256 t + 255. So an
  input block is its array read at the indices of the output's block, and, the combination being point by point, what
  point t writes back is block t of the combination of the 26 whole arrays. The 100 blocks tile the array (column k
  lies in block k / 256), so the output array ends at that combination; the reshape after the call lays it back out on
  the 2 x 160 x 160 x 160 grid, and the ten inputs end as they were launched.
-/
import proofs.«120775_j9655086481804_1_alg».proof.Proof.IdealFrame
import proofs.«120775_j9655086481804_1_alg».proof.Proof.IdealArgs
import proofs.«120775_j9655086481804_1_alg».proof.Proof.Spec
import Idealize.ShloMosaic.Lib.Pipeline.Value

set_option maxRecDepth 16384
set_option Elab.async false

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The block's rectangle starts at the origin. -/
theorem origin_zero : (![0, 0] : Fin 2 → Nat) = fun _ => 0 := funext fun a => by fin_cases a <;> rfl

/-- What one grid point stores is the point-by-point combination of its 26 input blocks. -/
theorem out26_eq (x0 x1 x2 x3 x4 x5 x6 x7 x8 x9 x10 x11 x12 x13 x14 x15 x16 x17 x18 x19 x20 x21 x22 x23 x24 x25 : Vec F S320x256 .f32) :
    out26 x0 x1 x2 x3 x4 x5 x6 x7 x8 x9 x10 x11 x12 x13 x14 x15 x16 x17 x18 x19 x20 x21 x22 x23 x24 x25 = Spec.pointwise (S := S320x256) x0 x1 x2 x3 x4 x5 x6 x7 x8 x9 x10 x11 x12 x13 x14 x15 x16 x17 x18 x19 x20 x21 x22 x23 x24 x25 := by
  unfold out26
  rw [View.canon_unit_zero origin_zero]
  simp only [View.ld_unit_zero (S := S320x256) origin_zero]
  unfold k0_pay1 k0_pay2 k0_pay3 k0_pay4 Spec.pointwise Spec.combineK Spec.diffusion Spec.advection
  simp only [shapeCast_self]

/-- The combination is point by point: at an index it is decided by the 26 arrays at that index, so two families of
    arrays (of any two shapes) that agree at a pair of indices combine to the same value there. -/
theorem pointwise_congr {S T : Shape} (x0 x1 x2 x3 x4 x5 x6 x7 x8 x9 x10 x11 x12 x13 x14 x15 x16 x17 x18 x19 x20 x21 x22 x23 x24 x25 : FVec F S .f32) (y0 y1 y2 y3 y4 y5 y6 y7 y8 y9 y10 y11 y12 y13 y14 y15 y16 y17 y18 y19 y20 y21 y22 y23 y24 y25 : FVec F T .f32) (i : S.Idx) (k : T.Idx)
    (h0 : x0 i = y0 k) (h1 : x1 i = y1 k) (h2 : x2 i = y2 k) (h3 : x3 i = y3 k) (h4 : x4 i = y4 k) (h5 : x5 i = y5 k) (h6 : x6 i = y6 k) (h7 : x7 i = y7 k) (h8 : x8 i = y8 k) (h9 : x9 i = y9 k) (h10 : x10 i = y10 k) (h11 : x11 i = y11 k) (h12 : x12 i = y12 k) (h13 : x13 i = y13 k) (h14 : x14 i = y14 k) (h15 : x15 i = y15 k) (h16 : x16 i = y16 k) (h17 : x17 i = y17 k) (h18 : x18 i = y18 k) (h19 : x19 i = y19 k) (h20 : x20 i = y20 k) (h21 : x21 i = y21 k) (h22 : x22 i = y22 k) (h23 : x23 i = y23 k) (h24 : x24 i = y24 k) (h25 : x25 i = y25 k) :
    Spec.pointwise x0 x1 x2 x3 x4 x5 x6 x7 x8 x9 x10 x11 x12 x13 x14 x15 x16 x17 x18 x19 x20 x21 x22 x23 x24 x25 i = Spec.pointwise y0 y1 y2 y3 y4 y5 y6 y7 y8 y9 y10 y11 y12 y13 y14 y15 y16 y17 y18 y19 y20 y21 y22 y23 y24 y25 k := by
  unfold Spec.pointwise Spec.combineK Spec.diffusion Spec.advection
  simp only [mulf, addf, subf, broadcast]
  rw [h0, h1, h2, h3, h4, h5, h6, h7, h8, h9, h10, h11, h12, h13, h14, h15, h16, h17, h18, h19, h20, h21, h22, h23, h24, h25]

/-! ## The index maps

Every window's block at grid point t is block (0, t) of its 320 x 25600 array: rows 0 .. 319, columns 256 t .. 256 t + 255. -/

theorem idx_out : ∀ t : Fin cfg0.N, win0_26.index t (0 : Fin 2) = 0 ∧ win0_26.index t (1 : Fin 2) = t.val :=
  (by decide +kernel : ∀ t : Fin grid0.N, win0_26.index t (0 : Fin 2) = 0 ∧ win0_26.index t (1 : Fin 2) = t.val)
theorem idx_0 : ∀ t : Fin cfg0.N, win0_0.index t (0 : Fin 2) = win0_26.index t (0 : Fin 2) ∧ win0_0.index t (1 : Fin 2) = win0_26.index t (1 : Fin 2) :=
  (by decide +kernel : ∀ t : Fin grid0.N, win0_0.index t (0 : Fin 2) = win0_26.index t (0 : Fin 2) ∧ win0_0.index t (1 : Fin 2) = win0_26.index t (1 : Fin 2))
theorem idx_1 : ∀ t : Fin cfg0.N, win0_1.index t (0 : Fin 2) = win0_26.index t (0 : Fin 2) ∧ win0_1.index t (1 : Fin 2) = win0_26.index t (1 : Fin 2) :=
  (by decide +kernel : ∀ t : Fin grid0.N, win0_1.index t (0 : Fin 2) = win0_26.index t (0 : Fin 2) ∧ win0_1.index t (1 : Fin 2) = win0_26.index t (1 : Fin 2))
theorem idx_2 : ∀ t : Fin cfg0.N, win0_2.index t (0 : Fin 2) = win0_26.index t (0 : Fin 2) ∧ win0_2.index t (1 : Fin 2) = win0_26.index t (1 : Fin 2) :=
  (by decide +kernel : ∀ t : Fin grid0.N, win0_2.index t (0 : Fin 2) = win0_26.index t (0 : Fin 2) ∧ win0_2.index t (1 : Fin 2) = win0_26.index t (1 : Fin 2))
theorem idx_3 : ∀ t : Fin cfg0.N, win0_3.index t (0 : Fin 2) = win0_26.index t (0 : Fin 2) ∧ win0_3.index t (1 : Fin 2) = win0_26.index t (1 : Fin 2) :=
  (by decide +kernel : ∀ t : Fin grid0.N, win0_3.index t (0 : Fin 2) = win0_26.index t (0 : Fin 2) ∧ win0_3.index t (1 : Fin 2) = win0_26.index t (1 : Fin 2))
theorem idx_4 : ∀ t : Fin cfg0.N, win0_4.index t (0 : Fin 2) = win0_26.index t (0 : Fin 2) ∧ win0_4.index t (1 : Fin 2) = win0_26.index t (1 : Fin 2) :=
  (by decide +kernel : ∀ t : Fin grid0.N, win0_4.index t (0 : Fin 2) = win0_26.index t (0 : Fin 2) ∧ win0_4.index t (1 : Fin 2) = win0_26.index t (1 : Fin 2))
theorem idx_5 : ∀ t : Fin cfg0.N, win0_5.index t (0 : Fin 2) = win0_26.index t (0 : Fin 2) ∧ win0_5.index t (1 : Fin 2) = win0_26.index t (1 : Fin 2) :=
  (by decide +kernel : ∀ t : Fin grid0.N, win0_5.index t (0 : Fin 2) = win0_26.index t (0 : Fin 2) ∧ win0_5.index t (1 : Fin 2) = win0_26.index t (1 : Fin 2))
theorem idx_6 : ∀ t : Fin cfg0.N, win0_6.index t (0 : Fin 2) = win0_26.index t (0 : Fin 2) ∧ win0_6.index t (1 : Fin 2) = win0_26.index t (1 : Fin 2) :=
  (by decide +kernel : ∀ t : Fin grid0.N, win0_6.index t (0 : Fin 2) = win0_26.index t (0 : Fin 2) ∧ win0_6.index t (1 : Fin 2) = win0_26.index t (1 : Fin 2))
theorem idx_7 : ∀ t : Fin cfg0.N, win0_7.index t (0 : Fin 2) = win0_26.index t (0 : Fin 2) ∧ win0_7.index t (1 : Fin 2) = win0_26.index t (1 : Fin 2) :=
  (by decide +kernel : ∀ t : Fin grid0.N, win0_7.index t (0 : Fin 2) = win0_26.index t (0 : Fin 2) ∧ win0_7.index t (1 : Fin 2) = win0_26.index t (1 : Fin 2))
theorem idx_8 : ∀ t : Fin cfg0.N, win0_8.index t (0 : Fin 2) = win0_26.index t (0 : Fin 2) ∧ win0_8.index t (1 : Fin 2) = win0_26.index t (1 : Fin 2) :=
  (by decide +kernel : ∀ t : Fin grid0.N, win0_8.index t (0 : Fin 2) = win0_26.index t (0 : Fin 2) ∧ win0_8.index t (1 : Fin 2) = win0_26.index t (1 : Fin 2))
theorem idx_9 : ∀ t : Fin cfg0.N, win0_9.index t (0 : Fin 2) = win0_26.index t (0 : Fin 2) ∧ win0_9.index t (1 : Fin 2) = win0_26.index t (1 : Fin 2) :=
  (by decide +kernel : ∀ t : Fin grid0.N, win0_9.index t (0 : Fin 2) = win0_26.index t (0 : Fin 2) ∧ win0_9.index t (1 : Fin 2) = win0_26.index t (1 : Fin 2))
theorem idx_10 : ∀ t : Fin cfg0.N, win0_10.index t (0 : Fin 2) = win0_26.index t (0 : Fin 2) ∧ win0_10.index t (1 : Fin 2) = win0_26.index t (1 : Fin 2) :=
  (by decide +kernel : ∀ t : Fin grid0.N, win0_10.index t (0 : Fin 2) = win0_26.index t (0 : Fin 2) ∧ win0_10.index t (1 : Fin 2) = win0_26.index t (1 : Fin 2))
theorem idx_11 : ∀ t : Fin cfg0.N, win0_11.index t (0 : Fin 2) = win0_26.index t (0 : Fin 2) ∧ win0_11.index t (1 : Fin 2) = win0_26.index t (1 : Fin 2) :=
  (by decide +kernel : ∀ t : Fin grid0.N, win0_11.index t (0 : Fin 2) = win0_26.index t (0 : Fin 2) ∧ win0_11.index t (1 : Fin 2) = win0_26.index t (1 : Fin 2))
theorem idx_12 : ∀ t : Fin cfg0.N, win0_12.index t (0 : Fin 2) = win0_26.index t (0 : Fin 2) ∧ win0_12.index t (1 : Fin 2) = win0_26.index t (1 : Fin 2) :=
  (by decide +kernel : ∀ t : Fin grid0.N, win0_12.index t (0 : Fin 2) = win0_26.index t (0 : Fin 2) ∧ win0_12.index t (1 : Fin 2) = win0_26.index t (1 : Fin 2))
theorem idx_13 : ∀ t : Fin cfg0.N, win0_13.index t (0 : Fin 2) = win0_26.index t (0 : Fin 2) ∧ win0_13.index t (1 : Fin 2) = win0_26.index t (1 : Fin 2) :=
  (by decide +kernel : ∀ t : Fin grid0.N, win0_13.index t (0 : Fin 2) = win0_26.index t (0 : Fin 2) ∧ win0_13.index t (1 : Fin 2) = win0_26.index t (1 : Fin 2))
theorem idx_14 : ∀ t : Fin cfg0.N, win0_14.index t (0 : Fin 2) = win0_26.index t (0 : Fin 2) ∧ win0_14.index t (1 : Fin 2) = win0_26.index t (1 : Fin 2) :=
  (by decide +kernel : ∀ t : Fin grid0.N, win0_14.index t (0 : Fin 2) = win0_26.index t (0 : Fin 2) ∧ win0_14.index t (1 : Fin 2) = win0_26.index t (1 : Fin 2))
theorem idx_15 : ∀ t : Fin cfg0.N, win0_15.index t (0 : Fin 2) = win0_26.index t (0 : Fin 2) ∧ win0_15.index t (1 : Fin 2) = win0_26.index t (1 : Fin 2) :=
  (by decide +kernel : ∀ t : Fin grid0.N, win0_15.index t (0 : Fin 2) = win0_26.index t (0 : Fin 2) ∧ win0_15.index t (1 : Fin 2) = win0_26.index t (1 : Fin 2))
theorem idx_16 : ∀ t : Fin cfg0.N, win0_16.index t (0 : Fin 2) = win0_26.index t (0 : Fin 2) ∧ win0_16.index t (1 : Fin 2) = win0_26.index t (1 : Fin 2) :=
  (by decide +kernel : ∀ t : Fin grid0.N, win0_16.index t (0 : Fin 2) = win0_26.index t (0 : Fin 2) ∧ win0_16.index t (1 : Fin 2) = win0_26.index t (1 : Fin 2))
theorem idx_17 : ∀ t : Fin cfg0.N, win0_17.index t (0 : Fin 2) = win0_26.index t (0 : Fin 2) ∧ win0_17.index t (1 : Fin 2) = win0_26.index t (1 : Fin 2) :=
  (by decide +kernel : ∀ t : Fin grid0.N, win0_17.index t (0 : Fin 2) = win0_26.index t (0 : Fin 2) ∧ win0_17.index t (1 : Fin 2) = win0_26.index t (1 : Fin 2))
theorem idx_18 : ∀ t : Fin cfg0.N, win0_18.index t (0 : Fin 2) = win0_26.index t (0 : Fin 2) ∧ win0_18.index t (1 : Fin 2) = win0_26.index t (1 : Fin 2) :=
  (by decide +kernel : ∀ t : Fin grid0.N, win0_18.index t (0 : Fin 2) = win0_26.index t (0 : Fin 2) ∧ win0_18.index t (1 : Fin 2) = win0_26.index t (1 : Fin 2))
theorem idx_19 : ∀ t : Fin cfg0.N, win0_19.index t (0 : Fin 2) = win0_26.index t (0 : Fin 2) ∧ win0_19.index t (1 : Fin 2) = win0_26.index t (1 : Fin 2) :=
  (by decide +kernel : ∀ t : Fin grid0.N, win0_19.index t (0 : Fin 2) = win0_26.index t (0 : Fin 2) ∧ win0_19.index t (1 : Fin 2) = win0_26.index t (1 : Fin 2))
theorem idx_20 : ∀ t : Fin cfg0.N, win0_20.index t (0 : Fin 2) = win0_26.index t (0 : Fin 2) ∧ win0_20.index t (1 : Fin 2) = win0_26.index t (1 : Fin 2) :=
  (by decide +kernel : ∀ t : Fin grid0.N, win0_20.index t (0 : Fin 2) = win0_26.index t (0 : Fin 2) ∧ win0_20.index t (1 : Fin 2) = win0_26.index t (1 : Fin 2))
theorem idx_21 : ∀ t : Fin cfg0.N, win0_21.index t (0 : Fin 2) = win0_26.index t (0 : Fin 2) ∧ win0_21.index t (1 : Fin 2) = win0_26.index t (1 : Fin 2) :=
  (by decide +kernel : ∀ t : Fin grid0.N, win0_21.index t (0 : Fin 2) = win0_26.index t (0 : Fin 2) ∧ win0_21.index t (1 : Fin 2) = win0_26.index t (1 : Fin 2))
theorem idx_22 : ∀ t : Fin cfg0.N, win0_22.index t (0 : Fin 2) = win0_26.index t (0 : Fin 2) ∧ win0_22.index t (1 : Fin 2) = win0_26.index t (1 : Fin 2) :=
  (by decide +kernel : ∀ t : Fin grid0.N, win0_22.index t (0 : Fin 2) = win0_26.index t (0 : Fin 2) ∧ win0_22.index t (1 : Fin 2) = win0_26.index t (1 : Fin 2))
theorem idx_23 : ∀ t : Fin cfg0.N, win0_23.index t (0 : Fin 2) = win0_26.index t (0 : Fin 2) ∧ win0_23.index t (1 : Fin 2) = win0_26.index t (1 : Fin 2) :=
  (by decide +kernel : ∀ t : Fin grid0.N, win0_23.index t (0 : Fin 2) = win0_26.index t (0 : Fin 2) ∧ win0_23.index t (1 : Fin 2) = win0_26.index t (1 : Fin 2))
theorem idx_24 : ∀ t : Fin cfg0.N, win0_24.index t (0 : Fin 2) = win0_26.index t (0 : Fin 2) ∧ win0_24.index t (1 : Fin 2) = win0_26.index t (1 : Fin 2) :=
  (by decide +kernel : ∀ t : Fin grid0.N, win0_24.index t (0 : Fin 2) = win0_26.index t (0 : Fin 2) ∧ win0_24.index t (1 : Fin 2) = win0_26.index t (1 : Fin 2))
theorem idx_25 : ∀ t : Fin cfg0.N, win0_25.index t (0 : Fin 2) = win0_26.index t (0 : Fin 2) ∧ win0_25.index t (1 : Fin 2) = win0_26.index t (1 : Fin 2) :=
  (by decide +kernel : ∀ t : Fin grid0.N, win0_25.index t (0 : Fin 2) = win0_26.index t (0 : Fin 2) ∧ win0_25.index t (1 : Fin 2) = win0_26.index t (1 : Fin 2))

/-! ## A block's indices in its array: the same for every window -/

theorem emb_0 (t : Fin cfg0.N) (j : S320x256.Idx) : ((cfg0.win 0).blk t).view.emb j = ((cfg0.win 26).blk t).view.emb j := by
  obtain ⟨e0, e1⟩ := idx_0 t
  funext a; apply Fin.ext
  match a with
  | ⟨0, _⟩ => show win0_0.index t (0 : Fin 2) * 320 + 1 * (j 0).val = win0_26.index t (0 : Fin 2) * 320 + 1 * (j 0).val; rw [e0]
  | ⟨1, _⟩ => show win0_0.index t (1 : Fin 2) * 256 + 1 * (j 1).val = win0_26.index t (1 : Fin 2) * 256 + 1 * (j 1).val; rw [e1]
theorem emb_1 (t : Fin cfg0.N) (j : S320x256.Idx) : ((cfg0.win 1).blk t).view.emb j = ((cfg0.win 26).blk t).view.emb j := by
  obtain ⟨e0, e1⟩ := idx_1 t
  funext a; apply Fin.ext
  match a with
  | ⟨0, _⟩ => show win0_1.index t (0 : Fin 2) * 320 + 1 * (j 0).val = win0_26.index t (0 : Fin 2) * 320 + 1 * (j 0).val; rw [e0]
  | ⟨1, _⟩ => show win0_1.index t (1 : Fin 2) * 256 + 1 * (j 1).val = win0_26.index t (1 : Fin 2) * 256 + 1 * (j 1).val; rw [e1]
theorem emb_2 (t : Fin cfg0.N) (j : S320x256.Idx) : ((cfg0.win 2).blk t).view.emb j = ((cfg0.win 26).blk t).view.emb j := by
  obtain ⟨e0, e1⟩ := idx_2 t
  funext a; apply Fin.ext
  match a with
  | ⟨0, _⟩ => show win0_2.index t (0 : Fin 2) * 320 + 1 * (j 0).val = win0_26.index t (0 : Fin 2) * 320 + 1 * (j 0).val; rw [e0]
  | ⟨1, _⟩ => show win0_2.index t (1 : Fin 2) * 256 + 1 * (j 1).val = win0_26.index t (1 : Fin 2) * 256 + 1 * (j 1).val; rw [e1]
theorem emb_3 (t : Fin cfg0.N) (j : S320x256.Idx) : ((cfg0.win 3).blk t).view.emb j = ((cfg0.win 26).blk t).view.emb j := by
  obtain ⟨e0, e1⟩ := idx_3 t
  funext a; apply Fin.ext
  match a with
  | ⟨0, _⟩ => show win0_3.index t (0 : Fin 2) * 320 + 1 * (j 0).val = win0_26.index t (0 : Fin 2) * 320 + 1 * (j 0).val; rw [e0]
  | ⟨1, _⟩ => show win0_3.index t (1 : Fin 2) * 256 + 1 * (j 1).val = win0_26.index t (1 : Fin 2) * 256 + 1 * (j 1).val; rw [e1]
theorem emb_4 (t : Fin cfg0.N) (j : S320x256.Idx) : ((cfg0.win 4).blk t).view.emb j = ((cfg0.win 26).blk t).view.emb j := by
  obtain ⟨e0, e1⟩ := idx_4 t
  funext a; apply Fin.ext
  match a with
  | ⟨0, _⟩ => show win0_4.index t (0 : Fin 2) * 320 + 1 * (j 0).val = win0_26.index t (0 : Fin 2) * 320 + 1 * (j 0).val; rw [e0]
  | ⟨1, _⟩ => show win0_4.index t (1 : Fin 2) * 256 + 1 * (j 1).val = win0_26.index t (1 : Fin 2) * 256 + 1 * (j 1).val; rw [e1]
theorem emb_5 (t : Fin cfg0.N) (j : S320x256.Idx) : ((cfg0.win 5).blk t).view.emb j = ((cfg0.win 26).blk t).view.emb j := by
  obtain ⟨e0, e1⟩ := idx_5 t
  funext a; apply Fin.ext
  match a with
  | ⟨0, _⟩ => show win0_5.index t (0 : Fin 2) * 320 + 1 * (j 0).val = win0_26.index t (0 : Fin 2) * 320 + 1 * (j 0).val; rw [e0]
  | ⟨1, _⟩ => show win0_5.index t (1 : Fin 2) * 256 + 1 * (j 1).val = win0_26.index t (1 : Fin 2) * 256 + 1 * (j 1).val; rw [e1]
theorem emb_6 (t : Fin cfg0.N) (j : S320x256.Idx) : ((cfg0.win 6).blk t).view.emb j = ((cfg0.win 26).blk t).view.emb j := by
  obtain ⟨e0, e1⟩ := idx_6 t
  funext a; apply Fin.ext
  match a with
  | ⟨0, _⟩ => show win0_6.index t (0 : Fin 2) * 320 + 1 * (j 0).val = win0_26.index t (0 : Fin 2) * 320 + 1 * (j 0).val; rw [e0]
  | ⟨1, _⟩ => show win0_6.index t (1 : Fin 2) * 256 + 1 * (j 1).val = win0_26.index t (1 : Fin 2) * 256 + 1 * (j 1).val; rw [e1]
theorem emb_7 (t : Fin cfg0.N) (j : S320x256.Idx) : ((cfg0.win 7).blk t).view.emb j = ((cfg0.win 26).blk t).view.emb j := by
  obtain ⟨e0, e1⟩ := idx_7 t
  funext a; apply Fin.ext
  match a with
  | ⟨0, _⟩ => show win0_7.index t (0 : Fin 2) * 320 + 1 * (j 0).val = win0_26.index t (0 : Fin 2) * 320 + 1 * (j 0).val; rw [e0]
  | ⟨1, _⟩ => show win0_7.index t (1 : Fin 2) * 256 + 1 * (j 1).val = win0_26.index t (1 : Fin 2) * 256 + 1 * (j 1).val; rw [e1]
theorem emb_8 (t : Fin cfg0.N) (j : S320x256.Idx) : ((cfg0.win 8).blk t).view.emb j = ((cfg0.win 26).blk t).view.emb j := by
  obtain ⟨e0, e1⟩ := idx_8 t
  funext a; apply Fin.ext
  match a with
  | ⟨0, _⟩ => show win0_8.index t (0 : Fin 2) * 320 + 1 * (j 0).val = win0_26.index t (0 : Fin 2) * 320 + 1 * (j 0).val; rw [e0]
  | ⟨1, _⟩ => show win0_8.index t (1 : Fin 2) * 256 + 1 * (j 1).val = win0_26.index t (1 : Fin 2) * 256 + 1 * (j 1).val; rw [e1]
theorem emb_9 (t : Fin cfg0.N) (j : S320x256.Idx) : ((cfg0.win 9).blk t).view.emb j = ((cfg0.win 26).blk t).view.emb j := by
  obtain ⟨e0, e1⟩ := idx_9 t
  funext a; apply Fin.ext
  match a with
  | ⟨0, _⟩ => show win0_9.index t (0 : Fin 2) * 320 + 1 * (j 0).val = win0_26.index t (0 : Fin 2) * 320 + 1 * (j 0).val; rw [e0]
  | ⟨1, _⟩ => show win0_9.index t (1 : Fin 2) * 256 + 1 * (j 1).val = win0_26.index t (1 : Fin 2) * 256 + 1 * (j 1).val; rw [e1]
theorem emb_10 (t : Fin cfg0.N) (j : S320x256.Idx) : ((cfg0.win 10).blk t).view.emb j = ((cfg0.win 26).blk t).view.emb j := by
  obtain ⟨e0, e1⟩ := idx_10 t
  funext a; apply Fin.ext
  match a with
  | ⟨0, _⟩ => show win0_10.index t (0 : Fin 2) * 320 + 1 * (j 0).val = win0_26.index t (0 : Fin 2) * 320 + 1 * (j 0).val; rw [e0]
  | ⟨1, _⟩ => show win0_10.index t (1 : Fin 2) * 256 + 1 * (j 1).val = win0_26.index t (1 : Fin 2) * 256 + 1 * (j 1).val; rw [e1]
theorem emb_11 (t : Fin cfg0.N) (j : S320x256.Idx) : ((cfg0.win 11).blk t).view.emb j = ((cfg0.win 26).blk t).view.emb j := by
  obtain ⟨e0, e1⟩ := idx_11 t
  funext a; apply Fin.ext
  match a with
  | ⟨0, _⟩ => show win0_11.index t (0 : Fin 2) * 320 + 1 * (j 0).val = win0_26.index t (0 : Fin 2) * 320 + 1 * (j 0).val; rw [e0]
  | ⟨1, _⟩ => show win0_11.index t (1 : Fin 2) * 256 + 1 * (j 1).val = win0_26.index t (1 : Fin 2) * 256 + 1 * (j 1).val; rw [e1]
theorem emb_12 (t : Fin cfg0.N) (j : S320x256.Idx) : ((cfg0.win 12).blk t).view.emb j = ((cfg0.win 26).blk t).view.emb j := by
  obtain ⟨e0, e1⟩ := idx_12 t
  funext a; apply Fin.ext
  match a with
  | ⟨0, _⟩ => show win0_12.index t (0 : Fin 2) * 320 + 1 * (j 0).val = win0_26.index t (0 : Fin 2) * 320 + 1 * (j 0).val; rw [e0]
  | ⟨1, _⟩ => show win0_12.index t (1 : Fin 2) * 256 + 1 * (j 1).val = win0_26.index t (1 : Fin 2) * 256 + 1 * (j 1).val; rw [e1]
theorem emb_13 (t : Fin cfg0.N) (j : S320x256.Idx) : ((cfg0.win 13).blk t).view.emb j = ((cfg0.win 26).blk t).view.emb j := by
  obtain ⟨e0, e1⟩ := idx_13 t
  funext a; apply Fin.ext
  match a with
  | ⟨0, _⟩ => show win0_13.index t (0 : Fin 2) * 320 + 1 * (j 0).val = win0_26.index t (0 : Fin 2) * 320 + 1 * (j 0).val; rw [e0]
  | ⟨1, _⟩ => show win0_13.index t (1 : Fin 2) * 256 + 1 * (j 1).val = win0_26.index t (1 : Fin 2) * 256 + 1 * (j 1).val; rw [e1]
theorem emb_14 (t : Fin cfg0.N) (j : S320x256.Idx) : ((cfg0.win 14).blk t).view.emb j = ((cfg0.win 26).blk t).view.emb j := by
  obtain ⟨e0, e1⟩ := idx_14 t
  funext a; apply Fin.ext
  match a with
  | ⟨0, _⟩ => show win0_14.index t (0 : Fin 2) * 320 + 1 * (j 0).val = win0_26.index t (0 : Fin 2) * 320 + 1 * (j 0).val; rw [e0]
  | ⟨1, _⟩ => show win0_14.index t (1 : Fin 2) * 256 + 1 * (j 1).val = win0_26.index t (1 : Fin 2) * 256 + 1 * (j 1).val; rw [e1]
theorem emb_15 (t : Fin cfg0.N) (j : S320x256.Idx) : ((cfg0.win 15).blk t).view.emb j = ((cfg0.win 26).blk t).view.emb j := by
  obtain ⟨e0, e1⟩ := idx_15 t
  funext a; apply Fin.ext
  match a with
  | ⟨0, _⟩ => show win0_15.index t (0 : Fin 2) * 320 + 1 * (j 0).val = win0_26.index t (0 : Fin 2) * 320 + 1 * (j 0).val; rw [e0]
  | ⟨1, _⟩ => show win0_15.index t (1 : Fin 2) * 256 + 1 * (j 1).val = win0_26.index t (1 : Fin 2) * 256 + 1 * (j 1).val; rw [e1]
theorem emb_16 (t : Fin cfg0.N) (j : S320x256.Idx) : ((cfg0.win 16).blk t).view.emb j = ((cfg0.win 26).blk t).view.emb j := by
  obtain ⟨e0, e1⟩ := idx_16 t
  funext a; apply Fin.ext
  match a with
  | ⟨0, _⟩ => show win0_16.index t (0 : Fin 2) * 320 + 1 * (j 0).val = win0_26.index t (0 : Fin 2) * 320 + 1 * (j 0).val; rw [e0]
  | ⟨1, _⟩ => show win0_16.index t (1 : Fin 2) * 256 + 1 * (j 1).val = win0_26.index t (1 : Fin 2) * 256 + 1 * (j 1).val; rw [e1]
theorem emb_17 (t : Fin cfg0.N) (j : S320x256.Idx) : ((cfg0.win 17).blk t).view.emb j = ((cfg0.win 26).blk t).view.emb j := by
  obtain ⟨e0, e1⟩ := idx_17 t
  funext a; apply Fin.ext
  match a with
  | ⟨0, _⟩ => show win0_17.index t (0 : Fin 2) * 320 + 1 * (j 0).val = win0_26.index t (0 : Fin 2) * 320 + 1 * (j 0).val; rw [e0]
  | ⟨1, _⟩ => show win0_17.index t (1 : Fin 2) * 256 + 1 * (j 1).val = win0_26.index t (1 : Fin 2) * 256 + 1 * (j 1).val; rw [e1]
theorem emb_18 (t : Fin cfg0.N) (j : S320x256.Idx) : ((cfg0.win 18).blk t).view.emb j = ((cfg0.win 26).blk t).view.emb j := by
  obtain ⟨e0, e1⟩ := idx_18 t
  funext a; apply Fin.ext
  match a with
  | ⟨0, _⟩ => show win0_18.index t (0 : Fin 2) * 320 + 1 * (j 0).val = win0_26.index t (0 : Fin 2) * 320 + 1 * (j 0).val; rw [e0]
  | ⟨1, _⟩ => show win0_18.index t (1 : Fin 2) * 256 + 1 * (j 1).val = win0_26.index t (1 : Fin 2) * 256 + 1 * (j 1).val; rw [e1]
theorem emb_19 (t : Fin cfg0.N) (j : S320x256.Idx) : ((cfg0.win 19).blk t).view.emb j = ((cfg0.win 26).blk t).view.emb j := by
  obtain ⟨e0, e1⟩ := idx_19 t
  funext a; apply Fin.ext
  match a with
  | ⟨0, _⟩ => show win0_19.index t (0 : Fin 2) * 320 + 1 * (j 0).val = win0_26.index t (0 : Fin 2) * 320 + 1 * (j 0).val; rw [e0]
  | ⟨1, _⟩ => show win0_19.index t (1 : Fin 2) * 256 + 1 * (j 1).val = win0_26.index t (1 : Fin 2) * 256 + 1 * (j 1).val; rw [e1]
theorem emb_20 (t : Fin cfg0.N) (j : S320x256.Idx) : ((cfg0.win 20).blk t).view.emb j = ((cfg0.win 26).blk t).view.emb j := by
  obtain ⟨e0, e1⟩ := idx_20 t
  funext a; apply Fin.ext
  match a with
  | ⟨0, _⟩ => show win0_20.index t (0 : Fin 2) * 320 + 1 * (j 0).val = win0_26.index t (0 : Fin 2) * 320 + 1 * (j 0).val; rw [e0]
  | ⟨1, _⟩ => show win0_20.index t (1 : Fin 2) * 256 + 1 * (j 1).val = win0_26.index t (1 : Fin 2) * 256 + 1 * (j 1).val; rw [e1]
theorem emb_21 (t : Fin cfg0.N) (j : S320x256.Idx) : ((cfg0.win 21).blk t).view.emb j = ((cfg0.win 26).blk t).view.emb j := by
  obtain ⟨e0, e1⟩ := idx_21 t
  funext a; apply Fin.ext
  match a with
  | ⟨0, _⟩ => show win0_21.index t (0 : Fin 2) * 320 + 1 * (j 0).val = win0_26.index t (0 : Fin 2) * 320 + 1 * (j 0).val; rw [e0]
  | ⟨1, _⟩ => show win0_21.index t (1 : Fin 2) * 256 + 1 * (j 1).val = win0_26.index t (1 : Fin 2) * 256 + 1 * (j 1).val; rw [e1]
theorem emb_22 (t : Fin cfg0.N) (j : S320x256.Idx) : ((cfg0.win 22).blk t).view.emb j = ((cfg0.win 26).blk t).view.emb j := by
  obtain ⟨e0, e1⟩ := idx_22 t
  funext a; apply Fin.ext
  match a with
  | ⟨0, _⟩ => show win0_22.index t (0 : Fin 2) * 320 + 1 * (j 0).val = win0_26.index t (0 : Fin 2) * 320 + 1 * (j 0).val; rw [e0]
  | ⟨1, _⟩ => show win0_22.index t (1 : Fin 2) * 256 + 1 * (j 1).val = win0_26.index t (1 : Fin 2) * 256 + 1 * (j 1).val; rw [e1]
theorem emb_23 (t : Fin cfg0.N) (j : S320x256.Idx) : ((cfg0.win 23).blk t).view.emb j = ((cfg0.win 26).blk t).view.emb j := by
  obtain ⟨e0, e1⟩ := idx_23 t
  funext a; apply Fin.ext
  match a with
  | ⟨0, _⟩ => show win0_23.index t (0 : Fin 2) * 320 + 1 * (j 0).val = win0_26.index t (0 : Fin 2) * 320 + 1 * (j 0).val; rw [e0]
  | ⟨1, _⟩ => show win0_23.index t (1 : Fin 2) * 256 + 1 * (j 1).val = win0_26.index t (1 : Fin 2) * 256 + 1 * (j 1).val; rw [e1]
theorem emb_24 (t : Fin cfg0.N) (j : S320x256.Idx) : ((cfg0.win 24).blk t).view.emb j = ((cfg0.win 26).blk t).view.emb j := by
  obtain ⟨e0, e1⟩ := idx_24 t
  funext a; apply Fin.ext
  match a with
  | ⟨0, _⟩ => show win0_24.index t (0 : Fin 2) * 320 + 1 * (j 0).val = win0_26.index t (0 : Fin 2) * 320 + 1 * (j 0).val; rw [e0]
  | ⟨1, _⟩ => show win0_24.index t (1 : Fin 2) * 256 + 1 * (j 1).val = win0_26.index t (1 : Fin 2) * 256 + 1 * (j 1).val; rw [e1]
theorem emb_25 (t : Fin cfg0.N) (j : S320x256.Idx) : ((cfg0.win 25).blk t).view.emb j = ((cfg0.win 26).blk t).view.emb j := by
  obtain ⟨e0, e1⟩ := idx_25 t
  funext a; apply Fin.ext
  match a with
  | ⟨0, _⟩ => show win0_25.index t (0 : Fin 2) * 320 + 1 * (j 0).val = win0_26.index t (0 : Fin 2) * 320 + 1 * (j 0).val; rw [e0]
  | ⟨1, _⟩ => show win0_25.index t (1 : Fin 2) * 256 + 1 * (j 1).val = win0_26.index t (1 : Fin 2) * 256 + 1 * (j 1).val; rw [e1]

/-! ## Each input block is its array read where the output's block lies -/

theorem iblk_at_0 (c : Dev nD) (t : Fin cfg0.N) (j : S320x256.Idx) :
    (iblk m c 0 t : Vec F S320x256 .f32) j = (V m c main_v380 : FVec F S320x25600 .f32) (((cfg0.win 26).blk t).view.emb j) :=
  (show (iblk m c 0 t : Vec F S320x256 .f32) j = V m c main_v380 (((cfg0.win 0).blk t).view.emb j) by unfold iblk; exact cast_eq _ _).trans
    (congrArg (V m c main_v380) (emb_0 t j))
theorem iblk_at_1 (c : Dev nD) (t : Fin cfg0.N) (j : S320x256.Idx) :
    (iblk m c 1 t : Vec F S320x256 .f32) j = (V m c main_v381 : FVec F S320x25600 .f32) (((cfg0.win 26).blk t).view.emb j) :=
  (show (iblk m c 1 t : Vec F S320x256 .f32) j = V m c main_v381 (((cfg0.win 1).blk t).view.emb j) by unfold iblk; exact cast_eq _ _).trans
    (congrArg (V m c main_v381) (emb_1 t j))
theorem iblk_at_2 (c : Dev nD) (t : Fin cfg0.N) (j : S320x256.Idx) :
    (iblk m c 2 t : Vec F S320x256 .f32) j = (V m c main_v382 : FVec F S320x25600 .f32) (((cfg0.win 26).blk t).view.emb j) :=
  (show (iblk m c 2 t : Vec F S320x256 .f32) j = V m c main_v382 (((cfg0.win 2).blk t).view.emb j) by unfold iblk; exact cast_eq _ _).trans
    (congrArg (V m c main_v382) (emb_2 t j))
theorem iblk_at_3 (c : Dev nD) (t : Fin cfg0.N) (j : S320x256.Idx) :
    (iblk m c 3 t : Vec F S320x256 .f32) j = (V m c main_v383 : FVec F S320x25600 .f32) (((cfg0.win 26).blk t).view.emb j) :=
  (show (iblk m c 3 t : Vec F S320x256 .f32) j = V m c main_v383 (((cfg0.win 3).blk t).view.emb j) by unfold iblk; exact cast_eq _ _).trans
    (congrArg (V m c main_v383) (emb_3 t j))
theorem iblk_at_4 (c : Dev nD) (t : Fin cfg0.N) (j : S320x256.Idx) :
    (iblk m c 4 t : Vec F S320x256 .f32) j = (V m c main_v384 : FVec F S320x25600 .f32) (((cfg0.win 26).blk t).view.emb j) :=
  (show (iblk m c 4 t : Vec F S320x256 .f32) j = V m c main_v384 (((cfg0.win 4).blk t).view.emb j) by unfold iblk; exact cast_eq _ _).trans
    (congrArg (V m c main_v384) (emb_4 t j))
theorem iblk_at_5 (c : Dev nD) (t : Fin cfg0.N) (j : S320x256.Idx) :
    (iblk m c 5 t : Vec F S320x256 .f32) j = (V m c main_v385 : FVec F S320x25600 .f32) (((cfg0.win 26).blk t).view.emb j) :=
  (show (iblk m c 5 t : Vec F S320x256 .f32) j = V m c main_v385 (((cfg0.win 5).blk t).view.emb j) by unfold iblk; exact cast_eq _ _).trans
    (congrArg (V m c main_v385) (emb_5 t j))
theorem iblk_at_6 (c : Dev nD) (t : Fin cfg0.N) (j : S320x256.Idx) :
    (iblk m c 6 t : Vec F S320x256 .f32) j = (V m c main_v386 : FVec F S320x25600 .f32) (((cfg0.win 26).blk t).view.emb j) :=
  (show (iblk m c 6 t : Vec F S320x256 .f32) j = V m c main_v386 (((cfg0.win 6).blk t).view.emb j) by unfold iblk; exact cast_eq _ _).trans
    (congrArg (V m c main_v386) (emb_6 t j))
theorem iblk_at_7 (c : Dev nD) (t : Fin cfg0.N) (j : S320x256.Idx) :
    (iblk m c 7 t : Vec F S320x256 .f32) j = (V m c main_v387 : FVec F S320x25600 .f32) (((cfg0.win 26).blk t).view.emb j) :=
  (show (iblk m c 7 t : Vec F S320x256 .f32) j = V m c main_v387 (((cfg0.win 7).blk t).view.emb j) by unfold iblk; exact cast_eq _ _).trans
    (congrArg (V m c main_v387) (emb_7 t j))
theorem iblk_at_8 (c : Dev nD) (t : Fin cfg0.N) (j : S320x256.Idx) :
    (iblk m c 8 t : Vec F S320x256 .f32) j = (V m c main_v388 : FVec F S320x25600 .f32) (((cfg0.win 26).blk t).view.emb j) :=
  (show (iblk m c 8 t : Vec F S320x256 .f32) j = V m c main_v388 (((cfg0.win 8).blk t).view.emb j) by unfold iblk; exact cast_eq _ _).trans
    (congrArg (V m c main_v388) (emb_8 t j))
theorem iblk_at_9 (c : Dev nD) (t : Fin cfg0.N) (j : S320x256.Idx) :
    (iblk m c 9 t : Vec F S320x256 .f32) j = (V m c main_v389 : FVec F S320x25600 .f32) (((cfg0.win 26).blk t).view.emb j) :=
  (show (iblk m c 9 t : Vec F S320x256 .f32) j = V m c main_v389 (((cfg0.win 9).blk t).view.emb j) by unfold iblk; exact cast_eq _ _).trans
    (congrArg (V m c main_v389) (emb_9 t j))
theorem iblk_at_10 (c : Dev nD) (t : Fin cfg0.N) (j : S320x256.Idx) :
    (iblk m c 10 t : Vec F S320x256 .f32) j = (V m c main_v390 : FVec F S320x25600 .f32) (((cfg0.win 26).blk t).view.emb j) :=
  (show (iblk m c 10 t : Vec F S320x256 .f32) j = V m c main_v390 (((cfg0.win 10).blk t).view.emb j) by unfold iblk; exact cast_eq _ _).trans
    (congrArg (V m c main_v390) (emb_10 t j))
theorem iblk_at_11 (c : Dev nD) (t : Fin cfg0.N) (j : S320x256.Idx) :
    (iblk m c 11 t : Vec F S320x256 .f32) j = (V m c main_v391 : FVec F S320x25600 .f32) (((cfg0.win 26).blk t).view.emb j) :=
  (show (iblk m c 11 t : Vec F S320x256 .f32) j = V m c main_v391 (((cfg0.win 11).blk t).view.emb j) by unfold iblk; exact cast_eq _ _).trans
    (congrArg (V m c main_v391) (emb_11 t j))
theorem iblk_at_12 (c : Dev nD) (t : Fin cfg0.N) (j : S320x256.Idx) :
    (iblk m c 12 t : Vec F S320x256 .f32) j = (V m c main_v392 : FVec F S320x25600 .f32) (((cfg0.win 26).blk t).view.emb j) :=
  (show (iblk m c 12 t : Vec F S320x256 .f32) j = V m c main_v392 (((cfg0.win 12).blk t).view.emb j) by unfold iblk; exact cast_eq _ _).trans
    (congrArg (V m c main_v392) (emb_12 t j))
theorem iblk_at_13 (c : Dev nD) (t : Fin cfg0.N) (j : S320x256.Idx) :
    (iblk m c 13 t : Vec F S320x256 .f32) j = (V m c main_v393 : FVec F S320x25600 .f32) (((cfg0.win 26).blk t).view.emb j) :=
  (show (iblk m c 13 t : Vec F S320x256 .f32) j = V m c main_v393 (((cfg0.win 13).blk t).view.emb j) by unfold iblk; exact cast_eq _ _).trans
    (congrArg (V m c main_v393) (emb_13 t j))
theorem iblk_at_14 (c : Dev nD) (t : Fin cfg0.N) (j : S320x256.Idx) :
    (iblk m c 14 t : Vec F S320x256 .f32) j = (V m c main_v394 : FVec F S320x25600 .f32) (((cfg0.win 26).blk t).view.emb j) :=
  (show (iblk m c 14 t : Vec F S320x256 .f32) j = V m c main_v394 (((cfg0.win 14).blk t).view.emb j) by unfold iblk; exact cast_eq _ _).trans
    (congrArg (V m c main_v394) (emb_14 t j))
theorem iblk_at_15 (c : Dev nD) (t : Fin cfg0.N) (j : S320x256.Idx) :
    (iblk m c 15 t : Vec F S320x256 .f32) j = (V m c main_v395 : FVec F S320x25600 .f32) (((cfg0.win 26).blk t).view.emb j) :=
  (show (iblk m c 15 t : Vec F S320x256 .f32) j = V m c main_v395 (((cfg0.win 15).blk t).view.emb j) by unfold iblk; exact cast_eq _ _).trans
    (congrArg (V m c main_v395) (emb_15 t j))
theorem iblk_at_16 (c : Dev nD) (t : Fin cfg0.N) (j : S320x256.Idx) :
    (iblk m c 16 t : Vec F S320x256 .f32) j = (V m c main_v396 : FVec F S320x25600 .f32) (((cfg0.win 26).blk t).view.emb j) :=
  (show (iblk m c 16 t : Vec F S320x256 .f32) j = V m c main_v396 (((cfg0.win 16).blk t).view.emb j) by unfold iblk; exact cast_eq _ _).trans
    (congrArg (V m c main_v396) (emb_16 t j))
theorem iblk_at_17 (c : Dev nD) (t : Fin cfg0.N) (j : S320x256.Idx) :
    (iblk m c 17 t : Vec F S320x256 .f32) j = (V m c main_v397 : FVec F S320x25600 .f32) (((cfg0.win 26).blk t).view.emb j) :=
  (show (iblk m c 17 t : Vec F S320x256 .f32) j = V m c main_v397 (((cfg0.win 17).blk t).view.emb j) by unfold iblk; exact cast_eq _ _).trans
    (congrArg (V m c main_v397) (emb_17 t j))
theorem iblk_at_18 (c : Dev nD) (t : Fin cfg0.N) (j : S320x256.Idx) :
    (iblk m c 18 t : Vec F S320x256 .f32) j = (V m c main_v398 : FVec F S320x25600 .f32) (((cfg0.win 26).blk t).view.emb j) :=
  (show (iblk m c 18 t : Vec F S320x256 .f32) j = V m c main_v398 (((cfg0.win 18).blk t).view.emb j) by unfold iblk; exact cast_eq _ _).trans
    (congrArg (V m c main_v398) (emb_18 t j))
theorem iblk_at_19 (c : Dev nD) (t : Fin cfg0.N) (j : S320x256.Idx) :
    (iblk m c 19 t : Vec F S320x256 .f32) j = (V m c main_v399 : FVec F S320x25600 .f32) (((cfg0.win 26).blk t).view.emb j) :=
  (show (iblk m c 19 t : Vec F S320x256 .f32) j = V m c main_v399 (((cfg0.win 19).blk t).view.emb j) by unfold iblk; exact cast_eq _ _).trans
    (congrArg (V m c main_v399) (emb_19 t j))
theorem iblk_at_20 (c : Dev nD) (t : Fin cfg0.N) (j : S320x256.Idx) :
    (iblk m c 20 t : Vec F S320x256 .f32) j = (V m c main_v400 : FVec F S320x25600 .f32) (((cfg0.win 26).blk t).view.emb j) :=
  (show (iblk m c 20 t : Vec F S320x256 .f32) j = V m c main_v400 (((cfg0.win 20).blk t).view.emb j) by unfold iblk; exact cast_eq _ _).trans
    (congrArg (V m c main_v400) (emb_20 t j))
theorem iblk_at_21 (c : Dev nD) (t : Fin cfg0.N) (j : S320x256.Idx) :
    (iblk m c 21 t : Vec F S320x256 .f32) j = (V m c main_v401 : FVec F S320x25600 .f32) (((cfg0.win 26).blk t).view.emb j) :=
  (show (iblk m c 21 t : Vec F S320x256 .f32) j = V m c main_v401 (((cfg0.win 21).blk t).view.emb j) by unfold iblk; exact cast_eq _ _).trans
    (congrArg (V m c main_v401) (emb_21 t j))
theorem iblk_at_22 (c : Dev nD) (t : Fin cfg0.N) (j : S320x256.Idx) :
    (iblk m c 22 t : Vec F S320x256 .f32) j = (V m c main_v402 : FVec F S320x25600 .f32) (((cfg0.win 26).blk t).view.emb j) :=
  (show (iblk m c 22 t : Vec F S320x256 .f32) j = V m c main_v402 (((cfg0.win 22).blk t).view.emb j) by unfold iblk; exact cast_eq _ _).trans
    (congrArg (V m c main_v402) (emb_22 t j))
theorem iblk_at_23 (c : Dev nD) (t : Fin cfg0.N) (j : S320x256.Idx) :
    (iblk m c 23 t : Vec F S320x256 .f32) j = (V m c main_v403 : FVec F S320x25600 .f32) (((cfg0.win 26).blk t).view.emb j) :=
  (show (iblk m c 23 t : Vec F S320x256 .f32) j = V m c main_v403 (((cfg0.win 23).blk t).view.emb j) by unfold iblk; exact cast_eq _ _).trans
    (congrArg (V m c main_v403) (emb_23 t j))
theorem iblk_at_24 (c : Dev nD) (t : Fin cfg0.N) (j : S320x256.Idx) :
    (iblk m c 24 t : Vec F S320x256 .f32) j = (V m c main_v404 : FVec F S320x25600 .f32) (((cfg0.win 26).blk t).view.emb j) :=
  (show (iblk m c 24 t : Vec F S320x256 .f32) j = V m c main_v404 (((cfg0.win 24).blk t).view.emb j) by unfold iblk; exact cast_eq _ _).trans
    (congrArg (V m c main_v404) (emb_24 t j))
theorem iblk_at_25 (c : Dev nD) (t : Fin cfg0.N) (j : S320x256.Idx) :
    (iblk m c 25 t : Vec F S320x256 .f32) j = (V m c main_v405 : FVec F S320x25600 .f32) (((cfg0.win 26).blk t).view.emb j) :=
  (show (iblk m c 25 t : Vec F S320x256 .f32) j = V m c main_v405 (((cfg0.win 25).blk t).view.emb j) by unfold iblk; exact cast_eq _ _).trans
    (congrArg (V m c main_v405) (emb_25 t j))

/-! ## What each point writes back, and the array after the last point -/

/-- What point t writes back is block t of the combination of the 26 arrays as the call finds them. -/
theorem flushed_eq (c : Dev nD) (t : Fin cfg0.N) :
    (dats m 0 c).flushed 26 t = ((cfg0.win 26).blk t).view.read (Elt F) (Spec.pointwise (S := S320x25600) (V m c main_v380) (V m c main_v381) (V m c main_v382) (V m c main_v383) (V m c main_v384) (V m c main_v385) (V m c main_v386) (V m c main_v387) (V m c main_v388) (V m c main_v389) (V m c main_v390) (V m c main_v391) (V m c main_v392) (V m c main_v393) (V m c main_v394) (V m c main_v395) (V m c main_v396) (V m c main_v397) (V m c main_v398) (V m c main_v399) (V m c main_v400) (V m c main_v401) (V m c main_v402) (V m c main_v403) (V m c main_v404) (V m c main_v405)) := by
  show (cfg0.win 26).cut (grid0.coords t) ((dats m 0 c).after 26 t) = _
  rw [after_26, out26_eq]
  funext j
  show Spec.pointwise (S := S320x256) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) j
    = Spec.pointwise (S := S320x25600) (V m c main_v380) (V m c main_v381) (V m c main_v382) (V m c main_v383) (V m c main_v384) (V m c main_v385) (V m c main_v386) (V m c main_v387) (V m c main_v388) (V m c main_v389) (V m c main_v390) (V m c main_v391) (V m c main_v392) (V m c main_v393) (V m c main_v394) (V m c main_v395) (V m c main_v396) (V m c main_v397) (V m c main_v398) (V m c main_v399) (V m c main_v400) (V m c main_v401) (V m c main_v402) (V m c main_v403) (V m c main_v404) (V m c main_v405) (((cfg0.win 26).blk t).view.emb j)
  exact pointwise_congr (S := S320x256) (T := S320x25600) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (V m c main_v380) (V m c main_v381) (V m c main_v382) (V m c main_v383) (V m c main_v384) (V m c main_v385) (V m c main_v386) (V m c main_v387) (V m c main_v388) (V m c main_v389) (V m c main_v390) (V m c main_v391) (V m c main_v392) (V m c main_v393) (V m c main_v394) (V m c main_v395) (V m c main_v396) (V m c main_v397) (V m c main_v398) (V m c main_v399) (V m c main_v400) (V m c main_v401) (V m c main_v402) (V m c main_v403) (V m c main_v404) (V m c main_v405) j (((cfg0.win 26).blk t).view.emb j)
    (iblk_at_0 m c t j) (iblk_at_1 m c t j) (iblk_at_2 m c t j) (iblk_at_3 m c t j) (iblk_at_4 m c t j) (iblk_at_5 m c t j) (iblk_at_6 m c t j) (iblk_at_7 m c t j) (iblk_at_8 m c t j) (iblk_at_9 m c t j) (iblk_at_10 m c t j) (iblk_at_11 m c t j) (iblk_at_12 m c t j) (iblk_at_13 m c t j) (iblk_at_14 m c t j) (iblk_at_15 m c t j) (iblk_at_16 m c t j) (iblk_at_17 m c t j) (iblk_at_18 m c t j) (iblk_at_19 m c t j) (iblk_at_20 m c t j) (iblk_at_21 m c t j) (iblk_at_22 m c t j) (iblk_at_23 m c t j) (iblk_at_24 m c t j) (iblk_at_25 m c t j)

/-- An index of the array is in point t's block iff each coordinate is in the block's range on its axis. -/
theorem mem_out_block (t : Fin cfg0.N) (i : S320x25600.Idx) :
    i ∈ ((cfg0.win 26).blk t).view.set ↔ ∀ a : Fin 2, win0_26.index t a * S320x256.size a ≤ (i a).val ∧ (i a).val < win0_26.index t a * S320x256.size a + S320x256.size a := by
  show i ∈ ((View.whole main_v406).slice (win0_26.rect t)).set ↔ _
  rw [View.set_slice_whole, Rect.mem_set_unit]
  exact Iff.rfl

/-- The 100 blocks tile the array: column k lies in the block of point k / 256. -/
theorem blocks_cover (i : S320x25600.Idx) :
    ∃ t : Fin cfg0.N, (cfg0.win 26).flush t = true ∧ i ∈ ((cfg0.win 26).blk t).view.set := by
  have hi0 : (i 0).val < 320 := (i 0).isLt
  have hi1 : (i 1).val < 25600 := (i 1).isLt
  have hN : cfg0.N = 100 := N_0
  have ht : (i 1).val / 256 < cfg0.N := by rw [hN]; omega
  refine ⟨⟨(i 1).val / 256, ht⟩, flush0_26 _, ?_⟩
  rw [mem_out_block]
  obtain ⟨e0, e1⟩ := idx_out ⟨(i 1).val / 256, ht⟩
  intro a
  match a with
  | ⟨0, _⟩ =>
    show win0_26.index ⟨(i 1).val / 256, ht⟩ (0 : Fin 2) * 320 ≤ (i 0).val ∧ (i 0).val < win0_26.index ⟨(i 1).val / 256, ht⟩ (0 : Fin 2) * 320 + 320
    rw [e0]; omega
  | ⟨1, _⟩ =>
    show win0_26.index ⟨(i 1).val / 256, ht⟩ (1 : Fin 2) * 256 ≤ (i 1).val ∧ (i 1).val < win0_26.index ⟨(i 1).val / 256, ht⟩ (1 : Fin 2) * 256 + 256
    rw [e1]; show (i 1).val / 256 * 256 ≤ (i 1).val ∧ (i 1).val < (i 1).val / 256 * 256 + 256; omega

/-- The output array after the call: the combination of the 26 arrays the call finds. -/
theorem out_array (c : Dev nD) : (dats m 0 c).arrAt 26 cfg0.N = Spec.pointwise (S := S320x25600) (V m c main_v380) (V m c main_v381) (V m c main_v382) (V m c main_v383) (V m c main_v384) (V m c main_v385) (V m c main_v386) (V m c main_v387) (V m c main_v388) (V m c main_v389) (V m c main_v390) (V m c main_v391) (V m c main_v392) (V m c main_v393) (V m c main_v394) (V m c main_v395) (V m c main_v396) (V m c main_v397) (V m c main_v398) (V m c main_v399) (V m c main_v400) (V m c main_v401) (V m c main_v402) (V m c main_v403) (V m c main_v404) (V m c main_v405) :=
  (dats m 0 c).arrAt_eq_of_cover 26 (Spec.pointwise (S := S320x25600) (V m c main_v380) (V m c main_v381) (V m c main_v382) (V m c main_v383) (V m c main_v384) (V m c main_v385) (V m c main_v386) (V m c main_v387) (V m c main_v388) (V m c main_v389) (V m c main_v390) (V m c main_v391) (V m c main_v392) (V m c main_v393) (V m c main_v394) (V m c main_v395) (V m c main_v396) (V m c main_v397) (V m c main_v398) (V m c main_v399) (V m c main_v400) (V m c main_v401) (V m c main_v402) (V m c main_v403) (V m c main_v404) (V m c main_v405)) (fun t _ => flushed_eq m c t) blocks_cover

/-! ## The reshape after the call, and the run -/

/-- The reshape after the call lays the output array back out on the grid. -/
theorem tail_value (c : Dev nD) :
    Pipeline.afterTail₀ cfgs (dats m) 0 (V0 m) [hostOps1] c main_v407
      = shapeCast S2x160x160x160 (Spec.pointwise (S := S320x25600) (V m c main_v380) (V m c main_v381) (V m c main_v382) (V m c main_v383) (V m c main_v384) (V m c main_v385) (V m c main_v386) (V m c main_v387) (V m c main_v388) (V m c main_v389) (V m c main_v390) (V m c main_v391) (V m c main_v392) (V m c main_v393) (V m c main_v394) (V m c main_v395) (V m c main_v396) (V m c main_v397) (V m c main_v398) (V m c main_v399) (V m c main_v400) (V m c main_v401) (V m c main_v402) (V m c main_v403) (V m c main_v404) (V m c main_v405)) Spec.hrs_S320x25600_S2x160x160x160 := by
  unfold Pipeline.afterTail₀
  show StableHlo.after hostOps1 _ (Proc.devRef .tc main_v407) = _
  after_results
  exact congrArg (fun X : FVec F S320x25600 .f32 => shapeCast S2x160x160x160 X Spec.hrs_S320x25600_S2x160x160x160)
    ((Pipeline.withArrays_arr spec0 launch0.win.arr_inj c (V0 m c) (fun w => (dats m 0 c).arrAt w cfg0.N) 26).trans (out_array m c))

/-- Every weakly fair execution of @main terminates with the result buffer at the combination of the 26 arrays the call
    finds, laid out on the grid, and the ten inputs as launched. -/
theorem value_run : θ_run defs (onTc (τ := τ) (main (F := F))) ⟨m, fun _ => 0, ρ⟩ (fun r => ∀ c : Dev nD,
      r.2.mem ((c.tc : Thread nD τ).loc main_v407) = shapeCast S2x160x160x160 (Spec.pointwise (S := S320x25600) (V m c main_v380) (V m c main_v381) (V m c main_v382) (V m c main_v383) (V m c main_v384) (V m c main_v385) (V m c main_v386) (V m c main_v387) (V m c main_v388) (V m c main_v389) (V m c main_v390) (V m c main_v391) (V m c main_v392) (V m c main_v393) (V m c main_v394) (V m c main_v395) (V m c main_v396) (V m c main_v397) (V m c main_v398) (V m c main_v399) (V m c main_v400) (V m c main_v401) (V m c main_v402) (V m c main_v403) (V m c main_v404) (V m c main_v405)) Spec.hrs_S320x25600_S2x160x160x160
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_v407 (Pipeline.mem_restRefs_of main_v407 (by decide) (by decide))).trans (tail_value m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c)⟩) (run_main m ρ)

end Cert.KernelIdeal.Fr

end
-- ==== Proof.IdealWindowsA.lean ====
/-
  The call's input windows 0 to 6: C, its three central differences, and the central divergences of the three rows of
  the diffusion tensor.
  Each array an input window of the call reads is the row-major 320 x 25600 layout of a field over the
  2 x 160 x 160 x 160 grid that the host operations before the call computed from the ten inputs. Each statement is
  read off the fold of those operations: the window's array is written by one reshape, its source by a chain of
  transposes, slices, differences, quotients by the spacing and concatenations that is, operation for operation, the
  whole-array function named on the right; no later operation writes either, and no operation writes an input.
-/
import proofs.«120775_j9655086481804_1_alg».proof.Proof.IdealAround
import proofs.«120775_j9655086481804_1_alg».proof.Proof.Spec

set_option maxRecDepth 16384

noncomputable section

namespace Cert.KernelIdeal.Fr

open Cert.KernelIdeal Cert.KernelIdeal.Gen Cert.KernelIdeal.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option maxHeartbeats 16000000 in
/-- Window 0: the field C itself, flattened. -/
theorem win_0 (c : Dev nD) : V m c main_v380 = flat (V m c main_arg0) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 16000000 in
/-- Window 1: the central difference of C along axis 1. -/
theorem win_1 (c : Dev nD) : V m c main_v381 = flat (dc1 (V m c main_arg0)) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 16000000 in
/-- Window 2: the central difference of C along axis 2. -/
theorem win_2 (c : Dev nD) : V m c main_v382 = flat (dc2 (V m c main_arg0)) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 16000000 in
/-- Window 3: the central difference of C along axis 3. -/
theorem win_3 (c : Dev nD) : V m c main_v383 = flat (dc3 (V m c main_arg0)) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 16000000 in
/-- Window 4: the central divergence of the tensor's first row (Dxx, Dxy, Dxz). -/
theorem win_4 (c : Dev nD) : V m c main_v384 = flat (sum3 (dc1 (V m c main_arg4)) (dc2 (V m c main_arg5)) (dc3 (V m c main_arg6))) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 16000000 in
/-- Window 5: the central divergence of the tensor's second row (Dxy, Dyy, Dyz). -/
theorem win_5 (c : Dev nD) : V m c main_v385 = flat (sum3 (dc1 (V m c main_arg5)) (dc2 (V m c main_arg7)) (dc3 (V m c main_arg8))) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 16000000 in
/-- Window 6: the central divergence of the tensor's third row (Dxz, Dyz, Dzz). -/
theorem win_6 (c : Dev nD) : V m c main_v386 = flat (sum3 (dc1 (V m c main_arg6)) (dc2 (V m c main_arg8)) (dc3 (V m c main_arg9))) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

end Cert.KernelIdeal.Fr

end
-- ==== Proof.IdealWindowsB.lean ====
/-
  The call's input windows 7 to 12 and 19 to 21: the six entries of the diffusion tensor and the three velocity
  components, each only flattened.
  Each array an input window of the call reads is the row-major 320 x 25600 layout of a field over the
  2 x 160 x 160 x 160 grid that the host operations before the call computed from the ten inputs. Each statement is
  read off the fold of those operations: the window's array is written by one reshape, its source by a chain of
  transposes, slices, differences, quotients by the spacing and concatenations that is, operation for operation, the
  whole-array function named on the right; no later operation writes either, and no operation writes an input.
-/
import proofs.«120775_j9655086481804_1_alg».proof.Proof.IdealAround
import proofs.«120775_j9655086481804_1_alg».proof.Proof.Spec

set_option maxRecDepth 16384

noncomputable section

namespace Cert.KernelIdeal.Fr

open Cert.KernelIdeal Cert.KernelIdeal.Gen Cert.KernelIdeal.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option maxHeartbeats 16000000 in
/-- Window 7: Dxx, flattened. -/
theorem win_7 (c : Dev nD) : V m c main_v387 = flat (V m c main_arg4) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 16000000 in
/-- Window 8: Dyy, flattened. -/
theorem win_8 (c : Dev nD) : V m c main_v388 = flat (V m c main_arg7) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 16000000 in
/-- Window 9: Dzz, flattened. -/
theorem win_9 (c : Dev nD) : V m c main_v389 = flat (V m c main_arg9) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 16000000 in
/-- Window 10: Dxy, flattened. -/
theorem win_10 (c : Dev nD) : V m c main_v390 = flat (V m c main_arg5) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 16000000 in
/-- Window 11: Dyz, flattened. -/
theorem win_11 (c : Dev nD) : V m c main_v391 = flat (V m c main_arg8) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 16000000 in
/-- Window 12: Dxz, flattened. -/
theorem win_12 (c : Dev nD) : V m c main_v392 = flat (V m c main_arg6) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 16000000 in
/-- Window 19: Vx, flattened. -/
theorem win_19 (c : Dev nD) : V m c main_v399 = flat (V m c main_arg1) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 16000000 in
/-- Window 20: Vy, flattened. -/
theorem win_20 (c : Dev nD) : V m c main_v400 = flat (V m c main_arg2) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 16000000 in
/-- Window 21: Vz, flattened. -/
theorem win_21 (c : Dev nD) : V m c main_v401 = flat (V m c main_arg3) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

end Cert.KernelIdeal.Fr

end
-- ==== Proof.IdealWindowsC.lean ====
/-
  The call's input windows 13 to 18: the second differences of C, pure (a backward difference of a forward one along
  one axis) and mixed (along two axes, both orders summed).
  Each array an input window of the call reads is the row-major 320 x 25600 layout of a field over the
  2 x 160 x 160 x 160 grid that the host operations before the call computed from the ten inputs. Each statement is
  read off the fold of those operations: the window's array is written by one reshape, its source by a chain of
  transposes, slices, differences, quotients by the spacing and concatenations that is, operation for operation, the
  whole-array function named on the right; no later operation writes either, and no operation writes an input.
-/
import proofs.«120775_j9655086481804_1_alg».proof.Proof.IdealAround
import proofs.«120775_j9655086481804_1_alg».proof.Proof.Spec

set_option maxRecDepth 16384

noncomputable section

namespace Cert.KernelIdeal.Fr

open Cert.KernelIdeal Cert.KernelIdeal.Gen Cert.KernelIdeal.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option maxHeartbeats 16000000 in
/-- Window 13: the second difference of C along axis 1 (backward of forward). -/
theorem win_13 (c : Dev nD) : V m c main_v393 = flat (db1 (df1 (V m c main_arg0))) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 16000000 in
/-- Window 14: the second difference of C along axis 2 (backward of forward). -/
theorem win_14 (c : Dev nD) : V m c main_v394 = flat (db2 (df2 (V m c main_arg0))) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 16000000 in
/-- Window 15: the second difference of C along axis 3 (backward of forward). -/
theorem win_15 (c : Dev nD) : V m c main_v395 = flat (db3 (df3 (V m c main_arg0))) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 16000000 in
/-- Window 16: the mixed second difference of C in axes 1 and 2, both orders summed. -/
theorem win_16 (c : Dev nD) : V m c main_v396 = flat (addf (db1 (df2 (V m c main_arg0))) (db2 (df1 (V m c main_arg0)))) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 16000000 in
/-- Window 17: the mixed second difference of C in axes 2 and 3, both orders summed. -/
theorem win_17 (c : Dev nD) : V m c main_v397 = flat (addf (db2 (df3 (V m c main_arg0))) (db3 (df2 (V m c main_arg0)))) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 16000000 in
/-- Window 18: the mixed second difference of C in axes 3 and 1, both orders summed. -/
theorem win_18 (c : Dev nD) : V m c main_v398 = flat (addf (db3 (df1 (V m c main_arg0))) (db1 (df3 (V m c main_arg0)))) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

end Cert.KernelIdeal.Fr

end
-- ==== Proof.IdealWindowsD.lean ====
/-
  The call's input windows 22 to 25: the three upwind first differences of C and the central divergence of the velocity.
  Each array an input window of the call reads is the row-major 320 x 25600 layout of a field over the
  2 x 160 x 160 x 160 grid that the host operations before the call computed from the ten inputs. Each statement is
  read off the fold of those operations: the window's array is written by one reshape, its source by a chain of
  transposes, slices, differences, quotients by the spacing and concatenations that is, operation for operation, the
  whole-array function named on the right; no later operation writes either, and no operation writes an input.
-/
import proofs.«120775_j9655086481804_1_alg».proof.Proof.IdealAround
import proofs.«120775_j9655086481804_1_alg».proof.Proof.Spec

set_option maxRecDepth 16384

noncomputable section

namespace Cert.KernelIdeal.Fr

open Cert.KernelIdeal Cert.KernelIdeal.Gen Cert.KernelIdeal.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option maxHeartbeats 16000000 in
/-- Window 22: the upwind first difference of C along axis 1, chosen by the sign of Vx. -/
theorem win_22 (c : Dev nD) : V m c main_v402 = flat (upwind (V m c main_arg1) (db1 (V m c main_arg0)) (df1 (V m c main_arg0))) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 16000000 in
/-- Window 23: the upwind first difference of C along axis 2, chosen by the sign of Vy. -/
theorem win_23 (c : Dev nD) : V m c main_v403 = flat (upwind (V m c main_arg2) (db2 (V m c main_arg0)) (df2 (V m c main_arg0))) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 16000000 in
/-- Window 24: the upwind first difference of C along axis 3, chosen by the sign of Vz. -/
theorem win_24 (c : Dev nD) : V m c main_v404 = flat (upwind (V m c main_arg3) (db3 (V m c main_arg0)) (df3 (V m c main_arg0))) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 16000000 in
/-- Window 25: the central divergence of the velocity. -/
theorem win_25 (c : Dev nD) : V m c main_v405 = flat (sum3 (dc1 (V m c main_arg1)) (dc2 (V m c main_arg2)) (dc3 (V m c main_arg3))) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

end Cert.KernelIdeal.Fr

end
-- ==== Proof.IdealWindows.lean ====
/-
  The 26 arrays the call's input windows read, as whole-array functions of the ten inputs: the statements win_0 to
  win_25, proved in four parts.
-/
import proofs.«120775_j9655086481804_1_alg».proof.Proof.IdealWindowsA
import proofs.«120775_j9655086481804_1_alg».proof.Proof.IdealWindowsB
import proofs.«120775_j9655086481804_1_alg».proof.Proof.IdealWindowsC
import proofs.«120775_j9655086481804_1_alg».proof.Proof.IdealWindowsD
-- ==== Proof.Bridge.lean ====
/-
  The kernel's result and the reference's are one function of the ten inputs, on the extended reals.

  Two facts. First, laying 26 fields out as 320 x 25600 matrices, combining them point by point and laying the result
  back out on the grid is combining the fields themselves point by point: a reshape only renames positions, and there
  and back is the identity. Second, the two spellings of the combination differ in one place, the kernel subtracting
  the advection sum from zero where the reference negates it, and 0 - a = -a for every extended real a (also the
  infinite ones: 0 - a is 0 + (-a) by definition of subtraction there). No input need be finite.
-/
import proofs.«120775_j9655086481804_1_alg».proof.Proof.Spec
import Idealize.ShloMosaic.PureOps.Ideal.Laws

noncomputable section

namespace Cert.KernelIdeal.Spec

open Cert.KernelIdeal Idealize.ShloMosaic Idealize.ShloMosaic.TcCoe

/-- A field flattened and laid back out is the field. -/
theorem unflat_flat {F : FTy → Type} [FloatOps F] (X : FVec F S2x160x160x160 .f32) :
    shapeCast S2x160x160x160 (flat X) hrs_S320x25600_S2x160x160x160 = X :=
  shapeCast_shapeCast X _ _

/-- Combining flattened fields and laying the result back out is combining the fields. -/
theorem unflat_pointwise {F : FTy → Type} [FloatOps F] (x0 x1 x2 x3 x4 x5 x6 x7 x8 x9 x10 x11 x12 x13 x14 x15 x16 x17 x18 x19 x20 x21 x22 x23 x24 x25 : FVec F S2x160x160x160 .f32) :
    shapeCast S2x160x160x160 (pointwise (flat x0) (flat x1) (flat x2) (flat x3) (flat x4) (flat x5) (flat x6) (flat x7) (flat x8) (flat x9) (flat x10) (flat x11) (flat x12) (flat x13) (flat x14) (flat x15) (flat x16) (flat x17) (flat x18) (flat x19) (flat x20) (flat x21) (flat x22) (flat x23) (flat x24) (flat x25)) hrs_S320x25600_S2x160x160x160
      = pointwise x0 x1 x2 x3 x4 x5 x6 x7 x8 x9 x10 x11 x12 x13 x14 x15 x16 x17 x18 x19 x20 x21 x22 x23 x24 x25 := by
  have e : shapeCast S2x160x160x160 (pointwise (flat x0) (flat x1) (flat x2) (flat x3) (flat x4) (flat x5) (flat x6) (flat x7) (flat x8) (flat x9) (flat x10) (flat x11) (flat x12) (flat x13) (flat x14) (flat x15) (flat x16) (flat x17) (flat x18) (flat x19) (flat x20) (flat x21) (flat x22) (flat x23) (flat x24) (flat x25)) hrs_S320x25600_S2x160x160x160
      = pointwise (shapeCast S2x160x160x160 (flat x0) hrs_S320x25600_S2x160x160x160) (shapeCast S2x160x160x160 (flat x1) hrs_S320x25600_S2x160x160x160) (shapeCast S2x160x160x160 (flat x2) hrs_S320x25600_S2x160x160x160) (shapeCast S2x160x160x160 (flat x3) hrs_S320x25600_S2x160x160x160) (shapeCast S2x160x160x160 (flat x4) hrs_S320x25600_S2x160x160x160) (shapeCast S2x160x160x160 (flat x5) hrs_S320x25600_S2x160x160x160) (shapeCast S2x160x160x160 (flat x6) hrs_S320x25600_S2x160x160x160) (shapeCast S2x160x160x160 (flat x7) hrs_S320x25600_S2x160x160x160) (shapeCast S2x160x160x160 (flat x8) hrs_S320x25600_S2x160x160x160) (shapeCast S2x160x160x160 (flat x9) hrs_S320x25600_S2x160x160x160) (shapeCast S2x160x160x160 (flat x10) hrs_S320x25600_S2x160x160x160) (shapeCast S2x160x160x160 (flat x11) hrs_S320x25600_S2x160x160x160) (shapeCast S2x160x160x160 (flat x12) hrs_S320x25600_S2x160x160x160) (shapeCast S2x160x160x160 (flat x13) hrs_S320x25600_S2x160x160x160) (shapeCast S2x160x160x160 (flat x14) hrs_S320x25600_S2x160x160x160) (shapeCast S2x160x160x160 (flat x15) hrs_S320x25600_S2x160x160x160) (shapeCast S2x160x160x160 (flat x16) hrs_S320x25600_S2x160x160x160) (shapeCast S2x160x160x160 (flat x17) hrs_S320x25600_S2x160x160x160) (shapeCast S2x160x160x160 (flat x18) hrs_S320x25600_S2x160x160x160) (shapeCast S2x160x160x160 (flat x19) hrs_S320x25600_S2x160x160x160) (shapeCast S2x160x160x160 (flat x20) hrs_S320x25600_S2x160x160x160) (shapeCast S2x160x160x160 (flat x21) hrs_S320x25600_S2x160x160x160) (shapeCast S2x160x160x160 (flat x22) hrs_S320x25600_S2x160x160x160) (shapeCast S2x160x160x160 (flat x23) hrs_S320x25600_S2x160x160x160) (shapeCast S2x160x160x160 (flat x24) hrs_S320x25600_S2x160x160x160) (shapeCast S2x160x160x160 (flat x25) hrs_S320x25600_S2x160x160x160) := rfl
  rw [e]
  simp only [unflat_flat]

/-- The zero word is the real zero. -/
theorem zero_word : (Scalar.ofBits (F := Ideal) .f32 0x00000000#32) = (0 : EReal) := by
  show Ideal.ofBits .f32 0x00000000#32 = 0
  exact Ideal.ofBits_zero_f32

/-- The two spellings agree on the extended reals: 0 - a = -a. -/
theorem combineK_eq_combineR {S : Shape} (dif adv c dv : FVec Ideal S .f32) :
    combineK dif adv c dv = combineR dif adv c dv := by
  funext i
  show dif i + ((Scalar.ofBits (F := Ideal) .f32 0x00000000#32 - adv i) - c i * dv i) = dif i + (-(adv i) - c i * dv i)
  rw [zero_word, zero_sub]

/-- The kernel's result is the reference's. -/
theorem kerOut_eq_refOut (C Vx Vy Vz Dxx Dxy Dxz Dyy Dyz Dzz : FVec Ideal S2x160x160x160 .f32) :
    kerOut C Vx Vy Vz Dxx Dxy Dxz Dyy Dyz Dzz = refOut C Vx Vy Vz Dxx Dxy Dxz Dyy Dyz Dzz := by
  unfold kerOut
  rw [unflat_pointwise]
  unfold pointwise refOut diffusionOf advectionOf
  exact combineK_eq_combineR _ _ _ _

end Cert.KernelIdeal.Spec

end
-- ==== Proof.IdealResult.lean ====
/-
  The kernel's output as a function of its ten inputs: the 26 arrays the call's windows stage are the reshaped
  finite-difference fields of the inputs (read off the host operations before the call), the inputs themselves are as
  launched, so the reshaped point-by-point combination the call leaves is the kernel's result function of the launch
  contents; and that function is the reference's on the extended reals.
-/
import proofs.«120775_j9655086481804_1_alg».proof.Proof.IdealWindows
import proofs.«120775_j9655086481804_1_alg».proof.Proof.IdealArgs
import proofs.«120775_j9655086481804_1_alg».proof.Proof.Bridge

set_option maxRecDepth 16384

noncomputable section

namespace Cert.KernelIdeal.Fr

open Cert.KernelIdeal Cert.KernelIdeal.Gen Cert.KernelIdeal.Spec
open Idealize.ShloMosaic Idealize.ShloMosaic.TcCoe Idealize.SL.Sem

/-- The same over variables: 26 arrays that are the flattened fields of ten arrays b, themselves equal to arrays a,
    combine and lay back out to the reference's result function of a. -/
theorem result_of_windows (x0 x1 x2 x3 x4 x5 x6 x7 x8 x9 x10 x11 x12 x13 x14 x15 x16 x17 x18 x19 x20 x21 x22 x23 x24 x25 : FVec Ideal S320x25600 .f32) (b0 b1 b2 b3 b4 b5 b6 b7 b8 b9 a0 a1 a2 a3 a4 a5 a6 a7 a8 a9 : FVec Ideal S2x160x160x160 .f32)
    (e0 : b0 = a0)     (e1 : b1 = a1)     (e2 : b2 = a2)     (e3 : b3 = a3)     (e4 : b4 = a4)     (e5 : b5 = a5)     (e6 : b6 = a6)     (e7 : b7 = a7)     (e8 : b8 = a8)     (e9 : b9 = a9)
    (h0 : x0 = flat b0)
    (h1 : x1 = flat (dc1 b0))
    (h2 : x2 = flat (dc2 b0))
    (h3 : x3 = flat (dc3 b0))
    (h4 : x4 = flat (sum3 (dc1 b4) (dc2 b5) (dc3 b6)))
    (h5 : x5 = flat (sum3 (dc1 b5) (dc2 b7) (dc3 b8)))
    (h6 : x6 = flat (sum3 (dc1 b6) (dc2 b8) (dc3 b9)))
    (h7 : x7 = flat b4)
    (h8 : x8 = flat b7)
    (h9 : x9 = flat b9)
    (h10 : x10 = flat b5)
    (h11 : x11 = flat b8)
    (h12 : x12 = flat b6)
    (h13 : x13 = flat (db1 (df1 b0)))
    (h14 : x14 = flat (db2 (df2 b0)))
    (h15 : x15 = flat (db3 (df3 b0)))
    (h16 : x16 = flat (addf (db1 (df2 b0)) (db2 (df1 b0))))
    (h17 : x17 = flat (addf (db2 (df3 b0)) (db3 (df2 b0))))
    (h18 : x18 = flat (addf (db3 (df1 b0)) (db1 (df3 b0))))
    (h19 : x19 = flat b1)
    (h20 : x20 = flat b2)
    (h21 : x21 = flat b3)
    (h22 : x22 = flat (upwind b1 (db1 b0) (df1 b0)))
    (h23 : x23 = flat (upwind b2 (db2 b0) (df2 b0)))
    (h24 : x24 = flat (upwind b3 (db3 b0) (df3 b0)))
    (h25 : x25 = flat (sum3 (dc1 b1) (dc2 b2) (dc3 b3))) :
    shapeCast S2x160x160x160 (pointwise x0 x1 x2 x3 x4 x5 x6 x7 x8 x9 x10 x11 x12 x13 x14 x15 x16 x17 x18 x19 x20 x21 x22 x23 x24 x25) hrs_S320x25600_S2x160x160x160 = refOut a0 a1 a2 a3 a4 a5 a6 a7 a8 a9 := by
  subst e0 e1 e2 e3 e4 e5 e6 e7 e8 e9
  subst h0 h1 h2 h3 h4 h5 h6 h7 h8 h9 h10 h11 h12 h13 h14 h15 h16 h17 h18 h19 h20 h21 h22 h23 h24 h25
  exact kerOut_eq_refOut _ _ _ _ _ _ _ _ _ _

variable (m : (ℓ : Loc nD τ sig) → Buf (Elt Ideal) ℓ)

/-- What the call's output array, laid back out on the grid, is in terms of the launch contents of the ten inputs:
    the lemma above at the entry contents of the 26 staged arrays and of the ten inputs. -/
theorem result_eq (c : Dev nD) :
    shapeCast S2x160x160x160 (pointwise (S := S320x25600) (V m c main_v380) (V m c main_v381) (V m c main_v382) (V m c main_v383) (V m c main_v384) (V m c main_v385) (V m c main_v386) (V m c main_v387) (V m c main_v388) (V m c main_v389) (V m c main_v390) (V m c main_v391) (V m c main_v392) (V m c main_v393) (V m c main_v394) (V m c main_v395) (V m c main_v396) (V m c main_v397) (V m c main_v398) (V m c main_v399) (V m c main_v400) (V m c main_v401) (V m c main_v402) (V m c main_v403) (V m c main_v404) (V m c main_v405)) hrs_S320x25600_S2x160x160x160
      = refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  result_of_windows (V m c main_v380) (V m c main_v381) (V m c main_v382) (V m c main_v383) (V m c main_v384) (V m c main_v385) (V m c main_v386) (V m c main_v387) (V m c main_v388) (V m c main_v389) (V m c main_v390) (V m c main_v391) (V m c main_v392) (V m c main_v393) (V m c main_v394) (V m c main_v395) (V m c main_v396) (V m c main_v397) (V m c main_v398) (V m c main_v399) (V m c main_v400) (V m c main_v401) (V m c main_v402) (V m c main_v403) (V m c main_v404) (V m c main_v405)
    (V m c main_arg0) (V m c main_arg1) (V m c main_arg2) (V m c main_arg3) (V m c main_arg4) (V m c main_arg5) (V m c main_arg6) (V m c main_arg7) (V m c main_arg8) (V m c main_arg9)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    (V_main_arg0 m c) (V_main_arg1 m c) (V_main_arg2 m c) (V_main_arg3 m c) (V_main_arg4 m c) (V_main_arg5 m c) (V_main_arg6 m c) (V_main_arg7 m c) (V_main_arg8 m c) (V_main_arg9 m c)
    (win_0 m c) (win_1 m c) (win_2 m c) (win_3 m c) (win_4 m c) (win_5 m c) (win_6 m c) (win_7 m c) (win_8 m c) (win_9 m c) (win_10 m c) (win_11 m c) (win_12 m c) (win_13 m c) (win_14 m c) (win_15 m c) (win_16 m c) (win_17 m c) (win_18 m c) (win_19 m c) (win_20 m c) (win_21 m c) (win_22 m c) (win_23 m c) (win_24 m c) (win_25 m c)

end Cert.KernelIdeal.Fr

end
-- ==== Proof.RefWindows.lean ====
/-
  The same 484 operations cut the way the printed program cuts its statements: nine consecutive windows, the first eight
  of 60 operations and the last of 4. For each window J: its operations (winJ), that each touches buffers of the
  TensorCore only (winJ_sub), and that each determines its results (winJ_fresh).
-/
import proofs.«120775_j9655086481804_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Operations 0 … 59. -/
def win0 : List (HloOp τ sig (Elt F)) :=
  [ unary main_arg0 main_v0 ((transpose S160x2x160x160 [1, 0, 2, 3] · transposes_S2x160x160x160_S160x2x160x160_1_0_2_3) : (⟨S2x160x160x160, .f32⟩ : BufTy).Contents (Elt F) → (⟨S160x2x160x160, .f32⟩ : BufTy).Contents (Elt F)),
    unary main_v0 main_v1 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v0 main_v2 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v1 main_v2 main_v3 (subf : (⟨S159x2x160x160, .f32⟩ : BufTy).Contents (Elt F) → (⟨S159x2x160x160, .f32⟩ : BufTy).Contents (Elt F) → (⟨S159x2x160x160, .f32⟩ : BufTy).Contents (Elt F)),
    nullary main_cst (constant S_ .f32 0x3F800000#32),
    unary main_cst main_v4 (broadcastInDim S159x2x160x160 ![] bcast_S_S159x2x160x160 : (⟨S_, .f32⟩ : BufTy).Contents (Elt F) → (⟨S159x2x160x160, .f32⟩ : BufTy).Contents (Elt F)),
    binary main_v3 main_v4 main_v5 (Host.divf : (⟨S159x2x160x160, .f32⟩ : BufTy).Contents (Elt F) → (⟨S159x2x160x160, .f32⟩ : BufTy).Contents (Elt F) → (⟨S159x2x160x160, .f32⟩ : BufTy).Contents (Elt F)),
    unary main_v5 main_v6 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v0 main_v7 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v0 main_v8 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v7 main_v8 main_v9 (subf : (⟨S158x2x160x160, .f32⟩ : BufTy).Contents (Elt F) → (⟨S158x2x160x160, .f32⟩ : BufTy).Contents (Elt F) → (⟨S158x2x160x160, .f32⟩ : BufTy).Contents (Elt F)),
    nullary main_cst_0 (constant S_ .f32 0x40000000#32),
    unary main_cst_0 main_v10 (broadcastInDim S158x2x160x160 ![] bcast_S_S158x2x160x160 : (⟨S_, .f32⟩ : BufTy).Contents (Elt F) → (⟨S158x2x160x160, .f32⟩ : BufTy).Contents (Elt F)),
    binary main_v9 main_v10 main_v11 (Host.divf : (⟨S158x2x160x160, .f32⟩ : BufTy).Contents (Elt F) → (⟨S158x2x160x160, .f32⟩ : BufTy).Contents (Elt F) → (⟨S158x2x160x160, .f32⟩ : BufTy).Contents (Elt F)),
    unary main_v5 main_v12 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v6, main_v11, main_v12] main_v13 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v13 main_v14 ((transpose S2x160x160x160 [1, 0, 2, 3] · transposes_S160x2x160x160_S2x160x160x160_1_0_2_3) : (⟨S160x2x160x160, .f32⟩ : BufTy).Contents (Elt F) → (⟨S2x160x160x160, .f32⟩ : BufTy).Contents (Elt F)),
    unary main_arg0 main_v15 ((transpose S160x2x160x160 [2, 0, 1, 3] · transposes_S2x160x160x160_S160x2x160x160_2_0_1_3) : (⟨S2x160x160x160, .f32⟩ : BufTy).Contents (Elt F) → (⟨S160x2x160x160, .f32⟩ : BufTy).Contents (Elt F)),
    unary main_v15 main_v16 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v15 main_v17 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v16 main_v17 main_v18 (subf : (⟨S159x2x160x160, .f32⟩ : BufTy).Contents (Elt F) → (⟨S159x2x160x160, .f32⟩ : BufTy).Contents (Elt F) → (⟨S159x2x160x160, .f32⟩ : BufTy).Contents (Elt F)),
    nullary main_cst_1 (constant S_ .f32 0x3F800000#32),
    unary main_cst_1 main_v19 (broadcastInDim S159x2x160x160 ![] bcast_S_S159x2x160x160 : (⟨S_, .f32⟩ : BufTy).Contents (Elt F) → (⟨S159x2x160x160, .f32⟩ : BufTy).Contents (Elt F)),
    binary main_v18 main_v19 main_v20 (Host.divf : (⟨S159x2x160x160, .f32⟩ : BufTy).Contents (Elt F) → (⟨S159x2x160x160, .f32⟩ : BufTy).Contents (Elt F) → (⟨S159x2x160x160, .f32⟩ : BufTy).Contents (Elt F)),
    unary main_v20 main_v21 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v15 main_v22 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v15 main_v23 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v22 main_v23 main_v24 (subf : (⟨S158x2x160x160, .f32⟩ : BufTy).Contents (Elt F) → (⟨S158x2x160x160, .f32⟩ : BufTy).Contents (Elt F) → (⟨S158x2x160x160, .f32⟩ : BufTy).Contents (Elt F)),
    nullary main_cst_2 (constant S_ .f32 0x40000000#32),
    unary main_cst_2 main_v25 (broadcastInDim S158x2x160x160 ![] bcast_S_S158x2x160x160 : (⟨S_, .f32⟩ : BufTy).Contents (Elt F) → (⟨S158x2x160x160, .f32⟩ : BufTy).Contents (Elt F)),
    binary main_v24 main_v25 main_v26 (Host.divf : (⟨S158x2x160x160, .f32⟩ : BufTy).Contents (Elt F) → (⟨S158x2x160x160, .f32⟩ : BufTy).Contents (Elt F) → (⟨S158x2x160x160, .f32⟩ : BufTy).Contents (Elt F)),
    unary main_v20 main_v27 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v21, main_v26, main_v27] main_v28 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v28 main_v29 ((transpose S2x160x160x160 [1, 2, 0, 3] · transposes_S160x2x160x160_S2x160x160x160_1_2_0_3) : (⟨S160x2x160x160, .f32⟩ : BufTy).Contents (Elt F) → (⟨S2x160x160x160, .f32⟩ : BufTy).Contents (Elt F)),
    unary main_arg0 main_v30 ((transpose S160x2x160x160 [3, 0, 1, 2] · transposes_S2x160x160x160_S160x2x160x160_3_0_1_2) : (⟨S2x160x160x160, .f32⟩ : BufTy).Contents (Elt F) → (⟨S160x2x160x160, .f32⟩ : BufTy).Contents (Elt F)),
    unary main_v30 main_v31 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v30 main_v32 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v31 main_v32 main_v33 (subf : (⟨S159x2x160x160, .f32⟩ : BufTy).Contents (Elt F) → (⟨S159x2x160x160, .f32⟩ : BufTy).Contents (Elt F) → (⟨S159x2x160x160, .f32⟩ : BufTy).Contents (Elt F)),
    nullary main_cst_3 (constant S_ .f32 0x3F800000#32),
    unary main_cst_3 main_v34 (broadcastInDim S159x2x160x160 ![] bcast_S_S159x2x160x160 : (⟨S_, .f32⟩ : BufTy).Contents (Elt F) → (⟨S159x2x160x160, .f32⟩ : BufTy).Contents (Elt F)),
    binary main_v33 main_v34 main_v35 (Host.divf : (⟨S159x2x160x160, .f32⟩ : BufTy).Contents (Elt F) → (⟨S159x2x160x160, .f32⟩ : BufTy).Contents (Elt F) → (⟨S159x2x160x160, .f32⟩ : BufTy).Contents (Elt F)),
    unary main_v35 main_v36 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v30 main_v37 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v30 main_v38 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v37 main_v38 main_v39 (subf : (⟨S158x2x160x160, .f32⟩ : BufTy).Contents (Elt F) → (⟨S158x2x160x160, .f32⟩ : BufTy).Contents (Elt F) → (⟨S158x2x160x160, .f32⟩ : BufTy).Contents (Elt F)),
    nullary main_cst_4 (constant S_ .f32 0x40000000#32),
    unary main_cst_4 main_v40 (broadcastInDim S158x2x160x160 ![] bcast_S_S158x2x160x160 : (⟨S_, .f32⟩ : BufTy).Contents (Elt F) → (⟨S158x2x160x160, .f32⟩ : BufTy).Contents (Elt F)),
    binary main_v39 main_v40 main_v41 (Host.divf : (⟨S158x2x160x160, .f32⟩ : BufTy).Contents (Elt F) → (⟨S158x2x160x160, .f32⟩ : BufTy).Contents (Elt F) → (⟨S158x2x160x160, .f32⟩ : BufTy).Contents (Elt F)),
    unary main_v35 main_v42 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v36, main_v41, main_v42] main_v43 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v43 main_v44 ((transpose S2x160x160x160 [1, 2, 3, 0] · transposes_S160x2x160x160_S2x160x160x160_1_2_3_0) : (⟨S160x2x160x160, .f32⟩ : BufTy).Contents (Elt F) → (⟨S2x160x160x160, .f32⟩ : BufTy).Contents (Elt F)),
    unary main_arg0 main_v45 ((transpose S160x2x160x160 [1, 0, 2, 3] · transposes_S2x160x160x160_S160x2x160x160_1_0_2_3) : (⟨S2x160x160x160, .f32⟩ : BufTy).Contents (Elt F) → (⟨S160x2x160x160, .f32⟩ : BufTy).Contents (Elt F)),
    unary main_v45 main_v46 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v45 main_v47 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v46 main_v47 main_v48 (subf : (⟨S159x2x160x160, .f32⟩ : BufTy).Contents (Elt F) → (⟨S159x2x160x160, .f32⟩ : BufTy).Contents (Elt F) → (⟨S159x2x160x160, .f32⟩ : BufTy).Contents (Elt F)),
    nullary main_cst_5 (constant S_ .f32 0x3F800000#32),
    unary main_cst_5 main_v49 (broadcastInDim S159x2x160x160 ![] bcast_S_S159x2x160x160 : (⟨S_, .f32⟩ : BufTy).Contents (Elt F) → (⟨S159x2x160x160, .f32⟩ : BufTy).Contents (Elt F)),
    binary main_v48 main_v49 main_v50 (Host.divf : (⟨S159x2x160x160, .f32⟩ : BufTy).Contents (Elt F) → (⟨S159x2x160x160, .f32⟩ : BufTy).Contents (Elt F) → (⟨S159x2x160x160, .f32⟩ : BufTy).Contents (Elt F)),
    unary main_v50 main_v51 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    binary main_v50 main_v51 main_v52 ((fun a b => concatenate S160x2x160x160 0 [⟨S159x2x160x160, a⟩, ⟨S1x2x160x160, b⟩] concatenates_S159x2x160x160_S1x2x160x160_S160x2x160x160_d0) : (⟨S159x2x160x160, .f32⟩ : BufTy).Contents (Elt F) → (⟨S1x2x160x160, .f32⟩ : BufTy).Contents (Elt F) → (⟨S160x2x160x160, .f32⟩ : BufTy).Contents (Elt F)) ]
set_option maxRecDepth 8192 in
theorem win0_sub : (win0 (F := F)).Forall fun op => op.bufs ⊆ tcRefs τ sig :=
  ⟨unary_bufs_sub .., unary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., nary_bufs_sub .., unary_bufs_sub .., unary_bufs_sub .., unary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., nary_bufs_sub .., unary_bufs_sub .., unary_bufs_sub .., unary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., nary_bufs_sub .., unary_bufs_sub .., unary_bufs_sub .., unary_bufs_sub .., unary_bufs_sub .., binary_bufs_sub .., nullary_bufs_sub .., unary_bufs_sub .., binary_bufs_sub .., unary_bufs_sub .., binary_bufs_sub ..⟩
set_option maxRecDepth 8192 in
theorem win0_fresh : (win0 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 60 … 119. -/
def win1 : List (HloOp τ sig (Elt F)) :=
  [ unary main_v52 main_v53 ((transpose S2x160x160x160 [1, 0, 2, 3] · transposes_S160x2x160x160_S2x160x160x160_1_0_2_3) : (⟨S160x2x160x160, .f32⟩ : BufTy).Contents (Elt F) → (⟨S2x160x160x160, .f32⟩ : BufTy).Contents (Elt F)),
    unary main_arg0 main_v54 ((transpose S160x2x160x160 [2, 0, 1, 3] · transposes_S2x160x160x160_S160x2x160x160_2_0_1_3) : (⟨S2x160x160x160, .f32⟩ : BufTy).Contents (Elt F) → (⟨S160x2x160x160, .f32⟩ : BufTy).Contents (Elt F)),
    unary main_v54 main_v55 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v54 main_v56 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v55 main_v56 main_v57 (subf : (⟨S159x2x160x160, .f32⟩ : BufTy).Contents (Elt F) → (⟨S159x2x160x160, .f32⟩ : BufTy).Contents (Elt F) → (⟨S159x2x160x160, .f32⟩ : BufTy).Contents (Elt F)),
    nullary main_cst_6 (constant S_ .f32 0x3F800000#32),
    unary main_cst_6 main_v58 (broadcastInDim S159x2x160x160 ![] bcast_S_S159x2x160x160 : (⟨S_, .f32⟩ : BufTy).Contents (Elt F) → (⟨S159x2x160x160, .f32⟩ : BufTy).Contents (Elt F)),
    binary main_v57 main_v58 main_v59 (Host.divf : (⟨S159x2x160x160, .f32⟩ : BufTy).Contents (Elt F) → (⟨S159x2x160x160, .f32⟩ : BufTy).Contents (Elt F) → (⟨S159x2x160x160, .f32⟩ : BufTy).Contents (Elt F)),
    unary main_v59 main_v60 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    binary main_v59 main_v60 main_v61 ((fun a b => concatenate S160x2x160x160 0 [⟨S159x2x160x160, a⟩, ⟨S1x2x160x160, b⟩] concatenates_S159x2x160x160_S1x2x160x160_S160x2x160x160_d0) : (⟨S159x2x160x160, .f32⟩ : BufTy).Contents (Elt F) → (⟨S1x2x160x160, .f32⟩ : BufTy).Contents (Elt F) → (⟨S160x2x160x160, .f32⟩ : BufTy).Contents (Elt F)),
    unary main_v61 main_v62 ((transpose S2x160x160x160 [1, 2, 0, 3] · transposes_S160x2x160x160_S2x160x160x160_1_2_0_3) : (⟨S160x2x160x160, .f32⟩ : BufTy).Contents (Elt F) → (⟨S2x160x160x160, .f32⟩ : BufTy).Contents (Elt F)),
    unary main_arg0 main_v63 ((transpose S160x2x160x160 [3, 0, 1, 2] · transposes_S2x160x160x160_S160x2x160x160_3_0_1_2) : (⟨S2x160x160x160, .f32⟩ : BufTy).Contents (Elt F) → (⟨S160x2x160x160, .f32⟩ : BufTy).Contents (Elt F)),
    unary main_v63 main_v64 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v63 main_v65 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v64 main_v65 main_v66 (subf : (⟨S159x2x160x160, .f32⟩ : BufTy).Contents (Elt F) → (⟨S159x2x160x160, .f32⟩ : BufTy).Contents (Elt F) → (⟨S159x2x160x160, .f32⟩ : BufTy).Contents (Elt F)),
    nullary main_cst_7 (constant S_ .f32 0x3F800000#32),
    unary main_cst_7 main_v67 (broadcastInDim S159x2x160x160 ![] bcast_S_S159x2x160x160 : (⟨S_, .f32⟩ : BufTy).Contents (Elt F) → (⟨S159x2x160x160, .f32⟩ : BufTy).Contents (Elt F)),
    binary main_v66 main_v67 main_v68 (Host.divf : (⟨S159x2x160x160, .f32⟩ : BufTy).Contents (Elt F) → (⟨S159x2x160x160, .f32⟩ : BufTy).Contents (Elt F) → (⟨S159x2x160x160, .f32⟩ : BufTy).Contents (Elt F)),
    unary main_v68 main_v69 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    binary main_v68 main_v69 main_v70 ((fun a b => concatenate S160x2x160x160 0 [⟨S159x2x160x160, a⟩, ⟨S1x2x160x160, b⟩] concatenates_S159x2x160x160_S1x2x160x160_S160x2x160x160_d0) : (⟨S159x2x160x160, .f32⟩ : BufTy).Contents (Elt F) → (⟨S1x2x160x160, .f32⟩ : BufTy).Contents (Elt F) → (⟨S160x2x160x160, .f32⟩ : BufTy).Contents (Elt F)),
    unary main_v70 main_v71 ((transpose S2x160x160x160 [1, 2, 3, 0] · transposes_S160x2x160x160_S2x160x160x160_1_2_3_0) : (⟨S160x2x160x160, .f32⟩ : BufTy).Contents (Elt F) → (⟨S2x160x160x160, .f32⟩ : BufTy).Contents (Elt F)),
    unary main_arg4 main_v72 ((transpose S160x2x160x160 [1, 0, 2, 3] · transposes_S2x160x160x160_S160x2x160x160_1_0_2_3) : (⟨S2x160x160x160, .f32⟩ : BufTy).Contents (Elt F) → (⟨S160x2x160x160, .f32⟩ : BufTy).Contents (Elt F)),
    unary main_v72 main_v73 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v72 main_v74 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v73 main_v74 main_v75 (subf : (⟨S159x2x160x160, .f32⟩ : BufTy).Contents (Elt F) → (⟨S159x2x160x160, .f32⟩ : BufTy).Contents (Elt F) → (⟨S159x2x160x160, .f32⟩ : BufTy).Contents (Elt F)),
    nullary main_cst_8 (constant S_ .f32 0x3F800000#32),
    unary main_cst_8 main_v76 (broadcastInDim S159x2x160x160 ![] bcast_S_S159x2x160x160 : (⟨S_, .f32⟩ : BufTy).Contents (Elt F) → (⟨S159x2x160x160, .f32⟩ : BufTy).Contents (Elt F)),
    binary main_v75 main_v76 main_v77 (Host.divf : (⟨S159x2x160x160, .f32⟩ : BufTy).Contents (Elt F) → (⟨S159x2x160x160, .f32⟩ : BufTy).Contents (Elt F) → (⟨S159x2x160x160, .f32⟩ : BufTy).Contents (Elt F)),
    unary main_v77 main_v78 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v72 main_v79 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v72 main_v80 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v79 main_v80 main_v81 (subf : (⟨S158x2x160x160, .f32⟩ : BufTy).Contents (Elt F) → (⟨S158x2x160x160, .f32⟩ : BufTy).Contents (Elt F) → (⟨S158x2x160x160, .f32⟩ : BufTy).Contents (Elt F)),
    nullary main_cst_9 (constant S_ .f32 0x40000000#32),
    unary main_cst_9 main_v82 (broadcastInDim S158x2x160x160 ![] bcast_S_S158x2x160x160 : (⟨S_, .f32⟩ : BufTy).Contents (Elt F) → (⟨S158x2x160x160, .f32⟩ : BufTy).Contents (Elt F)),
    binary main_v81 main_v82 main_v83 (Host.divf : (⟨S158x2x160x160, .f32⟩ : BufTy).Contents (Elt F) → (⟨S158x2x160x160, .f32⟩ : BufTy).Contents (Elt F) → (⟨S158x2x160x160, .f32⟩ : BufTy).Contents (Elt F)),
    unary main_v77 main_v84 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v78, main_v83, main_v84] main_v85 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v85 main_v86 ((transpose S2x160x160x160 [1, 0, 2, 3] · transposes_S160x2x160x160_S2x160x160x160_1_0_2_3) : (⟨S160x2x160x160, .f32⟩ : BufTy).Contents (Elt F) → (⟨S2x160x160x160, .f32⟩ : BufTy).Contents (Elt F)),
    unary main_arg5 main_v87 ((transpose S160x2x160x160 [2, 0, 1, 3] · transposes_S2x160x160x160_S160x2x160x160_2_0_1_3) : (⟨S2x160x160x160, .f32⟩ : BufTy).Contents (Elt F) → (⟨S160x2x160x160, .f32⟩ : BufTy).Contents (Elt F)),
    unary main_v87 main_v88 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v87 main_v89 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v88 main_v89 main_v90 (subf : (⟨S159x2x160x160, .f32⟩ : BufTy).Contents (Elt F) → (⟨S159x2x160x160, .f32⟩ : BufTy).Contents (Elt F) → (⟨S159x2x160x160, .f32⟩ : BufTy).Contents (Elt F)),
    nullary main_cst_10 (constant S_ .f32 0x3F800000#32),
    unary main_cst_10 main_v91 (broadcastInDim S159x2x160x160 ![] bcast_S_S159x2x160x160 : (⟨S_, .f32⟩ : BufTy).Contents (Elt F) → (⟨S159x2x160x160, .f32⟩ : BufTy).Contents (Elt F)),
    binary main_v90 main_v91 main_v92 (Host.divf : (⟨S159x2x160x160, .f32⟩ : BufTy).Contents (Elt F) → (⟨S159x2x160x160, .f32⟩ : BufTy).Contents (Elt F) → (⟨S159x2x160x160, .f32⟩ : BufTy).Contents (Elt F)),
    unary main_v92 main_v93 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v87 main_v94 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v87 main_v95 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v94 main_v95 main_v96 (subf : (⟨S158x2x160x160, .f32⟩ : BufTy).Contents (Elt F) → (⟨S158x2x160x160, .f32⟩ : BufTy).Contents (Elt F) → (⟨S158x2x160x160, .f32⟩ : BufTy).Contents (Elt F)),
    nullary main_cst_11 (constant S_ .f32 0x40000000#32),
    unary main_cst_11 main_v97 (broadcastInDim S158x2x160x160 ![] bcast_S_S158x2x160x160 : (⟨S_, .f32⟩ : BufTy).Contents (Elt F) → (⟨S158x2x160x160, .f32⟩ : BufTy).Contents (Elt F)),
    binary main_v96 main_v97 main_v98 (Host.divf : (⟨S158x2x160x160, .f32⟩ : BufTy).Contents (Elt F) → (⟨S158x2x160x160, .f32⟩ : BufTy).Contents (Elt F) → (⟨S158x2x160x160, .f32⟩ : BufTy).Contents (Elt F)),
    unary main_v92 main_v99 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v93, main_v98, main_v99] main_v100 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v100 main_v101 ((transpose S2x160x160x160 [1, 2, 0, 3] · transposes_S160x2x160x160_S2x160x160x160_1_2_0_3) : (⟨S160x2x160x160, .f32⟩ : BufTy).Contents (Elt F) → (⟨S2x160x160x160, .f32⟩ : BufTy).Contents (Elt F)),
    binary main_v86 main_v101 main_v102 (addf : (⟨S2x160x160x160, .f32⟩ : BufTy).Contents (Elt F) → (⟨S2x160x160x160, .f32⟩ : BufTy).Contents (Elt F) → (⟨S2x160x160x160, .f32⟩ : BufTy).Contents (Elt F)),
    unary main_arg6 main_v103 ((transpose S160x2x160x160 [3, 0, 1, 2] · transposes_S2x160x160x160_S160x2x160x160_3_0_1_2) : (⟨S2x160x160x160, .f32⟩ : BufTy).Contents (Elt F) → (⟨S160x2x160x160, .f32⟩ : BufTy).Contents (Elt F)),
    unary main_v103 main_v104 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v103 main_v105 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v104 main_v105 main_v106 (subf : (⟨S159x2x160x160, .f32⟩ : BufTy).Contents (Elt F) → (⟨S159x2x160x160, .f32⟩ : BufTy).Contents (Elt F) → (⟨S159x2x160x160, .f32⟩ : BufTy).Contents (Elt F)) ]
set_option maxRecDepth 8192 in
theorem win1_sub : (win1 (F := F)).Forall fun op => op.bufs ⊆ tcRefs τ sig :=
  ⟨unary_bufs_sub .., unary_bufs_sub .., unary_bufs_sub .., unary_bufs_sub .., binary_bufs_sub .., nullary_bufs_sub .., unary_bufs_sub .., binary_bufs_sub .., unary_bufs_sub .., binary_bufs_sub .., unary_bufs_sub .., unary_bufs_sub .., unary_bufs_sub .., unary_bufs_sub .., binary_bufs_sub .., nullary_bufs_sub .., unary_bufs_sub .., binary_bufs_sub .., unary_bufs_sub .., binary_bufs_sub .., unary_bufs_sub .., unary_bufs_sub .., unary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., nary_bufs_sub .., unary_bufs_sub .., unary_bufs_sub .., unary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., nary_bufs_sub .., unary_bufs_sub .., binary_bufs_sub .., unary_bufs_sub .., unary_bufs_sub .., unary_bufs_sub .., binary_bufs_sub ..⟩
set_option maxRecDepth 8192 in
theorem win1_fresh : (win1 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 120 … 179. -/
def win2 : List (HloOp τ sig (Elt F)) :=
  [ nullary main_cst_12 (constant S_ .f32 0x3F800000#32),
    unary main_cst_12 main_v107 (broadcastInDim S159x2x160x160 ![] bcast_S_S159x2x160x160 : (⟨S_, .f32⟩ : BufTy).Contents (Elt F) → (⟨S159x2x160x160, .f32⟩ : BufTy).Contents (Elt F)),
    binary main_v106 main_v107 main_v108 (Host.divf : (⟨S159x2x160x160, .f32⟩ : BufTy).Contents (Elt F) → (⟨S159x2x160x160, .f32⟩ : BufTy).Contents (Elt F) → (⟨S159x2x160x160, .f32⟩ : BufTy).Contents (Elt F)),
    unary main_v108 main_v109 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v103 main_v110 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v103 main_v111 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v110 main_v111 main_v112 (subf : (⟨S158x2x160x160, .f32⟩ : BufTy).Contents (Elt F) → (⟨S158x2x160x160, .f32⟩ : BufTy).Contents (Elt F) → (⟨S158x2x160x160, .f32⟩ : BufTy).Contents (Elt F)),
    nullary main_cst_13 (constant S_ .f32 0x40000000#32),
    unary main_cst_13 main_v113 (broadcastInDim S158x2x160x160 ![] bcast_S_S158x2x160x160 : (⟨S_, .f32⟩ : BufTy).Contents (Elt F) → (⟨S158x2x160x160, .f32⟩ : BufTy).Contents (Elt F)),
    binary main_v112 main_v113 main_v114 (Host.divf : (⟨S158x2x160x160, .f32⟩ : BufTy).Contents (Elt F) → (⟨S158x2x160x160, .f32⟩ : BufTy).Contents (Elt F) → (⟨S158x2x160x160, .f32⟩ : BufTy).Contents (Elt F)),
    unary main_v108 main_v115 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v109, main_v114, main_v115] main_v116 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v116 main_v117 ((transpose S2x160x160x160 [1, 2, 3, 0] · transposes_S160x2x160x160_S2x160x160x160_1_2_3_0) : (⟨S160x2x160x160, .f32⟩ : BufTy).Contents (Elt F) → (⟨S2x160x160x160, .f32⟩ : BufTy).Contents (Elt F)),
    binary main_v102 main_v117 main_v118 (addf : (⟨S2x160x160x160, .f32⟩ : BufTy).Contents (Elt F) → (⟨S2x160x160x160, .f32⟩ : BufTy).Contents (Elt F) → (⟨S2x160x160x160, .f32⟩ : BufTy).Contents (Elt F)),
    binary main_v118 main_v14 main_v119 (mulf : (⟨S2x160x160x160, .f32⟩ : BufTy).Contents (Elt F) → (⟨S2x160x160x160, .f32⟩ : BufTy).Contents (Elt F) → (⟨S2x160x160x160, .f32⟩ : BufTy).Contents (Elt F)),
    unary main_arg5 main_v120 ((transpose S160x2x160x160 [1, 0, 2, 3] · transposes_S2x160x160x160_S160x2x160x160_1_0_2_3) : (⟨S2x160x160x160, .f32⟩ : BufTy).Contents (Elt F) → (⟨S160x2x160x160, .f32⟩ : BufTy).Contents (Elt F)),
    unary main_v120 main_v121 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v120 main_v122 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v121 main_v122 main_v123 (subf : (⟨S159x2x160x160, .f32⟩ : BufTy).Contents (Elt F) → (⟨S159x2x160x160, .f32⟩ : BufTy).Contents (Elt F) → (⟨S159x2x160x160, .f32⟩ : BufTy).Contents (Elt F)),
    nullary main_cst_14 (constant S_ .f32 0x3F800000#32),
    unary main_cst_14 main_v124 (broadcastInDim S159x2x160x160 ![] bcast_S_S159x2x160x160 : (⟨S_, .f32⟩ : BufTy).Contents (Elt F) → (⟨S159x2x160x160, .f32⟩ : BufTy).Contents (Elt F)),
    binary main_v123 main_v124 main_v125 (Host.divf : (⟨S159x2x160x160, .f32⟩ : BufTy).Contents (Elt F) → (⟨S159x2x160x160, .f32⟩ : BufTy).Contents (Elt F) → (⟨S159x2x160x160, .f32⟩ : BufTy).Contents (Elt F)),
    unary main_v125 main_v126 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v120 main_v127 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v120 main_v128 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v127 main_v128 main_v129 (subf : (⟨S158x2x160x160, .f32⟩ : BufTy).Contents (Elt F) → (⟨S158x2x160x160, .f32⟩ : BufTy).Contents (Elt F) → (⟨S158x2x160x160, .f32⟩ : BufTy).Contents (Elt F)),
    nullary main_cst_15 (constant S_ .f32 0x40000000#32),
    unary main_cst_15 main_v130 (broadcastInDim S158x2x160x160 ![] bcast_S_S158x2x160x160 : (⟨S_, .f32⟩ : BufTy).Contents (Elt F) → (⟨S158x2x160x160, .f32⟩ : BufTy).Contents (Elt F)),
    binary main_v129 main_v130 main_v131 (Host.divf : (⟨S158x2x160x160, .f32⟩ : BufTy).Contents (Elt F) → (⟨S158x2x160x160, .f32⟩ : BufTy).Contents (Elt F) → (⟨S158x2x160x160, .f32⟩ : BufTy).Contents (Elt F)),
    unary main_v125 main_v132 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v126, main_v131, main_v132] main_v133 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v133 main_v134 ((transpose S2x160x160x160 [1, 0, 2, 3] · transposes_S160x2x160x160_S2x160x160x160_1_0_2_3) : (⟨S160x2x160x160, .f32⟩ : BufTy).Contents (Elt F) → (⟨S2x160x160x160, .f32⟩ : BufTy).Contents (Elt F)),
    unary main_arg7 main_v135 ((transpose S160x2x160x160 [2, 0, 1, 3] · transposes_S2x160x160x160_S160x2x160x160_2_0_1_3) : (⟨S2x160x160x160, .f32⟩ : BufTy).Contents (Elt F) → (⟨S160x2x160x160, .f32⟩ : BufTy).Contents (Elt F)),
    unary main_v135 main_v136 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v135 main_v137 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v136 main_v137 main_v138 (subf : (⟨S159x2x160x160, .f32⟩ : BufTy).Contents (Elt F) → (⟨S159x2x160x160, .f32⟩ : BufTy).Contents (Elt F) → (⟨S159x2x160x160, .f32⟩ : BufTy).Contents (Elt F)),
    nullary main_cst_16 (constant S_ .f32 0x3F800000#32),
    unary main_cst_16 main_v139 (broadcastInDim S159x2x160x160 ![] bcast_S_S159x2x160x160 : (⟨S_, .f32⟩ : BufTy).Contents (Elt F) → (⟨S159x2x160x160, .f32⟩ : BufTy).Contents (Elt F)),
    binary main_v138 main_v139 main_v140 (Host.divf : (⟨S159x2x160x160, .f32⟩ : BufTy).Contents (Elt F) → (⟨S159x2x160x160, .f32⟩ : BufTy).Contents (Elt F) → (⟨S159x2x160x160, .f32⟩ : BufTy).Contents (Elt F)),
    unary main_v140 main_v141 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v135 main_v142 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v135 main_v143 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v142 main_v143 main_v144 (subf : (⟨S158x2x160x160, .f32⟩ : BufTy).Contents (Elt F) → (⟨S158x2x160x160, .f32⟩ : BufTy).Contents (Elt F) → (⟨S158x2x160x160, .f32⟩ : BufTy).Contents (Elt F)),
    nullary main_cst_17 (constant S_ .f32 0x40000000#32),
    unary main_cst_17 main_v145 (broadcastInDim S158x2x160x160 ![] bcast_S_S158x2x160x160 : (⟨S_, .f32⟩ : BufTy).Contents (Elt F) → (⟨S158x2x160x160, .f32⟩ : BufTy).Contents (Elt F)),
    binary main_v144 main_v145 main_v146 (Host.divf : (⟨S158x2x160x160, .f32⟩ : BufTy).Contents (Elt F) → (⟨S158x2x160x160, .f32⟩ : BufTy).Contents (Elt F) → (⟨S158x2x160x160, .f32⟩ : BufTy).Contents (Elt F)),
    unary main_v140 main_v147 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v141, main_v146, main_v147] main_v148 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v148 main_v149 ((transpose S2x160x160x160 [1, 2, 0, 3] · transposes_S160x2x160x160_S2x160x160x160_1_2_0_3) : (⟨S160x2x160x160, .f32⟩ : BufTy).Contents (Elt F) → (⟨S2x160x160x160, .f32⟩ : BufTy).Contents (Elt F)),
    binary main_v134 main_v149 main_v150 (addf : (⟨S2x160x160x160, .f32⟩ : BufTy).Contents (Elt F) → (⟨S2x160x160x160, .f32⟩ : BufTy).Contents (Elt F) → (⟨S2x160x160x160, .f32⟩ : BufTy).Contents (Elt F)),
    unary main_arg8 main_v151 ((transpose S160x2x160x160 [3, 0, 1, 2] · transposes_S2x160x160x160_S160x2x160x160_3_0_1_2) : (⟨S2x160x160x160, .f32⟩ : BufTy).Contents (Elt F) → (⟨S160x2x160x160, .f32⟩ : BufTy).Contents (Elt F)),
    unary main_v151 main_v152 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v151 main_v153 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v152 main_v153 main_v154 (subf : (⟨S159x2x160x160, .f32⟩ : BufTy).Contents (Elt F) → (⟨S159x2x160x160, .f32⟩ : BufTy).Contents (Elt F) → (⟨S159x2x160x160, .f32⟩ : BufTy).Contents (Elt F)),
    nullary main_cst_18 (constant S_ .f32 0x3F800000#32),
    unary main_cst_18 main_v155 (broadcastInDim S159x2x160x160 ![] bcast_S_S159x2x160x160 : (⟨S_, .f32⟩ : BufTy).Contents (Elt F) → (⟨S159x2x160x160, .f32⟩ : BufTy).Contents (Elt F)),
    binary main_v154 main_v155 main_v156 (Host.divf : (⟨S159x2x160x160, .f32⟩ : BufTy).Contents (Elt F) → (⟨S159x2x160x160, .f32⟩ : BufTy).Contents (Elt F) → (⟨S159x2x160x160, .f32⟩ : BufTy).Contents (Elt F)),
    unary main_v156 main_v157 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v151 main_v158 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v151 main_v159 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)) ]
set_option maxRecDepth 8192 in
theorem win2_sub : (win2 (F := F)).Forall fun op => op.bufs ⊆ tcRefs τ sig :=
  ⟨nullary_bufs_sub .., unary_bufs_sub .., binary_bufs_sub .., unary_bufs_sub .., unary_bufs_sub .., unary_bufs_sub .., binary_bufs_sub .., nullary_bufs_sub .., unary_bufs_sub .., binary_bufs_sub .., unary_bufs_sub .., nary_bufs_sub .., unary_bufs_sub .., binary_bufs_sub .., binary_bufs_sub .., unary_bufs_sub .., unary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., nary_bufs_sub .., unary_bufs_sub .., unary_bufs_sub .., unary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., nary_bufs_sub .., unary_bufs_sub .., binary_bufs_sub .., unary_bufs_sub .., unary_bufs_sub .., unary_bufs_sub .., binary_bufs_sub .., nullary_bufs_sub .., unary_bufs_sub .., binary_bufs_sub .., unary_bufs_sub .., unary_bufs_sub .., unary_bufs_sub ..⟩
set_option maxRecDepth 8192 in
theorem win2_fresh : (win2 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 180 … 239. -/
def win3 : List (HloOp τ sig (Elt F)) :=
  [ binary main_v158 main_v159 main_v160 (subf : (⟨S158x2x160x160, .f32⟩ : BufTy).Contents (Elt F) → (⟨S158x2x160x160, .f32⟩ : BufTy).Contents (Elt F) → (⟨S158x2x160x160, .f32⟩ : BufTy).Contents (Elt F)),
    nullary main_cst_19 (constant S_ .f32 0x40000000#32),
    unary main_cst_19 main_v161 (broadcastInDim S158x2x160x160 ![] bcast_S_S158x2x160x160 : (⟨S_, .f32⟩ : BufTy).Contents (Elt F) → (⟨S158x2x160x160, .f32⟩ : BufTy).Contents (Elt F)),
    binary main_v160 main_v161 main_v162 (Host.divf : (⟨S158x2x160x160, .f32⟩ : BufTy).Contents (Elt F) → (⟨S158x2x160x160, .f32⟩ : BufTy).Contents (Elt F) → (⟨S158x2x160x160, .f32⟩ : BufTy).Contents (Elt F)),
    unary main_v156 main_v163 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v157, main_v162, main_v163] main_v164 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v164 main_v165 ((transpose S2x160x160x160 [1, 2, 3, 0] · transposes_S160x2x160x160_S2x160x160x160_1_2_3_0) : (⟨S160x2x160x160, .f32⟩ : BufTy).Contents (Elt F) → (⟨S2x160x160x160, .f32⟩ : BufTy).Contents (Elt F)),
    binary main_v150 main_v165 main_v166 (addf : (⟨S2x160x160x160, .f32⟩ : BufTy).Contents (Elt F) → (⟨S2x160x160x160, .f32⟩ : BufTy).Contents (Elt F) → (⟨S2x160x160x160, .f32⟩ : BufTy).Contents (Elt F)),
    binary main_v166 main_v29 main_v167 (mulf : (⟨S2x160x160x160, .f32⟩ : BufTy).Contents (Elt F) → (⟨S2x160x160x160, .f32⟩ : BufTy).Contents (Elt F) → (⟨S2x160x160x160, .f32⟩ : BufTy).Contents (Elt F)),
    binary main_v119 main_v167 main_v168 (addf : (⟨S2x160x160x160, .f32⟩ : BufTy).Contents (Elt F) → (⟨S2x160x160x160, .f32⟩ : BufTy).Contents (Elt F) → (⟨S2x160x160x160, .f32⟩ : BufTy).Contents (Elt F)),
    unary main_arg6 main_v169 ((transpose S160x2x160x160 [1, 0, 2, 3] · transposes_S2x160x160x160_S160x2x160x160_1_0_2_3) : (⟨S2x160x160x160, .f32⟩ : BufTy).Contents (Elt F) → (⟨S160x2x160x160, .f32⟩ : BufTy).Contents (Elt F)),
    unary main_v169 main_v170 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v169 main_v171 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v170 main_v171 main_v172 (subf : (⟨S159x2x160x160, .f32⟩ : BufTy).Contents (Elt F) → (⟨S159x2x160x160, .f32⟩ : BufTy).Contents (Elt F) → (⟨S159x2x160x160, .f32⟩ : BufTy).Contents (Elt F)),
    nullary main_cst_20 (constant S_ .f32 0x3F800000#32),
    unary main_cst_20 main_v173 (broadcastInDim S159x2x160x160 ![] bcast_S_S159x2x160x160 : (⟨S_, .f32⟩ : BufTy).Contents (Elt F) → (⟨S159x2x160x160, .f32⟩ : BufTy).Contents (Elt F)),
    binary main_v172 main_v173 main_v174 (Host.divf : (⟨S159x2x160x160, .f32⟩ : BufTy).Contents (Elt F) → (⟨S159x2x160x160, .f32⟩ : BufTy).Contents (Elt F) → (⟨S159x2x160x160, .f32⟩ : BufTy).Contents (Elt F)),
    unary main_v174 main_v175 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v169 main_v176 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v169 main_v177 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v176 main_v177 main_v178 (subf : (⟨S158x2x160x160, .f32⟩ : BufTy).Contents (Elt F) → (⟨S158x2x160x160, .f32⟩ : BufTy).Contents (Elt F) → (⟨S158x2x160x160, .f32⟩ : BufTy).Contents (Elt F)),
    nullary main_cst_21 (constant S_ .f32 0x40000000#32),
    unary main_cst_21 main_v179 (broadcastInDim S158x2x160x160 ![] bcast_S_S158x2x160x160 : (⟨S_, .f32⟩ : BufTy).Contents (Elt F) → (⟨S158x2x160x160, .f32⟩ : BufTy).Contents (Elt F)),
    binary main_v178 main_v179 main_v180 (Host.divf : (⟨S158x2x160x160, .f32⟩ : BufTy).Contents (Elt F) → (⟨S158x2x160x160, .f32⟩ : BufTy).Contents (Elt F) → (⟨S158x2x160x160, .f32⟩ : BufTy).Contents (Elt F)),
    unary main_v174 main_v181 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v175, main_v180, main_v181] main_v182 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v182 main_v183 ((transpose S2x160x160x160 [1, 0, 2, 3] · transposes_S160x2x160x160_S2x160x160x160_1_0_2_3) : (⟨S160x2x160x160, .f32⟩ : BufTy).Contents (Elt F) → (⟨S2x160x160x160, .f32⟩ : BufTy).Contents (Elt F)),
    unary main_arg8 main_v184 ((transpose S160x2x160x160 [2, 0, 1, 3] · transposes_S2x160x160x160_S160x2x160x160_2_0_1_3) : (⟨S2x160x160x160, .f32⟩ : BufTy).Contents (Elt F) → (⟨S160x2x160x160, .f32⟩ : BufTy).Contents (Elt F)),
    unary main_v184 main_v185 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v184 main_v186 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v185 main_v186 main_v187 (subf : (⟨S159x2x160x160, .f32⟩ : BufTy).Contents (Elt F) → (⟨S159x2x160x160, .f32⟩ : BufTy).Contents (Elt F) → (⟨S159x2x160x160, .f32⟩ : BufTy).Contents (Elt F)),
    nullary main_cst_22 (constant S_ .f32 0x3F800000#32),
    unary main_cst_22 main_v188 (broadcastInDim S159x2x160x160 ![] bcast_S_S159x2x160x160 : (⟨S_, .f32⟩ : BufTy).Contents (Elt F) → (⟨S159x2x160x160, .f32⟩ : BufTy).Contents (Elt F)),
    binary main_v187 main_v188 main_v189 (Host.divf : (⟨S159x2x160x160, .f32⟩ : BufTy).Contents (Elt F) → (⟨S159x2x160x160, .f32⟩ : BufTy).Contents (Elt F) → (⟨S159x2x160x160, .f32⟩ : BufTy).Contents (Elt F)),
    unary main_v189 main_v190 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v184 main_v191 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v184 main_v192 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v191 main_v192 main_v193 (subf : (⟨S158x2x160x160, .f32⟩ : BufTy).Contents (Elt F) → (⟨S158x2x160x160, .f32⟩ : BufTy).Contents (Elt F) → (⟨S158x2x160x160, .f32⟩ : BufTy).Contents (Elt F)),
    nullary main_cst_23 (constant S_ .f32 0x40000000#32),
    unary main_cst_23 main_v194 (broadcastInDim S158x2x160x160 ![] bcast_S_S158x2x160x160 : (⟨S_, .f32⟩ : BufTy).Contents (Elt F) → (⟨S158x2x160x160, .f32⟩ : BufTy).Contents (Elt F)),
    binary main_v193 main_v194 main_v195 (Host.divf : (⟨S158x2x160x160, .f32⟩ : BufTy).Contents (Elt F) → (⟨S158x2x160x160, .f32⟩ : BufTy).Contents (Elt F) → (⟨S158x2x160x160, .f32⟩ : BufTy).Contents (Elt F)),
    unary main_v189 main_v196 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v190, main_v195, main_v196] main_v197 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v197 main_v198 ((transpose S2x160x160x160 [1, 2, 0, 3] · transposes_S160x2x160x160_S2x160x160x160_1_2_0_3) : (⟨S160x2x160x160, .f32⟩ : BufTy).Contents (Elt F) → (⟨S2x160x160x160, .f32⟩ : BufTy).Contents (Elt F)),
    binary main_v183 main_v198 main_v199 (addf : (⟨S2x160x160x160, .f32⟩ : BufTy).Contents (Elt F) → (⟨S2x160x160x160, .f32⟩ : BufTy).Contents (Elt F) → (⟨S2x160x160x160, .f32⟩ : BufTy).Contents (Elt F)),
    unary main_arg9 main_v200 ((transpose S160x2x160x160 [3, 0, 1, 2] · transposes_S2x160x160x160_S160x2x160x160_3_0_1_2) : (⟨S2x160x160x160, .f32⟩ : BufTy).Contents (Elt F) → (⟨S160x2x160x160, .f32⟩ : BufTy).Contents (Elt F)),
    unary main_v200 main_v201 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v200 main_v202 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v201 main_v202 main_v203 (subf : (⟨S159x2x160x160, .f32⟩ : BufTy).Contents (Elt F) → (⟨S159x2x160x160, .f32⟩ : BufTy).Contents (Elt F) → (⟨S159x2x160x160, .f32⟩ : BufTy).Contents (Elt F)),
    nullary main_cst_24 (constant S_ .f32 0x3F800000#32),
    unary main_cst_24 main_v204 (broadcastInDim S159x2x160x160 ![] bcast_S_S159x2x160x160 : (⟨S_, .f32⟩ : BufTy).Contents (Elt F) → (⟨S159x2x160x160, .f32⟩ : BufTy).Contents (Elt F)),
    binary main_v203 main_v204 main_v205 (Host.divf : (⟨S159x2x160x160, .f32⟩ : BufTy).Contents (Elt F) → (⟨S159x2x160x160, .f32⟩ : BufTy).Contents (Elt F) → (⟨S159x2x160x160, .f32⟩ : BufTy).Contents (Elt F)),
    unary main_v205 main_v206 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v200 main_v207 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v200 main_v208 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v207 main_v208 main_v209 (subf : (⟨S158x2x160x160, .f32⟩ : BufTy).Contents (Elt F) → (⟨S158x2x160x160, .f32⟩ : BufTy).Contents (Elt F) → (⟨S158x2x160x160, .f32⟩ : BufTy).Contents (Elt F)),
    nullary main_cst_25 (constant S_ .f32 0x40000000#32),
    unary main_cst_25 main_v210 (broadcastInDim S158x2x160x160 ![] bcast_S_S158x2x160x160 : (⟨S_, .f32⟩ : BufTy).Contents (Elt F) → (⟨S158x2x160x160, .f32⟩ : BufTy).Contents (Elt F)),
    binary main_v209 main_v210 main_v211 (Host.divf : (⟨S158x2x160x160, .f32⟩ : BufTy).Contents (Elt F) → (⟨S158x2x160x160, .f32⟩ : BufTy).Contents (Elt F) → (⟨S158x2x160x160, .f32⟩ : BufTy).Contents (Elt F)),
    unary main_v205 main_v212 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)) ]
set_option maxRecDepth 8192 in
theorem win3_sub : (win3 (F := F)).Forall fun op => op.bufs ⊆ tcRefs τ sig :=
  ⟨binary_bufs_sub .., nullary_bufs_sub .., unary_bufs_sub .., binary_bufs_sub .., unary_bufs_sub .., nary_bufs_sub .., unary_bufs_sub .., binary_bufs_sub .., binary_bufs_sub .., binary_bufs_sub .., unary_bufs_sub .., unary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., nary_bufs_sub .., unary_bufs_sub .., unary_bufs_sub .., unary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., nary_bufs_sub .., unary_bufs_sub .., binary_bufs_sub .., unary_bufs_sub .., unary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub ..⟩
set_option maxRecDepth 8192 in
theorem win3_fresh : (win3 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 240 … 299. -/
def win4 : List (HloOp τ sig (Elt F)) :=
  [ nary ![main_v206, main_v211, main_v212] main_v213 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v213 main_v214 ((transpose S2x160x160x160 [1, 2, 3, 0] · transposes_S160x2x160x160_S2x160x160x160_1_2_3_0) : (⟨S160x2x160x160, .f32⟩ : BufTy).Contents (Elt F) → (⟨S2x160x160x160, .f32⟩ : BufTy).Contents (Elt F)),
    binary main_v199 main_v214 main_v215 (addf : (⟨S2x160x160x160, .f32⟩ : BufTy).Contents (Elt F) → (⟨S2x160x160x160, .f32⟩ : BufTy).Contents (Elt F) → (⟨S2x160x160x160, .f32⟩ : BufTy).Contents (Elt F)),
    binary main_v215 main_v44 main_v216 (mulf : (⟨S2x160x160x160, .f32⟩ : BufTy).Contents (Elt F) → (⟨S2x160x160x160, .f32⟩ : BufTy).Contents (Elt F) → (⟨S2x160x160x160, .f32⟩ : BufTy).Contents (Elt F)),
    binary main_v168 main_v216 main_v217 (addf : (⟨S2x160x160x160, .f32⟩ : BufTy).Contents (Elt F) → (⟨S2x160x160x160, .f32⟩ : BufTy).Contents (Elt F) → (⟨S2x160x160x160, .f32⟩ : BufTy).Contents (Elt F)),
    unary main_v53 main_v218 ((transpose S160x2x160x160 [1, 0, 2, 3] · transposes_S2x160x160x160_S160x2x160x160_1_0_2_3) : (⟨S2x160x160x160, .f32⟩ : BufTy).Contents (Elt F) → (⟨S160x2x160x160, .f32⟩ : BufTy).Contents (Elt F)),
    unary main_v218 main_v219 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v218 main_v220 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v219 main_v220 main_v221 (subf : (⟨S159x2x160x160, .f32⟩ : BufTy).Contents (Elt F) → (⟨S159x2x160x160, .f32⟩ : BufTy).Contents (Elt F) → (⟨S159x2x160x160, .f32⟩ : BufTy).Contents (Elt F)),
    nullary main_cst_26 (constant S_ .f32 0x3F800000#32),
    unary main_cst_26 main_v222 (broadcastInDim S159x2x160x160 ![] bcast_S_S159x2x160x160 : (⟨S_, .f32⟩ : BufTy).Contents (Elt F) → (⟨S159x2x160x160, .f32⟩ : BufTy).Contents (Elt F)),
    binary main_v221 main_v222 main_v223 (Host.divf : (⟨S159x2x160x160, .f32⟩ : BufTy).Contents (Elt F) → (⟨S159x2x160x160, .f32⟩ : BufTy).Contents (Elt F) → (⟨S159x2x160x160, .f32⟩ : BufTy).Contents (Elt F)),
    unary main_v223 main_v224 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v224 main_v223 main_v225 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v225 main_v226 ((transpose S2x160x160x160 [1, 0, 2, 3] · transposes_S160x2x160x160_S2x160x160x160_1_0_2_3) : (⟨S160x2x160x160, .f32⟩ : BufTy).Contents (Elt F) → (⟨S2x160x160x160, .f32⟩ : BufTy).Contents (Elt F)),
    binary main_arg4 main_v226 main_v227 (mulf : (⟨S2x160x160x160, .f32⟩ : BufTy).Contents (Elt F) → (⟨S2x160x160x160, .f32⟩ : BufTy).Contents (Elt F) → (⟨S2x160x160x160, .f32⟩ : BufTy).Contents (Elt F)),
    binary main_v217 main_v227 main_v228 (addf : (⟨S2x160x160x160, .f32⟩ : BufTy).Contents (Elt F) → (⟨S2x160x160x160, .f32⟩ : BufTy).Contents (Elt F) → (⟨S2x160x160x160, .f32⟩ : BufTy).Contents (Elt F)),
    unary main_v62 main_v229 ((transpose S160x2x160x160 [2, 0, 1, 3] · transposes_S2x160x160x160_S160x2x160x160_2_0_1_3) : (⟨S2x160x160x160, .f32⟩ : BufTy).Contents (Elt F) → (⟨S160x2x160x160, .f32⟩ : BufTy).Contents (Elt F)),
    unary main_v229 main_v230 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v229 main_v231 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v230 main_v231 main_v232 (subf : (⟨S159x2x160x160, .f32⟩ : BufTy).Contents (Elt F) → (⟨S159x2x160x160, .f32⟩ : BufTy).Contents (Elt F) → (⟨S159x2x160x160, .f32⟩ : BufTy).Contents (Elt F)),
    nullary main_cst_27 (constant S_ .f32 0x3F800000#32),
    unary main_cst_27 main_v233 (broadcastInDim S159x2x160x160 ![] bcast_S_S159x2x160x160 : (⟨S_, .f32⟩ : BufTy).Contents (Elt F) → (⟨S159x2x160x160, .f32⟩ : BufTy).Contents (Elt F)),
    binary main_v232 main_v233 main_v234 (Host.divf : (⟨S159x2x160x160, .f32⟩ : BufTy).Contents (Elt F) → (⟨S159x2x160x160, .f32⟩ : BufTy).Contents (Elt F) → (⟨S159x2x160x160, .f32⟩ : BufTy).Contents (Elt F)),
    unary main_v234 main_v235 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v235 main_v234 main_v236 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v236 main_v237 ((transpose S2x160x160x160 [1, 2, 0, 3] · transposes_S160x2x160x160_S2x160x160x160_1_2_0_3) : (⟨S160x2x160x160, .f32⟩ : BufTy).Contents (Elt F) → (⟨S2x160x160x160, .f32⟩ : BufTy).Contents (Elt F)),
    binary main_arg7 main_v237 main_v238 (mulf : (⟨S2x160x160x160, .f32⟩ : BufTy).Contents (Elt F) → (⟨S2x160x160x160, .f32⟩ : BufTy).Contents (Elt F) → (⟨S2x160x160x160, .f32⟩ : BufTy).Contents (Elt F)),
    binary main_v228 main_v238 main_v239 (addf : (⟨S2x160x160x160, .f32⟩ : BufTy).Contents (Elt F) → (⟨S2x160x160x160, .f32⟩ : BufTy).Contents (Elt F) → (⟨S2x160x160x160, .f32⟩ : BufTy).Contents (Elt F)),
    unary main_v71 main_v240 ((transpose S160x2x160x160 [3, 0, 1, 2] · transposes_S2x160x160x160_S160x2x160x160_3_0_1_2) : (⟨S2x160x160x160, .f32⟩ : BufTy).Contents (Elt F) → (⟨S160x2x160x160, .f32⟩ : BufTy).Contents (Elt F)),
    unary main_v240 main_v241 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v240 main_v242 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v241 main_v242 main_v243 (subf : (⟨S159x2x160x160, .f32⟩ : BufTy).Contents (Elt F) → (⟨S159x2x160x160, .f32⟩ : BufTy).Contents (Elt F) → (⟨S159x2x160x160, .f32⟩ : BufTy).Contents (Elt F)),
    nullary main_cst_28 (constant S_ .f32 0x3F800000#32),
    unary main_cst_28 main_v244 (broadcastInDim S159x2x160x160 ![] bcast_S_S159x2x160x160 : (⟨S_, .f32⟩ : BufTy).Contents (Elt F) → (⟨S159x2x160x160, .f32⟩ : BufTy).Contents (Elt F)),
    binary main_v243 main_v244 main_v245 (Host.divf : (⟨S159x2x160x160, .f32⟩ : BufTy).Contents (Elt F) → (⟨S159x2x160x160, .f32⟩ : BufTy).Contents (Elt F) → (⟨S159x2x160x160, .f32⟩ : BufTy).Contents (Elt F)),
    unary main_v245 main_v246 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v246 main_v245 main_v247 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v247 main_v248 ((transpose S2x160x160x160 [1, 2, 3, 0] · transposes_S160x2x160x160_S2x160x160x160_1_2_3_0) : (⟨S160x2x160x160, .f32⟩ : BufTy).Contents (Elt F) → (⟨S2x160x160x160, .f32⟩ : BufTy).Contents (Elt F)),
    binary main_arg9 main_v248 main_v249 (mulf : (⟨S2x160x160x160, .f32⟩ : BufTy).Contents (Elt F) → (⟨S2x160x160x160, .f32⟩ : BufTy).Contents (Elt F) → (⟨S2x160x160x160, .f32⟩ : BufTy).Contents (Elt F)),
    binary main_v239 main_v249 main_v250 (addf : (⟨S2x160x160x160, .f32⟩ : BufTy).Contents (Elt F) → (⟨S2x160x160x160, .f32⟩ : BufTy).Contents (Elt F) → (⟨S2x160x160x160, .f32⟩ : BufTy).Contents (Elt F)),
    unary main_v62 main_v251 ((transpose S160x2x160x160 [1, 0, 2, 3] · transposes_S2x160x160x160_S160x2x160x160_1_0_2_3) : (⟨S2x160x160x160, .f32⟩ : BufTy).Contents (Elt F) → (⟨S160x2x160x160, .f32⟩ : BufTy).Contents (Elt F)),
    unary main_v251 main_v252 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v251 main_v253 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v252 main_v253 main_v254 (subf : (⟨S159x2x160x160, .f32⟩ : BufTy).Contents (Elt F) → (⟨S159x2x160x160, .f32⟩ : BufTy).Contents (Elt F) → (⟨S159x2x160x160, .f32⟩ : BufTy).Contents (Elt F)),
    nullary main_cst_29 (constant S_ .f32 0x3F800000#32),
    unary main_cst_29 main_v255 (broadcastInDim S159x2x160x160 ![] bcast_S_S159x2x160x160 : (⟨S_, .f32⟩ : BufTy).Contents (Elt F) → (⟨S159x2x160x160, .f32⟩ : BufTy).Contents (Elt F)),
    binary main_v254 main_v255 main_v256 (Host.divf : (⟨S159x2x160x160, .f32⟩ : BufTy).Contents (Elt F) → (⟨S159x2x160x160, .f32⟩ : BufTy).Contents (Elt F) → (⟨S159x2x160x160, .f32⟩ : BufTy).Contents (Elt F)),
    unary main_v256 main_v257 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v257 main_v256 main_v258 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v258 main_v259 ((transpose S2x160x160x160 [1, 0, 2, 3] · transposes_S160x2x160x160_S2x160x160x160_1_0_2_3) : (⟨S160x2x160x160, .f32⟩ : BufTy).Contents (Elt F) → (⟨S2x160x160x160, .f32⟩ : BufTy).Contents (Elt F)),
    unary main_v53 main_v260 ((transpose S160x2x160x160 [2, 0, 1, 3] · transposes_S2x160x160x160_S160x2x160x160_2_0_1_3) : (⟨S2x160x160x160, .f32⟩ : BufTy).Contents (Elt F) → (⟨S160x2x160x160, .f32⟩ : BufTy).Contents (Elt F)),
    unary main_v260 main_v261 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v260 main_v262 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v261 main_v262 main_v263 (subf : (⟨S159x2x160x160, .f32⟩ : BufTy).Contents (Elt F) → (⟨S159x2x160x160, .f32⟩ : BufTy).Contents (Elt F) → (⟨S159x2x160x160, .f32⟩ : BufTy).Contents (Elt F)),
    nullary main_cst_30 (constant S_ .f32 0x3F800000#32),
    unary main_cst_30 main_v264 (broadcastInDim S159x2x160x160 ![] bcast_S_S159x2x160x160 : (⟨S_, .f32⟩ : BufTy).Contents (Elt F) → (⟨S159x2x160x160, .f32⟩ : BufTy).Contents (Elt F)),
    binary main_v263 main_v264 main_v265 (Host.divf : (⟨S159x2x160x160, .f32⟩ : BufTy).Contents (Elt F) → (⟨S159x2x160x160, .f32⟩ : BufTy).Contents (Elt F) → (⟨S159x2x160x160, .f32⟩ : BufTy).Contents (Elt F)),
    unary main_v265 main_v266 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v266 main_v265 main_v267 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)) ]
set_option maxRecDepth 8192 in
theorem win4_sub : (win4 (F := F)).Forall fun op => op.bufs ⊆ tcRefs τ sig :=
  ⟨nary_bufs_sub .., unary_bufs_sub .., binary_bufs_sub .., binary_bufs_sub .., binary_bufs_sub .., unary_bufs_sub .., unary_bufs_sub .., unary_bufs_sub .., binary_bufs_sub .., nullary_bufs_sub .., unary_bufs_sub .., binary_bufs_sub .., unary_bufs_sub .., binary_bufs_sub .., unary_bufs_sub .., binary_bufs_sub .., binary_bufs_sub .., unary_bufs_sub .., unary_bufs_sub .., unary_bufs_sub .., binary_bufs_sub .., nullary_bufs_sub .., unary_bufs_sub .., binary_bufs_sub .., unary_bufs_sub .., binary_bufs_sub .., unary_bufs_sub .., binary_bufs_sub .., binary_bufs_sub .., unary_bufs_sub .., unary_bufs_sub .., unary_bufs_sub .., binary_bufs_sub .., nullary_bufs_sub .., unary_bufs_sub .., binary_bufs_sub .., unary_bufs_sub .., binary_bufs_sub .., unary_bufs_sub .., binary_bufs_sub .., binary_bufs_sub .., unary_bufs_sub .., unary_bufs_sub .., unary_bufs_sub .., binary_bufs_sub .., nullary_bufs_sub .., unary_bufs_sub .., binary_bufs_sub .., unary_bufs_sub .., binary_bufs_sub .., unary_bufs_sub .., unary_bufs_sub .., unary_bufs_sub .., unary_bufs_sub .., binary_bufs_sub .., nullary_bufs_sub .., unary_bufs_sub .., binary_bufs_sub .., unary_bufs_sub .., binary_bufs_sub ..⟩
set_option maxRecDepth 8192 in
theorem win4_fresh : (win4 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 300 … 359. -/
def win5 : List (HloOp τ sig (Elt F)) :=
  [ unary main_v267 main_v268 ((transpose S2x160x160x160 [1, 2, 0, 3] · transposes_S160x2x160x160_S2x160x160x160_1_2_0_3) : (⟨S160x2x160x160, .f32⟩ : BufTy).Contents (Elt F) → (⟨S2x160x160x160, .f32⟩ : BufTy).Contents (Elt F)),
    binary main_v259 main_v268 main_v269 (addf : (⟨S2x160x160x160, .f32⟩ : BufTy).Contents (Elt F) → (⟨S2x160x160x160, .f32⟩ : BufTy).Contents (Elt F) → (⟨S2x160x160x160, .f32⟩ : BufTy).Contents (Elt F)),
    binary main_arg5 main_v269 main_v270 (mulf : (⟨S2x160x160x160, .f32⟩ : BufTy).Contents (Elt F) → (⟨S2x160x160x160, .f32⟩ : BufTy).Contents (Elt F) → (⟨S2x160x160x160, .f32⟩ : BufTy).Contents (Elt F)),
    binary main_v250 main_v270 main_v271 (addf : (⟨S2x160x160x160, .f32⟩ : BufTy).Contents (Elt F) → (⟨S2x160x160x160, .f32⟩ : BufTy).Contents (Elt F) → (⟨S2x160x160x160, .f32⟩ : BufTy).Contents (Elt F)),
    unary main_v71 main_v272 ((transpose S160x2x160x160 [2, 0, 1, 3] · transposes_S2x160x160x160_S160x2x160x160_2_0_1_3) : (⟨S2x160x160x160, .f32⟩ : BufTy).Contents (Elt F) → (⟨S160x2x160x160, .f32⟩ : BufTy).Contents (Elt F)),
    unary main_v272 main_v273 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v272 main_v274 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v273 main_v274 main_v275 (subf : (⟨S159x2x160x160, .f32⟩ : BufTy).Contents (Elt F) → (⟨S159x2x160x160, .f32⟩ : BufTy).Contents (Elt F) → (⟨S159x2x160x160, .f32⟩ : BufTy).Contents (Elt F)),
    nullary main_cst_31 (constant S_ .f32 0x3F800000#32),
    unary main_cst_31 main_v276 (broadcastInDim S159x2x160x160 ![] bcast_S_S159x2x160x160 : (⟨S_, .f32⟩ : BufTy).Contents (Elt F) → (⟨S159x2x160x160, .f32⟩ : BufTy).Contents (Elt F)),
    binary main_v275 main_v276 main_v277 (Host.divf : (⟨S159x2x160x160, .f32⟩ : BufTy).Contents (Elt F) → (⟨S159x2x160x160, .f32⟩ : BufTy).Contents (Elt F) → (⟨S159x2x160x160, .f32⟩ : BufTy).Contents (Elt F)),
    unary main_v277 main_v278 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v278 main_v277 main_v279 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v279 main_v280 ((transpose S2x160x160x160 [1, 2, 0, 3] · transposes_S160x2x160x160_S2x160x160x160_1_2_0_3) : (⟨S160x2x160x160, .f32⟩ : BufTy).Contents (Elt F) → (⟨S2x160x160x160, .f32⟩ : BufTy).Contents (Elt F)),
    unary main_v62 main_v281 ((transpose S160x2x160x160 [3, 0, 1, 2] · transposes_S2x160x160x160_S160x2x160x160_3_0_1_2) : (⟨S2x160x160x160, .f32⟩ : BufTy).Contents (Elt F) → (⟨S160x2x160x160, .f32⟩ : BufTy).Contents (Elt F)),
    unary main_v281 main_v282 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v281 main_v283 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v282 main_v283 main_v284 (subf : (⟨S159x2x160x160, .f32⟩ : BufTy).Contents (Elt F) → (⟨S159x2x160x160, .f32⟩ : BufTy).Contents (Elt F) → (⟨S159x2x160x160, .f32⟩ : BufTy).Contents (Elt F)),
    nullary main_cst_32 (constant S_ .f32 0x3F800000#32),
    unary main_cst_32 main_v285 (broadcastInDim S159x2x160x160 ![] bcast_S_S159x2x160x160 : (⟨S_, .f32⟩ : BufTy).Contents (Elt F) → (⟨S159x2x160x160, .f32⟩ : BufTy).Contents (Elt F)),
    binary main_v284 main_v285 main_v286 (Host.divf : (⟨S159x2x160x160, .f32⟩ : BufTy).Contents (Elt F) → (⟨S159x2x160x160, .f32⟩ : BufTy).Contents (Elt F) → (⟨S159x2x160x160, .f32⟩ : BufTy).Contents (Elt F)),
    unary main_v286 main_v287 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v287 main_v286 main_v288 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v288 main_v289 ((transpose S2x160x160x160 [1, 2, 3, 0] · transposes_S160x2x160x160_S2x160x160x160_1_2_3_0) : (⟨S160x2x160x160, .f32⟩ : BufTy).Contents (Elt F) → (⟨S2x160x160x160, .f32⟩ : BufTy).Contents (Elt F)),
    binary main_v280 main_v289 main_v290 (addf : (⟨S2x160x160x160, .f32⟩ : BufTy).Contents (Elt F) → (⟨S2x160x160x160, .f32⟩ : BufTy).Contents (Elt F) → (⟨S2x160x160x160, .f32⟩ : BufTy).Contents (Elt F)),
    binary main_arg8 main_v290 main_v291 (mulf : (⟨S2x160x160x160, .f32⟩ : BufTy).Contents (Elt F) → (⟨S2x160x160x160, .f32⟩ : BufTy).Contents (Elt F) → (⟨S2x160x160x160, .f32⟩ : BufTy).Contents (Elt F)),
    binary main_v271 main_v291 main_v292 (addf : (⟨S2x160x160x160, .f32⟩ : BufTy).Contents (Elt F) → (⟨S2x160x160x160, .f32⟩ : BufTy).Contents (Elt F) → (⟨S2x160x160x160, .f32⟩ : BufTy).Contents (Elt F)),
    unary main_v53 main_v293 ((transpose S160x2x160x160 [3, 0, 1, 2] · transposes_S2x160x160x160_S160x2x160x160_3_0_1_2) : (⟨S2x160x160x160, .f32⟩ : BufTy).Contents (Elt F) → (⟨S160x2x160x160, .f32⟩ : BufTy).Contents (Elt F)),
    unary main_v293 main_v294 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v293 main_v295 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v294 main_v295 main_v296 (subf : (⟨S159x2x160x160, .f32⟩ : BufTy).Contents (Elt F) → (⟨S159x2x160x160, .f32⟩ : BufTy).Contents (Elt F) → (⟨S159x2x160x160, .f32⟩ : BufTy).Contents (Elt F)),
    nullary main_cst_33 (constant S_ .f32 0x3F800000#32),
    unary main_cst_33 main_v297 (broadcastInDim S159x2x160x160 ![] bcast_S_S159x2x160x160 : (⟨S_, .f32⟩ : BufTy).Contents (Elt F) → (⟨S159x2x160x160, .f32⟩ : BufTy).Contents (Elt F)),
    binary main_v296 main_v297 main_v298 (Host.divf : (⟨S159x2x160x160, .f32⟩ : BufTy).Contents (Elt F) → (⟨S159x2x160x160, .f32⟩ : BufTy).Contents (Elt F) → (⟨S159x2x160x160, .f32⟩ : BufTy).Contents (Elt F)),
    unary main_v298 main_v299 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v299 main_v298 main_v300 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v300 main_v301 ((transpose S2x160x160x160 [1, 2, 3, 0] · transposes_S160x2x160x160_S2x160x160x160_1_2_3_0) : (⟨S160x2x160x160, .f32⟩ : BufTy).Contents (Elt F) → (⟨S2x160x160x160, .f32⟩ : BufTy).Contents (Elt F)),
    unary main_v71 main_v302 ((transpose S160x2x160x160 [1, 0, 2, 3] · transposes_S2x160x160x160_S160x2x160x160_1_0_2_3) : (⟨S2x160x160x160, .f32⟩ : BufTy).Contents (Elt F) → (⟨S160x2x160x160, .f32⟩ : BufTy).Contents (Elt F)),
    unary main_v302 main_v303 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v302 main_v304 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v303 main_v304 main_v305 (subf : (⟨S159x2x160x160, .f32⟩ : BufTy).Contents (Elt F) → (⟨S159x2x160x160, .f32⟩ : BufTy).Contents (Elt F) → (⟨S159x2x160x160, .f32⟩ : BufTy).Contents (Elt F)),
    nullary main_cst_34 (constant S_ .f32 0x3F800000#32),
    unary main_cst_34 main_v306 (broadcastInDim S159x2x160x160 ![] bcast_S_S159x2x160x160 : (⟨S_, .f32⟩ : BufTy).Contents (Elt F) → (⟨S159x2x160x160, .f32⟩ : BufTy).Contents (Elt F)),
    binary main_v305 main_v306 main_v307 (Host.divf : (⟨S159x2x160x160, .f32⟩ : BufTy).Contents (Elt F) → (⟨S159x2x160x160, .f32⟩ : BufTy).Contents (Elt F) → (⟨S159x2x160x160, .f32⟩ : BufTy).Contents (Elt F)),
    unary main_v307 main_v308 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v308 main_v307 main_v309 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v309 main_v310 ((transpose S2x160x160x160 [1, 0, 2, 3] · transposes_S160x2x160x160_S2x160x160x160_1_0_2_3) : (⟨S160x2x160x160, .f32⟩ : BufTy).Contents (Elt F) → (⟨S2x160x160x160, .f32⟩ : BufTy).Contents (Elt F)),
    binary main_v301 main_v310 main_v311 (addf : (⟨S2x160x160x160, .f32⟩ : BufTy).Contents (Elt F) → (⟨S2x160x160x160, .f32⟩ : BufTy).Contents (Elt F) → (⟨S2x160x160x160, .f32⟩ : BufTy).Contents (Elt F)),
    binary main_arg6 main_v311 main_v312 (mulf : (⟨S2x160x160x160, .f32⟩ : BufTy).Contents (Elt F) → (⟨S2x160x160x160, .f32⟩ : BufTy).Contents (Elt F) → (⟨S2x160x160x160, .f32⟩ : BufTy).Contents (Elt F)),
    binary main_v292 main_v312 main_v313 (addf : (⟨S2x160x160x160, .f32⟩ : BufTy).Contents (Elt F) → (⟨S2x160x160x160, .f32⟩ : BufTy).Contents (Elt F) → (⟨S2x160x160x160, .f32⟩ : BufTy).Contents (Elt F)),
    nullary main_cst_35 (constant S_ .f32 0x00000000#32),
    unary main_cst_35 main_v314 (broadcastInDim S2x160x160x160 ![] bcast_S_S2x160x160x160 : (⟨S_, .f32⟩ : BufTy).Contents (Elt F) → (⟨S2x160x160x160, .f32⟩ : BufTy).Contents (Elt F)),
    binary main_arg1 main_v314 main_v315 (cmpf .ogt : (⟨S2x160x160x160, .f32⟩ : BufTy).Contents (Elt F) → (⟨S2x160x160x160, .f32⟩ : BufTy).Contents (Elt F) → (⟨S2x160x160x160, .i1⟩ : BufTy).Contents (Elt F)),
    unary main_arg0 main_v316 ((transpose S160x2x160x160 [1, 0, 2, 3] · transposes_S2x160x160x160_S160x2x160x160_1_0_2_3) : (⟨S2x160x160x160, .f32⟩ : BufTy).Contents (Elt F) → (⟨S160x2x160x160, .f32⟩ : BufTy).Contents (Elt F)),
    unary main_v316 main_v317 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v316 main_v318 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v317 main_v318 main_v319 (subf : (⟨S159x2x160x160, .f32⟩ : BufTy).Contents (Elt F) → (⟨S159x2x160x160, .f32⟩ : BufTy).Contents (Elt F) → (⟨S159x2x160x160, .f32⟩ : BufTy).Contents (Elt F)),
    nullary main_cst_36 (constant S_ .f32 0x3F800000#32),
    unary main_cst_36 main_v320 (broadcastInDim S159x2x160x160 ![] bcast_S_S159x2x160x160 : (⟨S_, .f32⟩ : BufTy).Contents (Elt F) → (⟨S159x2x160x160, .f32⟩ : BufTy).Contents (Elt F)),
    binary main_v319 main_v320 main_v321 (Host.divf : (⟨S159x2x160x160, .f32⟩ : BufTy).Contents (Elt F) → (⟨S159x2x160x160, .f32⟩ : BufTy).Contents (Elt F) → (⟨S159x2x160x160, .f32⟩ : BufTy).Contents (Elt F)) ]
set_option maxRecDepth 8192 in
theorem win5_sub : (win5 (F := F)).Forall fun op => op.bufs ⊆ tcRefs τ sig :=
  ⟨unary_bufs_sub .., binary_bufs_sub .., binary_bufs_sub .., binary_bufs_sub .., unary_bufs_sub .., unary_bufs_sub .., unary_bufs_sub .., binary_bufs_sub .., nullary_bufs_sub .., unary_bufs_sub .., binary_bufs_sub .., unary_bufs_sub .., binary_bufs_sub .., unary_bufs_sub .., unary_bufs_sub .., unary_bufs_sub .., unary_bufs_sub .., binary_bufs_sub .., nullary_bufs_sub .., unary_bufs_sub .., binary_bufs_sub .., unary_bufs_sub .., binary_bufs_sub .., unary_bufs_sub .., binary_bufs_sub .., binary_bufs_sub .., binary_bufs_sub .., unary_bufs_sub .., unary_bufs_sub .., unary_bufs_sub .., binary_bufs_sub .., nullary_bufs_sub .., unary_bufs_sub .., binary_bufs_sub .., unary_bufs_sub .., binary_bufs_sub .., unary_bufs_sub .., unary_bufs_sub .., unary_bufs_sub .., unary_bufs_sub .., binary_bufs_sub .., nullary_bufs_sub .., unary_bufs_sub .., binary_bufs_sub .., unary_bufs_sub .., binary_bufs_sub .., unary_bufs_sub .., binary_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub ..⟩
set_option maxRecDepth 8192 in
theorem win5_fresh : (win5 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 360 … 419. -/
def win6 : List (HloOp τ sig (Elt F)) :=
  [ unary main_v321 main_v322 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v322 main_v321 main_v323 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v323 main_v324 ((transpose S2x160x160x160 [1, 0, 2, 3] · transposes_S160x2x160x160_S2x160x160x160_1_0_2_3) : (⟨S160x2x160x160, .f32⟩ : BufTy).Contents (Elt F) → (⟨S2x160x160x160, .f32⟩ : BufTy).Contents (Elt F)),
    unary main_arg0 main_v325 ((transpose S160x2x160x160 [1, 0, 2, 3] · transposes_S2x160x160x160_S160x2x160x160_1_0_2_3) : (⟨S2x160x160x160, .f32⟩ : BufTy).Contents (Elt F) → (⟨S160x2x160x160, .f32⟩ : BufTy).Contents (Elt F)),
    unary main_v325 main_v326 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v325 main_v327 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v326 main_v327 main_v328 (subf : (⟨S159x2x160x160, .f32⟩ : BufTy).Contents (Elt F) → (⟨S159x2x160x160, .f32⟩ : BufTy).Contents (Elt F) → (⟨S159x2x160x160, .f32⟩ : BufTy).Contents (Elt F)),
    nullary main_cst_37 (constant S_ .f32 0x3F800000#32),
    unary main_cst_37 main_v329 (broadcastInDim S159x2x160x160 ![] bcast_S_S159x2x160x160 : (⟨S_, .f32⟩ : BufTy).Contents (Elt F) → (⟨S159x2x160x160, .f32⟩ : BufTy).Contents (Elt F)),
    binary main_v328 main_v329 main_v330 (Host.divf : (⟨S159x2x160x160, .f32⟩ : BufTy).Contents (Elt F) → (⟨S159x2x160x160, .f32⟩ : BufTy).Contents (Elt F) → (⟨S159x2x160x160, .f32⟩ : BufTy).Contents (Elt F)),
    unary main_v330 main_v331 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    binary main_v330 main_v331 main_v332 ((fun a b => concatenate S160x2x160x160 0 [⟨S159x2x160x160, a⟩, ⟨S1x2x160x160, b⟩] concatenates_S159x2x160x160_S1x2x160x160_S160x2x160x160_d0) : (⟨S159x2x160x160, .f32⟩ : BufTy).Contents (Elt F) → (⟨S1x2x160x160, .f32⟩ : BufTy).Contents (Elt F) → (⟨S160x2x160x160, .f32⟩ : BufTy).Contents (Elt F)),
    unary main_v332 main_v333 ((transpose S2x160x160x160 [1, 0, 2, 3] · transposes_S160x2x160x160_S2x160x160x160_1_0_2_3) : (⟨S160x2x160x160, .f32⟩ : BufTy).Contents (Elt F) → (⟨S2x160x160x160, .f32⟩ : BufTy).Contents (Elt F)),
    TRef.ternary (TRef.of (T := ⟨S2x160x160x160, .i1⟩) main_v315) (TRef.of (T := ⟨S2x160x160x160, .f32⟩) main_v324) (TRef.of (T := ⟨S2x160x160x160, .f32⟩) main_v333) (TRef.of (T := ⟨S2x160x160x160, .f32⟩) main_v334) select,
    nullary main_cst_38 (constant S_ .f32 0x00000000#32),
    unary main_cst_38 main_v335 (broadcastInDim S2x160x160x160 ![] bcast_S_S2x160x160x160 : (⟨S_, .f32⟩ : BufTy).Contents (Elt F) → (⟨S2x160x160x160, .f32⟩ : BufTy).Contents (Elt F)),
    binary main_arg2 main_v335 main_v336 (cmpf .ogt : (⟨S2x160x160x160, .f32⟩ : BufTy).Contents (Elt F) → (⟨S2x160x160x160, .f32⟩ : BufTy).Contents (Elt F) → (⟨S2x160x160x160, .i1⟩ : BufTy).Contents (Elt F)),
    unary main_arg0 main_v337 ((transpose S160x2x160x160 [2, 0, 1, 3] · transposes_S2x160x160x160_S160x2x160x160_2_0_1_3) : (⟨S2x160x160x160, .f32⟩ : BufTy).Contents (Elt F) → (⟨S160x2x160x160, .f32⟩ : BufTy).Contents (Elt F)),
    unary main_v337 main_v338 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v337 main_v339 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v338 main_v339 main_v340 (subf : (⟨S159x2x160x160, .f32⟩ : BufTy).Contents (Elt F) → (⟨S159x2x160x160, .f32⟩ : BufTy).Contents (Elt F) → (⟨S159x2x160x160, .f32⟩ : BufTy).Contents (Elt F)),
    nullary main_cst_39 (constant S_ .f32 0x3F800000#32),
    unary main_cst_39 main_v341 (broadcastInDim S159x2x160x160 ![] bcast_S_S159x2x160x160 : (⟨S_, .f32⟩ : BufTy).Contents (Elt F) → (⟨S159x2x160x160, .f32⟩ : BufTy).Contents (Elt F)),
    binary main_v340 main_v341 main_v342 (Host.divf : (⟨S159x2x160x160, .f32⟩ : BufTy).Contents (Elt F) → (⟨S159x2x160x160, .f32⟩ : BufTy).Contents (Elt F) → (⟨S159x2x160x160, .f32⟩ : BufTy).Contents (Elt F)),
    unary main_v342 main_v343 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v343 main_v342 main_v344 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v344 main_v345 ((transpose S2x160x160x160 [1, 2, 0, 3] · transposes_S160x2x160x160_S2x160x160x160_1_2_0_3) : (⟨S160x2x160x160, .f32⟩ : BufTy).Contents (Elt F) → (⟨S2x160x160x160, .f32⟩ : BufTy).Contents (Elt F)),
    unary main_arg0 main_v346 ((transpose S160x2x160x160 [2, 0, 1, 3] · transposes_S2x160x160x160_S160x2x160x160_2_0_1_3) : (⟨S2x160x160x160, .f32⟩ : BufTy).Contents (Elt F) → (⟨S160x2x160x160, .f32⟩ : BufTy).Contents (Elt F)),
    unary main_v346 main_v347 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v346 main_v348 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v347 main_v348 main_v349 (subf : (⟨S159x2x160x160, .f32⟩ : BufTy).Contents (Elt F) → (⟨S159x2x160x160, .f32⟩ : BufTy).Contents (Elt F) → (⟨S159x2x160x160, .f32⟩ : BufTy).Contents (Elt F)),
    nullary main_cst_40 (constant S_ .f32 0x3F800000#32),
    unary main_cst_40 main_v350 (broadcastInDim S159x2x160x160 ![] bcast_S_S159x2x160x160 : (⟨S_, .f32⟩ : BufTy).Contents (Elt F) → (⟨S159x2x160x160, .f32⟩ : BufTy).Contents (Elt F)),
    binary main_v349 main_v350 main_v351 (Host.divf : (⟨S159x2x160x160, .f32⟩ : BufTy).Contents (Elt F) → (⟨S159x2x160x160, .f32⟩ : BufTy).Contents (Elt F) → (⟨S159x2x160x160, .f32⟩ : BufTy).Contents (Elt F)),
    unary main_v351 main_v352 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    binary main_v351 main_v352 main_v353 ((fun a b => concatenate S160x2x160x160 0 [⟨S159x2x160x160, a⟩, ⟨S1x2x160x160, b⟩] concatenates_S159x2x160x160_S1x2x160x160_S160x2x160x160_d0) : (⟨S159x2x160x160, .f32⟩ : BufTy).Contents (Elt F) → (⟨S1x2x160x160, .f32⟩ : BufTy).Contents (Elt F) → (⟨S160x2x160x160, .f32⟩ : BufTy).Contents (Elt F)),
    unary main_v353 main_v354 ((transpose S2x160x160x160 [1, 2, 0, 3] · transposes_S160x2x160x160_S2x160x160x160_1_2_0_3) : (⟨S160x2x160x160, .f32⟩ : BufTy).Contents (Elt F) → (⟨S2x160x160x160, .f32⟩ : BufTy).Contents (Elt F)),
    TRef.ternary (TRef.of (T := ⟨S2x160x160x160, .i1⟩) main_v336) (TRef.of (T := ⟨S2x160x160x160, .f32⟩) main_v345) (TRef.of (T := ⟨S2x160x160x160, .f32⟩) main_v354) (TRef.of (T := ⟨S2x160x160x160, .f32⟩) main_v355) select,
    nullary main_cst_41 (constant S_ .f32 0x00000000#32),
    unary main_cst_41 main_v356 (broadcastInDim S2x160x160x160 ![] bcast_S_S2x160x160x160 : (⟨S_, .f32⟩ : BufTy).Contents (Elt F) → (⟨S2x160x160x160, .f32⟩ : BufTy).Contents (Elt F)),
    binary main_arg3 main_v356 main_v357 (cmpf .ogt : (⟨S2x160x160x160, .f32⟩ : BufTy).Contents (Elt F) → (⟨S2x160x160x160, .f32⟩ : BufTy).Contents (Elt F) → (⟨S2x160x160x160, .i1⟩ : BufTy).Contents (Elt F)),
    unary main_arg0 main_v358 ((transpose S160x2x160x160 [3, 0, 1, 2] · transposes_S2x160x160x160_S160x2x160x160_3_0_1_2) : (⟨S2x160x160x160, .f32⟩ : BufTy).Contents (Elt F) → (⟨S160x2x160x160, .f32⟩ : BufTy).Contents (Elt F)),
    unary main_v358 main_v359 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v358 main_v360 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v359 main_v360 main_v361 (subf : (⟨S159x2x160x160, .f32⟩ : BufTy).Contents (Elt F) → (⟨S159x2x160x160, .f32⟩ : BufTy).Contents (Elt F) → (⟨S159x2x160x160, .f32⟩ : BufTy).Contents (Elt F)),
    nullary main_cst_42 (constant S_ .f32 0x3F800000#32),
    unary main_cst_42 main_v362 (broadcastInDim S159x2x160x160 ![] bcast_S_S159x2x160x160 : (⟨S_, .f32⟩ : BufTy).Contents (Elt F) → (⟨S159x2x160x160, .f32⟩ : BufTy).Contents (Elt F)),
    binary main_v361 main_v362 main_v363 (Host.divf : (⟨S159x2x160x160, .f32⟩ : BufTy).Contents (Elt F) → (⟨S159x2x160x160, .f32⟩ : BufTy).Contents (Elt F) → (⟨S159x2x160x160, .f32⟩ : BufTy).Contents (Elt F)),
    unary main_v363 main_v364 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v364 main_v363 main_v365 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v365 main_v366 ((transpose S2x160x160x160 [1, 2, 3, 0] · transposes_S160x2x160x160_S2x160x160x160_1_2_3_0) : (⟨S160x2x160x160, .f32⟩ : BufTy).Contents (Elt F) → (⟨S2x160x160x160, .f32⟩ : BufTy).Contents (Elt F)),
    unary main_arg0 main_v367 ((transpose S160x2x160x160 [3, 0, 1, 2] · transposes_S2x160x160x160_S160x2x160x160_3_0_1_2) : (⟨S2x160x160x160, .f32⟩ : BufTy).Contents (Elt F) → (⟨S160x2x160x160, .f32⟩ : BufTy).Contents (Elt F)),
    unary main_v367 main_v368 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v367 main_v369 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v368 main_v369 main_v370 (subf : (⟨S159x2x160x160, .f32⟩ : BufTy).Contents (Elt F) → (⟨S159x2x160x160, .f32⟩ : BufTy).Contents (Elt F) → (⟨S159x2x160x160, .f32⟩ : BufTy).Contents (Elt F)),
    nullary main_cst_43 (constant S_ .f32 0x3F800000#32),
    unary main_cst_43 main_v371 (broadcastInDim S159x2x160x160 ![] bcast_S_S159x2x160x160 : (⟨S_, .f32⟩ : BufTy).Contents (Elt F) → (⟨S159x2x160x160, .f32⟩ : BufTy).Contents (Elt F)),
    binary main_v370 main_v371 main_v372 (Host.divf : (⟨S159x2x160x160, .f32⟩ : BufTy).Contents (Elt F) → (⟨S159x2x160x160, .f32⟩ : BufTy).Contents (Elt F) → (⟨S159x2x160x160, .f32⟩ : BufTy).Contents (Elt F)),
    unary main_v372 main_v373 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    binary main_v372 main_v373 main_v374 ((fun a b => concatenate S160x2x160x160 0 [⟨S159x2x160x160, a⟩, ⟨S1x2x160x160, b⟩] concatenates_S159x2x160x160_S1x2x160x160_S160x2x160x160_d0) : (⟨S159x2x160x160, .f32⟩ : BufTy).Contents (Elt F) → (⟨S1x2x160x160, .f32⟩ : BufTy).Contents (Elt F) → (⟨S160x2x160x160, .f32⟩ : BufTy).Contents (Elt F)) ]
set_option maxRecDepth 8192 in
theorem win6_sub : (win6 (F := F)).Forall fun op => op.bufs ⊆ tcRefs τ sig :=
  ⟨unary_bufs_sub .., binary_bufs_sub .., unary_bufs_sub .., unary_bufs_sub .., unary_bufs_sub .., unary_bufs_sub .., binary_bufs_sub .., nullary_bufs_sub .., unary_bufs_sub .., binary_bufs_sub .., unary_bufs_sub .., binary_bufs_sub .., unary_bufs_sub .., ternary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., binary_bufs_sub .., unary_bufs_sub .., unary_bufs_sub .., unary_bufs_sub .., unary_bufs_sub .., binary_bufs_sub .., nullary_bufs_sub .., unary_bufs_sub .., binary_bufs_sub .., unary_bufs_sub .., binary_bufs_sub .., unary_bufs_sub .., ternary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., binary_bufs_sub .., unary_bufs_sub .., unary_bufs_sub .., unary_bufs_sub .., unary_bufs_sub .., binary_bufs_sub .., nullary_bufs_sub .., unary_bufs_sub .., binary_bufs_sub .., unary_bufs_sub .., binary_bufs_sub ..⟩
set_option maxRecDepth 8192 in
theorem win6_fresh : (win6 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 420 … 479. -/
def win7 : List (HloOp τ sig (Elt F)) :=
  [ unary main_v374 main_v375 ((transpose S2x160x160x160 [1, 2, 3, 0] · transposes_S160x2x160x160_S2x160x160x160_1_2_3_0) : (⟨S160x2x160x160, .f32⟩ : BufTy).Contents (Elt F) → (⟨S2x160x160x160, .f32⟩ : BufTy).Contents (Elt F)),
    TRef.ternary (TRef.of (T := ⟨S2x160x160x160, .i1⟩) main_v357) (TRef.of (T := ⟨S2x160x160x160, .f32⟩) main_v366) (TRef.of (T := ⟨S2x160x160x160, .f32⟩) main_v375) (TRef.of (T := ⟨S2x160x160x160, .f32⟩) main_v376) select,
    binary main_arg1 main_v334 main_v377 (mulf : (⟨S2x160x160x160, .f32⟩ : BufTy).Contents (Elt F) → (⟨S2x160x160x160, .f32⟩ : BufTy).Contents (Elt F) → (⟨S2x160x160x160, .f32⟩ : BufTy).Contents (Elt F)),
    binary main_arg2 main_v355 main_v378 (mulf : (⟨S2x160x160x160, .f32⟩ : BufTy).Contents (Elt F) → (⟨S2x160x160x160, .f32⟩ : BufTy).Contents (Elt F) → (⟨S2x160x160x160, .f32⟩ : BufTy).Contents (Elt F)),
    binary main_v377 main_v378 main_v379 (addf : (⟨S2x160x160x160, .f32⟩ : BufTy).Contents (Elt F) → (⟨S2x160x160x160, .f32⟩ : BufTy).Contents (Elt F) → (⟨S2x160x160x160, .f32⟩ : BufTy).Contents (Elt F)),
    binary main_arg3 main_v376 main_v380 (mulf : (⟨S2x160x160x160, .f32⟩ : BufTy).Contents (Elt F) → (⟨S2x160x160x160, .f32⟩ : BufTy).Contents (Elt F) → (⟨S2x160x160x160, .f32⟩ : BufTy).Contents (Elt F)),
    binary main_v379 main_v380 main_v381 (addf : (⟨S2x160x160x160, .f32⟩ : BufTy).Contents (Elt F) → (⟨S2x160x160x160, .f32⟩ : BufTy).Contents (Elt F) → (⟨S2x160x160x160, .f32⟩ : BufTy).Contents (Elt F)),
    unary main_v381 main_v382 (Host.negf : (⟨S2x160x160x160, .f32⟩ : BufTy).Contents (Elt F) → (⟨S2x160x160x160, .f32⟩ : BufTy).Contents (Elt F)),
    unary main_arg1 main_v383 ((transpose S160x2x160x160 [1, 0, 2, 3] · transposes_S2x160x160x160_S160x2x160x160_1_0_2_3) : (⟨S2x160x160x160, .f32⟩ : BufTy).Contents (Elt F) → (⟨S160x2x160x160, .f32⟩ : BufTy).Contents (Elt F)),
    unary main_v383 main_v384 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v383 main_v385 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v384 main_v385 main_v386 (subf : (⟨S159x2x160x160, .f32⟩ : BufTy).Contents (Elt F) → (⟨S159x2x160x160, .f32⟩ : BufTy).Contents (Elt F) → (⟨S159x2x160x160, .f32⟩ : BufTy).Contents (Elt F)),
    nullary main_cst_44 (constant S_ .f32 0x3F800000#32),
    unary main_cst_44 main_v387 (broadcastInDim S159x2x160x160 ![] bcast_S_S159x2x160x160 : (⟨S_, .f32⟩ : BufTy).Contents (Elt F) → (⟨S159x2x160x160, .f32⟩ : BufTy).Contents (Elt F)),
    binary main_v386 main_v387 main_v388 (Host.divf : (⟨S159x2x160x160, .f32⟩ : BufTy).Contents (Elt F) → (⟨S159x2x160x160, .f32⟩ : BufTy).Contents (Elt F) → (⟨S159x2x160x160, .f32⟩ : BufTy).Contents (Elt F)),
    unary main_v388 main_v389 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v383 main_v390 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v383 main_v391 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v390 main_v391 main_v392 (subf : (⟨S158x2x160x160, .f32⟩ : BufTy).Contents (Elt F) → (⟨S158x2x160x160, .f32⟩ : BufTy).Contents (Elt F) → (⟨S158x2x160x160, .f32⟩ : BufTy).Contents (Elt F)),
    nullary main_cst_45 (constant S_ .f32 0x40000000#32),
    unary main_cst_45 main_v393 (broadcastInDim S158x2x160x160 ![] bcast_S_S158x2x160x160 : (⟨S_, .f32⟩ : BufTy).Contents (Elt F) → (⟨S158x2x160x160, .f32⟩ : BufTy).Contents (Elt F)),
    binary main_v392 main_v393 main_v394 (Host.divf : (⟨S158x2x160x160, .f32⟩ : BufTy).Contents (Elt F) → (⟨S158x2x160x160, .f32⟩ : BufTy).Contents (Elt F) → (⟨S158x2x160x160, .f32⟩ : BufTy).Contents (Elt F)),
    unary main_v388 main_v395 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v389, main_v394, main_v395] main_v396 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v396 main_v397 ((transpose S2x160x160x160 [1, 0, 2, 3] · transposes_S160x2x160x160_S2x160x160x160_1_0_2_3) : (⟨S160x2x160x160, .f32⟩ : BufTy).Contents (Elt F) → (⟨S2x160x160x160, .f32⟩ : BufTy).Contents (Elt F)),
    unary main_arg2 main_v398 ((transpose S160x2x160x160 [2, 0, 1, 3] · transposes_S2x160x160x160_S160x2x160x160_2_0_1_3) : (⟨S2x160x160x160, .f32⟩ : BufTy).Contents (Elt F) → (⟨S160x2x160x160, .f32⟩ : BufTy).Contents (Elt F)),
    unary main_v398 main_v399 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v398 main_v400 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v399 main_v400 main_v401 (subf : (⟨S159x2x160x160, .f32⟩ : BufTy).Contents (Elt F) → (⟨S159x2x160x160, .f32⟩ : BufTy).Contents (Elt F) → (⟨S159x2x160x160, .f32⟩ : BufTy).Contents (Elt F)),
    nullary main_cst_46 (constant S_ .f32 0x3F800000#32),
    unary main_cst_46 main_v402 (broadcastInDim S159x2x160x160 ![] bcast_S_S159x2x160x160 : (⟨S_, .f32⟩ : BufTy).Contents (Elt F) → (⟨S159x2x160x160, .f32⟩ : BufTy).Contents (Elt F)),
    binary main_v401 main_v402 main_v403 (Host.divf : (⟨S159x2x160x160, .f32⟩ : BufTy).Contents (Elt F) → (⟨S159x2x160x160, .f32⟩ : BufTy).Contents (Elt F) → (⟨S159x2x160x160, .f32⟩ : BufTy).Contents (Elt F)),
    unary main_v403 main_v404 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v398 main_v405 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v398 main_v406 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v405 main_v406 main_v407 (subf : (⟨S158x2x160x160, .f32⟩ : BufTy).Contents (Elt F) → (⟨S158x2x160x160, .f32⟩ : BufTy).Contents (Elt F) → (⟨S158x2x160x160, .f32⟩ : BufTy).Contents (Elt F)),
    nullary main_cst_47 (constant S_ .f32 0x40000000#32),
    unary main_cst_47 main_v408 (broadcastInDim S158x2x160x160 ![] bcast_S_S158x2x160x160 : (⟨S_, .f32⟩ : BufTy).Contents (Elt F) → (⟨S158x2x160x160, .f32⟩ : BufTy).Contents (Elt F)),
    binary main_v407 main_v408 main_v409 (Host.divf : (⟨S158x2x160x160, .f32⟩ : BufTy).Contents (Elt F) → (⟨S158x2x160x160, .f32⟩ : BufTy).Contents (Elt F) → (⟨S158x2x160x160, .f32⟩ : BufTy).Contents (Elt F)),
    unary main_v403 main_v410 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v404, main_v409, main_v410] main_v411 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v411 main_v412 ((transpose S2x160x160x160 [1, 2, 0, 3] · transposes_S160x2x160x160_S2x160x160x160_1_2_0_3) : (⟨S160x2x160x160, .f32⟩ : BufTy).Contents (Elt F) → (⟨S2x160x160x160, .f32⟩ : BufTy).Contents (Elt F)),
    binary main_v397 main_v412 main_v413 (addf : (⟨S2x160x160x160, .f32⟩ : BufTy).Contents (Elt F) → (⟨S2x160x160x160, .f32⟩ : BufTy).Contents (Elt F) → (⟨S2x160x160x160, .f32⟩ : BufTy).Contents (Elt F)),
    unary main_arg3 main_v414 ((transpose S160x2x160x160 [3, 0, 1, 2] · transposes_S2x160x160x160_S160x2x160x160_3_0_1_2) : (⟨S2x160x160x160, .f32⟩ : BufTy).Contents (Elt F) → (⟨S160x2x160x160, .f32⟩ : BufTy).Contents (Elt F)),
    unary main_v414 main_v415 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v414 main_v416 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v415 main_v416 main_v417 (subf : (⟨S159x2x160x160, .f32⟩ : BufTy).Contents (Elt F) → (⟨S159x2x160x160, .f32⟩ : BufTy).Contents (Elt F) → (⟨S159x2x160x160, .f32⟩ : BufTy).Contents (Elt F)),
    nullary main_cst_48 (constant S_ .f32 0x3F800000#32),
    unary main_cst_48 main_v418 (broadcastInDim S159x2x160x160 ![] bcast_S_S159x2x160x160 : (⟨S_, .f32⟩ : BufTy).Contents (Elt F) → (⟨S159x2x160x160, .f32⟩ : BufTy).Contents (Elt F)),
    binary main_v417 main_v418 main_v419 (Host.divf : (⟨S159x2x160x160, .f32⟩ : BufTy).Contents (Elt F) → (⟨S159x2x160x160, .f32⟩ : BufTy).Contents (Elt F) → (⟨S159x2x160x160, .f32⟩ : BufTy).Contents (Elt F)),
    unary main_v419 main_v420 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v414 main_v421 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v414 main_v422 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v421 main_v422 main_v423 (subf : (⟨S158x2x160x160, .f32⟩ : BufTy).Contents (Elt F) → (⟨S158x2x160x160, .f32⟩ : BufTy).Contents (Elt F) → (⟨S158x2x160x160, .f32⟩ : BufTy).Contents (Elt F)),
    nullary main_cst_49 (constant S_ .f32 0x40000000#32),
    unary main_cst_49 main_v424 (broadcastInDim S158x2x160x160 ![] bcast_S_S158x2x160x160 : (⟨S_, .f32⟩ : BufTy).Contents (Elt F) → (⟨S158x2x160x160, .f32⟩ : BufTy).Contents (Elt F)),
    binary main_v423 main_v424 main_v425 (Host.divf : (⟨S158x2x160x160, .f32⟩ : BufTy).Contents (Elt F) → (⟨S158x2x160x160, .f32⟩ : BufTy).Contents (Elt F) → (⟨S158x2x160x160, .f32⟩ : BufTy).Contents (Elt F)),
    unary main_v419 main_v426 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v420, main_v425, main_v426] main_v427 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v427 main_v428 ((transpose S2x160x160x160 [1, 2, 3, 0] · transposes_S160x2x160x160_S2x160x160x160_1_2_3_0) : (⟨S160x2x160x160, .f32⟩ : BufTy).Contents (Elt F) → (⟨S2x160x160x160, .f32⟩ : BufTy).Contents (Elt F)) ]
set_option maxRecDepth 8192 in
theorem win7_sub : (win7 (F := F)).Forall fun op => op.bufs ⊆ tcRefs τ sig :=
  ⟨unary_bufs_sub .., ternary_bufs_sub .., binary_bufs_sub .., binary_bufs_sub .., binary_bufs_sub .., binary_bufs_sub .., binary_bufs_sub .., unary_bufs_sub .., unary_bufs_sub .., unary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., nary_bufs_sub .., unary_bufs_sub .., unary_bufs_sub .., unary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., nary_bufs_sub .., unary_bufs_sub .., binary_bufs_sub .., unary_bufs_sub .., unary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., nary_bufs_sub .., unary_bufs_sub ..⟩
set_option maxRecDepth 8192 in
theorem win7_fresh : (win7 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 480 … 483. -/
def win8 : List (HloOp τ sig (Elt F)) :=
  [ binary main_v413 main_v428 main_v429 (addf : (⟨S2x160x160x160, .f32⟩ : BufTy).Contents (Elt F) → (⟨S2x160x160x160, .f32⟩ : BufTy).Contents (Elt F) → (⟨S2x160x160x160, .f32⟩ : BufTy).Contents (Elt F)),
    binary main_arg0 main_v429 main_v430 (mulf : (⟨S2x160x160x160, .f32⟩ : BufTy).Contents (Elt F) → (⟨S2x160x160x160, .f32⟩ : BufTy).Contents (Elt F) → (⟨S2x160x160x160, .f32⟩ : BufTy).Contents (Elt F)),
    binary main_v382 main_v430 main_v431 (subf : (⟨S2x160x160x160, .f32⟩ : BufTy).Contents (Elt F) → (⟨S2x160x160x160, .f32⟩ : BufTy).Contents (Elt F) → (⟨S2x160x160x160, .f32⟩ : BufTy).Contents (Elt F)),
    binary main_v313 main_v431 main_v432 (addf : (⟨S2x160x160x160, .f32⟩ : BufTy).Contents (Elt F) → (⟨S2x160x160x160, .f32⟩ : BufTy).Contents (Elt F) → (⟨S2x160x160x160, .f32⟩ : BufTy).Contents (Elt F)) ]
set_option maxRecDepth 8192 in
theorem win8_sub : (win8 (F := F)).Forall fun op => op.bufs ⊆ tcRefs τ sig :=
  ⟨binary_bufs_sub .., binary_bufs_sub .., binary_bufs_sub .., binary_bufs_sub ..⟩
set_option maxRecDepth 8192 in
theorem win8_fresh : (win8 (F := F)).Forall fun op => op.fresh = ∅ :=
  ⟨rfl, rfl, rfl, rfl⟩

end Cert.ReferenceIdeal.RefValue

end
-- ==== Proof.RefLib.lean ====
/-
  Small facts about a straight line of host operations and the fold of their results, used to read the reference's run
  a few operations at a time.

  * Running two lines one after the other is running their concatenation: the fold over `l₁ ++ l₂` is the fold over
    `l₂` started from the fold over `l₁`.
  * A three-operand operation (a concatenation of three pieces) leaves in its result buffer its function applied to the
    three operands' contents, each read at its own buffer.
  * An operation that writes exactly one buffer, a member of a list `W`, writes inside `W`.
-/
import Idealize.ShloMosaic.Lib.StableHlo.Run

noncomputable section

namespace Cert.RefLib

open Idealize.ShloMosaic Idealize.SL.Sem Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A three-operand operation's result, each operand's contents at its own buffer. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- An operation whose one written buffer is in `W` writes inside `W`. -/
theorem writes_sub_of_mem {W : List (Ref sig .tc)} {op : HloOp τ sig Val} (y : Ref sig .tc)
    (h : op.writes = {Proc.devRef .tc y}) (hy : y ∈ W) :
    op.writes ⊆ (W.map (Proc.devRef (τ := τ) .tc)).toFinset := by
  rw [h, Finset.singleton_subset_iff, List.mem_toFinset]; exact List.mem_map_of_mem hy

/-- Reads one buffer off the fold over a literal list of operations: each operation's result at its own buffer is its
    function of its operands' contents, at any other buffer what was there. -/
macro "after_block_simp" : tactic =>
  `(tactic| (simp (disch := decide) only [after_cons, after_nil,
      nullary_result', unary_result', binary_result', ternary_result', nary3_result',
      nullary_result_ne', unary_result_ne', binary_result_ne', ternary_result_ne', nary_result_ne']))

end Cert.RefLib

end
-- ==== Proof.RefBlocks.lean ====
/-
  The reference's 484 operations, in order, cut into 50 consecutive runs. A run is either one finite-difference field
  (bring a space axis to the front, difference along it, stack the rows back to 160, put the axes back: 17 operations for
  a central difference, 10 for a forward or a backward one) or the few operations between two such fields.
  For each difference-field run K: its operations (blkK), the buffers they write (blkK_W), that they write no other
  (blkK_frame: every other buffer keeps its contents), and what the run leaves in its result buffer (blkK_val): the
  named whole-array difference of whatever its one input buffer held. The list ops is the runs in order.
-/
import proofs.«120775_j9655086481804_1_alg».proof.Proof.Spec
import proofs.«120775_j9655086481804_1_alg».proof.Proof.Gen.ReferenceIdeal
import proofs.«120775_j9655086481804_1_alg».proof.Proof.RefLib

noncomputable section

namespace Cert.ReferenceIdeal.RefValue

open Cert.ReferenceIdeal Cert.ReferenceIdeal.Gen Idealize.ShloMosaic Idealize.ShloMosaic.TcCoe Idealize.SL.Sem Idealize.ShloMosaic.StableHlo Cert.RefLib

variable {F : FTy → Type} [FloatOps F]

/-- Operations 0 … 16: the central difference along space axis 1 of what main_arg0 holds, left in main_v14. -/
def blk0 : List (HloOp τ sig (Elt F)) :=
  [ unary main_arg0 main_v0 ((transpose S160x2x160x160 [1, 0, 2, 3] · transposes_S2x160x160x160_S160x2x160x160_1_0_2_3) : (⟨S2x160x160x160, .f32⟩ : BufTy).Contents (Elt F) → (⟨S160x2x160x160, .f32⟩ : BufTy).Contents (Elt F)),
    unary main_v0 main_v1 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v0 main_v2 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v1 main_v2 main_v3 (subf : (⟨S159x2x160x160, .f32⟩ : BufTy).Contents (Elt F) → (⟨S159x2x160x160, .f32⟩ : BufTy).Contents (Elt F) → (⟨S159x2x160x160, .f32⟩ : BufTy).Contents (Elt F)),
    nullary main_cst (constant S_ .f32 0x3F800000#32),
    unary main_cst main_v4 (broadcastInDim S159x2x160x160 ![] bcast_S_S159x2x160x160 : (⟨S_, .f32⟩ : BufTy).Contents (Elt F) → (⟨S159x2x160x160, .f32⟩ : BufTy).Contents (Elt F)),
    binary main_v3 main_v4 main_v5 (Host.divf : (⟨S159x2x160x160, .f32⟩ : BufTy).Contents (Elt F) → (⟨S159x2x160x160, .f32⟩ : BufTy).Contents (Elt F) → (⟨S159x2x160x160, .f32⟩ : BufTy).Contents (Elt F)),
    unary main_v5 main_v6 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v0 main_v7 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v0 main_v8 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v7 main_v8 main_v9 (subf : (⟨S158x2x160x160, .f32⟩ : BufTy).Contents (Elt F) → (⟨S158x2x160x160, .f32⟩ : BufTy).Contents (Elt F) → (⟨S158x2x160x160, .f32⟩ : BufTy).Contents (Elt F)),
    nullary main_cst_0 (constant S_ .f32 0x40000000#32),
    unary main_cst_0 main_v10 (broadcastInDim S158x2x160x160 ![] bcast_S_S158x2x160x160 : (⟨S_, .f32⟩ : BufTy).Contents (Elt F) → (⟨S158x2x160x160, .f32⟩ : BufTy).Contents (Elt F)),
    binary main_v9 main_v10 main_v11 (Host.divf : (⟨S158x2x160x160, .f32⟩ : BufTy).Contents (Elt F) → (⟨S158x2x160x160, .f32⟩ : BufTy).Contents (Elt F) → (⟨S158x2x160x160, .f32⟩ : BufTy).Contents (Elt F)),
    unary main_v5 main_v12 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v6, main_v11, main_v12] main_v13 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v13 main_v14 ((transpose S2x160x160x160 [1, 0, 2, 3] · transposes_S160x2x160x160_S2x160x160x160_1_0_2_3) : (⟨S160x2x160x160, .f32⟩ : BufTy).Contents (Elt F) → (⟨S2x160x160x160, .f32⟩ : BufTy).Contents (Elt F)) ]
abbrev blk0_W : List (Ref sig .tc) := [main_v0, main_v1, main_v2, main_v3, main_cst, main_v4, main_v5, main_v6, main_v7, main_v8, main_v9, main_cst_0, main_v10, main_v11, main_v12, main_v13, main_v14]
theorem blk0_writes : (blk0 (F := F)).Forall fun op => op.writes ⊆ (blk0_W.map (Proc.devRef (τ := τ) .tc)).toFinset :=
  ⟨writes_sub_of_mem main_v0 rfl (by decide),
   writes_sub_of_mem main_v1 rfl (by decide),
   writes_sub_of_mem main_v2 rfl (by decide),
   writes_sub_of_mem main_v3 rfl (by decide),
   writes_sub_of_mem main_cst rfl (by decide),
   writes_sub_of_mem main_v4 rfl (by decide),
   writes_sub_of_mem main_v5 rfl (by decide),
   writes_sub_of_mem main_v6 rfl (by decide),
   writes_sub_of_mem main_v7 rfl (by decide),
   writes_sub_of_mem main_v8 rfl (by decide),
   writes_sub_of_mem main_v9 rfl (by decide),
   writes_sub_of_mem main_cst_0 rfl (by decide),
   writes_sub_of_mem main_v10 rfl (by decide),
   writes_sub_of_mem main_v11 rfl (by decide),
   writes_sub_of_mem main_v12 rfl (by decide),
   writes_sub_of_mem main_v13 rfl (by decide),
   writes_sub_of_mem main_v14 rfl (by decide)⟩
theorem blk0_frame (V : Valuation τ sig (Elt F)) {r : Ref sig .tc} (h : r ∉ blk0_W) :
    after (blk0 (F := F)) V (no_index (Proc.devRef .tc r)) = V (Proc.devRef .tc r) :=
  after_of_writes_sub _ V blk0_writes h
theorem blk0_val (V : Valuation τ sig (Elt F)) :
    after (blk0 (F := F)) V (no_index (Proc.devRef .tc main_v14)) = Cert.KernelIdeal.Spec.dc1 (V (Proc.devRef .tc main_arg0)) := by
  unfold blk0
  after_block_simp
  rfl

/-- Operations 17 … 33: the central difference along space axis 2 of what main_arg0 holds, left in main_v29. -/
def blk1 : List (HloOp τ sig (Elt F)) :=
  [ unary main_arg0 main_v15 ((transpose S160x2x160x160 [2, 0, 1, 3] · transposes_S2x160x160x160_S160x2x160x160_2_0_1_3) : (⟨S2x160x160x160, .f32⟩ : BufTy).Contents (Elt F) → (⟨S160x2x160x160, .f32⟩ : BufTy).Contents (Elt F)),
    unary main_v15 main_v16 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v15 main_v17 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v16 main_v17 main_v18 (subf : (⟨S159x2x160x160, .f32⟩ : BufTy).Contents (Elt F) → (⟨S159x2x160x160, .f32⟩ : BufTy).Contents (Elt F) → (⟨S159x2x160x160, .f32⟩ : BufTy).Contents (Elt F)),
    nullary main_cst_1 (constant S_ .f32 0x3F800000#32),
    unary main_cst_1 main_v19 (broadcastInDim S159x2x160x160 ![] bcast_S_S159x2x160x160 : (⟨S_, .f32⟩ : BufTy).Contents (Elt F) → (⟨S159x2x160x160, .f32⟩ : BufTy).Contents (Elt F)),
    binary main_v18 main_v19 main_v20 (Host.divf : (⟨S159x2x160x160, .f32⟩ : BufTy).Contents (Elt F) → (⟨S159x2x160x160, .f32⟩ : BufTy).Contents (Elt F) → (⟨S159x2x160x160, .f32⟩ : BufTy).Contents (Elt F)),
    unary main_v20 main_v21 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v15 main_v22 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v15 main_v23 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v22 main_v23 main_v24 (subf : (⟨S158x2x160x160, .f32⟩ : BufTy).Contents (Elt F) → (⟨S158x2x160x160, .f32⟩ : BufTy).Contents (Elt F) → (⟨S158x2x160x160, .f32⟩ : BufTy).Contents (Elt F)),
    nullary main_cst_2 (constant S_ .f32 0x40000000#32),
    unary main_cst_2 main_v25 (broadcastInDim S158x2x160x160 ![] bcast_S_S158x2x160x160 : (⟨S_, .f32⟩ : BufTy).Contents (Elt F) → (⟨S158x2x160x160, .f32⟩ : BufTy).Contents (Elt F)),
    binary main_v24 main_v25 main_v26 (Host.divf : (⟨S158x2x160x160, .f32⟩ : BufTy).Contents (Elt F) → (⟨S158x2x160x160, .f32⟩ : BufTy).Contents (Elt F) → (⟨S158x2x160x160, .f32⟩ : BufTy).Contents (Elt F)),
    unary main_v20 main_v27 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v21, main_v26, main_v27] main_v28 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v28 main_v29 ((transpose S2x160x160x160 [1, 2, 0, 3] · transposes_S160x2x160x160_S2x160x160x160_1_2_0_3) : (⟨S160x2x160x160, .f32⟩ : BufTy).Contents (Elt F) → (⟨S2x160x160x160, .f32⟩ : BufTy).Contents (Elt F)) ]
abbrev blk1_W : List (Ref sig .tc) := [main_v15, main_v16, main_v17, main_v18, main_cst_1, main_v19, main_v20, main_v21, main_v22, main_v23, main_v24, main_cst_2, main_v25, main_v26, main_v27, main_v28, main_v29]
theorem blk1_writes : (blk1 (F := F)).Forall fun op => op.writes ⊆ (blk1_W.map (Proc.devRef (τ := τ) .tc)).toFinset :=
  ⟨writes_sub_of_mem main_v15 rfl (by decide),
   writes_sub_of_mem main_v16 rfl (by decide),
   writes_sub_of_mem main_v17 rfl (by decide),
   writes_sub_of_mem main_v18 rfl (by decide),
   writes_sub_of_mem main_cst_1 rfl (by decide),
   writes_sub_of_mem main_v19 rfl (by decide),
   writes_sub_of_mem main_v20 rfl (by decide),
   writes_sub_of_mem main_v21 rfl (by decide),
   writes_sub_of_mem main_v22 rfl (by decide),
   writes_sub_of_mem main_v23 rfl (by decide),
   writes_sub_of_mem main_v24 rfl (by decide),
   writes_sub_of_mem main_cst_2 rfl (by decide),
   writes_sub_of_mem main_v25 rfl (by decide),
   writes_sub_of_mem main_v26 rfl (by decide),
   writes_sub_of_mem main_v27 rfl (by decide),
   writes_sub_of_mem main_v28 rfl (by decide),
   writes_sub_of_mem main_v29 rfl (by decide)⟩
theorem blk1_frame (V : Valuation τ sig (Elt F)) {r : Ref sig .tc} (h : r ∉ blk1_W) :
    after (blk1 (F := F)) V (no_index (Proc.devRef .tc r)) = V (Proc.devRef .tc r) :=
  after_of_writes_sub _ V blk1_writes h
theorem blk1_val (V : Valuation τ sig (Elt F)) :
    after (blk1 (F := F)) V (no_index (Proc.devRef .tc main_v29)) = Cert.KernelIdeal.Spec.dc2 (V (Proc.devRef .tc main_arg0)) := by
  unfold blk1
  after_block_simp
  rfl

/-- Operations 34 … 50: the central difference along space axis 3 of what main_arg0 holds, left in main_v44. -/
def blk2 : List (HloOp τ sig (Elt F)) :=
  [ unary main_arg0 main_v30 ((transpose S160x2x160x160 [3, 0, 1, 2] · transposes_S2x160x160x160_S160x2x160x160_3_0_1_2) : (⟨S2x160x160x160, .f32⟩ : BufTy).Contents (Elt F) → (⟨S160x2x160x160, .f32⟩ : BufTy).Contents (Elt F)),
    unary main_v30 main_v31 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v30 main_v32 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v31 main_v32 main_v33 (subf : (⟨S159x2x160x160, .f32⟩ : BufTy).Contents (Elt F) → (⟨S159x2x160x160, .f32⟩ : BufTy).Contents (Elt F) → (⟨S159x2x160x160, .f32⟩ : BufTy).Contents (Elt F)),
    nullary main_cst_3 (constant S_ .f32 0x3F800000#32),
    unary main_cst_3 main_v34 (broadcastInDim S159x2x160x160 ![] bcast_S_S159x2x160x160 : (⟨S_, .f32⟩ : BufTy).Contents (Elt F) → (⟨S159x2x160x160, .f32⟩ : BufTy).Contents (Elt F)),
    binary main_v33 main_v34 main_v35 (Host.divf : (⟨S159x2x160x160, .f32⟩ : BufTy).Contents (Elt F) → (⟨S159x2x160x160, .f32⟩ : BufTy).Contents (Elt F) → (⟨S159x2x160x160, .f32⟩ : BufTy).Contents (Elt F)),
    unary main_v35 main_v36 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v30 main_v37 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v30 main_v38 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v37 main_v38 main_v39 (subf : (⟨S158x2x160x160, .f32⟩ : BufTy).Contents (Elt F) → (⟨S158x2x160x160, .f32⟩ : BufTy).Contents (Elt F) → (⟨S158x2x160x160, .f32⟩ : BufTy).Contents (Elt F)),
    nullary main_cst_4 (constant S_ .f32 0x40000000#32),
    unary main_cst_4 main_v40 (broadcastInDim S158x2x160x160 ![] bcast_S_S158x2x160x160 : (⟨S_, .f32⟩ : BufTy).Contents (Elt F) → (⟨S158x2x160x160, .f32⟩ : BufTy).Contents (Elt F)),
    binary main_v39 main_v40 main_v41 (Host.divf : (⟨S158x2x160x160, .f32⟩ : BufTy).Contents (Elt F) → (⟨S158x2x160x160, .f32⟩ : BufTy).Contents (Elt F) → (⟨S158x2x160x160, .f32⟩ : BufTy).Contents (Elt F)),
    unary main_v35 main_v42 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v36, main_v41, main_v42] main_v43 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v43 main_v44 ((transpose S2x160x160x160 [1, 2, 3, 0] · transposes_S160x2x160x160_S2x160x160x160_1_2_3_0) : (⟨S160x2x160x160, .f32⟩ : BufTy).Contents (Elt F) → (⟨S2x160x160x160, .f32⟩ : BufTy).Contents (Elt F)) ]
abbrev blk2_W : List (Ref sig .tc) := [main_v30, main_v31, main_v32, main_v33, main_cst_3, main_v34, main_v35, main_v36, main_v37, main_v38, main_v39, main_cst_4, main_v40, main_v41, main_v42, main_v43, main_v44]
theorem blk2_writes : (blk2 (F := F)).Forall fun op => op.writes ⊆ (blk2_W.map (Proc.devRef (τ := τ) .tc)).toFinset :=
  ⟨writes_sub_of_mem main_v30 rfl (by decide),
   writes_sub_of_mem main_v31 rfl (by decide),
   writes_sub_of_mem main_v32 rfl (by decide),
   writes_sub_of_mem main_v33 rfl (by decide),
   writes_sub_of_mem main_cst_3 rfl (by decide),
   writes_sub_of_mem main_v34 rfl (by decide),
   writes_sub_of_mem main_v35 rfl (by decide),
   writes_sub_of_mem main_v36 rfl (by decide),
   writes_sub_of_mem main_v37 rfl (by decide),
   writes_sub_of_mem main_v38 rfl (by decide),
   writes_sub_of_mem main_v39 rfl (by decide),
   writes_sub_of_mem main_cst_4 rfl (by decide),
   writes_sub_of_mem main_v40 rfl (by decide),
   writes_sub_of_mem main_v41 rfl (by decide),
   writes_sub_of_mem main_v42 rfl (by decide),
   writes_sub_of_mem main_v43 rfl (by decide),
   writes_sub_of_mem main_v44 rfl (by decide)⟩
theorem blk2_frame (V : Valuation τ sig (Elt F)) {r : Ref sig .tc} (h : r ∉ blk2_W) :
    after (blk2 (F := F)) V (no_index (Proc.devRef .tc r)) = V (Proc.devRef .tc r) :=
  after_of_writes_sub _ V blk2_writes h
theorem blk2_val (V : Valuation τ sig (Elt F)) :
    after (blk2 (F := F)) V (no_index (Proc.devRef .tc main_v44)) = Cert.KernelIdeal.Spec.dc3 (V (Proc.devRef .tc main_arg0)) := by
  unfold blk2
  after_block_simp
  rfl

/-- Operations 51 … 60: the forward difference along space axis 1 of what main_arg0 holds, left in main_v53. -/
def blk3 : List (HloOp τ sig (Elt F)) :=
  [ unary main_arg0 main_v45 ((transpose S160x2x160x160 [1, 0, 2, 3] · transposes_S2x160x160x160_S160x2x160x160_1_0_2_3) : (⟨S2x160x160x160, .f32⟩ : BufTy).Contents (Elt F) → (⟨S160x2x160x160, .f32⟩ : BufTy).Contents (Elt F)),
    unary main_v45 main_v46 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v45 main_v47 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v46 main_v47 main_v48 (subf : (⟨S159x2x160x160, .f32⟩ : BufTy).Contents (Elt F) → (⟨S159x2x160x160, .f32⟩ : BufTy).Contents (Elt F) → (⟨S159x2x160x160, .f32⟩ : BufTy).Contents (Elt F)),
    nullary main_cst_5 (constant S_ .f32 0x3F800000#32),
    unary main_cst_5 main_v49 (broadcastInDim S159x2x160x160 ![] bcast_S_S159x2x160x160 : (⟨S_, .f32⟩ : BufTy).Contents (Elt F) → (⟨S159x2x160x160, .f32⟩ : BufTy).Contents (Elt F)),
    binary main_v48 main_v49 main_v50 (Host.divf : (⟨S159x2x160x160, .f32⟩ : BufTy).Contents (Elt F) → (⟨S159x2x160x160, .f32⟩ : BufTy).Contents (Elt F) → (⟨S159x2x160x160, .f32⟩ : BufTy).Contents (Elt F)),
    unary main_v50 main_v51 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    binary main_v50 main_v51 main_v52 ((fun a b => concatenate S160x2x160x160 0 [⟨S159x2x160x160, a⟩, ⟨S1x2x160x160, b⟩] concatenates_S159x2x160x160_S1x2x160x160_S160x2x160x160_d0) : (⟨S159x2x160x160, .f32⟩ : BufTy).Contents (Elt F) → (⟨S1x2x160x160, .f32⟩ : BufTy).Contents (Elt F) → (⟨S160x2x160x160, .f32⟩ : BufTy).Contents (Elt F)),
    unary main_v52 main_v53 ((transpose S2x160x160x160 [1, 0, 2, 3] · transposes_S160x2x160x160_S2x160x160x160_1_0_2_3) : (⟨S160x2x160x160, .f32⟩ : BufTy).Contents (Elt F) → (⟨S2x160x160x160, .f32⟩ : BufTy).Contents (Elt F)) ]
abbrev blk3_W : List (Ref sig .tc) := [main_v45, main_v46, main_v47, main_v48, main_cst_5, main_v49, main_v50, main_v51, main_v52, main_v53]
theorem blk3_writes : (blk3 (F := F)).Forall fun op => op.writes ⊆ (blk3_W.map (Proc.devRef (τ := τ) .tc)).toFinset :=
  ⟨writes_sub_of_mem main_v45 rfl (by decide),
   writes_sub_of_mem main_v46 rfl (by decide),
   writes_sub_of_mem main_v47 rfl (by decide),
   writes_sub_of_mem main_v48 rfl (by decide),
   writes_sub_of_mem main_cst_5 rfl (by decide),
   writes_sub_of_mem main_v49 rfl (by decide),
   writes_sub_of_mem main_v50 rfl (by decide),
   writes_sub_of_mem main_v51 rfl (by decide),
   writes_sub_of_mem main_v52 rfl (by decide),
   writes_sub_of_mem main_v53 rfl (by decide)⟩
theorem blk3_frame (V : Valuation τ sig (Elt F)) {r : Ref sig .tc} (h : r ∉ blk3_W) :
    after (blk3 (F := F)) V (no_index (Proc.devRef .tc r)) = V (Proc.devRef .tc r) :=
  after_of_writes_sub _ V blk3_writes h
theorem blk3_val (V : Valuation τ sig (Elt F)) :
    after (blk3 (F := F)) V (no_index (Proc.devRef .tc main_v53)) = Cert.KernelIdeal.Spec.df1 (V (Proc.devRef .tc main_arg0)) := by
  unfold blk3
  after_block_simp
  rfl

/-- Operations 61 … 70: the forward difference along space axis 2 of what main_arg0 holds, left in main_v62. -/
def blk4 : List (HloOp τ sig (Elt F)) :=
  [ unary main_arg0 main_v54 ((transpose S160x2x160x160 [2, 0, 1, 3] · transposes_S2x160x160x160_S160x2x160x160_2_0_1_3) : (⟨S2x160x160x160, .f32⟩ : BufTy).Contents (Elt F) → (⟨S160x2x160x160, .f32⟩ : BufTy).Contents (Elt F)),
    unary main_v54 main_v55 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v54 main_v56 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v55 main_v56 main_v57 (subf : (⟨S159x2x160x160, .f32⟩ : BufTy).Contents (Elt F) → (⟨S159x2x160x160, .f32⟩ : BufTy).Contents (Elt F) → (⟨S159x2x160x160, .f32⟩ : BufTy).Contents (Elt F)),
    nullary main_cst_6 (constant S_ .f32 0x3F800000#32),
    unary main_cst_6 main_v58 (broadcastInDim S159x2x160x160 ![] bcast_S_S159x2x160x160 : (⟨S_, .f32⟩ : BufTy).Contents (Elt F) → (⟨S159x2x160x160, .f32⟩ : BufTy).Contents (Elt F)),
    binary main_v57 main_v58 main_v59 (Host.divf : (⟨S159x2x160x160, .f32⟩ : BufTy).Contents (Elt F) → (⟨S159x2x160x160, .f32⟩ : BufTy).Contents (Elt F) → (⟨S159x2x160x160, .f32⟩ : BufTy).Contents (Elt F)),
    unary main_v59 main_v60 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    binary main_v59 main_v60 main_v61 ((fun a b => concatenate S160x2x160x160 0 [⟨S159x2x160x160, a⟩, ⟨S1x2x160x160, b⟩] concatenates_S159x2x160x160_S1x2x160x160_S160x2x160x160_d0) : (⟨S159x2x160x160, .f32⟩ : BufTy).Contents (Elt F) → (⟨S1x2x160x160, .f32⟩ : BufTy).Contents (Elt F) → (⟨S160x2x160x160, .f32⟩ : BufTy).Contents (Elt F)),
    unary main_v61 main_v62 ((transpose S2x160x160x160 [1, 2, 0, 3] · transposes_S160x2x160x160_S2x160x160x160_1_2_0_3) : (⟨S160x2x160x160, .f32⟩ : BufTy).Contents (Elt F) → (⟨S2x160x160x160, .f32⟩ : BufTy).Contents (Elt F)) ]
abbrev blk4_W : List (Ref sig .tc) := [main_v54, main_v55, main_v56, main_v57, main_cst_6, main_v58, main_v59, main_v60, main_v61, main_v62]
theorem blk4_writes : (blk4 (F := F)).Forall fun op => op.writes ⊆ (blk4_W.map (Proc.devRef (τ := τ) .tc)).toFinset :=
  ⟨writes_sub_of_mem main_v54 rfl (by decide),
   writes_sub_of_mem main_v55 rfl (by decide),
   writes_sub_of_mem main_v56 rfl (by decide),
   writes_sub_of_mem main_v57 rfl (by decide),
   writes_sub_of_mem main_cst_6 rfl (by decide),
   writes_sub_of_mem main_v58 rfl (by decide),
   writes_sub_of_mem main_v59 rfl (by decide),
   writes_sub_of_mem main_v60 rfl (by decide),
   writes_sub_of_mem main_v61 rfl (by decide),
   writes_sub_of_mem main_v62 rfl (by decide)⟩
theorem blk4_frame (V : Valuation τ sig (Elt F)) {r : Ref sig .tc} (h : r ∉ blk4_W) :
    after (blk4 (F := F)) V (no_index (Proc.devRef .tc r)) = V (Proc.devRef .tc r) :=
  after_of_writes_sub _ V blk4_writes h
theorem blk4_val (V : Valuation τ sig (Elt F)) :
    after (blk4 (F := F)) V (no_index (Proc.devRef .tc main_v62)) = Cert.KernelIdeal.Spec.df2 (V (Proc.devRef .tc main_arg0)) := by
  unfold blk4
  after_block_simp
  rfl

/-- Operations 71 … 80: the forward difference along space axis 3 of what main_arg0 holds, left in main_v71. -/
def blk5 : List (HloOp τ sig (Elt F)) :=
  [ unary main_arg0 main_v63 ((transpose S160x2x160x160 [3, 0, 1, 2] · transposes_S2x160x160x160_S160x2x160x160_3_0_1_2) : (⟨S2x160x160x160, .f32⟩ : BufTy).Contents (Elt F) → (⟨S160x2x160x160, .f32⟩ : BufTy).Contents (Elt F)),
    unary main_v63 main_v64 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v63 main_v65 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v64 main_v65 main_v66 (subf : (⟨S159x2x160x160, .f32⟩ : BufTy).Contents (Elt F) → (⟨S159x2x160x160, .f32⟩ : BufTy).Contents (Elt F) → (⟨S159x2x160x160, .f32⟩ : BufTy).Contents (Elt F)),
    nullary main_cst_7 (constant S_ .f32 0x3F800000#32),
    unary main_cst_7 main_v67 (broadcastInDim S159x2x160x160 ![] bcast_S_S159x2x160x160 : (⟨S_, .f32⟩ : BufTy).Contents (Elt F) → (⟨S159x2x160x160, .f32⟩ : BufTy).Contents (Elt F)),
    binary main_v66 main_v67 main_v68 (Host.divf : (⟨S159x2x160x160, .f32⟩ : BufTy).Contents (Elt F) → (⟨S159x2x160x160, .f32⟩ : BufTy).Contents (Elt F) → (⟨S159x2x160x160, .f32⟩ : BufTy).Contents (Elt F)),
    unary main_v68 main_v69 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    binary main_v68 main_v69 main_v70 ((fun a b => concatenate S160x2x160x160 0 [⟨S159x2x160x160, a⟩, ⟨S1x2x160x160, b⟩] concatenates_S159x2x160x160_S1x2x160x160_S160x2x160x160_d0) : (⟨S159x2x160x160, .f32⟩ : BufTy).Contents (Elt F) → (⟨S1x2x160x160, .f32⟩ : BufTy).Contents (Elt F) → (⟨S160x2x160x160, .f32⟩ : BufTy).Contents (Elt F)),
    unary main_v70 main_v71 ((transpose S2x160x160x160 [1, 2, 3, 0] · transposes_S160x2x160x160_S2x160x160x160_1_2_3_0) : (⟨S160x2x160x160, .f32⟩ : BufTy).Contents (Elt F) → (⟨S2x160x160x160, .f32⟩ : BufTy).Contents (Elt F)) ]
abbrev blk5_W : List (Ref sig .tc) := [main_v63, main_v64, main_v65, main_v66, main_cst_7, main_v67, main_v68, main_v69, main_v70, main_v71]
theorem blk5_writes : (blk5 (F := F)).Forall fun op => op.writes ⊆ (blk5_W.map (Proc.devRef (τ := τ) .tc)).toFinset :=
  ⟨writes_sub_of_mem main_v63 rfl (by decide),
   writes_sub_of_mem main_v64 rfl (by decide),
   writes_sub_of_mem main_v65 rfl (by decide),
   writes_sub_of_mem main_v66 rfl (by decide),
   writes_sub_of_mem main_cst_7 rfl (by decide),
   writes_sub_of_mem main_v67 rfl (by decide),
   writes_sub_of_mem main_v68 rfl (by decide),
   writes_sub_of_mem main_v69 rfl (by decide),
   writes_sub_of_mem main_v70 rfl (by decide),
   writes_sub_of_mem main_v71 rfl (by decide)⟩
theorem blk5_frame (V : Valuation τ sig (Elt F)) {r : Ref sig .tc} (h : r ∉ blk5_W) :
    after (blk5 (F := F)) V (no_index (Proc.devRef .tc r)) = V (Proc.devRef .tc r) :=
  after_of_writes_sub _ V blk5_writes h
theorem blk5_val (V : Valuation τ sig (Elt F)) :
    after (blk5 (F := F)) V (no_index (Proc.devRef .tc main_v71)) = Cert.KernelIdeal.Spec.df3 (V (Proc.devRef .tc main_arg0)) := by
  unfold blk5
  after_block_simp
  rfl

/-- Operations 81 … 97: the central difference along space axis 1 of what main_arg4 holds, left in main_v86. -/
def blk6 : List (HloOp τ sig (Elt F)) :=
  [ unary main_arg4 main_v72 ((transpose S160x2x160x160 [1, 0, 2, 3] · transposes_S2x160x160x160_S160x2x160x160_1_0_2_3) : (⟨S2x160x160x160, .f32⟩ : BufTy).Contents (Elt F) → (⟨S160x2x160x160, .f32⟩ : BufTy).Contents (Elt F)),
    unary main_v72 main_v73 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v72 main_v74 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v73 main_v74 main_v75 (subf : (⟨S159x2x160x160, .f32⟩ : BufTy).Contents (Elt F) → (⟨S159x2x160x160, .f32⟩ : BufTy).Contents (Elt F) → (⟨S159x2x160x160, .f32⟩ : BufTy).Contents (Elt F)),
    nullary main_cst_8 (constant S_ .f32 0x3F800000#32),
    unary main_cst_8 main_v76 (broadcastInDim S159x2x160x160 ![] bcast_S_S159x2x160x160 : (⟨S_, .f32⟩ : BufTy).Contents (Elt F) → (⟨S159x2x160x160, .f32⟩ : BufTy).Contents (Elt F)),
    binary main_v75 main_v76 main_v77 (Host.divf : (⟨S159x2x160x160, .f32⟩ : BufTy).Contents (Elt F) → (⟨S159x2x160x160, .f32⟩ : BufTy).Contents (Elt F) → (⟨S159x2x160x160, .f32⟩ : BufTy).Contents (Elt F)),
    unary main_v77 main_v78 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v72 main_v79 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v72 main_v80 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v79 main_v80 main_v81 (subf : (⟨S158x2x160x160, .f32⟩ : BufTy).Contents (Elt F) → (⟨S158x2x160x160, .f32⟩ : BufTy).Contents (Elt F) → (⟨S158x2x160x160, .f32⟩ : BufTy).Contents (Elt F)),
    nullary main_cst_9 (constant S_ .f32 0x40000000#32),
    unary main_cst_9 main_v82 (broadcastInDim S158x2x160x160 ![] bcast_S_S158x2x160x160 : (⟨S_, .f32⟩ : BufTy).Contents (Elt F) → (⟨S158x2x160x160, .f32⟩ : BufTy).Contents (Elt F)),
    binary main_v81 main_v82 main_v83 (Host.divf : (⟨S158x2x160x160, .f32⟩ : BufTy).Contents (Elt F) → (⟨S158x2x160x160, .f32⟩ : BufTy).Contents (Elt F) → (⟨S158x2x160x160, .f32⟩ : BufTy).Contents (Elt F)),
    unary main_v77 main_v84 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v78, main_v83, main_v84] main_v85 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v85 main_v86 ((transpose S2x160x160x160 [1, 0, 2, 3] · transposes_S160x2x160x160_S2x160x160x160_1_0_2_3) : (⟨S160x2x160x160, .f32⟩ : BufTy).Contents (Elt F) → (⟨S2x160x160x160, .f32⟩ : BufTy).Contents (Elt F)) ]
abbrev blk6_W : List (Ref sig .tc) := [main_v72, main_v73, main_v74, main_v75, main_cst_8, main_v76, main_v77, main_v78, main_v79, main_v80, main_v81, main_cst_9, main_v82, main_v83, main_v84, main_v85, main_v86]
theorem blk6_writes : (blk6 (F := F)).Forall fun op => op.writes ⊆ (blk6_W.map (Proc.devRef (τ := τ) .tc)).toFinset :=
  ⟨writes_sub_of_mem main_v72 rfl (by decide),
   writes_sub_of_mem main_v73 rfl (by decide),
   writes_sub_of_mem main_v74 rfl (by decide),
   writes_sub_of_mem main_v75 rfl (by decide),
   writes_sub_of_mem main_cst_8 rfl (by decide),
   writes_sub_of_mem main_v76 rfl (by decide),
   writes_sub_of_mem main_v77 rfl (by decide),
   writes_sub_of_mem main_v78 rfl (by decide),
   writes_sub_of_mem main_v79 rfl (by decide),
   writes_sub_of_mem main_v80 rfl (by decide),
   writes_sub_of_mem main_v81 rfl (by decide),
   writes_sub_of_mem main_cst_9 rfl (by decide),
   writes_sub_of_mem main_v82 rfl (by decide),
   writes_sub_of_mem main_v83 rfl (by decide),
   writes_sub_of_mem main_v84 rfl (by decide),
   writes_sub_of_mem main_v85 rfl (by decide),
   writes_sub_of_mem main_v86 rfl (by decide)⟩
theorem blk6_frame (V : Valuation τ sig (Elt F)) {r : Ref sig .tc} (h : r ∉ blk6_W) :
    after (blk6 (F := F)) V (no_index (Proc.devRef .tc r)) = V (Proc.devRef .tc r) :=
  after_of_writes_sub _ V blk6_writes h
theorem blk6_val (V : Valuation τ sig (Elt F)) :
    after (blk6 (F := F)) V (no_index (Proc.devRef .tc main_v86)) = Cert.KernelIdeal.Spec.dc1 (V (Proc.devRef .tc main_arg4)) := by
  unfold blk6
  after_block_simp
  rfl

/-- Operations 98 … 114: the central difference along space axis 2 of what main_arg5 holds, left in main_v101. -/
def blk7 : List (HloOp τ sig (Elt F)) :=
  [ unary main_arg5 main_v87 ((transpose S160x2x160x160 [2, 0, 1, 3] · transposes_S2x160x160x160_S160x2x160x160_2_0_1_3) : (⟨S2x160x160x160, .f32⟩ : BufTy).Contents (Elt F) → (⟨S160x2x160x160, .f32⟩ : BufTy).Contents (Elt F)),
    unary main_v87 main_v88 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v87 main_v89 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v88 main_v89 main_v90 (subf : (⟨S159x2x160x160, .f32⟩ : BufTy).Contents (Elt F) → (⟨S159x2x160x160, .f32⟩ : BufTy).Contents (Elt F) → (⟨S159x2x160x160, .f32⟩ : BufTy).Contents (Elt F)),
    nullary main_cst_10 (constant S_ .f32 0x3F800000#32),
    unary main_cst_10 main_v91 (broadcastInDim S159x2x160x160 ![] bcast_S_S159x2x160x160 : (⟨S_, .f32⟩ : BufTy).Contents (Elt F) → (⟨S159x2x160x160, .f32⟩ : BufTy).Contents (Elt F)),
    binary main_v90 main_v91 main_v92 (Host.divf : (⟨S159x2x160x160, .f32⟩ : BufTy).Contents (Elt F) → (⟨S159x2x160x160, .f32⟩ : BufTy).Contents (Elt F) → (⟨S159x2x160x160, .f32⟩ : BufTy).Contents (Elt F)),
    unary main_v92 main_v93 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v87 main_v94 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v87 main_v95 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v94 main_v95 main_v96 (subf : (⟨S158x2x160x160, .f32⟩ : BufTy).Contents (Elt F) → (⟨S158x2x160x160, .f32⟩ : BufTy).Contents (Elt F) → (⟨S158x2x160x160, .f32⟩ : BufTy).Contents (Elt F)),
    nullary main_cst_11 (constant S_ .f32 0x40000000#32),
    unary main_cst_11 main_v97 (broadcastInDim S158x2x160x160 ![] bcast_S_S158x2x160x160 : (⟨S_, .f32⟩ : BufTy).Contents (Elt F) → (⟨S158x2x160x160, .f32⟩ : BufTy).Contents (Elt F)),
    binary main_v96 main_v97 main_v98 (Host.divf : (⟨S158x2x160x160, .f32⟩ : BufTy).Contents (Elt F) → (⟨S158x2x160x160, .f32⟩ : BufTy).Contents (Elt F) → (⟨S158x2x160x160, .f32⟩ : BufTy).Contents (Elt F)),
    unary main_v92 main_v99 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v93, main_v98, main_v99] main_v100 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v100 main_v101 ((transpose S2x160x160x160 [1, 2, 0, 3] · transposes_S160x2x160x160_S2x160x160x160_1_2_0_3) : (⟨S160x2x160x160, .f32⟩ : BufTy).Contents (Elt F) → (⟨S2x160x160x160, .f32⟩ : BufTy).Contents (Elt F)) ]
abbrev blk7_W : List (Ref sig .tc) := [main_v87, main_v88, main_v89, main_v90, main_cst_10, main_v91, main_v92, main_v93, main_v94, main_v95, main_v96, main_cst_11, main_v97, main_v98, main_v99, main_v100, main_v101]
theorem blk7_writes : (blk7 (F := F)).Forall fun op => op.writes ⊆ (blk7_W.map (Proc.devRef (τ := τ) .tc)).toFinset :=
  ⟨writes_sub_of_mem main_v87 rfl (by decide),
   writes_sub_of_mem main_v88 rfl (by decide),
   writes_sub_of_mem main_v89 rfl (by decide),
   writes_sub_of_mem main_v90 rfl (by decide),
   writes_sub_of_mem main_cst_10 rfl (by decide),
   writes_sub_of_mem main_v91 rfl (by decide),
   writes_sub_of_mem main_v92 rfl (by decide),
   writes_sub_of_mem main_v93 rfl (by decide),
   writes_sub_of_mem main_v94 rfl (by decide),
   writes_sub_of_mem main_v95 rfl (by decide),
   writes_sub_of_mem main_v96 rfl (by decide),
   writes_sub_of_mem main_cst_11 rfl (by decide),
   writes_sub_of_mem main_v97 rfl (by decide),
   writes_sub_of_mem main_v98 rfl (by decide),
   writes_sub_of_mem main_v99 rfl (by decide),
   writes_sub_of_mem main_v100 rfl (by decide),
   writes_sub_of_mem main_v101 rfl (by decide)⟩
theorem blk7_frame (V : Valuation τ sig (Elt F)) {r : Ref sig .tc} (h : r ∉ blk7_W) :
    after (blk7 (F := F)) V (no_index (Proc.devRef .tc r)) = V (Proc.devRef .tc r) :=
  after_of_writes_sub _ V blk7_writes h
theorem blk7_val (V : Valuation τ sig (Elt F)) :
    after (blk7 (F := F)) V (no_index (Proc.devRef .tc main_v101)) = Cert.KernelIdeal.Spec.dc2 (V (Proc.devRef .tc main_arg5)) := by
  unfold blk7
  after_block_simp
  rfl

/-- Operations 115 … 115, between two difference fields. -/
def glue8 : List (HloOp τ sig (Elt F)) :=
  [ binary main_v86 main_v101 main_v102 (addf : (⟨S2x160x160x160, .f32⟩ : BufTy).Contents (Elt F) → (⟨S2x160x160x160, .f32⟩ : BufTy).Contents (Elt F) → (⟨S2x160x160x160, .f32⟩ : BufTy).Contents (Elt F)) ]

/-- Operations 116 … 132: the central difference along space axis 3 of what main_arg6 holds, left in main_v117. -/
def blk9 : List (HloOp τ sig (Elt F)) :=
  [ unary main_arg6 main_v103 ((transpose S160x2x160x160 [3, 0, 1, 2] · transposes_S2x160x160x160_S160x2x160x160_3_0_1_2) : (⟨S2x160x160x160, .f32⟩ : BufTy).Contents (Elt F) → (⟨S160x2x160x160, .f32⟩ : BufTy).Contents (Elt F)),
    unary main_v103 main_v104 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v103 main_v105 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v104 main_v105 main_v106 (subf : (⟨S159x2x160x160, .f32⟩ : BufTy).Contents (Elt F) → (⟨S159x2x160x160, .f32⟩ : BufTy).Contents (Elt F) → (⟨S159x2x160x160, .f32⟩ : BufTy).Contents (Elt F)),
    nullary main_cst_12 (constant S_ .f32 0x3F800000#32),
    unary main_cst_12 main_v107 (broadcastInDim S159x2x160x160 ![] bcast_S_S159x2x160x160 : (⟨S_, .f32⟩ : BufTy).Contents (Elt F) → (⟨S159x2x160x160, .f32⟩ : BufTy).Contents (Elt F)),
    binary main_v106 main_v107 main_v108 (Host.divf : (⟨S159x2x160x160, .f32⟩ : BufTy).Contents (Elt F) → (⟨S159x2x160x160, .f32⟩ : BufTy).Contents (Elt F) → (⟨S159x2x160x160, .f32⟩ : BufTy).Contents (Elt F)),
    unary main_v108 main_v109 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v103 main_v110 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v103 main_v111 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v110 main_v111 main_v112 (subf : (⟨S158x2x160x160, .f32⟩ : BufTy).Contents (Elt F) → (⟨S158x2x160x160, .f32⟩ : BufTy).Contents (Elt F) → (⟨S158x2x160x160, .f32⟩ : BufTy).Contents (Elt F)),
    nullary main_cst_13 (constant S_ .f32 0x40000000#32),
    unary main_cst_13 main_v113 (broadcastInDim S158x2x160x160 ![] bcast_S_S158x2x160x160 : (⟨S_, .f32⟩ : BufTy).Contents (Elt F) → (⟨S158x2x160x160, .f32⟩ : BufTy).Contents (Elt F)),
    binary main_v112 main_v113 main_v114 (Host.divf : (⟨S158x2x160x160, .f32⟩ : BufTy).Contents (Elt F) → (⟨S158x2x160x160, .f32⟩ : BufTy).Contents (Elt F) → (⟨S158x2x160x160, .f32⟩ : BufTy).Contents (Elt F)),
    unary main_v108 main_v115 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v109, main_v114, main_v115] main_v116 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v116 main_v117 ((transpose S2x160x160x160 [1, 2, 3, 0] · transposes_S160x2x160x160_S2x160x160x160_1_2_3_0) : (⟨S160x2x160x160, .f32⟩ : BufTy).Contents (Elt F) → (⟨S2x160x160x160, .f32⟩ : BufTy).Contents (Elt F)) ]
abbrev blk9_W : List (Ref sig .tc) := [main_v103, main_v104, main_v105, main_v106, main_cst_12, main_v107, main_v108, main_v109, main_v110, main_v111, main_v112, main_cst_13, main_v113, main_v114, main_v115, main_v116, main_v117]
theorem blk9_writes : (blk9 (F := F)).Forall fun op => op.writes ⊆ (blk9_W.map (Proc.devRef (τ := τ) .tc)).toFinset :=
  ⟨writes_sub_of_mem main_v103 rfl (by decide),
   writes_sub_of_mem main_v104 rfl (by decide),
   writes_sub_of_mem main_v105 rfl (by decide),
   writes_sub_of_mem main_v106 rfl (by decide),
   writes_sub_of_mem main_cst_12 rfl (by decide),
   writes_sub_of_mem main_v107 rfl (by decide),
   writes_sub_of_mem main_v108 rfl (by decide),
   writes_sub_of_mem main_v109 rfl (by decide),
   writes_sub_of_mem main_v110 rfl (by decide),
   writes_sub_of_mem main_v111 rfl (by decide),
   writes_sub_of_mem main_v112 rfl (by decide),
   writes_sub_of_mem main_cst_13 rfl (by decide),
   writes_sub_of_mem main_v113 rfl (by decide),
   writes_sub_of_mem main_v114 rfl (by decide),
   writes_sub_of_mem main_v115 rfl (by decide),
   writes_sub_of_mem main_v116 rfl (by decide),
   writes_sub_of_mem main_v117 rfl (by decide)⟩
theorem blk9_frame (V : Valuation τ sig (Elt F)) {r : Ref sig .tc} (h : r ∉ blk9_W) :
    after (blk9 (F := F)) V (no_index (Proc.devRef .tc r)) = V (Proc.devRef .tc r) :=
  after_of_writes_sub _ V blk9_writes h
theorem blk9_val (V : Valuation τ sig (Elt F)) :
    after (blk9 (F := F)) V (no_index (Proc.devRef .tc main_v117)) = Cert.KernelIdeal.Spec.dc3 (V (Proc.devRef .tc main_arg6)) := by
  unfold blk9
  after_block_simp
  rfl

/-- Operations 133 … 134, between two difference fields. -/
def glue10 : List (HloOp τ sig (Elt F)) :=
  [ binary main_v102 main_v117 main_v118 (addf : (⟨S2x160x160x160, .f32⟩ : BufTy).Contents (Elt F) → (⟨S2x160x160x160, .f32⟩ : BufTy).Contents (Elt F) → (⟨S2x160x160x160, .f32⟩ : BufTy).Contents (Elt F)),
    binary main_v118 main_v14 main_v119 (mulf : (⟨S2x160x160x160, .f32⟩ : BufTy).Contents (Elt F) → (⟨S2x160x160x160, .f32⟩ : BufTy).Contents (Elt F) → (⟨S2x160x160x160, .f32⟩ : BufTy).Contents (Elt F)) ]

/-- Operations 135 … 151: the central difference along space axis 1 of what main_arg5 holds, left in main_v134. -/
def blk11 : List (HloOp τ sig (Elt F)) :=
  [ unary main_arg5 main_v120 ((transpose S160x2x160x160 [1, 0, 2, 3] · transposes_S2x160x160x160_S160x2x160x160_1_0_2_3) : (⟨S2x160x160x160, .f32⟩ : BufTy).Contents (Elt F) → (⟨S160x2x160x160, .f32⟩ : BufTy).Contents (Elt F)),
    unary main_v120 main_v121 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v120 main_v122 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v121 main_v122 main_v123 (subf : (⟨S159x2x160x160, .f32⟩ : BufTy).Contents (Elt F) → (⟨S159x2x160x160, .f32⟩ : BufTy).Contents (Elt F) → (⟨S159x2x160x160, .f32⟩ : BufTy).Contents (Elt F)),
    nullary main_cst_14 (constant S_ .f32 0x3F800000#32),
    unary main_cst_14 main_v124 (broadcastInDim S159x2x160x160 ![] bcast_S_S159x2x160x160 : (⟨S_, .f32⟩ : BufTy).Contents (Elt F) → (⟨S159x2x160x160, .f32⟩ : BufTy).Contents (Elt F)),
    binary main_v123 main_v124 main_v125 (Host.divf : (⟨S159x2x160x160, .f32⟩ : BufTy).Contents (Elt F) → (⟨S159x2x160x160, .f32⟩ : BufTy).Contents (Elt F) → (⟨S159x2x160x160, .f32⟩ : BufTy).Contents (Elt F)),
    unary main_v125 main_v126 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v120 main_v127 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v120 main_v128 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v127 main_v128 main_v129 (subf : (⟨S158x2x160x160, .f32⟩ : BufTy).Contents (Elt F) → (⟨S158x2x160x160, .f32⟩ : BufTy).Contents (Elt F) → (⟨S158x2x160x160, .f32⟩ : BufTy).Contents (Elt F)),
    nullary main_cst_15 (constant S_ .f32 0x40000000#32),
    unary main_cst_15 main_v130 (broadcastInDim S158x2x160x160 ![] bcast_S_S158x2x160x160 : (⟨S_, .f32⟩ : BufTy).Contents (Elt F) → (⟨S158x2x160x160, .f32⟩ : BufTy).Contents (Elt F)),
    binary main_v129 main_v130 main_v131 (Host.divf : (⟨S158x2x160x160, .f32⟩ : BufTy).Contents (Elt F) → (⟨S158x2x160x160, .f32⟩ : BufTy).Contents (Elt F) → (⟨S158x2x160x160, .f32⟩ : BufTy).Contents (Elt F)),
    unary main_v125 main_v132 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v126, main_v131, main_v132] main_v133 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v133 main_v134 ((transpose S2x160x160x160 [1, 0, 2, 3] · transposes_S160x2x160x160_S2x160x160x160_1_0_2_3) : (⟨S160x2x160x160, .f32⟩ : BufTy).Contents (Elt F) → (⟨S2x160x160x160, .f32⟩ : BufTy).Contents (Elt F)) ]
abbrev blk11_W : List (Ref sig .tc) := [main_v120, main_v121, main_v122, main_v123, main_cst_14, main_v124, main_v125, main_v126, main_v127, main_v128, main_v129, main_cst_15, main_v130, main_v131, main_v132, main_v133, main_v134]
theorem blk11_writes : (blk11 (F := F)).Forall fun op => op.writes ⊆ (blk11_W.map (Proc.devRef (τ := τ) .tc)).toFinset :=
  ⟨writes_sub_of_mem main_v120 rfl (by decide),
   writes_sub_of_mem main_v121 rfl (by decide),
   writes_sub_of_mem main_v122 rfl (by decide),
   writes_sub_of_mem main_v123 rfl (by decide),
   writes_sub_of_mem main_cst_14 rfl (by decide),
   writes_sub_of_mem main_v124 rfl (by decide),
   writes_sub_of_mem main_v125 rfl (by decide),
   writes_sub_of_mem main_v126 rfl (by decide),
   writes_sub_of_mem main_v127 rfl (by decide),
   writes_sub_of_mem main_v128 rfl (by decide),
   writes_sub_of_mem main_v129 rfl (by decide),
   writes_sub_of_mem main_cst_15 rfl (by decide),
   writes_sub_of_mem main_v130 rfl (by decide),
   writes_sub_of_mem main_v131 rfl (by decide),
   writes_sub_of_mem main_v132 rfl (by decide),
   writes_sub_of_mem main_v133 rfl (by decide),
   writes_sub_of_mem main_v134 rfl (by decide)⟩
theorem blk11_frame (V : Valuation τ sig (Elt F)) {r : Ref sig .tc} (h : r ∉ blk11_W) :
    after (blk11 (F := F)) V (no_index (Proc.devRef .tc r)) = V (Proc.devRef .tc r) :=
  after_of_writes_sub _ V blk11_writes h
theorem blk11_val (V : Valuation τ sig (Elt F)) :
    after (blk11 (F := F)) V (no_index (Proc.devRef .tc main_v134)) = Cert.KernelIdeal.Spec.dc1 (V (Proc.devRef .tc main_arg5)) := by
  unfold blk11
  after_block_simp
  rfl

/-- Operations 152 … 168: the central difference along space axis 2 of what main_arg7 holds, left in main_v149. -/
def blk12 : List (HloOp τ sig (Elt F)) :=
  [ unary main_arg7 main_v135 ((transpose S160x2x160x160 [2, 0, 1, 3] · transposes_S2x160x160x160_S160x2x160x160_2_0_1_3) : (⟨S2x160x160x160, .f32⟩ : BufTy).Contents (Elt F) → (⟨S160x2x160x160, .f32⟩ : BufTy).Contents (Elt F)),
    unary main_v135 main_v136 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v135 main_v137 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v136 main_v137 main_v138 (subf : (⟨S159x2x160x160, .f32⟩ : BufTy).Contents (Elt F) → (⟨S159x2x160x160, .f32⟩ : BufTy).Contents (Elt F) → (⟨S159x2x160x160, .f32⟩ : BufTy).Contents (Elt F)),
    nullary main_cst_16 (constant S_ .f32 0x3F800000#32),
    unary main_cst_16 main_v139 (broadcastInDim S159x2x160x160 ![] bcast_S_S159x2x160x160 : (⟨S_, .f32⟩ : BufTy).Contents (Elt F) → (⟨S159x2x160x160, .f32⟩ : BufTy).Contents (Elt F)),
    binary main_v138 main_v139 main_v140 (Host.divf : (⟨S159x2x160x160, .f32⟩ : BufTy).Contents (Elt F) → (⟨S159x2x160x160, .f32⟩ : BufTy).Contents (Elt F) → (⟨S159x2x160x160, .f32⟩ : BufTy).Contents (Elt F)),
    unary main_v140 main_v141 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v135 main_v142 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v135 main_v143 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v142 main_v143 main_v144 (subf : (⟨S158x2x160x160, .f32⟩ : BufTy).Contents (Elt F) → (⟨S158x2x160x160, .f32⟩ : BufTy).Contents (Elt F) → (⟨S158x2x160x160, .f32⟩ : BufTy).Contents (Elt F)),
    nullary main_cst_17 (constant S_ .f32 0x40000000#32),
    unary main_cst_17 main_v145 (broadcastInDim S158x2x160x160 ![] bcast_S_S158x2x160x160 : (⟨S_, .f32⟩ : BufTy).Contents (Elt F) → (⟨S158x2x160x160, .f32⟩ : BufTy).Contents (Elt F)),
    binary main_v144 main_v145 main_v146 (Host.divf : (⟨S158x2x160x160, .f32⟩ : BufTy).Contents (Elt F) → (⟨S158x2x160x160, .f32⟩ : BufTy).Contents (Elt F) → (⟨S158x2x160x160, .f32⟩ : BufTy).Contents (Elt F)),
    unary main_v140 main_v147 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v141, main_v146, main_v147] main_v148 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v148 main_v149 ((transpose S2x160x160x160 [1, 2, 0, 3] · transposes_S160x2x160x160_S2x160x160x160_1_2_0_3) : (⟨S160x2x160x160, .f32⟩ : BufTy).Contents (Elt F) → (⟨S2x160x160x160, .f32⟩ : BufTy).Contents (Elt F)) ]
abbrev blk12_W : List (Ref sig .tc) := [main_v135, main_v136, main_v137, main_v138, main_cst_16, main_v139, main_v140, main_v141, main_v142, main_v143, main_v144, main_cst_17, main_v145, main_v146, main_v147, main_v148, main_v149]
theorem blk12_writes : (blk12 (F := F)).Forall fun op => op.writes ⊆ (blk12_W.map (Proc.devRef (τ := τ) .tc)).toFinset :=
  ⟨writes_sub_of_mem main_v135 rfl (by decide),
   writes_sub_of_mem main_v136 rfl (by decide),
   writes_sub_of_mem main_v137 rfl (by decide),
   writes_sub_of_mem main_v138 rfl (by decide),
   writes_sub_of_mem main_cst_16 rfl (by decide),
   writes_sub_of_mem main_v139 rfl (by decide),
   writes_sub_of_mem main_v140 rfl (by decide),
   writes_sub_of_mem main_v141 rfl (by decide),
   writes_sub_of_mem main_v142 rfl (by decide),
   writes_sub_of_mem main_v143 rfl (by decide),
   writes_sub_of_mem main_v144 rfl (by decide),
   writes_sub_of_mem main_cst_17 rfl (by decide),
   writes_sub_of_mem main_v145 rfl (by decide),
   writes_sub_of_mem main_v146 rfl (by decide),
   writes_sub_of_mem main_v147 rfl (by decide),
   writes_sub_of_mem main_v148 rfl (by decide),
   writes_sub_of_mem main_v149 rfl (by decide)⟩
theorem blk12_frame (V : Valuation τ sig (Elt F)) {r : Ref sig .tc} (h : r ∉ blk12_W) :
    after (blk12 (F := F)) V (no_index (Proc.devRef .tc r)) = V (Proc.devRef .tc r) :=
  after_of_writes_sub _ V blk12_writes h
theorem blk12_val (V : Valuation τ sig (Elt F)) :
    after (blk12 (F := F)) V (no_index (Proc.devRef .tc main_v149)) = Cert.KernelIdeal.Spec.dc2 (V (Proc.devRef .tc main_arg7)) := by
  unfold blk12
  after_block_simp
  rfl

/-- Operations 169 … 169, between two difference fields. -/
def glue13 : List (HloOp τ sig (Elt F)) :=
  [ binary main_v134 main_v149 main_v150 (addf : (⟨S2x160x160x160, .f32⟩ : BufTy).Contents (Elt F) → (⟨S2x160x160x160, .f32⟩ : BufTy).Contents (Elt F) → (⟨S2x160x160x160, .f32⟩ : BufTy).Contents (Elt F)) ]

/-- Operations 170 … 186: the central difference along space axis 3 of what main_arg8 holds, left in main_v165. -/
def blk14 : List (HloOp τ sig (Elt F)) :=
  [ unary main_arg8 main_v151 ((transpose S160x2x160x160 [3, 0, 1, 2] · transposes_S2x160x160x160_S160x2x160x160_3_0_1_2) : (⟨S2x160x160x160, .f32⟩ : BufTy).Contents (Elt F) → (⟨S160x2x160x160, .f32⟩ : BufTy).Contents (Elt F)),
    unary main_v151 main_v152 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v151 main_v153 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v152 main_v153 main_v154 (subf : (⟨S159x2x160x160, .f32⟩ : BufTy).Contents (Elt F) → (⟨S159x2x160x160, .f32⟩ : BufTy).Contents (Elt F) → (⟨S159x2x160x160, .f32⟩ : BufTy).Contents (Elt F)),
    nullary main_cst_18 (constant S_ .f32 0x3F800000#32),
    unary main_cst_18 main_v155 (broadcastInDim S159x2x160x160 ![] bcast_S_S159x2x160x160 : (⟨S_, .f32⟩ : BufTy).Contents (Elt F) → (⟨S159x2x160x160, .f32⟩ : BufTy).Contents (Elt F)),
    binary main_v154 main_v155 main_v156 (Host.divf : (⟨S159x2x160x160, .f32⟩ : BufTy).Contents (Elt F) → (⟨S159x2x160x160, .f32⟩ : BufTy).Contents (Elt F) → (⟨S159x2x160x160, .f32⟩ : BufTy).Contents (Elt F)),
    unary main_v156 main_v157 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v151 main_v158 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v151 main_v159 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v158 main_v159 main_v160 (subf : (⟨S158x2x160x160, .f32⟩ : BufTy).Contents (Elt F) → (⟨S158x2x160x160, .f32⟩ : BufTy).Contents (Elt F) → (⟨S158x2x160x160, .f32⟩ : BufTy).Contents (Elt F)),
    nullary main_cst_19 (constant S_ .f32 0x40000000#32),
    unary main_cst_19 main_v161 (broadcastInDim S158x2x160x160 ![] bcast_S_S158x2x160x160 : (⟨S_, .f32⟩ : BufTy).Contents (Elt F) → (⟨S158x2x160x160, .f32⟩ : BufTy).Contents (Elt F)),
    binary main_v160 main_v161 main_v162 (Host.divf : (⟨S158x2x160x160, .f32⟩ : BufTy).Contents (Elt F) → (⟨S158x2x160x160, .f32⟩ : BufTy).Contents (Elt F) → (⟨S158x2x160x160, .f32⟩ : BufTy).Contents (Elt F)),
    unary main_v156 main_v163 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v157, main_v162, main_v163] main_v164 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v164 main_v165 ((transpose S2x160x160x160 [1, 2, 3, 0] · transposes_S160x2x160x160_S2x160x160x160_1_2_3_0) : (⟨S160x2x160x160, .f32⟩ : BufTy).Contents (Elt F) → (⟨S2x160x160x160, .f32⟩ : BufTy).Contents (Elt F)) ]
abbrev blk14_W : List (Ref sig .tc) := [main_v151, main_v152, main_v153, main_v154, main_cst_18, main_v155, main_v156, main_v157, main_v158, main_v159, main_v160, main_cst_19, main_v161, main_v162, main_v163, main_v164, main_v165]
theorem blk14_writes : (blk14 (F := F)).Forall fun op => op.writes ⊆ (blk14_W.map (Proc.devRef (τ := τ) .tc)).toFinset :=
  ⟨writes_sub_of_mem main_v151 rfl (by decide),
   writes_sub_of_mem main_v152 rfl (by decide),
   writes_sub_of_mem main_v153 rfl (by decide),
   writes_sub_of_mem main_v154 rfl (by decide),
   writes_sub_of_mem main_cst_18 rfl (by decide),
   writes_sub_of_mem main_v155 rfl (by decide),
   writes_sub_of_mem main_v156 rfl (by decide),
   writes_sub_of_mem main_v157 rfl (by decide),
   writes_sub_of_mem main_v158 rfl (by decide),
   writes_sub_of_mem main_v159 rfl (by decide),
   writes_sub_of_mem main_v160 rfl (by decide),
   writes_sub_of_mem main_cst_19 rfl (by decide),
   writes_sub_of_mem main_v161 rfl (by decide),
   writes_sub_of_mem main_v162 rfl (by decide),
   writes_sub_of_mem main_v163 rfl (by decide),
   writes_sub_of_mem main_v164 rfl (by decide),
   writes_sub_of_mem main_v165 rfl (by decide)⟩
theorem blk14_frame (V : Valuation τ sig (Elt F)) {r : Ref sig .tc} (h : r ∉ blk14_W) :
    after (blk14 (F := F)) V (no_index (Proc.devRef .tc r)) = V (Proc.devRef .tc r) :=
  after_of_writes_sub _ V blk14_writes h
theorem blk14_val (V : Valuation τ sig (Elt F)) :
    after (blk14 (F := F)) V (no_index (Proc.devRef .tc main_v165)) = Cert.KernelIdeal.Spec.dc3 (V (Proc.devRef .tc main_arg8)) := by
  unfold blk14
  after_block_simp
  rfl

/-- Operations 187 … 189, between two difference fields. -/
def glue15 : List (HloOp τ sig (Elt F)) :=
  [ binary main_v150 main_v165 main_v166 (addf : (⟨S2x160x160x160, .f32⟩ : BufTy).Contents (Elt F) → (⟨S2x160x160x160, .f32⟩ : BufTy).Contents (Elt F) → (⟨S2x160x160x160, .f32⟩ : BufTy).Contents (Elt F)),
    binary main_v166 main_v29 main_v167 (mulf : (⟨S2x160x160x160, .f32⟩ : BufTy).Contents (Elt F) → (⟨S2x160x160x160, .f32⟩ : BufTy).Contents (Elt F) → (⟨S2x160x160x160, .f32⟩ : BufTy).Contents (Elt F)),
    binary main_v119 main_v167 main_v168 (addf : (⟨S2x160x160x160, .f32⟩ : BufTy).Contents (Elt F) → (⟨S2x160x160x160, .f32⟩ : BufTy).Contents (Elt F) → (⟨S2x160x160x160, .f32⟩ : BufTy).Contents (Elt F)) ]

/-- Operations 190 … 206: the central difference along space axis 1 of what main_arg6 holds, left in main_v183. -/
def blk16 : List (HloOp τ sig (Elt F)) :=
  [ unary main_arg6 main_v169 ((transpose S160x2x160x160 [1, 0, 2, 3] · transposes_S2x160x160x160_S160x2x160x160_1_0_2_3) : (⟨S2x160x160x160, .f32⟩ : BufTy).Contents (Elt F) → (⟨S160x2x160x160, .f32⟩ : BufTy).Contents (Elt F)),
    unary main_v169 main_v170 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v169 main_v171 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v170 main_v171 main_v172 (subf : (⟨S159x2x160x160, .f32⟩ : BufTy).Contents (Elt F) → (⟨S159x2x160x160, .f32⟩ : BufTy).Contents (Elt F) → (⟨S159x2x160x160, .f32⟩ : BufTy).Contents (Elt F)),
    nullary main_cst_20 (constant S_ .f32 0x3F800000#32),
    unary main_cst_20 main_v173 (broadcastInDim S159x2x160x160 ![] bcast_S_S159x2x160x160 : (⟨S_, .f32⟩ : BufTy).Contents (Elt F) → (⟨S159x2x160x160, .f32⟩ : BufTy).Contents (Elt F)),
    binary main_v172 main_v173 main_v174 (Host.divf : (⟨S159x2x160x160, .f32⟩ : BufTy).Contents (Elt F) → (⟨S159x2x160x160, .f32⟩ : BufTy).Contents (Elt F) → (⟨S159x2x160x160, .f32⟩ : BufTy).Contents (Elt F)),
    unary main_v174 main_v175 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v169 main_v176 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v169 main_v177 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v176 main_v177 main_v178 (subf : (⟨S158x2x160x160, .f32⟩ : BufTy).Contents (Elt F) → (⟨S158x2x160x160, .f32⟩ : BufTy).Contents (Elt F) → (⟨S158x2x160x160, .f32⟩ : BufTy).Contents (Elt F)),
    nullary main_cst_21 (constant S_ .f32 0x40000000#32),
    unary main_cst_21 main_v179 (broadcastInDim S158x2x160x160 ![] bcast_S_S158x2x160x160 : (⟨S_, .f32⟩ : BufTy).Contents (Elt F) → (⟨S158x2x160x160, .f32⟩ : BufTy).Contents (Elt F)),
    binary main_v178 main_v179 main_v180 (Host.divf : (⟨S158x2x160x160, .f32⟩ : BufTy).Contents (Elt F) → (⟨S158x2x160x160, .f32⟩ : BufTy).Contents (Elt F) → (⟨S158x2x160x160, .f32⟩ : BufTy).Contents (Elt F)),
    unary main_v174 main_v181 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v175, main_v180, main_v181] main_v182 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v182 main_v183 ((transpose S2x160x160x160 [1, 0, 2, 3] · transposes_S160x2x160x160_S2x160x160x160_1_0_2_3) : (⟨S160x2x160x160, .f32⟩ : BufTy).Contents (Elt F) → (⟨S2x160x160x160, .f32⟩ : BufTy).Contents (Elt F)) ]
abbrev blk16_W : List (Ref sig .tc) := [main_v169, main_v170, main_v171, main_v172, main_cst_20, main_v173, main_v174, main_v175, main_v176, main_v177, main_v178, main_cst_21, main_v179, main_v180, main_v181, main_v182, main_v183]
theorem blk16_writes : (blk16 (F := F)).Forall fun op => op.writes ⊆ (blk16_W.map (Proc.devRef (τ := τ) .tc)).toFinset :=
  ⟨writes_sub_of_mem main_v169 rfl (by decide),
   writes_sub_of_mem main_v170 rfl (by decide),
   writes_sub_of_mem main_v171 rfl (by decide),
   writes_sub_of_mem main_v172 rfl (by decide),
   writes_sub_of_mem main_cst_20 rfl (by decide),
   writes_sub_of_mem main_v173 rfl (by decide),
   writes_sub_of_mem main_v174 rfl (by decide),
   writes_sub_of_mem main_v175 rfl (by decide),
   writes_sub_of_mem main_v176 rfl (by decide),
   writes_sub_of_mem main_v177 rfl (by decide),
   writes_sub_of_mem main_v178 rfl (by decide),
   writes_sub_of_mem main_cst_21 rfl (by decide),
   writes_sub_of_mem main_v179 rfl (by decide),
   writes_sub_of_mem main_v180 rfl (by decide),
   writes_sub_of_mem main_v181 rfl (by decide),
   writes_sub_of_mem main_v182 rfl (by decide),
   writes_sub_of_mem main_v183 rfl (by decide)⟩
theorem blk16_frame (V : Valuation τ sig (Elt F)) {r : Ref sig .tc} (h : r ∉ blk16_W) :
    after (blk16 (F := F)) V (no_index (Proc.devRef .tc r)) = V (Proc.devRef .tc r) :=
  after_of_writes_sub _ V blk16_writes h
theorem blk16_val (V : Valuation τ sig (Elt F)) :
    after (blk16 (F := F)) V (no_index (Proc.devRef .tc main_v183)) = Cert.KernelIdeal.Spec.dc1 (V (Proc.devRef .tc main_arg6)) := by
  unfold blk16
  after_block_simp
  rfl

/-- Operations 207 … 223: the central difference along space axis 2 of what main_arg8 holds, left in main_v198. -/
def blk17 : List (HloOp τ sig (Elt F)) :=
  [ unary main_arg8 main_v184 ((transpose S160x2x160x160 [2, 0, 1, 3] · transposes_S2x160x160x160_S160x2x160x160_2_0_1_3) : (⟨S2x160x160x160, .f32⟩ : BufTy).Contents (Elt F) → (⟨S160x2x160x160, .f32⟩ : BufTy).Contents (Elt F)),
    unary main_v184 main_v185 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v184 main_v186 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v185 main_v186 main_v187 (subf : (⟨S159x2x160x160, .f32⟩ : BufTy).Contents (Elt F) → (⟨S159x2x160x160, .f32⟩ : BufTy).Contents (Elt F) → (⟨S159x2x160x160, .f32⟩ : BufTy).Contents (Elt F)),
    nullary main_cst_22 (constant S_ .f32 0x3F800000#32),
    unary main_cst_22 main_v188 (broadcastInDim S159x2x160x160 ![] bcast_S_S159x2x160x160 : (⟨S_, .f32⟩ : BufTy).Contents (Elt F) → (⟨S159x2x160x160, .f32⟩ : BufTy).Contents (Elt F)),
    binary main_v187 main_v188 main_v189 (Host.divf : (⟨S159x2x160x160, .f32⟩ : BufTy).Contents (Elt F) → (⟨S159x2x160x160, .f32⟩ : BufTy).Contents (Elt F) → (⟨S159x2x160x160, .f32⟩ : BufTy).Contents (Elt F)),
    unary main_v189 main_v190 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v184 main_v191 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v184 main_v192 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v191 main_v192 main_v193 (subf : (⟨S158x2x160x160, .f32⟩ : BufTy).Contents (Elt F) → (⟨S158x2x160x160, .f32⟩ : BufTy).Contents (Elt F) → (⟨S158x2x160x160, .f32⟩ : BufTy).Contents (Elt F)),
    nullary main_cst_23 (constant S_ .f32 0x40000000#32),
    unary main_cst_23 main_v194 (broadcastInDim S158x2x160x160 ![] bcast_S_S158x2x160x160 : (⟨S_, .f32⟩ : BufTy).Contents (Elt F) → (⟨S158x2x160x160, .f32⟩ : BufTy).Contents (Elt F)),
    binary main_v193 main_v194 main_v195 (Host.divf : (⟨S158x2x160x160, .f32⟩ : BufTy).Contents (Elt F) → (⟨S158x2x160x160, .f32⟩ : BufTy).Contents (Elt F) → (⟨S158x2x160x160, .f32⟩ : BufTy).Contents (Elt F)),
    unary main_v189 main_v196 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v190, main_v195, main_v196] main_v197 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v197 main_v198 ((transpose S2x160x160x160 [1, 2, 0, 3] · transposes_S160x2x160x160_S2x160x160x160_1_2_0_3) : (⟨S160x2x160x160, .f32⟩ : BufTy).Contents (Elt F) → (⟨S2x160x160x160, .f32⟩ : BufTy).Contents (Elt F)) ]
abbrev blk17_W : List (Ref sig .tc) := [main_v184, main_v185, main_v186, main_v187, main_cst_22, main_v188, main_v189, main_v190, main_v191, main_v192, main_v193, main_cst_23, main_v194, main_v195, main_v196, main_v197, main_v198]
theorem blk17_writes : (blk17 (F := F)).Forall fun op => op.writes ⊆ (blk17_W.map (Proc.devRef (τ := τ) .tc)).toFinset :=
  ⟨writes_sub_of_mem main_v184 rfl (by decide),
   writes_sub_of_mem main_v185 rfl (by decide),
   writes_sub_of_mem main_v186 rfl (by decide),
   writes_sub_of_mem main_v187 rfl (by decide),
   writes_sub_of_mem main_cst_22 rfl (by decide),
   writes_sub_of_mem main_v188 rfl (by decide),
   writes_sub_of_mem main_v189 rfl (by decide),
   writes_sub_of_mem main_v190 rfl (by decide),
   writes_sub_of_mem main_v191 rfl (by decide),
   writes_sub_of_mem main_v192 rfl (by decide),
   writes_sub_of_mem main_v193 rfl (by decide),
   writes_sub_of_mem main_cst_23 rfl (by decide),
   writes_sub_of_mem main_v194 rfl (by decide),
   writes_sub_of_mem main_v195 rfl (by decide),
   writes_sub_of_mem main_v196 rfl (by decide),
   writes_sub_of_mem main_v197 rfl (by decide),
   writes_sub_of_mem main_v198 rfl (by decide)⟩
theorem blk17_frame (V : Valuation τ sig (Elt F)) {r : Ref sig .tc} (h : r ∉ blk17_W) :
    after (blk17 (F := F)) V (no_index (Proc.devRef .tc r)) = V (Proc.devRef .tc r) :=
  after_of_writes_sub _ V blk17_writes h
theorem blk17_val (V : Valuation τ sig (Elt F)) :
    after (blk17 (F := F)) V (no_index (Proc.devRef .tc main_v198)) = Cert.KernelIdeal.Spec.dc2 (V (Proc.devRef .tc main_arg8)) := by
  unfold blk17
  after_block_simp
  rfl

/-- Operations 224 … 224, between two difference fields. -/
def glue18 : List (HloOp τ sig (Elt F)) :=
  [ binary main_v183 main_v198 main_v199 (addf : (⟨S2x160x160x160, .f32⟩ : BufTy).Contents (Elt F) → (⟨S2x160x160x160, .f32⟩ : BufTy).Contents (Elt F) → (⟨S2x160x160x160, .f32⟩ : BufTy).Contents (Elt F)) ]

/-- Operations 225 … 241: the central difference along space axis 3 of what main_arg9 holds, left in main_v214. -/
def blk19 : List (HloOp τ sig (Elt F)) :=
  [ unary main_arg9 main_v200 ((transpose S160x2x160x160 [3, 0, 1, 2] · transposes_S2x160x160x160_S160x2x160x160_3_0_1_2) : (⟨S2x160x160x160, .f32⟩ : BufTy).Contents (Elt F) → (⟨S160x2x160x160, .f32⟩ : BufTy).Contents (Elt F)),
    unary main_v200 main_v201 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v200 main_v202 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v201 main_v202 main_v203 (subf : (⟨S159x2x160x160, .f32⟩ : BufTy).Contents (Elt F) → (⟨S159x2x160x160, .f32⟩ : BufTy).Contents (Elt F) → (⟨S159x2x160x160, .f32⟩ : BufTy).Contents (Elt F)),
    nullary main_cst_24 (constant S_ .f32 0x3F800000#32),
    unary main_cst_24 main_v204 (broadcastInDim S159x2x160x160 ![] bcast_S_S159x2x160x160 : (⟨S_, .f32⟩ : BufTy).Contents (Elt F) → (⟨S159x2x160x160, .f32⟩ : BufTy).Contents (Elt F)),
    binary main_v203 main_v204 main_v205 (Host.divf : (⟨S159x2x160x160, .f32⟩ : BufTy).Contents (Elt F) → (⟨S159x2x160x160, .f32⟩ : BufTy).Contents (Elt F) → (⟨S159x2x160x160, .f32⟩ : BufTy).Contents (Elt F)),
    unary main_v205 main_v206 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v200 main_v207 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v200 main_v208 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v207 main_v208 main_v209 (subf : (⟨S158x2x160x160, .f32⟩ : BufTy).Contents (Elt F) → (⟨S158x2x160x160, .f32⟩ : BufTy).Contents (Elt F) → (⟨S158x2x160x160, .f32⟩ : BufTy).Contents (Elt F)),
    nullary main_cst_25 (constant S_ .f32 0x40000000#32),
    unary main_cst_25 main_v210 (broadcastInDim S158x2x160x160 ![] bcast_S_S158x2x160x160 : (⟨S_, .f32⟩ : BufTy).Contents (Elt F) → (⟨S158x2x160x160, .f32⟩ : BufTy).Contents (Elt F)),
    binary main_v209 main_v210 main_v211 (Host.divf : (⟨S158x2x160x160, .f32⟩ : BufTy).Contents (Elt F) → (⟨S158x2x160x160, .f32⟩ : BufTy).Contents (Elt F) → (⟨S158x2x160x160, .f32⟩ : BufTy).Contents (Elt F)),
    unary main_v205 main_v212 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v206, main_v211, main_v212] main_v213 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v213 main_v214 ((transpose S2x160x160x160 [1, 2, 3, 0] · transposes_S160x2x160x160_S2x160x160x160_1_2_3_0) : (⟨S160x2x160x160, .f32⟩ : BufTy).Contents (Elt F) → (⟨S2x160x160x160, .f32⟩ : BufTy).Contents (Elt F)) ]
abbrev blk19_W : List (Ref sig .tc) := [main_v200, main_v201, main_v202, main_v203, main_cst_24, main_v204, main_v205, main_v206, main_v207, main_v208, main_v209, main_cst_25, main_v210, main_v211, main_v212, main_v213, main_v214]
theorem blk19_writes : (blk19 (F := F)).Forall fun op => op.writes ⊆ (blk19_W.map (Proc.devRef (τ := τ) .tc)).toFinset :=
  ⟨writes_sub_of_mem main_v200 rfl (by decide),
   writes_sub_of_mem main_v201 rfl (by decide),
   writes_sub_of_mem main_v202 rfl (by decide),
   writes_sub_of_mem main_v203 rfl (by decide),
   writes_sub_of_mem main_cst_24 rfl (by decide),
   writes_sub_of_mem main_v204 rfl (by decide),
   writes_sub_of_mem main_v205 rfl (by decide),
   writes_sub_of_mem main_v206 rfl (by decide),
   writes_sub_of_mem main_v207 rfl (by decide),
   writes_sub_of_mem main_v208 rfl (by decide),
   writes_sub_of_mem main_v209 rfl (by decide),
   writes_sub_of_mem main_cst_25 rfl (by decide),
   writes_sub_of_mem main_v210 rfl (by decide),
   writes_sub_of_mem main_v211 rfl (by decide),
   writes_sub_of_mem main_v212 rfl (by decide),
   writes_sub_of_mem main_v213 rfl (by decide),
   writes_sub_of_mem main_v214 rfl (by decide)⟩
theorem blk19_frame (V : Valuation τ sig (Elt F)) {r : Ref sig .tc} (h : r ∉ blk19_W) :
    after (blk19 (F := F)) V (no_index (Proc.devRef .tc r)) = V (Proc.devRef .tc r) :=
  after_of_writes_sub _ V blk19_writes h
theorem blk19_val (V : Valuation τ sig (Elt F)) :
    after (blk19 (F := F)) V (no_index (Proc.devRef .tc main_v214)) = Cert.KernelIdeal.Spec.dc3 (V (Proc.devRef .tc main_arg9)) := by
  unfold blk19
  after_block_simp
  rfl

/-- Operations 242 … 244, between two difference fields. -/
def glue20 : List (HloOp τ sig (Elt F)) :=
  [ binary main_v199 main_v214 main_v215 (addf : (⟨S2x160x160x160, .f32⟩ : BufTy).Contents (Elt F) → (⟨S2x160x160x160, .f32⟩ : BufTy).Contents (Elt F) → (⟨S2x160x160x160, .f32⟩ : BufTy).Contents (Elt F)),
    binary main_v215 main_v44 main_v216 (mulf : (⟨S2x160x160x160, .f32⟩ : BufTy).Contents (Elt F) → (⟨S2x160x160x160, .f32⟩ : BufTy).Contents (Elt F) → (⟨S2x160x160x160, .f32⟩ : BufTy).Contents (Elt F)),
    binary main_v168 main_v216 main_v217 (addf : (⟨S2x160x160x160, .f32⟩ : BufTy).Contents (Elt F) → (⟨S2x160x160x160, .f32⟩ : BufTy).Contents (Elt F) → (⟨S2x160x160x160, .f32⟩ : BufTy).Contents (Elt F)) ]

/-- Operations 245 … 254: the backward difference along space axis 1 of what main_v53 holds, left in main_v226. -/
def blk21 : List (HloOp τ sig (Elt F)) :=
  [ unary main_v53 main_v218 ((transpose S160x2x160x160 [1, 0, 2, 3] · transposes_S2x160x160x160_S160x2x160x160_1_0_2_3) : (⟨S2x160x160x160, .f32⟩ : BufTy).Contents (Elt F) → (⟨S160x2x160x160, .f32⟩ : BufTy).Contents (Elt F)),
    unary main_v218 main_v219 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v218 main_v220 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v219 main_v220 main_v221 (subf : (⟨S159x2x160x160, .f32⟩ : BufTy).Contents (Elt F) → (⟨S159x2x160x160, .f32⟩ : BufTy).Contents (Elt F) → (⟨S159x2x160x160, .f32⟩ : BufTy).Contents (Elt F)),
    nullary main_cst_26 (constant S_ .f32 0x3F800000#32),
    unary main_cst_26 main_v222 (broadcastInDim S159x2x160x160 ![] bcast_S_S159x2x160x160 : (⟨S_, .f32⟩ : BufTy).Contents (Elt F) → (⟨S159x2x160x160, .f32⟩ : BufTy).Contents (Elt F)),
    binary main_v221 main_v222 main_v223 (Host.divf : (⟨S159x2x160x160, .f32⟩ : BufTy).Contents (Elt F) → (⟨S159x2x160x160, .f32⟩ : BufTy).Contents (Elt F) → (⟨S159x2x160x160, .f32⟩ : BufTy).Contents (Elt F)),
    unary main_v223 main_v224 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v224 main_v223 main_v225 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v225 main_v226 ((transpose S2x160x160x160 [1, 0, 2, 3] · transposes_S160x2x160x160_S2x160x160x160_1_0_2_3) : (⟨S160x2x160x160, .f32⟩ : BufTy).Contents (Elt F) → (⟨S2x160x160x160, .f32⟩ : BufTy).Contents (Elt F)) ]
abbrev blk21_W : List (Ref sig .tc) := [main_v218, main_v219, main_v220, main_v221, main_cst_26, main_v222, main_v223, main_v224, main_v225, main_v226]
theorem blk21_writes : (blk21 (F := F)).Forall fun op => op.writes ⊆ (blk21_W.map (Proc.devRef (τ := τ) .tc)).toFinset :=
  ⟨writes_sub_of_mem main_v218 rfl (by decide),
   writes_sub_of_mem main_v219 rfl (by decide),
   writes_sub_of_mem main_v220 rfl (by decide),
   writes_sub_of_mem main_v221 rfl (by decide),
   writes_sub_of_mem main_cst_26 rfl (by decide),
   writes_sub_of_mem main_v222 rfl (by decide),
   writes_sub_of_mem main_v223 rfl (by decide),
   writes_sub_of_mem main_v224 rfl (by decide),
   writes_sub_of_mem main_v225 rfl (by decide),
   writes_sub_of_mem main_v226 rfl (by decide)⟩
theorem blk21_frame (V : Valuation τ sig (Elt F)) {r : Ref sig .tc} (h : r ∉ blk21_W) :
    after (blk21 (F := F)) V (no_index (Proc.devRef .tc r)) = V (Proc.devRef .tc r) :=
  after_of_writes_sub _ V blk21_writes h
theorem blk21_val (V : Valuation τ sig (Elt F)) :
    after (blk21 (F := F)) V (no_index (Proc.devRef .tc main_v226)) = Cert.KernelIdeal.Spec.db1 (V (Proc.devRef .tc main_v53)) := by
  unfold blk21
  after_block_simp
  rfl

/-- Operations 255 … 256, between two difference fields. -/
def glue22 : List (HloOp τ sig (Elt F)) :=
  [ binary main_arg4 main_v226 main_v227 (mulf : (⟨S2x160x160x160, .f32⟩ : BufTy).Contents (Elt F) → (⟨S2x160x160x160, .f32⟩ : BufTy).Contents (Elt F) → (⟨S2x160x160x160, .f32⟩ : BufTy).Contents (Elt F)),
    binary main_v217 main_v227 main_v228 (addf : (⟨S2x160x160x160, .f32⟩ : BufTy).Contents (Elt F) → (⟨S2x160x160x160, .f32⟩ : BufTy).Contents (Elt F) → (⟨S2x160x160x160, .f32⟩ : BufTy).Contents (Elt F)) ]

/-- Operations 257 … 266: the backward difference along space axis 2 of what main_v62 holds, left in main_v237. -/
def blk23 : List (HloOp τ sig (Elt F)) :=
  [ unary main_v62 main_v229 ((transpose S160x2x160x160 [2, 0, 1, 3] · transposes_S2x160x160x160_S160x2x160x160_2_0_1_3) : (⟨S2x160x160x160, .f32⟩ : BufTy).Contents (Elt F) → (⟨S160x2x160x160, .f32⟩ : BufTy).Contents (Elt F)),
    unary main_v229 main_v230 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v229 main_v231 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v230 main_v231 main_v232 (subf : (⟨S159x2x160x160, .f32⟩ : BufTy).Contents (Elt F) → (⟨S159x2x160x160, .f32⟩ : BufTy).Contents (Elt F) → (⟨S159x2x160x160, .f32⟩ : BufTy).Contents (Elt F)),
    nullary main_cst_27 (constant S_ .f32 0x3F800000#32),
    unary main_cst_27 main_v233 (broadcastInDim S159x2x160x160 ![] bcast_S_S159x2x160x160 : (⟨S_, .f32⟩ : BufTy).Contents (Elt F) → (⟨S159x2x160x160, .f32⟩ : BufTy).Contents (Elt F)),
    binary main_v232 main_v233 main_v234 (Host.divf : (⟨S159x2x160x160, .f32⟩ : BufTy).Contents (Elt F) → (⟨S159x2x160x160, .f32⟩ : BufTy).Contents (Elt F) → (⟨S159x2x160x160, .f32⟩ : BufTy).Contents (Elt F)),
    unary main_v234 main_v235 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v235 main_v234 main_v236 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v236 main_v237 ((transpose S2x160x160x160 [1, 2, 0, 3] · transposes_S160x2x160x160_S2x160x160x160_1_2_0_3) : (⟨S160x2x160x160, .f32⟩ : BufTy).Contents (Elt F) → (⟨S2x160x160x160, .f32⟩ : BufTy).Contents (Elt F)) ]
abbrev blk23_W : List (Ref sig .tc) := [main_v229, main_v230, main_v231, main_v232, main_cst_27, main_v233, main_v234, main_v235, main_v236, main_v237]
theorem blk23_writes : (blk23 (F := F)).Forall fun op => op.writes ⊆ (blk23_W.map (Proc.devRef (τ := τ) .tc)).toFinset :=
  ⟨writes_sub_of_mem main_v229 rfl (by decide),
   writes_sub_of_mem main_v230 rfl (by decide),
   writes_sub_of_mem main_v231 rfl (by decide),
   writes_sub_of_mem main_v232 rfl (by decide),
   writes_sub_of_mem main_cst_27 rfl (by decide),
   writes_sub_of_mem main_v233 rfl (by decide),
   writes_sub_of_mem main_v234 rfl (by decide),
   writes_sub_of_mem main_v235 rfl (by decide),
   writes_sub_of_mem main_v236 rfl (by decide),
   writes_sub_of_mem main_v237 rfl (by decide)⟩
theorem blk23_frame (V : Valuation τ sig (Elt F)) {r : Ref sig .tc} (h : r ∉ blk23_W) :
    after (blk23 (F := F)) V (no_index (Proc.devRef .tc r)) = V (Proc.devRef .tc r) :=
  after_of_writes_sub _ V blk23_writes h
theorem blk23_val (V : Valuation τ sig (Elt F)) :
    after (blk23 (F := F)) V (no_index (Proc.devRef .tc main_v237)) = Cert.KernelIdeal.Spec.db2 (V (Proc.devRef .tc main_v62)) := by
  unfold blk23
  after_block_simp
  rfl

/-- Operations 267 … 268, between two difference fields. -/
def glue24 : List (HloOp τ sig (Elt F)) :=
  [ binary main_arg7 main_v237 main_v238 (mulf : (⟨S2x160x160x160, .f32⟩ : BufTy).Contents (Elt F) → (⟨S2x160x160x160, .f32⟩ : BufTy).Contents (Elt F) → (⟨S2x160x160x160, .f32⟩ : BufTy).Contents (Elt F)),
    binary main_v228 main_v238 main_v239 (addf : (⟨S2x160x160x160, .f32⟩ : BufTy).Contents (Elt F) → (⟨S2x160x160x160, .f32⟩ : BufTy).Contents (Elt F) → (⟨S2x160x160x160, .f32⟩ : BufTy).Contents (Elt F)) ]

/-- Operations 269 … 278: the backward difference along space axis 3 of what main_v71 holds, left in main_v248. -/
def blk25 : List (HloOp τ sig (Elt F)) :=
  [ unary main_v71 main_v240 ((transpose S160x2x160x160 [3, 0, 1, 2] · transposes_S2x160x160x160_S160x2x160x160_3_0_1_2) : (⟨S2x160x160x160, .f32⟩ : BufTy).Contents (Elt F) → (⟨S160x2x160x160, .f32⟩ : BufTy).Contents (Elt F)),
    unary main_v240 main_v241 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v240 main_v242 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v241 main_v242 main_v243 (subf : (⟨S159x2x160x160, .f32⟩ : BufTy).Contents (Elt F) → (⟨S159x2x160x160, .f32⟩ : BufTy).Contents (Elt F) → (⟨S159x2x160x160, .f32⟩ : BufTy).Contents (Elt F)),
    nullary main_cst_28 (constant S_ .f32 0x3F800000#32),
    unary main_cst_28 main_v244 (broadcastInDim S159x2x160x160 ![] bcast_S_S159x2x160x160 : (⟨S_, .f32⟩ : BufTy).Contents (Elt F) → (⟨S159x2x160x160, .f32⟩ : BufTy).Contents (Elt F)),
    binary main_v243 main_v244 main_v245 (Host.divf : (⟨S159x2x160x160, .f32⟩ : BufTy).Contents (Elt F) → (⟨S159x2x160x160, .f32⟩ : BufTy).Contents (Elt F) → (⟨S159x2x160x160, .f32⟩ : BufTy).Contents (Elt F)),
    unary main_v245 main_v246 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v246 main_v245 main_v247 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v247 main_v248 ((transpose S2x160x160x160 [1, 2, 3, 0] · transposes_S160x2x160x160_S2x160x160x160_1_2_3_0) : (⟨S160x2x160x160, .f32⟩ : BufTy).Contents (Elt F) → (⟨S2x160x160x160, .f32⟩ : BufTy).Contents (Elt F)) ]
abbrev blk25_W : List (Ref sig .tc) := [main_v240, main_v241, main_v242, main_v243, main_cst_28, main_v244, main_v245, main_v246, main_v247, main_v248]
theorem blk25_writes : (blk25 (F := F)).Forall fun op => op.writes ⊆ (blk25_W.map (Proc.devRef (τ := τ) .tc)).toFinset :=
  ⟨writes_sub_of_mem main_v240 rfl (by decide),
   writes_sub_of_mem main_v241 rfl (by decide),
   writes_sub_of_mem main_v242 rfl (by decide),
   writes_sub_of_mem main_v243 rfl (by decide),
   writes_sub_of_mem main_cst_28 rfl (by decide),
   writes_sub_of_mem main_v244 rfl (by decide),
   writes_sub_of_mem main_v245 rfl (by decide),
   writes_sub_of_mem main_v246 rfl (by decide),
   writes_sub_of_mem main_v247 rfl (by decide),
   writes_sub_of_mem main_v248 rfl (by decide)⟩
theorem blk25_frame (V : Valuation τ sig (Elt F)) {r : Ref sig .tc} (h : r ∉ blk25_W) :
    after (blk25 (F := F)) V (no_index (Proc.devRef .tc r)) = V (Proc.devRef .tc r) :=
  after_of_writes_sub _ V blk25_writes h
theorem blk25_val (V : Valuation τ sig (Elt F)) :
    after (blk25 (F := F)) V (no_index (Proc.devRef .tc main_v248)) = Cert.KernelIdeal.Spec.db3 (V (Proc.devRef .tc main_v71)) := by
  unfold blk25
  after_block_simp
  rfl

/-- Operations 279 … 280, between two difference fields. -/
def glue26 : List (HloOp τ sig (Elt F)) :=
  [ binary main_arg9 main_v248 main_v249 (mulf : (⟨S2x160x160x160, .f32⟩ : BufTy).Contents (Elt F) → (⟨S2x160x160x160, .f32⟩ : BufTy).Contents (Elt F) → (⟨S2x160x160x160, .f32⟩ : BufTy).Contents (Elt F)),
    binary main_v239 main_v249 main_v250 (addf : (⟨S2x160x160x160, .f32⟩ : BufTy).Contents (Elt F) → (⟨S2x160x160x160, .f32⟩ : BufTy).Contents (Elt F) → (⟨S2x160x160x160, .f32⟩ : BufTy).Contents (Elt F)) ]

/-- Operations 281 … 290: the backward difference along space axis 1 of what main_v62 holds, left in main_v259. -/
def blk27 : List (HloOp τ sig (Elt F)) :=
  [ unary main_v62 main_v251 ((transpose S160x2x160x160 [1, 0, 2, 3] · transposes_S2x160x160x160_S160x2x160x160_1_0_2_3) : (⟨S2x160x160x160, .f32⟩ : BufTy).Contents (Elt F) → (⟨S160x2x160x160, .f32⟩ : BufTy).Contents (Elt F)),
    unary main_v251 main_v252 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v251 main_v253 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v252 main_v253 main_v254 (subf : (⟨S159x2x160x160, .f32⟩ : BufTy).Contents (Elt F) → (⟨S159x2x160x160, .f32⟩ : BufTy).Contents (Elt F) → (⟨S159x2x160x160, .f32⟩ : BufTy).Contents (Elt F)),
    nullary main_cst_29 (constant S_ .f32 0x3F800000#32),
    unary main_cst_29 main_v255 (broadcastInDim S159x2x160x160 ![] bcast_S_S159x2x160x160 : (⟨S_, .f32⟩ : BufTy).Contents (Elt F) → (⟨S159x2x160x160, .f32⟩ : BufTy).Contents (Elt F)),
    binary main_v254 main_v255 main_v256 (Host.divf : (⟨S159x2x160x160, .f32⟩ : BufTy).Contents (Elt F) → (⟨S159x2x160x160, .f32⟩ : BufTy).Contents (Elt F) → (⟨S159x2x160x160, .f32⟩ : BufTy).Contents (Elt F)),
    unary main_v256 main_v257 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v257 main_v256 main_v258 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v258 main_v259 ((transpose S2x160x160x160 [1, 0, 2, 3] · transposes_S160x2x160x160_S2x160x160x160_1_0_2_3) : (⟨S160x2x160x160, .f32⟩ : BufTy).Contents (Elt F) → (⟨S2x160x160x160, .f32⟩ : BufTy).Contents (Elt F)) ]
abbrev blk27_W : List (Ref sig .tc) := [main_v251, main_v252, main_v253, main_v254, main_cst_29, main_v255, main_v256, main_v257, main_v258, main_v259]
theorem blk27_writes : (blk27 (F := F)).Forall fun op => op.writes ⊆ (blk27_W.map (Proc.devRef (τ := τ) .tc)).toFinset :=
  ⟨writes_sub_of_mem main_v251 rfl (by decide),
   writes_sub_of_mem main_v252 rfl (by decide),
   writes_sub_of_mem main_v253 rfl (by decide),
   writes_sub_of_mem main_v254 rfl (by decide),
   writes_sub_of_mem main_cst_29 rfl (by decide),
   writes_sub_of_mem main_v255 rfl (by decide),
   writes_sub_of_mem main_v256 rfl (by decide),
   writes_sub_of_mem main_v257 rfl (by decide),
   writes_sub_of_mem main_v258 rfl (by decide),
   writes_sub_of_mem main_v259 rfl (by decide)⟩
theorem blk27_frame (V : Valuation τ sig (Elt F)) {r : Ref sig .tc} (h : r ∉ blk27_W) :
    after (blk27 (F := F)) V (no_index (Proc.devRef .tc r)) = V (Proc.devRef .tc r) :=
  after_of_writes_sub _ V blk27_writes h
theorem blk27_val (V : Valuation τ sig (Elt F)) :
    after (blk27 (F := F)) V (no_index (Proc.devRef .tc main_v259)) = Cert.KernelIdeal.Spec.db1 (V (Proc.devRef .tc main_v62)) := by
  unfold blk27
  after_block_simp
  rfl

/-- Operations 291 … 300: the backward difference along space axis 2 of what main_v53 holds, left in main_v268. -/
def blk28 : List (HloOp τ sig (Elt F)) :=
  [ unary main_v53 main_v260 ((transpose S160x2x160x160 [2, 0, 1, 3] · transposes_S2x160x160x160_S160x2x160x160_2_0_1_3) : (⟨S2x160x160x160, .f32⟩ : BufTy).Contents (Elt F) → (⟨S160x2x160x160, .f32⟩ : BufTy).Contents (Elt F)),
    unary main_v260 main_v261 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v260 main_v262 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v261 main_v262 main_v263 (subf : (⟨S159x2x160x160, .f32⟩ : BufTy).Contents (Elt F) → (⟨S159x2x160x160, .f32⟩ : BufTy).Contents (Elt F) → (⟨S159x2x160x160, .f32⟩ : BufTy).Contents (Elt F)),
    nullary main_cst_30 (constant S_ .f32 0x3F800000#32),
    unary main_cst_30 main_v264 (broadcastInDim S159x2x160x160 ![] bcast_S_S159x2x160x160 : (⟨S_, .f32⟩ : BufTy).Contents (Elt F) → (⟨S159x2x160x160, .f32⟩ : BufTy).Contents (Elt F)),
    binary main_v263 main_v264 main_v265 (Host.divf : (⟨S159x2x160x160, .f32⟩ : BufTy).Contents (Elt F) → (⟨S159x2x160x160, .f32⟩ : BufTy).Contents (Elt F) → (⟨S159x2x160x160, .f32⟩ : BufTy).Contents (Elt F)),
    unary main_v265 main_v266 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v266 main_v265 main_v267 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v267 main_v268 ((transpose S2x160x160x160 [1, 2, 0, 3] · transposes_S160x2x160x160_S2x160x160x160_1_2_0_3) : (⟨S160x2x160x160, .f32⟩ : BufTy).Contents (Elt F) → (⟨S2x160x160x160, .f32⟩ : BufTy).Contents (Elt F)) ]
abbrev blk28_W : List (Ref sig .tc) := [main_v260, main_v261, main_v262, main_v263, main_cst_30, main_v264, main_v265, main_v266, main_v267, main_v268]
theorem blk28_writes : (blk28 (F := F)).Forall fun op => op.writes ⊆ (blk28_W.map (Proc.devRef (τ := τ) .tc)).toFinset :=
  ⟨writes_sub_of_mem main_v260 rfl (by decide),
   writes_sub_of_mem main_v261 rfl (by decide),
   writes_sub_of_mem main_v262 rfl (by decide),
   writes_sub_of_mem main_v263 rfl (by decide),
   writes_sub_of_mem main_cst_30 rfl (by decide),
   writes_sub_of_mem main_v264 rfl (by decide),
   writes_sub_of_mem main_v265 rfl (by decide),
   writes_sub_of_mem main_v266 rfl (by decide),
   writes_sub_of_mem main_v267 rfl (by decide),
   writes_sub_of_mem main_v268 rfl (by decide)⟩
theorem blk28_frame (V : Valuation τ sig (Elt F)) {r : Ref sig .tc} (h : r ∉ blk28_W) :
    after (blk28 (F := F)) V (no_index (Proc.devRef .tc r)) = V (Proc.devRef .tc r) :=
  after_of_writes_sub _ V blk28_writes h
theorem blk28_val (V : Valuation τ sig (Elt F)) :
    after (blk28 (F := F)) V (no_index (Proc.devRef .tc main_v268)) = Cert.KernelIdeal.Spec.db2 (V (Proc.devRef .tc main_v53)) := by
  unfold blk28
  after_block_simp
  rfl

/-- Operations 301 … 303, between two difference fields. -/
def glue29 : List (HloOp τ sig (Elt F)) :=
  [ binary main_v259 main_v268 main_v269 (addf : (⟨S2x160x160x160, .f32⟩ : BufTy).Contents (Elt F) → (⟨S2x160x160x160, .f32⟩ : BufTy).Contents (Elt F) → (⟨S2x160x160x160, .f32⟩ : BufTy).Contents (Elt F)),
    binary main_arg5 main_v269 main_v270 (mulf : (⟨S2x160x160x160, .f32⟩ : BufTy).Contents (Elt F) → (⟨S2x160x160x160, .f32⟩ : BufTy).Contents (Elt F) → (⟨S2x160x160x160, .f32⟩ : BufTy).Contents (Elt F)),
    binary main_v250 main_v270 main_v271 (addf : (⟨S2x160x160x160, .f32⟩ : BufTy).Contents (Elt F) → (⟨S2x160x160x160, .f32⟩ : BufTy).Contents (Elt F) → (⟨S2x160x160x160, .f32⟩ : BufTy).Contents (Elt F)) ]

/-- Operations 304 … 313: the backward difference along space axis 2 of what main_v71 holds, left in main_v280. -/
def blk30 : List (HloOp τ sig (Elt F)) :=
  [ unary main_v71 main_v272 ((transpose S160x2x160x160 [2, 0, 1, 3] · transposes_S2x160x160x160_S160x2x160x160_2_0_1_3) : (⟨S2x160x160x160, .f32⟩ : BufTy).Contents (Elt F) → (⟨S160x2x160x160, .f32⟩ : BufTy).Contents (Elt F)),
    unary main_v272 main_v273 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v272 main_v274 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v273 main_v274 main_v275 (subf : (⟨S159x2x160x160, .f32⟩ : BufTy).Contents (Elt F) → (⟨S159x2x160x160, .f32⟩ : BufTy).Contents (Elt F) → (⟨S159x2x160x160, .f32⟩ : BufTy).Contents (Elt F)),
    nullary main_cst_31 (constant S_ .f32 0x3F800000#32),
    unary main_cst_31 main_v276 (broadcastInDim S159x2x160x160 ![] bcast_S_S159x2x160x160 : (⟨S_, .f32⟩ : BufTy).Contents (Elt F) → (⟨S159x2x160x160, .f32⟩ : BufTy).Contents (Elt F)),
    binary main_v275 main_v276 main_v277 (Host.divf : (⟨S159x2x160x160, .f32⟩ : BufTy).Contents (Elt F) → (⟨S159x2x160x160, .f32⟩ : BufTy).Contents (Elt F) → (⟨S159x2x160x160, .f32⟩ : BufTy).Contents (Elt F)),
    unary main_v277 main_v278 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v278 main_v277 main_v279 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v279 main_v280 ((transpose S2x160x160x160 [1, 2, 0, 3] · transposes_S160x2x160x160_S2x160x160x160_1_2_0_3) : (⟨S160x2x160x160, .f32⟩ : BufTy).Contents (Elt F) → (⟨S2x160x160x160, .f32⟩ : BufTy).Contents (Elt F)) ]
abbrev blk30_W : List (Ref sig .tc) := [main_v272, main_v273, main_v274, main_v275, main_cst_31, main_v276, main_v277, main_v278, main_v279, main_v280]
theorem blk30_writes : (blk30 (F := F)).Forall fun op => op.writes ⊆ (blk30_W.map (Proc.devRef (τ := τ) .tc)).toFinset :=
  ⟨writes_sub_of_mem main_v272 rfl (by decide),
   writes_sub_of_mem main_v273 rfl (by decide),
   writes_sub_of_mem main_v274 rfl (by decide),
   writes_sub_of_mem main_v275 rfl (by decide),
   writes_sub_of_mem main_cst_31 rfl (by decide),
   writes_sub_of_mem main_v276 rfl (by decide),
   writes_sub_of_mem main_v277 rfl (by decide),
   writes_sub_of_mem main_v278 rfl (by decide),
   writes_sub_of_mem main_v279 rfl (by decide),
   writes_sub_of_mem main_v280 rfl (by decide)⟩
theorem blk30_frame (V : Valuation τ sig (Elt F)) {r : Ref sig .tc} (h : r ∉ blk30_W) :
    after (blk30 (F := F)) V (no_index (Proc.devRef .tc r)) = V (Proc.devRef .tc r) :=
  after_of_writes_sub _ V blk30_writes h
theorem blk30_val (V : Valuation τ sig (Elt F)) :
    after (blk30 (F := F)) V (no_index (Proc.devRef .tc main_v280)) = Cert.KernelIdeal.Spec.db2 (V (Proc.devRef .tc main_v71)) := by
  unfold blk30
  after_block_simp
  rfl

/-- Operations 314 … 323: the backward difference along space axis 3 of what main_v62 holds, left in main_v289. -/
def blk31 : List (HloOp τ sig (Elt F)) :=
  [ unary main_v62 main_v281 ((transpose S160x2x160x160 [3, 0, 1, 2] · transposes_S2x160x160x160_S160x2x160x160_3_0_1_2) : (⟨S2x160x160x160, .f32⟩ : BufTy).Contents (Elt F) → (⟨S160x2x160x160, .f32⟩ : BufTy).Contents (Elt F)),
    unary main_v281 main_v282 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v281 main_v283 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v282 main_v283 main_v284 (subf : (⟨S159x2x160x160, .f32⟩ : BufTy).Contents (Elt F) → (⟨S159x2x160x160, .f32⟩ : BufTy).Contents (Elt F) → (⟨S159x2x160x160, .f32⟩ : BufTy).Contents (Elt F)),
    nullary main_cst_32 (constant S_ .f32 0x3F800000#32),
    unary main_cst_32 main_v285 (broadcastInDim S159x2x160x160 ![] bcast_S_S159x2x160x160 : (⟨S_, .f32⟩ : BufTy).Contents (Elt F) → (⟨S159x2x160x160, .f32⟩ : BufTy).Contents (Elt F)),
    binary main_v284 main_v285 main_v286 (Host.divf : (⟨S159x2x160x160, .f32⟩ : BufTy).Contents (Elt F) → (⟨S159x2x160x160, .f32⟩ : BufTy).Contents (Elt F) → (⟨S159x2x160x160, .f32⟩ : BufTy).Contents (Elt F)),
    unary main_v286 main_v287 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v287 main_v286 main_v288 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v288 main_v289 ((transpose S2x160x160x160 [1, 2, 3, 0] · transposes_S160x2x160x160_S2x160x160x160_1_2_3_0) : (⟨S160x2x160x160, .f32⟩ : BufTy).Contents (Elt F) → (⟨S2x160x160x160, .f32⟩ : BufTy).Contents (Elt F)) ]
abbrev blk31_W : List (Ref sig .tc) := [main_v281, main_v282, main_v283, main_v284, main_cst_32, main_v285, main_v286, main_v287, main_v288, main_v289]
theorem blk31_writes : (blk31 (F := F)).Forall fun op => op.writes ⊆ (blk31_W.map (Proc.devRef (τ := τ) .tc)).toFinset :=
  ⟨writes_sub_of_mem main_v281 rfl (by decide),
   writes_sub_of_mem main_v282 rfl (by decide),
   writes_sub_of_mem main_v283 rfl (by decide),
   writes_sub_of_mem main_v284 rfl (by decide),
   writes_sub_of_mem main_cst_32 rfl (by decide),
   writes_sub_of_mem main_v285 rfl (by decide),
   writes_sub_of_mem main_v286 rfl (by decide),
   writes_sub_of_mem main_v287 rfl (by decide),
   writes_sub_of_mem main_v288 rfl (by decide),
   writes_sub_of_mem main_v289 rfl (by decide)⟩
theorem blk31_frame (V : Valuation τ sig (Elt F)) {r : Ref sig .tc} (h : r ∉ blk31_W) :
    after (blk31 (F := F)) V (no_index (Proc.devRef .tc r)) = V (Proc.devRef .tc r) :=
  after_of_writes_sub _ V blk31_writes h
theorem blk31_val (V : Valuation τ sig (Elt F)) :
    after (blk31 (F := F)) V (no_index (Proc.devRef .tc main_v289)) = Cert.KernelIdeal.Spec.db3 (V (Proc.devRef .tc main_v62)) := by
  unfold blk31
  after_block_simp
  rfl

/-- Operations 324 … 326, between two difference fields. -/
def glue32 : List (HloOp τ sig (Elt F)) :=
  [ binary main_v280 main_v289 main_v290 (addf : (⟨S2x160x160x160, .f32⟩ : BufTy).Contents (Elt F) → (⟨S2x160x160x160, .f32⟩ : BufTy).Contents (Elt F) → (⟨S2x160x160x160, .f32⟩ : BufTy).Contents (Elt F)),
    binary main_arg8 main_v290 main_v291 (mulf : (⟨S2x160x160x160, .f32⟩ : BufTy).Contents (Elt F) → (⟨S2x160x160x160, .f32⟩ : BufTy).Contents (Elt F) → (⟨S2x160x160x160, .f32⟩ : BufTy).Contents (Elt F)),
    binary main_v271 main_v291 main_v292 (addf : (⟨S2x160x160x160, .f32⟩ : BufTy).Contents (Elt F) → (⟨S2x160x160x160, .f32⟩ : BufTy).Contents (Elt F) → (⟨S2x160x160x160, .f32⟩ : BufTy).Contents (Elt F)) ]

/-- Operations 327 … 336: the backward difference along space axis 3 of what main_v53 holds, left in main_v301. -/
def blk33 : List (HloOp τ sig (Elt F)) :=
  [ unary main_v53 main_v293 ((transpose S160x2x160x160 [3, 0, 1, 2] · transposes_S2x160x160x160_S160x2x160x160_3_0_1_2) : (⟨S2x160x160x160, .f32⟩ : BufTy).Contents (Elt F) → (⟨S160x2x160x160, .f32⟩ : BufTy).Contents (Elt F)),
    unary main_v293 main_v294 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v293 main_v295 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v294 main_v295 main_v296 (subf : (⟨S159x2x160x160, .f32⟩ : BufTy).Contents (Elt F) → (⟨S159x2x160x160, .f32⟩ : BufTy).Contents (Elt F) → (⟨S159x2x160x160, .f32⟩ : BufTy).Contents (Elt F)),
    nullary main_cst_33 (constant S_ .f32 0x3F800000#32),
    unary main_cst_33 main_v297 (broadcastInDim S159x2x160x160 ![] bcast_S_S159x2x160x160 : (⟨S_, .f32⟩ : BufTy).Contents (Elt F) → (⟨S159x2x160x160, .f32⟩ : BufTy).Contents (Elt F)),
    binary main_v296 main_v297 main_v298 (Host.divf : (⟨S159x2x160x160, .f32⟩ : BufTy).Contents (Elt F) → (⟨S159x2x160x160, .f32⟩ : BufTy).Contents (Elt F) → (⟨S159x2x160x160, .f32⟩ : BufTy).Contents (Elt F)),
    unary main_v298 main_v299 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v299 main_v298 main_v300 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v300 main_v301 ((transpose S2x160x160x160 [1, 2, 3, 0] · transposes_S160x2x160x160_S2x160x160x160_1_2_3_0) : (⟨S160x2x160x160, .f32⟩ : BufTy).Contents (Elt F) → (⟨S2x160x160x160, .f32⟩ : BufTy).Contents (Elt F)) ]
abbrev blk33_W : List (Ref sig .tc) := [main_v293, main_v294, main_v295, main_v296, main_cst_33, main_v297, main_v298, main_v299, main_v300, main_v301]
theorem blk33_writes : (blk33 (F := F)).Forall fun op => op.writes ⊆ (blk33_W.map (Proc.devRef (τ := τ) .tc)).toFinset :=
  ⟨writes_sub_of_mem main_v293 rfl (by decide),
   writes_sub_of_mem main_v294 rfl (by decide),
   writes_sub_of_mem main_v295 rfl (by decide),
   writes_sub_of_mem main_v296 rfl (by decide),
   writes_sub_of_mem main_cst_33 rfl (by decide),
   writes_sub_of_mem main_v297 rfl (by decide),
   writes_sub_of_mem main_v298 rfl (by decide),
   writes_sub_of_mem main_v299 rfl (by decide),
   writes_sub_of_mem main_v300 rfl (by decide),
   writes_sub_of_mem main_v301 rfl (by decide)⟩
theorem blk33_frame (V : Valuation τ sig (Elt F)) {r : Ref sig .tc} (h : r ∉ blk33_W) :
    after (blk33 (F := F)) V (no_index (Proc.devRef .tc r)) = V (Proc.devRef .tc r) :=
  after_of_writes_sub _ V blk33_writes h
theorem blk33_val (V : Valuation τ sig (Elt F)) :
    after (blk33 (F := F)) V (no_index (Proc.devRef .tc main_v301)) = Cert.KernelIdeal.Spec.db3 (V (Proc.devRef .tc main_v53)) := by
  unfold blk33
  after_block_simp
  rfl

/-- Operations 337 … 346: the backward difference along space axis 1 of what main_v71 holds, left in main_v310. -/
def blk34 : List (HloOp τ sig (Elt F)) :=
  [ unary main_v71 main_v302 ((transpose S160x2x160x160 [1, 0, 2, 3] · transposes_S2x160x160x160_S160x2x160x160_1_0_2_3) : (⟨S2x160x160x160, .f32⟩ : BufTy).Contents (Elt F) → (⟨S160x2x160x160, .f32⟩ : BufTy).Contents (Elt F)),
    unary main_v302 main_v303 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v302 main_v304 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v303 main_v304 main_v305 (subf : (⟨S159x2x160x160, .f32⟩ : BufTy).Contents (Elt F) → (⟨S159x2x160x160, .f32⟩ : BufTy).Contents (Elt F) → (⟨S159x2x160x160, .f32⟩ : BufTy).Contents (Elt F)),
    nullary main_cst_34 (constant S_ .f32 0x3F800000#32),
    unary main_cst_34 main_v306 (broadcastInDim S159x2x160x160 ![] bcast_S_S159x2x160x160 : (⟨S_, .f32⟩ : BufTy).Contents (Elt F) → (⟨S159x2x160x160, .f32⟩ : BufTy).Contents (Elt F)),
    binary main_v305 main_v306 main_v307 (Host.divf : (⟨S159x2x160x160, .f32⟩ : BufTy).Contents (Elt F) → (⟨S159x2x160x160, .f32⟩ : BufTy).Contents (Elt F) → (⟨S159x2x160x160, .f32⟩ : BufTy).Contents (Elt F)),
    unary main_v307 main_v308 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v308 main_v307 main_v309 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v309 main_v310 ((transpose S2x160x160x160 [1, 0, 2, 3] · transposes_S160x2x160x160_S2x160x160x160_1_0_2_3) : (⟨S160x2x160x160, .f32⟩ : BufTy).Contents (Elt F) → (⟨S2x160x160x160, .f32⟩ : BufTy).Contents (Elt F)) ]
abbrev blk34_W : List (Ref sig .tc) := [main_v302, main_v303, main_v304, main_v305, main_cst_34, main_v306, main_v307, main_v308, main_v309, main_v310]
theorem blk34_writes : (blk34 (F := F)).Forall fun op => op.writes ⊆ (blk34_W.map (Proc.devRef (τ := τ) .tc)).toFinset :=
  ⟨writes_sub_of_mem main_v302 rfl (by decide),
   writes_sub_of_mem main_v303 rfl (by decide),
   writes_sub_of_mem main_v304 rfl (by decide),
   writes_sub_of_mem main_v305 rfl (by decide),
   writes_sub_of_mem main_cst_34 rfl (by decide),
   writes_sub_of_mem main_v306 rfl (by decide),
   writes_sub_of_mem main_v307 rfl (by decide),
   writes_sub_of_mem main_v308 rfl (by decide),
   writes_sub_of_mem main_v309 rfl (by decide),
   writes_sub_of_mem main_v310 rfl (by decide)⟩
theorem blk34_frame (V : Valuation τ sig (Elt F)) {r : Ref sig .tc} (h : r ∉ blk34_W) :
    after (blk34 (F := F)) V (no_index (Proc.devRef .tc r)) = V (Proc.devRef .tc r) :=
  after_of_writes_sub _ V blk34_writes h
theorem blk34_val (V : Valuation τ sig (Elt F)) :
    after (blk34 (F := F)) V (no_index (Proc.devRef .tc main_v310)) = Cert.KernelIdeal.Spec.db1 (V (Proc.devRef .tc main_v71)) := by
  unfold blk34
  after_block_simp
  rfl

/-- Operations 347 … 352, between two difference fields. -/
def glue35 : List (HloOp τ sig (Elt F)) :=
  [ binary main_v301 main_v310 main_v311 (addf : (⟨S2x160x160x160, .f32⟩ : BufTy).Contents (Elt F) → (⟨S2x160x160x160, .f32⟩ : BufTy).Contents (Elt F) → (⟨S2x160x160x160, .f32⟩ : BufTy).Contents (Elt F)),
    binary main_arg6 main_v311 main_v312 (mulf : (⟨S2x160x160x160, .f32⟩ : BufTy).Contents (Elt F) → (⟨S2x160x160x160, .f32⟩ : BufTy).Contents (Elt F) → (⟨S2x160x160x160, .f32⟩ : BufTy).Contents (Elt F)),
    binary main_v292 main_v312 main_v313 (addf : (⟨S2x160x160x160, .f32⟩ : BufTy).Contents (Elt F) → (⟨S2x160x160x160, .f32⟩ : BufTy).Contents (Elt F) → (⟨S2x160x160x160, .f32⟩ : BufTy).Contents (Elt F)),
    nullary main_cst_35 (constant S_ .f32 0x00000000#32),
    unary main_cst_35 main_v314 (broadcastInDim S2x160x160x160 ![] bcast_S_S2x160x160x160 : (⟨S_, .f32⟩ : BufTy).Contents (Elt F) → (⟨S2x160x160x160, .f32⟩ : BufTy).Contents (Elt F)),
    binary main_arg1 main_v314 main_v315 (cmpf .ogt : (⟨S2x160x160x160, .f32⟩ : BufTy).Contents (Elt F) → (⟨S2x160x160x160, .f32⟩ : BufTy).Contents (Elt F) → (⟨S2x160x160x160, .i1⟩ : BufTy).Contents (Elt F)) ]

/-- Operations 353 … 362: the backward difference along space axis 1 of what main_arg0 holds, left in main_v324. -/
def blk36 : List (HloOp τ sig (Elt F)) :=
  [ unary main_arg0 main_v316 ((transpose S160x2x160x160 [1, 0, 2, 3] · transposes_S2x160x160x160_S160x2x160x160_1_0_2_3) : (⟨S2x160x160x160, .f32⟩ : BufTy).Contents (Elt F) → (⟨S160x2x160x160, .f32⟩ : BufTy).Contents (Elt F)),
    unary main_v316 main_v317 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v316 main_v318 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v317 main_v318 main_v319 (subf : (⟨S159x2x160x160, .f32⟩ : BufTy).Contents (Elt F) → (⟨S159x2x160x160, .f32⟩ : BufTy).Contents (Elt F) → (⟨S159x2x160x160, .f32⟩ : BufTy).Contents (Elt F)),
    nullary main_cst_36 (constant S_ .f32 0x3F800000#32),
    unary main_cst_36 main_v320 (broadcastInDim S159x2x160x160 ![] bcast_S_S159x2x160x160 : (⟨S_, .f32⟩ : BufTy).Contents (Elt F) → (⟨S159x2x160x160, .f32⟩ : BufTy).Contents (Elt F)),
    binary main_v319 main_v320 main_v321 (Host.divf : (⟨S159x2x160x160, .f32⟩ : BufTy).Contents (Elt F) → (⟨S159x2x160x160, .f32⟩ : BufTy).Contents (Elt F) → (⟨S159x2x160x160, .f32⟩ : BufTy).Contents (Elt F)),
    unary main_v321 main_v322 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v322 main_v321 main_v323 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v323 main_v324 ((transpose S2x160x160x160 [1, 0, 2, 3] · transposes_S160x2x160x160_S2x160x160x160_1_0_2_3) : (⟨S160x2x160x160, .f32⟩ : BufTy).Contents (Elt F) → (⟨S2x160x160x160, .f32⟩ : BufTy).Contents (Elt F)) ]
abbrev blk36_W : List (Ref sig .tc) := [main_v316, main_v317, main_v318, main_v319, main_cst_36, main_v320, main_v321, main_v322, main_v323, main_v324]
theorem blk36_writes : (blk36 (F := F)).Forall fun op => op.writes ⊆ (blk36_W.map (Proc.devRef (τ := τ) .tc)).toFinset :=
  ⟨writes_sub_of_mem main_v316 rfl (by decide),
   writes_sub_of_mem main_v317 rfl (by decide),
   writes_sub_of_mem main_v318 rfl (by decide),
   writes_sub_of_mem main_v319 rfl (by decide),
   writes_sub_of_mem main_cst_36 rfl (by decide),
   writes_sub_of_mem main_v320 rfl (by decide),
   writes_sub_of_mem main_v321 rfl (by decide),
   writes_sub_of_mem main_v322 rfl (by decide),
   writes_sub_of_mem main_v323 rfl (by decide),
   writes_sub_of_mem main_v324 rfl (by decide)⟩
theorem blk36_frame (V : Valuation τ sig (Elt F)) {r : Ref sig .tc} (h : r ∉ blk36_W) :
    after (blk36 (F := F)) V (no_index (Proc.devRef .tc r)) = V (Proc.devRef .tc r) :=
  after_of_writes_sub _ V blk36_writes h
theorem blk36_val (V : Valuation τ sig (Elt F)) :
    after (blk36 (F := F)) V (no_index (Proc.devRef .tc main_v324)) = Cert.KernelIdeal.Spec.db1 (V (Proc.devRef .tc main_arg0)) := by
  unfold blk36
  after_block_simp
  rfl

/-- Operations 363 … 372: the forward difference along space axis 1 of what main_arg0 holds, left in main_v333. -/
def blk37 : List (HloOp τ sig (Elt F)) :=
  [ unary main_arg0 main_v325 ((transpose S160x2x160x160 [1, 0, 2, 3] · transposes_S2x160x160x160_S160x2x160x160_1_0_2_3) : (⟨S2x160x160x160, .f32⟩ : BufTy).Contents (Elt F) → (⟨S160x2x160x160, .f32⟩ : BufTy).Contents (Elt F)),
    unary main_v325 main_v326 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v325 main_v327 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v326 main_v327 main_v328 (subf : (⟨S159x2x160x160, .f32⟩ : BufTy).Contents (Elt F) → (⟨S159x2x160x160, .f32⟩ : BufTy).Contents (Elt F) → (⟨S159x2x160x160, .f32⟩ : BufTy).Contents (Elt F)),
    nullary main_cst_37 (constant S_ .f32 0x3F800000#32),
    unary main_cst_37 main_v329 (broadcastInDim S159x2x160x160 ![] bcast_S_S159x2x160x160 : (⟨S_, .f32⟩ : BufTy).Contents (Elt F) → (⟨S159x2x160x160, .f32⟩ : BufTy).Contents (Elt F)),
    binary main_v328 main_v329 main_v330 (Host.divf : (⟨S159x2x160x160, .f32⟩ : BufTy).Contents (Elt F) → (⟨S159x2x160x160, .f32⟩ : BufTy).Contents (Elt F) → (⟨S159x2x160x160, .f32⟩ : BufTy).Contents (Elt F)),
    unary main_v330 main_v331 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    binary main_v330 main_v331 main_v332 ((fun a b => concatenate S160x2x160x160 0 [⟨S159x2x160x160, a⟩, ⟨S1x2x160x160, b⟩] concatenates_S159x2x160x160_S1x2x160x160_S160x2x160x160_d0) : (⟨S159x2x160x160, .f32⟩ : BufTy).Contents (Elt F) → (⟨S1x2x160x160, .f32⟩ : BufTy).Contents (Elt F) → (⟨S160x2x160x160, .f32⟩ : BufTy).Contents (Elt F)),
    unary main_v332 main_v333 ((transpose S2x160x160x160 [1, 0, 2, 3] · transposes_S160x2x160x160_S2x160x160x160_1_0_2_3) : (⟨S160x2x160x160, .f32⟩ : BufTy).Contents (Elt F) → (⟨S2x160x160x160, .f32⟩ : BufTy).Contents (Elt F)) ]
abbrev blk37_W : List (Ref sig .tc) := [main_v325, main_v326, main_v327, main_v328, main_cst_37, main_v329, main_v330, main_v331, main_v332, main_v333]
theorem blk37_writes : (blk37 (F := F)).Forall fun op => op.writes ⊆ (blk37_W.map (Proc.devRef (τ := τ) .tc)).toFinset :=
  ⟨writes_sub_of_mem main_v325 rfl (by decide),
   writes_sub_of_mem main_v326 rfl (by decide),
   writes_sub_of_mem main_v327 rfl (by decide),
   writes_sub_of_mem main_v328 rfl (by decide),
   writes_sub_of_mem main_cst_37 rfl (by decide),
   writes_sub_of_mem main_v329 rfl (by decide),
   writes_sub_of_mem main_v330 rfl (by decide),
   writes_sub_of_mem main_v331 rfl (by decide),
   writes_sub_of_mem main_v332 rfl (by decide),
   writes_sub_of_mem main_v333 rfl (by decide)⟩
theorem blk37_frame (V : Valuation τ sig (Elt F)) {r : Ref sig .tc} (h : r ∉ blk37_W) :
    after (blk37 (F := F)) V (no_index (Proc.devRef .tc r)) = V (Proc.devRef .tc r) :=
  after_of_writes_sub _ V blk37_writes h
theorem blk37_val (V : Valuation τ sig (Elt F)) :
    after (blk37 (F := F)) V (no_index (Proc.devRef .tc main_v333)) = Cert.KernelIdeal.Spec.df1 (V (Proc.devRef .tc main_arg0)) := by
  unfold blk37
  after_block_simp
  rfl

/-- Operations 373 … 376, between two difference fields. -/
def glue38 : List (HloOp τ sig (Elt F)) :=
  [ TRef.ternary (TRef.of (T := ⟨S2x160x160x160, .i1⟩) main_v315) (TRef.of (T := ⟨S2x160x160x160, .f32⟩) main_v324) (TRef.of (T := ⟨S2x160x160x160, .f32⟩) main_v333) (TRef.of (T := ⟨S2x160x160x160, .f32⟩) main_v334) select,
    nullary main_cst_38 (constant S_ .f32 0x00000000#32),
    unary main_cst_38 main_v335 (broadcastInDim S2x160x160x160 ![] bcast_S_S2x160x160x160 : (⟨S_, .f32⟩ : BufTy).Contents (Elt F) → (⟨S2x160x160x160, .f32⟩ : BufTy).Contents (Elt F)),
    binary main_arg2 main_v335 main_v336 (cmpf .ogt : (⟨S2x160x160x160, .f32⟩ : BufTy).Contents (Elt F) → (⟨S2x160x160x160, .f32⟩ : BufTy).Contents (Elt F) → (⟨S2x160x160x160, .i1⟩ : BufTy).Contents (Elt F)) ]

/-- Operations 377 … 386: the backward difference along space axis 2 of what main_arg0 holds, left in main_v345. -/
def blk39 : List (HloOp τ sig (Elt F)) :=
  [ unary main_arg0 main_v337 ((transpose S160x2x160x160 [2, 0, 1, 3] · transposes_S2x160x160x160_S160x2x160x160_2_0_1_3) : (⟨S2x160x160x160, .f32⟩ : BufTy).Contents (Elt F) → (⟨S160x2x160x160, .f32⟩ : BufTy).Contents (Elt F)),
    unary main_v337 main_v338 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v337 main_v339 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v338 main_v339 main_v340 (subf : (⟨S159x2x160x160, .f32⟩ : BufTy).Contents (Elt F) → (⟨S159x2x160x160, .f32⟩ : BufTy).Contents (Elt F) → (⟨S159x2x160x160, .f32⟩ : BufTy).Contents (Elt F)),
    nullary main_cst_39 (constant S_ .f32 0x3F800000#32),
    unary main_cst_39 main_v341 (broadcastInDim S159x2x160x160 ![] bcast_S_S159x2x160x160 : (⟨S_, .f32⟩ : BufTy).Contents (Elt F) → (⟨S159x2x160x160, .f32⟩ : BufTy).Contents (Elt F)),
    binary main_v340 main_v341 main_v342 (Host.divf : (⟨S159x2x160x160, .f32⟩ : BufTy).Contents (Elt F) → (⟨S159x2x160x160, .f32⟩ : BufTy).Contents (Elt F) → (⟨S159x2x160x160, .f32⟩ : BufTy).Contents (Elt F)),
    unary main_v342 main_v343 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v343 main_v342 main_v344 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v344 main_v345 ((transpose S2x160x160x160 [1, 2, 0, 3] · transposes_S160x2x160x160_S2x160x160x160_1_2_0_3) : (⟨S160x2x160x160, .f32⟩ : BufTy).Contents (Elt F) → (⟨S2x160x160x160, .f32⟩ : BufTy).Contents (Elt F)) ]
abbrev blk39_W : List (Ref sig .tc) := [main_v337, main_v338, main_v339, main_v340, main_cst_39, main_v341, main_v342, main_v343, main_v344, main_v345]
theorem blk39_writes : (blk39 (F := F)).Forall fun op => op.writes ⊆ (blk39_W.map (Proc.devRef (τ := τ) .tc)).toFinset :=
  ⟨writes_sub_of_mem main_v337 rfl (by decide),
   writes_sub_of_mem main_v338 rfl (by decide),
   writes_sub_of_mem main_v339 rfl (by decide),
   writes_sub_of_mem main_v340 rfl (by decide),
   writes_sub_of_mem main_cst_39 rfl (by decide),
   writes_sub_of_mem main_v341 rfl (by decide),
   writes_sub_of_mem main_v342 rfl (by decide),
   writes_sub_of_mem main_v343 rfl (by decide),
   writes_sub_of_mem main_v344 rfl (by decide),
   writes_sub_of_mem main_v345 rfl (by decide)⟩
theorem blk39_frame (V : Valuation τ sig (Elt F)) {r : Ref sig .tc} (h : r ∉ blk39_W) :
    after (blk39 (F := F)) V (no_index (Proc.devRef .tc r)) = V (Proc.devRef .tc r) :=
  after_of_writes_sub _ V blk39_writes h
theorem blk39_val (V : Valuation τ sig (Elt F)) :
    after (blk39 (F := F)) V (no_index (Proc.devRef .tc main_v345)) = Cert.KernelIdeal.Spec.db2 (V (Proc.devRef .tc main_arg0)) := by
  unfold blk39
  after_block_simp
  rfl

/-- Operations 387 … 396: the forward difference along space axis 2 of what main_arg0 holds, left in main_v354. -/
def blk40 : List (HloOp τ sig (Elt F)) :=
  [ unary main_arg0 main_v346 ((transpose S160x2x160x160 [2, 0, 1, 3] · transposes_S2x160x160x160_S160x2x160x160_2_0_1_3) : (⟨S2x160x160x160, .f32⟩ : BufTy).Contents (Elt F) → (⟨S160x2x160x160, .f32⟩ : BufTy).Contents (Elt F)),
    unary main_v346 main_v347 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v346 main_v348 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v347 main_v348 main_v349 (subf : (⟨S159x2x160x160, .f32⟩ : BufTy).Contents (Elt F) → (⟨S159x2x160x160, .f32⟩ : BufTy).Contents (Elt F) → (⟨S159x2x160x160, .f32⟩ : BufTy).Contents (Elt F)),
    nullary main_cst_40 (constant S_ .f32 0x3F800000#32),
    unary main_cst_40 main_v350 (broadcastInDim S159x2x160x160 ![] bcast_S_S159x2x160x160 : (⟨S_, .f32⟩ : BufTy).Contents (Elt F) → (⟨S159x2x160x160, .f32⟩ : BufTy).Contents (Elt F)),
    binary main_v349 main_v350 main_v351 (Host.divf : (⟨S159x2x160x160, .f32⟩ : BufTy).Contents (Elt F) → (⟨S159x2x160x160, .f32⟩ : BufTy).Contents (Elt F) → (⟨S159x2x160x160, .f32⟩ : BufTy).Contents (Elt F)),
    unary main_v351 main_v352 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    binary main_v351 main_v352 main_v353 ((fun a b => concatenate S160x2x160x160 0 [⟨S159x2x160x160, a⟩, ⟨S1x2x160x160, b⟩] concatenates_S159x2x160x160_S1x2x160x160_S160x2x160x160_d0) : (⟨S159x2x160x160, .f32⟩ : BufTy).Contents (Elt F) → (⟨S1x2x160x160, .f32⟩ : BufTy).Contents (Elt F) → (⟨S160x2x160x160, .f32⟩ : BufTy).Contents (Elt F)),
    unary main_v353 main_v354 ((transpose S2x160x160x160 [1, 2, 0, 3] · transposes_S160x2x160x160_S2x160x160x160_1_2_0_3) : (⟨S160x2x160x160, .f32⟩ : BufTy).Contents (Elt F) → (⟨S2x160x160x160, .f32⟩ : BufTy).Contents (Elt F)) ]
abbrev blk40_W : List (Ref sig .tc) := [main_v346, main_v347, main_v348, main_v349, main_cst_40, main_v350, main_v351, main_v352, main_v353, main_v354]
theorem blk40_writes : (blk40 (F := F)).Forall fun op => op.writes ⊆ (blk40_W.map (Proc.devRef (τ := τ) .tc)).toFinset :=
  ⟨writes_sub_of_mem main_v346 rfl (by decide),
   writes_sub_of_mem main_v347 rfl (by decide),
   writes_sub_of_mem main_v348 rfl (by decide),
   writes_sub_of_mem main_v349 rfl (by decide),
   writes_sub_of_mem main_cst_40 rfl (by decide),
   writes_sub_of_mem main_v350 rfl (by decide),
   writes_sub_of_mem main_v351 rfl (by decide),
   writes_sub_of_mem main_v352 rfl (by decide),
   writes_sub_of_mem main_v353 rfl (by decide),
   writes_sub_of_mem main_v354 rfl (by decide)⟩
theorem blk40_frame (V : Valuation τ sig (Elt F)) {r : Ref sig .tc} (h : r ∉ blk40_W) :
    after (blk40 (F := F)) V (no_index (Proc.devRef .tc r)) = V (Proc.devRef .tc r) :=
  after_of_writes_sub _ V blk40_writes h
theorem blk40_val (V : Valuation τ sig (Elt F)) :
    after (blk40 (F := F)) V (no_index (Proc.devRef .tc main_v354)) = Cert.KernelIdeal.Spec.df2 (V (Proc.devRef .tc main_arg0)) := by
  unfold blk40
  after_block_simp
  rfl

/-- Operations 397 … 400, between two difference fields. -/
def glue41 : List (HloOp τ sig (Elt F)) :=
  [ TRef.ternary (TRef.of (T := ⟨S2x160x160x160, .i1⟩) main_v336) (TRef.of (T := ⟨S2x160x160x160, .f32⟩) main_v345) (TRef.of (T := ⟨S2x160x160x160, .f32⟩) main_v354) (TRef.of (T := ⟨S2x160x160x160, .f32⟩) main_v355) select,
    nullary main_cst_41 (constant S_ .f32 0x00000000#32),
    unary main_cst_41 main_v356 (broadcastInDim S2x160x160x160 ![] bcast_S_S2x160x160x160 : (⟨S_, .f32⟩ : BufTy).Contents (Elt F) → (⟨S2x160x160x160, .f32⟩ : BufTy).Contents (Elt F)),
    binary main_arg3 main_v356 main_v357 (cmpf .ogt : (⟨S2x160x160x160, .f32⟩ : BufTy).Contents (Elt F) → (⟨S2x160x160x160, .f32⟩ : BufTy).Contents (Elt F) → (⟨S2x160x160x160, .i1⟩ : BufTy).Contents (Elt F)) ]

/-- Operations 401 … 410: the backward difference along space axis 3 of what main_arg0 holds, left in main_v366. -/
def blk42 : List (HloOp τ sig (Elt F)) :=
  [ unary main_arg0 main_v358 ((transpose S160x2x160x160 [3, 0, 1, 2] · transposes_S2x160x160x160_S160x2x160x160_3_0_1_2) : (⟨S2x160x160x160, .f32⟩ : BufTy).Contents (Elt F) → (⟨S160x2x160x160, .f32⟩ : BufTy).Contents (Elt F)),
    unary main_v358 main_v359 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v358 main_v360 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v359 main_v360 main_v361 (subf : (⟨S159x2x160x160, .f32⟩ : BufTy).Contents (Elt F) → (⟨S159x2x160x160, .f32⟩ : BufTy).Contents (Elt F) → (⟨S159x2x160x160, .f32⟩ : BufTy).Contents (Elt F)),
    nullary main_cst_42 (constant S_ .f32 0x3F800000#32),
    unary main_cst_42 main_v362 (broadcastInDim S159x2x160x160 ![] bcast_S_S159x2x160x160 : (⟨S_, .f32⟩ : BufTy).Contents (Elt F) → (⟨S159x2x160x160, .f32⟩ : BufTy).Contents (Elt F)),
    binary main_v361 main_v362 main_v363 (Host.divf : (⟨S159x2x160x160, .f32⟩ : BufTy).Contents (Elt F) → (⟨S159x2x160x160, .f32⟩ : BufTy).Contents (Elt F) → (⟨S159x2x160x160, .f32⟩ : BufTy).Contents (Elt F)),
    unary main_v363 main_v364 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    binary main_v364 main_v363 main_v365 ((fun a b => concatenate S160x2x160x160 0 [⟨S1x2x160x160, a⟩, ⟨S159x2x160x160, b⟩] concatenates_S1x2x160x160_S159x2x160x160_S160x2x160x160_d0) : (⟨S1x2x160x160, .f32⟩ : BufTy).Contents (Elt F) → (⟨S159x2x160x160, .f32⟩ : BufTy).Contents (Elt F) → (⟨S160x2x160x160, .f32⟩ : BufTy).Contents (Elt F)),
    unary main_v365 main_v366 ((transpose S2x160x160x160 [1, 2, 3, 0] · transposes_S160x2x160x160_S2x160x160x160_1_2_3_0) : (⟨S160x2x160x160, .f32⟩ : BufTy).Contents (Elt F) → (⟨S2x160x160x160, .f32⟩ : BufTy).Contents (Elt F)) ]
abbrev blk42_W : List (Ref sig .tc) := [main_v358, main_v359, main_v360, main_v361, main_cst_42, main_v362, main_v363, main_v364, main_v365, main_v366]
theorem blk42_writes : (blk42 (F := F)).Forall fun op => op.writes ⊆ (blk42_W.map (Proc.devRef (τ := τ) .tc)).toFinset :=
  ⟨writes_sub_of_mem main_v358 rfl (by decide),
   writes_sub_of_mem main_v359 rfl (by decide),
   writes_sub_of_mem main_v360 rfl (by decide),
   writes_sub_of_mem main_v361 rfl (by decide),
   writes_sub_of_mem main_cst_42 rfl (by decide),
   writes_sub_of_mem main_v362 rfl (by decide),
   writes_sub_of_mem main_v363 rfl (by decide),
   writes_sub_of_mem main_v364 rfl (by decide),
   writes_sub_of_mem main_v365 rfl (by decide),
   writes_sub_of_mem main_v366 rfl (by decide)⟩
theorem blk42_frame (V : Valuation τ sig (Elt F)) {r : Ref sig .tc} (h : r ∉ blk42_W) :
    after (blk42 (F := F)) V (no_index (Proc.devRef .tc r)) = V (Proc.devRef .tc r) :=
  after_of_writes_sub _ V blk42_writes h
theorem blk42_val (V : Valuation τ sig (Elt F)) :
    after (blk42 (F := F)) V (no_index (Proc.devRef .tc main_v366)) = Cert.KernelIdeal.Spec.db3 (V (Proc.devRef .tc main_arg0)) := by
  unfold blk42
  after_block_simp
  rfl

/-- Operations 411 … 420: the forward difference along space axis 3 of what main_arg0 holds, left in main_v375. -/
def blk43 : List (HloOp τ sig (Elt F)) :=
  [ unary main_arg0 main_v367 ((transpose S160x2x160x160 [3, 0, 1, 2] · transposes_S2x160x160x160_S160x2x160x160_3_0_1_2) : (⟨S2x160x160x160, .f32⟩ : BufTy).Contents (Elt F) → (⟨S160x2x160x160, .f32⟩ : BufTy).Contents (Elt F)),
    unary main_v367 main_v368 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v367 main_v369 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v368 main_v369 main_v370 (subf : (⟨S159x2x160x160, .f32⟩ : BufTy).Contents (Elt F) → (⟨S159x2x160x160, .f32⟩ : BufTy).Contents (Elt F) → (⟨S159x2x160x160, .f32⟩ : BufTy).Contents (Elt F)),
    nullary main_cst_43 (constant S_ .f32 0x3F800000#32),
    unary main_cst_43 main_v371 (broadcastInDim S159x2x160x160 ![] bcast_S_S159x2x160x160 : (⟨S_, .f32⟩ : BufTy).Contents (Elt F) → (⟨S159x2x160x160, .f32⟩ : BufTy).Contents (Elt F)),
    binary main_v370 main_v371 main_v372 (Host.divf : (⟨S159x2x160x160, .f32⟩ : BufTy).Contents (Elt F) → (⟨S159x2x160x160, .f32⟩ : BufTy).Contents (Elt F) → (⟨S159x2x160x160, .f32⟩ : BufTy).Contents (Elt F)),
    unary main_v372 main_v373 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    binary main_v372 main_v373 main_v374 ((fun a b => concatenate S160x2x160x160 0 [⟨S159x2x160x160, a⟩, ⟨S1x2x160x160, b⟩] concatenates_S159x2x160x160_S1x2x160x160_S160x2x160x160_d0) : (⟨S159x2x160x160, .f32⟩ : BufTy).Contents (Elt F) → (⟨S1x2x160x160, .f32⟩ : BufTy).Contents (Elt F) → (⟨S160x2x160x160, .f32⟩ : BufTy).Contents (Elt F)),
    unary main_v374 main_v375 ((transpose S2x160x160x160 [1, 2, 3, 0] · transposes_S160x2x160x160_S2x160x160x160_1_2_3_0) : (⟨S160x2x160x160, .f32⟩ : BufTy).Contents (Elt F) → (⟨S2x160x160x160, .f32⟩ : BufTy).Contents (Elt F)) ]
abbrev blk43_W : List (Ref sig .tc) := [main_v367, main_v368, main_v369, main_v370, main_cst_43, main_v371, main_v372, main_v373, main_v374, main_v375]
theorem blk43_writes : (blk43 (F := F)).Forall fun op => op.writes ⊆ (blk43_W.map (Proc.devRef (τ := τ) .tc)).toFinset :=
  ⟨writes_sub_of_mem main_v367 rfl (by decide),
   writes_sub_of_mem main_v368 rfl (by decide),
   writes_sub_of_mem main_v369 rfl (by decide),
   writes_sub_of_mem main_v370 rfl (by decide),
   writes_sub_of_mem main_cst_43 rfl (by decide),
   writes_sub_of_mem main_v371 rfl (by decide),
   writes_sub_of_mem main_v372 rfl (by decide),
   writes_sub_of_mem main_v373 rfl (by decide),
   writes_sub_of_mem main_v374 rfl (by decide),
   writes_sub_of_mem main_v375 rfl (by decide)⟩
theorem blk43_frame (V : Valuation τ sig (Elt F)) {r : Ref sig .tc} (h : r ∉ blk43_W) :
    after (blk43 (F := F)) V (no_index (Proc.devRef .tc r)) = V (Proc.devRef .tc r) :=
  after_of_writes_sub _ V blk43_writes h
theorem blk43_val (V : Valuation τ sig (Elt F)) :
    after (blk43 (F := F)) V (no_index (Proc.devRef .tc main_v375)) = Cert.KernelIdeal.Spec.df3 (V (Proc.devRef .tc main_arg0)) := by
  unfold blk43
  after_block_simp
  rfl

/-- Operations 421 … 427, between two difference fields. -/
def glue44 : List (HloOp τ sig (Elt F)) :=
  [ TRef.ternary (TRef.of (T := ⟨S2x160x160x160, .i1⟩) main_v357) (TRef.of (T := ⟨S2x160x160x160, .f32⟩) main_v366) (TRef.of (T := ⟨S2x160x160x160, .f32⟩) main_v375) (TRef.of (T := ⟨S2x160x160x160, .f32⟩) main_v376) select,
    binary main_arg1 main_v334 main_v377 (mulf : (⟨S2x160x160x160, .f32⟩ : BufTy).Contents (Elt F) → (⟨S2x160x160x160, .f32⟩ : BufTy).Contents (Elt F) → (⟨S2x160x160x160, .f32⟩ : BufTy).Contents (Elt F)),
    binary main_arg2 main_v355 main_v378 (mulf : (⟨S2x160x160x160, .f32⟩ : BufTy).Contents (Elt F) → (⟨S2x160x160x160, .f32⟩ : BufTy).Contents (Elt F) → (⟨S2x160x160x160, .f32⟩ : BufTy).Contents (Elt F)),
    binary main_v377 main_v378 main_v379 (addf : (⟨S2x160x160x160, .f32⟩ : BufTy).Contents (Elt F) → (⟨S2x160x160x160, .f32⟩ : BufTy).Contents (Elt F) → (⟨S2x160x160x160, .f32⟩ : BufTy).Contents (Elt F)),
    binary main_arg3 main_v376 main_v380 (mulf : (⟨S2x160x160x160, .f32⟩ : BufTy).Contents (Elt F) → (⟨S2x160x160x160, .f32⟩ : BufTy).Contents (Elt F) → (⟨S2x160x160x160, .f32⟩ : BufTy).Contents (Elt F)),
    binary main_v379 main_v380 main_v381 (addf : (⟨S2x160x160x160, .f32⟩ : BufTy).Contents (Elt F) → (⟨S2x160x160x160, .f32⟩ : BufTy).Contents (Elt F) → (⟨S2x160x160x160, .f32⟩ : BufTy).Contents (Elt F)),
    unary main_v381 main_v382 (Host.negf : (⟨S2x160x160x160, .f32⟩ : BufTy).Contents (Elt F) → (⟨S2x160x160x160, .f32⟩ : BufTy).Contents (Elt F)) ]

/-- Operations 428 … 444: the central difference along space axis 1 of what main_arg1 holds, left in main_v397. -/
def blk45 : List (HloOp τ sig (Elt F)) :=
  [ unary main_arg1 main_v383 ((transpose S160x2x160x160 [1, 0, 2, 3] · transposes_S2x160x160x160_S160x2x160x160_1_0_2_3) : (⟨S2x160x160x160, .f32⟩ : BufTy).Contents (Elt F) → (⟨S160x2x160x160, .f32⟩ : BufTy).Contents (Elt F)),
    unary main_v383 main_v384 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v383 main_v385 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v384 main_v385 main_v386 (subf : (⟨S159x2x160x160, .f32⟩ : BufTy).Contents (Elt F) → (⟨S159x2x160x160, .f32⟩ : BufTy).Contents (Elt F) → (⟨S159x2x160x160, .f32⟩ : BufTy).Contents (Elt F)),
    nullary main_cst_44 (constant S_ .f32 0x3F800000#32),
    unary main_cst_44 main_v387 (broadcastInDim S159x2x160x160 ![] bcast_S_S159x2x160x160 : (⟨S_, .f32⟩ : BufTy).Contents (Elt F) → (⟨S159x2x160x160, .f32⟩ : BufTy).Contents (Elt F)),
    binary main_v386 main_v387 main_v388 (Host.divf : (⟨S159x2x160x160, .f32⟩ : BufTy).Contents (Elt F) → (⟨S159x2x160x160, .f32⟩ : BufTy).Contents (Elt F) → (⟨S159x2x160x160, .f32⟩ : BufTy).Contents (Elt F)),
    unary main_v388 main_v389 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v383 main_v390 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v383 main_v391 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v390 main_v391 main_v392 (subf : (⟨S158x2x160x160, .f32⟩ : BufTy).Contents (Elt F) → (⟨S158x2x160x160, .f32⟩ : BufTy).Contents (Elt F) → (⟨S158x2x160x160, .f32⟩ : BufTy).Contents (Elt F)),
    nullary main_cst_45 (constant S_ .f32 0x40000000#32),
    unary main_cst_45 main_v393 (broadcastInDim S158x2x160x160 ![] bcast_S_S158x2x160x160 : (⟨S_, .f32⟩ : BufTy).Contents (Elt F) → (⟨S158x2x160x160, .f32⟩ : BufTy).Contents (Elt F)),
    binary main_v392 main_v393 main_v394 (Host.divf : (⟨S158x2x160x160, .f32⟩ : BufTy).Contents (Elt F) → (⟨S158x2x160x160, .f32⟩ : BufTy).Contents (Elt F) → (⟨S158x2x160x160, .f32⟩ : BufTy).Contents (Elt F)),
    unary main_v388 main_v395 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v389, main_v394, main_v395] main_v396 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v396 main_v397 ((transpose S2x160x160x160 [1, 0, 2, 3] · transposes_S160x2x160x160_S2x160x160x160_1_0_2_3) : (⟨S160x2x160x160, .f32⟩ : BufTy).Contents (Elt F) → (⟨S2x160x160x160, .f32⟩ : BufTy).Contents (Elt F)) ]
abbrev blk45_W : List (Ref sig .tc) := [main_v383, main_v384, main_v385, main_v386, main_cst_44, main_v387, main_v388, main_v389, main_v390, main_v391, main_v392, main_cst_45, main_v393, main_v394, main_v395, main_v396, main_v397]
theorem blk45_writes : (blk45 (F := F)).Forall fun op => op.writes ⊆ (blk45_W.map (Proc.devRef (τ := τ) .tc)).toFinset :=
  ⟨writes_sub_of_mem main_v383 rfl (by decide),
   writes_sub_of_mem main_v384 rfl (by decide),
   writes_sub_of_mem main_v385 rfl (by decide),
   writes_sub_of_mem main_v386 rfl (by decide),
   writes_sub_of_mem main_cst_44 rfl (by decide),
   writes_sub_of_mem main_v387 rfl (by decide),
   writes_sub_of_mem main_v388 rfl (by decide),
   writes_sub_of_mem main_v389 rfl (by decide),
   writes_sub_of_mem main_v390 rfl (by decide),
   writes_sub_of_mem main_v391 rfl (by decide),
   writes_sub_of_mem main_v392 rfl (by decide),
   writes_sub_of_mem main_cst_45 rfl (by decide),
   writes_sub_of_mem main_v393 rfl (by decide),
   writes_sub_of_mem main_v394 rfl (by decide),
   writes_sub_of_mem main_v395 rfl (by decide),
   writes_sub_of_mem main_v396 rfl (by decide),
   writes_sub_of_mem main_v397 rfl (by decide)⟩
theorem blk45_frame (V : Valuation τ sig (Elt F)) {r : Ref sig .tc} (h : r ∉ blk45_W) :
    after (blk45 (F := F)) V (no_index (Proc.devRef .tc r)) = V (Proc.devRef .tc r) :=
  after_of_writes_sub _ V blk45_writes h
theorem blk45_val (V : Valuation τ sig (Elt F)) :
    after (blk45 (F := F)) V (no_index (Proc.devRef .tc main_v397)) = Cert.KernelIdeal.Spec.dc1 (V (Proc.devRef .tc main_arg1)) := by
  unfold blk45
  after_block_simp
  rfl

/-- Operations 445 … 461: the central difference along space axis 2 of what main_arg2 holds, left in main_v412. -/
def blk46 : List (HloOp τ sig (Elt F)) :=
  [ unary main_arg2 main_v398 ((transpose S160x2x160x160 [2, 0, 1, 3] · transposes_S2x160x160x160_S160x2x160x160_2_0_1_3) : (⟨S2x160x160x160, .f32⟩ : BufTy).Contents (Elt F) → (⟨S160x2x160x160, .f32⟩ : BufTy).Contents (Elt F)),
    unary main_v398 main_v399 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v398 main_v400 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v399 main_v400 main_v401 (subf : (⟨S159x2x160x160, .f32⟩ : BufTy).Contents (Elt F) → (⟨S159x2x160x160, .f32⟩ : BufTy).Contents (Elt F) → (⟨S159x2x160x160, .f32⟩ : BufTy).Contents (Elt F)),
    nullary main_cst_46 (constant S_ .f32 0x3F800000#32),
    unary main_cst_46 main_v402 (broadcastInDim S159x2x160x160 ![] bcast_S_S159x2x160x160 : (⟨S_, .f32⟩ : BufTy).Contents (Elt F) → (⟨S159x2x160x160, .f32⟩ : BufTy).Contents (Elt F)),
    binary main_v401 main_v402 main_v403 (Host.divf : (⟨S159x2x160x160, .f32⟩ : BufTy).Contents (Elt F) → (⟨S159x2x160x160, .f32⟩ : BufTy).Contents (Elt F) → (⟨S159x2x160x160, .f32⟩ : BufTy).Contents (Elt F)),
    unary main_v403 main_v404 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v398 main_v405 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v398 main_v406 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v405 main_v406 main_v407 (subf : (⟨S158x2x160x160, .f32⟩ : BufTy).Contents (Elt F) → (⟨S158x2x160x160, .f32⟩ : BufTy).Contents (Elt F) → (⟨S158x2x160x160, .f32⟩ : BufTy).Contents (Elt F)),
    nullary main_cst_47 (constant S_ .f32 0x40000000#32),
    unary main_cst_47 main_v408 (broadcastInDim S158x2x160x160 ![] bcast_S_S158x2x160x160 : (⟨S_, .f32⟩ : BufTy).Contents (Elt F) → (⟨S158x2x160x160, .f32⟩ : BufTy).Contents (Elt F)),
    binary main_v407 main_v408 main_v409 (Host.divf : (⟨S158x2x160x160, .f32⟩ : BufTy).Contents (Elt F) → (⟨S158x2x160x160, .f32⟩ : BufTy).Contents (Elt F) → (⟨S158x2x160x160, .f32⟩ : BufTy).Contents (Elt F)),
    unary main_v403 main_v410 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v404, main_v409, main_v410] main_v411 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v411 main_v412 ((transpose S2x160x160x160 [1, 2, 0, 3] · transposes_S160x2x160x160_S2x160x160x160_1_2_0_3) : (⟨S160x2x160x160, .f32⟩ : BufTy).Contents (Elt F) → (⟨S2x160x160x160, .f32⟩ : BufTy).Contents (Elt F)) ]
abbrev blk46_W : List (Ref sig .tc) := [main_v398, main_v399, main_v400, main_v401, main_cst_46, main_v402, main_v403, main_v404, main_v405, main_v406, main_v407, main_cst_47, main_v408, main_v409, main_v410, main_v411, main_v412]
theorem blk46_writes : (blk46 (F := F)).Forall fun op => op.writes ⊆ (blk46_W.map (Proc.devRef (τ := τ) .tc)).toFinset :=
  ⟨writes_sub_of_mem main_v398 rfl (by decide),
   writes_sub_of_mem main_v399 rfl (by decide),
   writes_sub_of_mem main_v400 rfl (by decide),
   writes_sub_of_mem main_v401 rfl (by decide),
   writes_sub_of_mem main_cst_46 rfl (by decide),
   writes_sub_of_mem main_v402 rfl (by decide),
   writes_sub_of_mem main_v403 rfl (by decide),
   writes_sub_of_mem main_v404 rfl (by decide),
   writes_sub_of_mem main_v405 rfl (by decide),
   writes_sub_of_mem main_v406 rfl (by decide),
   writes_sub_of_mem main_v407 rfl (by decide),
   writes_sub_of_mem main_cst_47 rfl (by decide),
   writes_sub_of_mem main_v408 rfl (by decide),
   writes_sub_of_mem main_v409 rfl (by decide),
   writes_sub_of_mem main_v410 rfl (by decide),
   writes_sub_of_mem main_v411 rfl (by decide),
   writes_sub_of_mem main_v412 rfl (by decide)⟩
theorem blk46_frame (V : Valuation τ sig (Elt F)) {r : Ref sig .tc} (h : r ∉ blk46_W) :
    after (blk46 (F := F)) V (no_index (Proc.devRef .tc r)) = V (Proc.devRef .tc r) :=
  after_of_writes_sub _ V blk46_writes h
theorem blk46_val (V : Valuation τ sig (Elt F)) :
    after (blk46 (F := F)) V (no_index (Proc.devRef .tc main_v412)) = Cert.KernelIdeal.Spec.dc2 (V (Proc.devRef .tc main_arg2)) := by
  unfold blk46
  after_block_simp
  rfl

/-- Operations 462 … 462, between two difference fields. -/
def glue47 : List (HloOp τ sig (Elt F)) :=
  [ binary main_v397 main_v412 main_v413 (addf : (⟨S2x160x160x160, .f32⟩ : BufTy).Contents (Elt F) → (⟨S2x160x160x160, .f32⟩ : BufTy).Contents (Elt F) → (⟨S2x160x160x160, .f32⟩ : BufTy).Contents (Elt F)) ]

/-- Operations 463 … 479: the central difference along space axis 3 of what main_arg3 holds, left in main_v428. -/
def blk48 : List (HloOp τ sig (Elt F)) :=
  [ unary main_arg3 main_v414 ((transpose S160x2x160x160 [3, 0, 1, 2] · transposes_S2x160x160x160_S160x2x160x160_3_0_1_2) : (⟨S2x160x160x160, .f32⟩ : BufTy).Contents (Elt F) → (⟨S160x2x160x160, .f32⟩ : BufTy).Contents (Elt F)),
    unary main_v414 main_v415 ((extractStridedSlice S159x2x160x160 ![1, 0, 0, 0] · slices_S160x2x160x160_S159x2x160x160_1_0_0_0) : (⟨S160x2x160x160, .f32⟩ : BufTy).Contents (Elt F) → (⟨S159x2x160x160, .f32⟩ : BufTy).Contents (Elt F)),
    unary main_v414 main_v416 ((extractStridedSlice S159x2x160x160 ![0, 0, 0, 0] · slices_S160x2x160x160_S159x2x160x160_0_0_0_0) : (⟨S160x2x160x160, .f32⟩ : BufTy).Contents (Elt F) → (⟨S159x2x160x160, .f32⟩ : BufTy).Contents (Elt F)),
    binary main_v415 main_v416 main_v417 (subf : (⟨S159x2x160x160, .f32⟩ : BufTy).Contents (Elt F) → (⟨S159x2x160x160, .f32⟩ : BufTy).Contents (Elt F) → (⟨S159x2x160x160, .f32⟩ : BufTy).Contents (Elt F)),
    nullary main_cst_48 (constant S_ .f32 0x3F800000#32),
    unary main_cst_48 main_v418 (broadcastInDim S159x2x160x160 ![] bcast_S_S159x2x160x160 : (⟨S_, .f32⟩ : BufTy).Contents (Elt F) → (⟨S159x2x160x160, .f32⟩ : BufTy).Contents (Elt F)),
    binary main_v417 main_v418 main_v419 (Host.divf : (⟨S159x2x160x160, .f32⟩ : BufTy).Contents (Elt F) → (⟨S159x2x160x160, .f32⟩ : BufTy).Contents (Elt F) → (⟨S159x2x160x160, .f32⟩ : BufTy).Contents (Elt F)),
    unary main_v419 main_v420 ((extractStridedSlice S1x2x160x160 ![0, 0, 0, 0] · slices_S159x2x160x160_S1x2x160x160_0_0_0_0) : (⟨S159x2x160x160, .f32⟩ : BufTy).Contents (Elt F) → (⟨S1x2x160x160, .f32⟩ : BufTy).Contents (Elt F)),
    unary main_v414 main_v421 ((extractStridedSlice S158x2x160x160 ![2, 0, 0, 0] · slices_S160x2x160x160_S158x2x160x160_2_0_0_0) : (⟨S160x2x160x160, .f32⟩ : BufTy).Contents (Elt F) → (⟨S158x2x160x160, .f32⟩ : BufTy).Contents (Elt F)),
    unary main_v414 main_v422 ((extractStridedSlice S158x2x160x160 ![0, 0, 0, 0] · slices_S160x2x160x160_S158x2x160x160_0_0_0_0) : (⟨S160x2x160x160, .f32⟩ : BufTy).Contents (Elt F) → (⟨S158x2x160x160, .f32⟩ : BufTy).Contents (Elt F)),
    binary main_v421 main_v422 main_v423 (subf : (⟨S158x2x160x160, .f32⟩ : BufTy).Contents (Elt F) → (⟨S158x2x160x160, .f32⟩ : BufTy).Contents (Elt F) → (⟨S158x2x160x160, .f32⟩ : BufTy).Contents (Elt F)),
    nullary main_cst_49 (constant S_ .f32 0x40000000#32),
    unary main_cst_49 main_v424 (broadcastInDim S158x2x160x160 ![] bcast_S_S158x2x160x160 : (⟨S_, .f32⟩ : BufTy).Contents (Elt F) → (⟨S158x2x160x160, .f32⟩ : BufTy).Contents (Elt F)),
    binary main_v423 main_v424 main_v425 (Host.divf : (⟨S158x2x160x160, .f32⟩ : BufTy).Contents (Elt F) → (⟨S158x2x160x160, .f32⟩ : BufTy).Contents (Elt F) → (⟨S158x2x160x160, .f32⟩ : BufTy).Contents (Elt F)),
    unary main_v419 main_v426 ((extractStridedSlice S1x2x160x160 ![158, 0, 0, 0] · slices_S159x2x160x160_S1x2x160x160_158_0_0_0) : (⟨S159x2x160x160, .f32⟩ : BufTy).Contents (Elt F) → (⟨S1x2x160x160, .f32⟩ : BufTy).Contents (Elt F)),
    nary ![main_v420, main_v425, main_v426] main_v427 (fun u => concatenate S160x2x160x160 0 [⟨S1x2x160x160, u 0⟩, ⟨S158x2x160x160, u 1⟩, ⟨S1x2x160x160, u 2⟩] concatenates_S1x2x160x160_S158x2x160x160_S1x2x160x160_S160x2x160x160_d0),
    unary main_v427 main_v428 ((transpose S2x160x160x160 [1, 2, 3, 0] · transposes_S160x2x160x160_S2x160x160x160_1_2_3_0) : (⟨S160x2x160x160, .f32⟩ : BufTy).Contents (Elt F) → (⟨S2x160x160x160, .f32⟩ : BufTy).Contents (Elt F)) ]
abbrev blk48_W : List (Ref sig .tc) := [main_v414, main_v415, main_v416, main_v417, main_cst_48, main_v418, main_v419, main_v420, main_v421, main_v422, main_v423, main_cst_49, main_v424, main_v425, main_v426, main_v427, main_v428]
theorem blk48_writes : (blk48 (F := F)).Forall fun op => op.writes ⊆ (blk48_W.map (Proc.devRef (τ := τ) .tc)).toFinset :=
  ⟨writes_sub_of_mem main_v414 rfl (by decide),
   writes_sub_of_mem main_v415 rfl (by decide),
   writes_sub_of_mem main_v416 rfl (by decide),
   writes_sub_of_mem main_v417 rfl (by decide),
   writes_sub_of_mem main_cst_48 rfl (by decide),
   writes_sub_of_mem main_v418 rfl (by decide),
   writes_sub_of_mem main_v419 rfl (by decide),
   writes_sub_of_mem main_v420 rfl (by decide),
   writes_sub_of_mem main_v421 rfl (by decide),
   writes_sub_of_mem main_v422 rfl (by decide),
   writes_sub_of_mem main_v423 rfl (by decide),
   writes_sub_of_mem main_cst_49 rfl (by decide),
   writes_sub_of_mem main_v424 rfl (by decide),
   writes_sub_of_mem main_v425 rfl (by decide),
   writes_sub_of_mem main_v426 rfl (by decide),
   writes_sub_of_mem main_v427 rfl (by decide),
   writes_sub_of_mem main_v428 rfl (by decide)⟩
theorem blk48_frame (V : Valuation τ sig (Elt F)) {r : Ref sig .tc} (h : r ∉ blk48_W) :
    after (blk48 (F := F)) V (no_index (Proc.devRef .tc r)) = V (Proc.devRef .tc r) :=
  after_of_writes_sub _ V blk48_writes h
theorem blk48_val (V : Valuation τ sig (Elt F)) :
    after (blk48 (F := F)) V (no_index (Proc.devRef .tc main_v428)) = Cert.KernelIdeal.Spec.dc3 (V (Proc.devRef .tc main_arg3)) := by
  unfold blk48
  after_block_simp
  rfl

/-- Operations 480 … 483, between two difference fields. -/
def glue49 : List (HloOp τ sig (Elt F)) :=
  [ binary main_v413 main_v428 main_v429 (addf : (⟨S2x160x160x160, .f32⟩ : BufTy).Contents (Elt F) → (⟨S2x160x160x160, .f32⟩ : BufTy).Contents (Elt F) → (⟨S2x160x160x160, .f32⟩ : BufTy).Contents (Elt F)),
    binary main_arg0 main_v429 main_v430 (mulf : (⟨S2x160x160x160, .f32⟩ : BufTy).Contents (Elt F) → (⟨S2x160x160x160, .f32⟩ : BufTy).Contents (Elt F) → (⟨S2x160x160x160, .f32⟩ : BufTy).Contents (Elt F)),
    binary main_v382 main_v430 main_v431 (subf : (⟨S2x160x160x160, .f32⟩ : BufTy).Contents (Elt F) → (⟨S2x160x160x160, .f32⟩ : BufTy).Contents (Elt F) → (⟨S2x160x160x160, .f32⟩ : BufTy).Contents (Elt F)),
    binary main_v313 main_v431 main_v432 (addf : (⟨S2x160x160x160, .f32⟩ : BufTy).Contents (Elt F) → (⟨S2x160x160x160, .f32⟩ : BufTy).Contents (Elt F) → (⟨S2x160x160x160, .f32⟩ : BufTy).Contents (Elt F)) ]

/-- The 484 operations: the runs in order. -/
def ops : List (HloOp τ sig (Elt F)) :=
  blk0 (F := F) ++ (blk1 (F := F) ++ (blk2 (F := F) ++ (blk3 (F := F) ++ (blk4 (F := F) ++ (blk5 (F := F) ++ (blk6 (F := F) ++ (blk7 (F := F) ++ (glue8 (F := F) ++ (blk9 (F := F) ++ (glue10 (F := F) ++ (blk11 (F := F) ++ (blk12 (F := F) ++ (glue13 (F := F) ++ (blk14 (F := F) ++ (glue15 (F := F) ++ (blk16 (F := F) ++ (blk17 (F := F) ++ (glue18 (F := F) ++ (blk19 (F := F) ++ (glue20 (F := F) ++ (blk21 (F := F) ++ (glue22 (F := F) ++ (blk23 (F := F) ++ (glue24 (F := F) ++ (blk25 (F := F) ++ (glue26 (F := F) ++ (blk27 (F := F) ++ (blk28 (F := F) ++ (glue29 (F := F) ++ (blk30 (F := F) ++ (blk31 (F := F) ++ (glue32 (F := F) ++ (blk33 (F := F) ++ (blk34 (F := F) ++ (glue35 (F := F) ++ (blk36 (F := F) ++ (blk37 (F := F) ++ (glue38 (F := F) ++ (blk39 (F := F) ++ (blk40 (F := F) ++ (glue41 (F := F) ++ (blk42 (F := F) ++ (blk43 (F := F) ++ (glue44 (F := F) ++ (blk45 (F := F) ++ (blk46 (F := F) ++ (glue47 (F := F) ++ (blk48 (F := F) ++ (glue49 (F := F))))))))))))))))))))))))))))))))))))))))))))))))))

end Cert.ReferenceIdeal.RefValue

end
-- ==== Proof.RefRun.lean ====
/-
  The reference's @main is the straight line of its 484 operations, so every weakly fair execution of it terminates with
  each buffer holding the fold of the operations' results over what the buffers held at launch.

  @main is printed as nine windows run in order. Each window is, by computation, the line of its own operations; two
  lines run in order are their concatenation run as one; and the nine windows' operations in order are the same list as
  the fifty runs of RefBlocks in order (both are the 484 operations, cut at different places).
-/
import proofs.«120775_j9655086481804_1_alg».proof.Proof.RefWindows
import proofs.«120775_j9655086481804_1_alg».proof.Proof.RefBlocks

noncomputable section

namespace Cert.ReferenceIdeal.RefValue

open Cert.ReferenceIdeal Cert.ReferenceIdeal.Gen Idealize.ShloMosaic Idealize.ShloMosaic.TcCoe Idealize.SL.Sem Idealize.ShloMosaic.StableHlo Cert.RefLib

variable {F : FTy → Type} [FloatOps F]

/-- The nine windows' operations, in order. -/
def wins : List (HloOp τ sig (Elt F)) :=
  win0 (F := F) ++ (win1 (F := F) ++ (win2 (F := F) ++ (win3 (F := F) ++ (win4 (F := F) ++ (win5 (F := F) ++
    (win6 (F := F) ++ (win7 (F := F) ++ win8 (F := F))))))))

/-! ## Each printed window is the line of its operations -/

set_option maxRecDepth 8192 in
theorem part0_eq (c : Dev nD) : main_part0 (F := F) c = seq (win0 (F := F)) := rfl
set_option maxRecDepth 8192 in
theorem part1_eq (c : Dev nD) : main_part1 (F := F) c = seq (win1 (F := F)) := rfl
set_option maxRecDepth 8192 in
theorem part2_eq (c : Dev nD) : main_part2 (F := F) c = seq (win2 (F := F)) := rfl
set_option maxRecDepth 8192 in
theorem part3_eq (c : Dev nD) : main_part3 (F := F) c = seq (win3 (F := F)) := rfl
set_option maxRecDepth 8192 in
theorem part4_eq (c : Dev nD) : main_part4 (F := F) c = seq (win4 (F := F)) := rfl
set_option maxRecDepth 8192 in
theorem part5_eq (c : Dev nD) : main_part5 (F := F) c = seq (win5 (F := F)) := rfl
set_option maxRecDepth 8192 in
theorem part6_eq (c : Dev nD) : main_part6 (F := F) c = seq (win6 (F := F)) := rfl
set_option maxRecDepth 8192 in
theorem part7_eq (c : Dev nD) : main_part7 (F := F) c = seq (win7 (F := F)) := rfl
set_option maxRecDepth 8192 in
theorem part8_eq (c : Dev nD) : main_part8 (F := F) c = seq (win8 (F := F)) := rfl

/-- @main runs its windows in order, and lines run in order are one line. -/
theorem main_eq (c : Dev nD) : main (F := F) c = seq (wins (F := F)) := by
  unfold wins main
  simp only [seq_append, part0_eq, part1_eq, part2_eq, part3_eq, part4_eq, part5_eq, part6_eq, part7_eq, part8_eq]

/-! ## The windows in order are the runs in order -/

set_option maxRecDepth 8192 in
theorem wins_eq : wins (F := F) = ops (F := F) := rfl

/-! ## The side conditions of the run -/

theorem wins_sub : (wins (F := F)).Forall fun op => op.bufs ⊆ tcRefs τ sig := by
  unfold wins
  exact List.forall_append.mpr ⟨win0_sub, List.forall_append.mpr ⟨win1_sub, List.forall_append.mpr ⟨win2_sub,
    List.forall_append.mpr ⟨win3_sub, List.forall_append.mpr ⟨win4_sub, List.forall_append.mpr ⟨win5_sub,
    List.forall_append.mpr ⟨win6_sub, List.forall_append.mpr ⟨win7_sub, win8_sub⟩⟩⟩⟩⟩⟩⟩⟩

theorem wins_fresh : (wins (F := F)).Forall fun op => op.fresh = ∅ := by
  unfold wins
  exact List.forall_append.mpr ⟨win0_fresh, List.forall_append.mpr ⟨win1_fresh, List.forall_append.mpr ⟨win2_fresh,
    List.forall_append.mpr ⟨win3_fresh, List.forall_append.mpr ⟨win4_fresh, List.forall_append.mpr ⟨win5_fresh,
    List.forall_append.mpr ⟨win6_fresh, List.forall_append.mpr ⟨win7_fresh, win8_fresh⟩⟩⟩⟩⟩⟩⟩⟩

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-! ## The run -/

/-- On every device, from any memory with zero counters: every weakly fair execution of @main terminates with each
    TensorCore buffer at the fold of the 484 operations' results over the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) := by
  have h := run_seq scopedRefs_eq scopedSems_eq (defs (F := F)) (main (F := F)) (fun _ => wins (F := F)) main_eq
    (fun _ => wins_sub) m ρ (fun _ op hop => List.forall_iff_forall_mem.mp wins_fresh op hop)
  rw [wins_eq] at h
  exact h

end Cert.ReferenceIdeal.RefValue

end
-- ==== Proof.RefValue.lean ====
/-
  What the reference's run leaves in memory: its result buffer holds `Spec.refOut` of what the ten argument buffers held
  at launch, and the argument buffers are unchanged.

  The 484 operations are read run by run (RefBlocks), never as one term. Going backwards from the result buffer: an
  operation between two difference fields leaves in its own buffer its function of its operands' contents and leaves
  every other buffer alone; a difference-field run leaves in its result buffer the named difference of what its input
  buffer held, and leaves alone every buffer it does not write. Every buffer is written once, so each read travels down
  to the run that wrote it, or to the launch contents if none did. What is left is the reference's combination of the
  named difference fields of the arguments, which is `Spec.refOut` with its definitions opened down to those fields.
-/
import proofs.«120775_j9655086481804_1_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo Cert.RefLib

variable {F : FTy → Type} [FloatOps F]

/-- Reads one buffer off the fold over `ops`: the runs one after the other; the operations between difference fields one
    by one; each difference-field run by its value lemma at its result buffer and by its frame lemma elsewhere. -/
macro "read_ops" : tactic =>
  `(tactic| (unfold ops
             simp (disch := decide) only [Cert.RefLib.after_append, after_cons, after_nil,
               glue8, glue10, glue13, glue15, glue18, glue20, glue22, glue24, glue26, glue29, glue32, glue35, glue38,
               glue41, glue44, glue47, glue49,
               blk0_val, blk1_val, blk2_val, blk3_val, blk4_val, blk5_val, blk6_val, blk7_val, blk9_val, blk11_val,
               blk12_val, blk14_val, blk16_val, blk17_val, blk19_val, blk21_val, blk23_val, blk25_val, blk27_val,
               blk28_val, blk30_val, blk31_val, blk33_val, blk34_val, blk36_val, blk37_val, blk39_val, blk40_val,
               blk42_val, blk43_val, blk45_val, blk46_val, blk48_val,
               blk0_frame, blk1_frame, blk2_frame, blk3_frame, blk4_frame, blk5_frame, blk6_frame, blk7_frame,
               blk9_frame, blk11_frame, blk12_frame, blk14_frame, blk16_frame, blk17_frame, blk19_frame, blk21_frame,
               blk23_frame, blk25_frame, blk27_frame, blk28_frame, blk30_frame, blk31_frame, blk33_frame,
               blk34_frame, blk36_frame, blk37_frame, blk39_frame, blk40_frame, blk42_frame, blk43_frame,
               blk45_frame, blk46_frame, blk48_frame,
               nullary_result', unary_result', binary_result', ternary_result',
               nullary_result_ne', unary_result_ne', binary_result_ne', ternary_result_ne']))

/-! ## The result buffer -/

set_option maxRecDepth 8192 in
set_option maxHeartbeats 8000000 in
/-- After the 484 operations the result buffer holds the reference's whole-array function of the arguments' contents. -/
theorem out_eq (L : Valuation τ sig (Elt F)) :
    after (ops (F := F)) L (Proc.devRef .tc main_v432)
      = Cert.KernelIdeal.Spec.refOut (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) := by
  read_ops
  rfl

/-! ## The argument buffers: no operation writes one -/

theorem arg0_eq (L : Valuation τ sig (Elt F)) :
    after (ops (F := F)) L (Proc.devRef .tc main_arg0) = L (Proc.devRef .tc main_arg0) := by
  read_ops
theorem arg1_eq (L : Valuation τ sig (Elt F)) :
    after (ops (F := F)) L (Proc.devRef .tc main_arg1) = L (Proc.devRef .tc main_arg1) := by
  read_ops
theorem arg2_eq (L : Valuation τ sig (Elt F)) :
    after (ops (F := F)) L (Proc.devRef .tc main_arg2) = L (Proc.devRef .tc main_arg2) := by
  read_ops
theorem arg3_eq (L : Valuation τ sig (Elt F)) :
    after (ops (F := F)) L (Proc.devRef .tc main_arg3) = L (Proc.devRef .tc main_arg3) := by
  read_ops
theorem arg4_eq (L : Valuation τ sig (Elt F)) :
    after (ops (F := F)) L (Proc.devRef .tc main_arg4) = L (Proc.devRef .tc main_arg4) := by
  read_ops
theorem arg5_eq (L : Valuation τ sig (Elt F)) :
    after (ops (F := F)) L (Proc.devRef .tc main_arg5) = L (Proc.devRef .tc main_arg5) := by
  read_ops
theorem arg6_eq (L : Valuation τ sig (Elt F)) :
    after (ops (F := F)) L (Proc.devRef .tc main_arg6) = L (Proc.devRef .tc main_arg6) := by
  read_ops
theorem arg7_eq (L : Valuation τ sig (Elt F)) :
    after (ops (F := F)) L (Proc.devRef .tc main_arg7) = L (Proc.devRef .tc main_arg7) := by
  read_ops
theorem arg8_eq (L : Valuation τ sig (Elt F)) :
    after (ops (F := F)) L (Proc.devRef .tc main_arg8) = L (Proc.devRef .tc main_arg8) := by
  read_ops
theorem arg9_eq (L : Valuation τ sig (Elt F)) :
    after (ops (F := F)) L (Proc.devRef .tc main_arg9) = L (Proc.devRef .tc main_arg9) := by
  read_ops

/-! ## The run -/

/-- On every device, from any memory with zero counters: every weakly fair execution of the reference's @main terminates
    with its result buffer at `Spec.refOut` of the launch contents of its ten arguments, and the arguments unchanged. -/
theorem ref_run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v432)
          = Cert.KernelIdeal.Spec.refOut (F := F) (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
              (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := F)) _ _).mono (fun _ h c =>
    ⟨(h c main_v432).trans (out_eq (launchContents m c)),
     (h c main_arg0).trans (arg0_eq (launchContents m c)),
     (h c main_arg1).trans (arg1_eq (launchContents m c)),
     (h c main_arg2).trans (arg2_eq (launchContents m c)),
     (h c main_arg3).trans (arg3_eq (launchContents m c)),
     (h c main_arg4).trans (arg4_eq (launchContents m c)),
     (h c main_arg5).trans (arg5_eq (launchContents m c)),
     (h c main_arg6).trans (arg6_eq (launchContents m c)),
     (h c main_arg7).trans (arg7_eq (launchContents m c)),
     (h c main_arg8).trans (arg8_eq (launchContents m c)),
     (h c main_arg9).trans (arg9_eq (launchContents m c))⟩)
    (run_after m ρ)

end Cert.ReferenceIdeal.RefValue

end
-- ==== Proof.lean ====
/-
  Equivalence, on the extended reals, of a finite-difference advection-diffusion update computed two ways.

  Ten fields over a 2 x 160 x 160 x 160 grid (a concentration C, a velocity V, the six entries of a symmetric diffusion
  tensor D) give
      diffusion = (div-like sums of D's rows) . (central gradient of C) + D : (second differences of C)
      advection = V . (upwind first differences of C)
      result    = diffusion - advection - C * (central divergence of V),
  every difference one-sided at the ends of its axis. The reference computes all of it with host operations. The kernel
  computes the 26 finite-difference fields with the same host operations, lays each out as a 320 x 25600 matrix, combines
  them point by point in one pallas_call over 100 column blocks of width 256, and lays the result back out on the grid.

  The proof: both programs run to the end and leave their inputs as launched (the three frames; the kernel's host
  operations write only their own result buffers and the call stages reshaped copies, never an input); the kernel's
  idealization rewrote nothing (the fourth conjunct is trivial); and the two results are one function of the inputs:
  each finite-difference field is literally the same composition of whole-array operations in both programs, a reshape
  there and back is the identity, a point-by-point combination of blocks assembles to the combination of the arrays,
  and the one difference in spelling, the kernel's 0 - a for the reference's -a, is no difference on the extended
  reals. No input need be finite for any of it.
-/
import proofs.«120775_j9655086481804_1_alg».proof.Defs
import proofs.«120775_j9655086481804_1_alg».proof.Proof.Gen.Kernel
import proofs.«120775_j9655086481804_1_alg».proof.Proof.Gen.KernelIdeal
import proofs.«120775_j9655086481804_1_alg».proof.Proof.Gen.ReferenceIdeal
import proofs.«120775_j9655086481804_1_alg».proof.Proof.Gen.Pre_finite_inputs
import proofs.«120775_j9655086481804_1_alg».proof.Proof.BitsFrame
import proofs.«120775_j9655086481804_1_alg».proof.Proof.BitsArgs
import proofs.«120775_j9655086481804_1_alg».proof.Proof.IdealFrame
import proofs.«120775_j9655086481804_1_alg».proof.Proof.IdealArgs
import proofs.«120775_j9655086481804_1_alg».proof.Proof.IdealValue
import proofs.«120775_j9655086481804_1_alg».proof.Proof.IdealResult
import proofs.«120775_j9655086481804_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its inputs as launched. -/
theorem frame_kernel : Cert.frame_Kernel := fun m ρ _ =>
  Cert.Kernel.Fr.frame_of m ρ (Cert.Kernel.Fr.dats m) (Cert.Kernel.Fr.run_main m ρ)

/-- So does its idealization. -/
theorem frame_kernelIdeal : Cert.frame_KernelIdeal := fun m ρ _ =>
  Cert.KernelIdeal.Fr.frame_of m ρ (Cert.KernelIdeal.Fr.dats m) (Cert.KernelIdeal.Fr.run_main m ρ)

/-- And the reference: its run with the result forgotten. -/
theorem frame_reference : Cert.frame_ReferenceIdeal := fun m ρ _ =>
  (θ_run Cert.ReferenceIdeal.defs _ _).mono (fun _ h c => (h c).2) (Cert.ReferenceIdeal.RefValue.ref_run (F := Ideal) m ρ)

/-- The idealization rewrote no operation. -/
theorem preserves : Cert.preserves_Kernel_KernelIdeal := trivial

/-- From memories agreeing on the inputs both idealized programs end with the reference's result function of them. -/
theorem algebraic : Cert.algebraic_KernelIdeal_ReferenceIdeal := by
  intro m ρ m' ρ' _ hagree
  refine ⟨fun c => Cert.KernelIdeal.Spec.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Fr.result_eq m c), (h c).2⟩)
      (Cert.KernelIdeal.Fr.value_run m ρ)
  · refine (θ_run Cert.ReferenceIdeal.defs _ _).mono (fun _ h c => ⟨?_, (h c).2⟩)
      (Cert.ReferenceIdeal.RefValue.ref_run (F := Ideal) m' ρ')
    rw [(h c).1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
